-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v54)) (v2 : (c : Dev Cert.KernelIdeal.nD) → Buf (Elt Ideal) ((c.tc : Thread Cert.KernelIdeal.nD Cert.KernelIdeal.τ).loc Cert.KernelIdeal.main_v51)) (v3 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_v51) = v2 c
          ∧ r.2.mem ((c.tc : Thread Cert.KernelIdeal.nD Cert.KernelIdeal.τ).loc Cert.KernelIdeal.main_v57) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S130510 : Shape := ⟨1, ![130510]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S130510 : S_.BroadcastsInDim S130510 (![] : Fin 0 → Fin S130510.rank)
  reducesTo_S130510_S_d0 : S130510.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x512 .f32) (main_arg1 : FVec F S130510 .f32) (main_arg2 : IVec S130510 32) (main_arg3 : IVec S130510 32) (main_arg4 : FVec F S4096 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S130510 .f32 := Host.absf main_arg1
  let main_cst_0 : FVec F S_ .f32 := constant S_ .f32 0x7F800000#32
  let main_v5 : FVec F S130510 .f32 := broadcastInDim S130510 ![] bcast_S_S130510 main_cst_0
  let main_v6 : IVec S130510 1 := cmpf .olt main_v4 main_v5
  let main_c_1 : IVec S_ 1 := constantI S_ 1 1#1
  let main_v7 : IVec S_ 1 := (fun x v => Host.reduce IntOp.andi x v reducesTo_S130510_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x512 : Shape := ⟨2, ![4096, 512]⟩
abbrev S130510 : Shape := ⟨1, ![130510]⟩
abbrev S4096 : Shape := ⟨1, ![4096]⟩
abbrev S_ : Shape := ⟨0, ![]⟩
abbrev S130510x1 : Shape := ⟨2, ![130510, 1]⟩
abbrev S4096x4096 : Shape := ⟨2, ![4096, 4096]⟩
abbrev S130510x2 : Shape := ⟨2, ![130510, 2]⟩
abbrev S1x1 : Shape := ⟨2, ![1, 1]⟩
abbrev S1024x512 : Shape := ⟨2, ![1024, 512]⟩
abbrev S1024x1024 : Shape := ⟨2, ![1024, 1024]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩
abbrev S4096x1 : Shape := ⟨2, ![4096, 1]⟩
abbrev S1024x1 : Shape := ⟨2, ![1024, 1]⟩
abbrev S1x1024x1024 : Shape := ⟨3, ![1, 1024, 1024]⟩

abbrev nBuf : Space → Nat
  | .hbm => 83
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S130510, .f32⟩
  | .hbm, ⟨2, _⟩ => ⟨S130510, .i32⟩
  | .hbm, ⟨3, _⟩ => ⟨S130510, .i32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S_, .i32⟩
  | .hbm, ⟨8, _⟩ => ⟨S130510, .i32⟩
  | .hbm, ⟨9, _⟩ => ⟨S130510, .i1⟩
  | .hbm, ⟨10, _⟩ => ⟨S_, .i32⟩
  | .hbm, ⟨11, _⟩ => ⟨S130510, .i32⟩
  | .hbm, ⟨12, _⟩ => ⟨S130510, .i32⟩
  | .hbm, ⟨13, _⟩ => ⟨S130510, .i32⟩
  | .hbm, ⟨14, _⟩ => ⟨S130510x1, .i32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .i32⟩
  | .hbm, ⟨20, _⟩ => ⟨S130510, .i32⟩
  | .hbm, ⟨21, _⟩ => ⟨S130510, .i1⟩
  | .hbm, ⟨22, _⟩ => ⟨S_, .i32⟩
  | .hbm, ⟨23, _⟩ => ⟨S130510, .i32⟩
  | .hbm, ⟨24, _⟩ => ⟨S130510, .i32⟩
  | .hbm, ⟨25, _⟩ => ⟨S130510, .i32⟩
  | .hbm, ⟨26, _⟩ => ⟨S130510x1, .i32⟩
  | .hbm, ⟨27, _⟩ => ⟨S130510, .f32⟩
  | .hbm, ⟨28, _⟩ => ⟨S130510, .f32⟩
  | .hbm, ⟨29, _⟩ => ⟨S_, .f32⟩
  | .hbm, ⟨30, _⟩ => ⟨S4096x4096, .f32⟩
  | .hbm, ⟨31, _⟩ => ⟨S_, .i32⟩
  | .hbm, ⟨32, _⟩ => ⟨S130510, .i32⟩
  | .hbm, ⟨33, _⟩ => ⟨S130510, .i1⟩
  | .hbm, ⟨34, _⟩ => ⟨S_, .i32⟩
  | .hbm, ⟨35, _⟩ => ⟨S130510, .i32⟩
  | .hbm, ⟨36, _⟩ => ⟨S130510, .i32⟩
  | .hbm, ⟨37, _⟩ => ⟨S130510, .i32⟩
  | .hbm, ⟨38, _⟩ => ⟨S_, .i32⟩
  | .hbm, ⟨39, _⟩ => ⟨S130510, .i32⟩
  | .hbm, ⟨40, _⟩ => ⟨S130510, .i1⟩
  | .hbm, ⟨41, _⟩ => ⟨S_, .i32⟩
  | .hbm, ⟨42, _⟩ => ⟨S130510, .i32⟩
  | .hbm, ⟨43, _⟩ => ⟨S130510, .i32⟩
  | .hbm, ⟨44, _⟩ => ⟨S130510, .i32⟩
  | .hbm, ⟨45, _⟩ => ⟨S130510x1, .i32⟩
  | .hbm, ⟨46, _⟩ => ⟨S130510x1, .i32⟩
  | .hbm, ⟨47, _⟩ => ⟨S130510x2, .i32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S_, .i32⟩
  | .hbm, ⟨52, _⟩ => ⟨S130510, .i32⟩
  | .hbm, ⟨53, _⟩ => ⟨S130510, .i1⟩
  | .hbm, ⟨54, _⟩ => ⟨S_, .i32⟩
  | .hbm, ⟨55, _⟩ => ⟨S130510, .i32⟩
  | .hbm, ⟨56, _⟩ => ⟨S130510, .i32⟩
  | .hbm, ⟨57, _⟩ => ⟨S130510, .i32⟩
  | .hbm, ⟨58, _⟩ => ⟨S_, .i32⟩
  | .hbm, ⟨59, _⟩ => ⟨S130510, .i32⟩
  | .hbm, ⟨60, _⟩ => ⟨S130510, .i1⟩
  | .hbm, ⟨61, _⟩ => ⟨S_, .i32⟩
  | .hbm, ⟨62, _⟩ => ⟨S130510, .i32⟩
  | .hbm, ⟨63, _⟩ => ⟨S130510, .i32⟩
  | .hbm, ⟨64, _⟩ => ⟨S130510, .i32⟩
  | .hbm, ⟨65, _⟩ => ⟨S130510x1, .i32⟩
  | .hbm, ⟨66, _⟩ => ⟨S130510x1, .i32⟩
  | .hbm, ⟨67, _⟩ => ⟨S130510x2, .i32⟩
  | .hbm, ⟨68, _⟩ => ⟨S_, .f32⟩
  | .hbm, ⟨69, _⟩ => ⟨S130510, .f32⟩
  | .hbm, ⟨70, _⟩ => ⟨S4096x4096, .f32⟩
  | .hbm, ⟨71, _⟩ => ⟨S130510, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S1x1, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4096x1, .f32⟩
  | .hbm, ⟨81, _⟩ => ⟨S1x1, .f32⟩
  | .hbm, ⟨82, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S1024x512, .f32⟩
  | .local _ .vmem, ⟨5, _⟩ => ⟨S1024x512, .f32⟩
  | .local _ .vmem, ⟨6, _⟩ => ⟨S1x1, .f32⟩
  | .local _ .vmem, ⟨7, _⟩ => ⟨S512x1024, .f32⟩
  | .local _ .vmem, ⟨8, _⟩ => ⟨S1x1, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1, .f32⟩
  | .local _ .vmem, ⟨16, _⟩ => ⟨S1024x1, .f32⟩
  | .local _ .vmem, ⟨17, _⟩ => ⟨S1x1, .f32⟩
  | .local _ .vmem, ⟨18, _⟩ => ⟨S1024x1024, .f32⟩
  | .local _ .vmem, ⟨19, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_7 : Ref sig .tc := ⟨.hbm, 38, rfl⟩
abbrev main_v24 : Ref sig .tc := ⟨.hbm, 39, rfl⟩
abbrev main_v25 : Ref sig .tc := ⟨.hbm, 40, rfl⟩
abbrev main_c_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_c_10 : Ref sig .tc := ⟨.hbm, 51, rfl⟩
abbrev main_v34 : Ref sig .tc := ⟨.hbm, 52, rfl⟩
abbrev main_v35 : Ref sig .tc := ⟨.hbm, 53, rfl⟩
abbrev main_c_11 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_12 : Ref sig .tc := ⟨.hbm, 58, rfl⟩
abbrev main_v39 : Ref sig .tc := ⟨.hbm, 59, rfl⟩
abbrev main_v40 : Ref sig .tc := ⟨.hbm, 60, rfl⟩
abbrev main_c_13 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_15 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_17 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15

abbrev nD : Nat := 1
abbrev τ : Topo := Topo.v7x

variable {F : FTy → Type} [FloatOps F]

abbrev grid0 : Pipeline.Grid := ⟨2, ![4, 4], ![false, false]⟩

def k0_cond4 (i : grid0.Coords) : BitVec 1 :=
  let arg0 : BitVec 32 := BitVec.ofNat 32 (i 0).val
  let c3_i32_12 : BitVec 32 := 3#32
  let v20 : BitVec 1 := Scalar.cmpi .eq arg0 c3_i32_12
  let arg1 : BitVec 32 := BitVec.ofNat 32 (i 1).val
  let c3_i32_13 : BitVec 32 := 3#32
  let v21 : BitVec 1 := Scalar.cmpi .eq arg1 c3_i32_13
  let v22 : BitVec 1 := Scalar.andi v20 v21
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := ⟨3, ![4, 4, 4], ![false, false, false]⟩

def k1_cond4 (i : grid1.Coords) : BitVec 1 :=
  let arg0 : BitVec 32 := BitVec.ofNat 32 (i 0).val
  let c3_i32_13 : BitVec 32 := 3#32
  let v23 : BitVec 1 := Scalar.cmpi .eq arg0 c3_i32_13
  let arg1 : BitVec 32 := BitVec.ofNat 32 (i 1).val
  let c3_i32_14 : BitVec 32 := 3#32
  let v24 : BitVec 1 := Scalar.cmpi .eq arg1 c3_i32_14
  let v25 : BitVec 1 := Scalar.andi v23 v24
  let arg2 : BitVec 32 := BitVec.ofNat 32 (i 2).val
  let c3_i32_15 : BitVec 32 := 3#32
  let v26 : BitVec 1 := Scalar.cmpi .eq arg2 c3_i32_15
  let v27 : BitVec 1 := Scalar.andi v25 v26
  let v28 : BitVec 32 := Scalar.extui v27
  let c0_i32_16 : BitVec 32 := 0#32
  let v29 : BitVec 1 := Scalar.cmpi .ne v28 c0_i32_16
  v29

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

class Facts₀ : Prop where
  bcast_S_S4096 : S_.BroadcastsInDim S4096 (![] : Fin 0 → Fin S4096.rank)
  bcast_S_S130510 : S_.BroadcastsInDim S130510 (![] : Fin 0 → Fin S130510.rank)
  bcast_S130510_S130510x1_0 : S130510.BroadcastsInDim S130510x1 (![0] : Fin 1 → Fin S130510x1.rank)
  bcast_S_S4096x4096 : S_.BroadcastsInDim S4096x4096 (![] : Fin 0 → Fin S4096x4096.rank)
  concatenates_S130510x1_S130510x1_S130510x2_d1 : Shape.Concatenates [S130510x1, S130510x1] S130510x2 1
  reducesTo_S130510_S_d0 : S130510.ReducesTo [0] S_
  h_S_ : 0 < S_.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x512_p1_0_S512x1024 : S1024x512.Transposes [1, 0] S512x1024
  shapeCasts_S512x1024_S1x512x1024 : S512x1024.ShapeCasts S1x512x1024
  reduces_S1x512x1024_S1 : S1x512x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  shapeCasts_S4096_S4096x1 : S4096.ShapeCasts S4096x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  shapeCasts_S1024x1024_S1x1024x1024 : S1024x1024.ShapeCasts S1x1024x1024
  reduces_S1x1024x1024_S1 : S1x1024x1024.Reduces [1, 2] S1
  scatter_S4096_S130510x1_S130510_n_0_0_1_wf : ScatterDims.WF S4096 S130510x1 S130510 [] [0] [0] 1
  gather_S4096_S130510x1_S130510_n_0_n_n_0_1_1_wf : GatherDims.WF S4096 S130510x1 S130510 [] [0] [] [0] [] 1 ![1]
  scatter_S4096x4096_S130510x2_S130510_n_01_01_1_wf : ScatterDims.WF S4096x4096 S130510x2 S130510 [] [0, 1] [0, 1] 1
  dot_S1024x512_S1024x1024_S512x1024_0_0_1_1_n_n_wf : DotDims.WF S1024x512 S1024x1024 S512x1024 [0] [0] [1] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x512.size a
  hwx0_2 : ∀ i : grid0.Coords, EltTy.bits .f32 = 32 ∨ (Rect.block (s := S4096x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S4096x1.size a
  hwx1_3 : ∀ i : grid1.Coords, EltTy.bits .f32 = 32 ∨ (Rect.block (s := S4096x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def scatter_S4096_S130510x1_S130510_n_0_0_1 : ScatterDims S4096 S130510x1 S130510 where
  updateWindowDims := []
  insertedWindowDims := [0]
  scatterDimsToOperandDims := [0]
  indexVectorDim := 1
  wf := scatter_S4096_S130510x1_S130510_n_0_0_1_wf
def gather_S4096_S130510x1_S130510_n_0_n_n_0_1_1 : GatherDims S4096 S130510x1 S130510 where
  offsetDims := []
  collapsedSliceDims := [0]
  operandBatchingDims := []
  startIndicesBatchingDims := []
  startIndexMap := [0]
  indexVectorDim := 1
  sliceSizes := ![1]
  wf := gather_S4096_S130510x1_S130510_n_0_n_n_0_1_1_wf
def scatter_S4096x4096_S130510x2_S130510_n_01_01_1 : ScatterDims S4096x4096 S130510x2 S130510 where
  updateWindowDims := []
  insertedWindowDims := [0, 1]
  scatterDimsToOperandDims := [0, 1]
  indexVectorDim := 1
  wf := scatter_S4096x4096_S130510x2_S130510_n_01_01_1_wf
def dot_S1024x512_S1024x1024_S512x1024_0_0_1_1_n_n : DotDims S1024x512 S1024x1024 S512x1024 where
  lhsContracting := [0]
  rhsContracting := [0]
  lhsNonContracting := [1]
  rhsNonContracting := [1]
  lhsBatch := []
  rhsBatch := []
  wf := dot_S1024x512_S1024x1024_S512x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v52) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

abbrev win1_0 : Pipeline.Window sig grid1 :=
  Pipeline.Window.ofSpec (Memref.whole main_v48) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond4 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S130510 : Shape := ⟨1, ![130510]⟩
abbrev S4096 : Shape := ⟨1, ![4096]⟩
abbrev S_ : Shape := ⟨0, ![]⟩
abbrev S130510x1 : Shape := ⟨2, ![130510, 1]⟩
abbrev S4096x4096 : Shape := ⟨2, ![4096, 4096]⟩
abbrev S130510x2 : Shape := ⟨2, ![130510, 2]⟩
abbrev S512x4096 : Shape := ⟨2, ![512, 4096]⟩
abbrev S4096x1 : Shape := ⟨2, ![4096, 1]⟩

abbrev nBuf : Space → Nat
  | .hbm => 94
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S130510, .f32⟩
  | .hbm, ⟨2, _⟩ => ⟨S130510, .i32⟩
  | .hbm, ⟨3, _⟩ => ⟨S130510, .i32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S_, .i32⟩
  | .hbm, ⟨8, _⟩ => ⟨S130510, .i32⟩
  | .hbm, ⟨9, _⟩ => ⟨S130510, .i1⟩
  | .hbm, ⟨10, _⟩ => ⟨S_, .i32⟩
  | .hbm, ⟨11, _⟩ => ⟨S130510, .i32⟩
  | .hbm, ⟨12, _⟩ => ⟨S130510, .i32⟩
  | .hbm, ⟨13, _⟩ => ⟨S130510, .i32⟩
  | .hbm, ⟨14, _⟩ => ⟨S130510x1, .i32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .i32⟩
  | .hbm, ⟨20, _⟩ => ⟨S130510, .i32⟩
  | .hbm, ⟨21, _⟩ => ⟨S130510, .i1⟩
  | .hbm, ⟨22, _⟩ => ⟨S_, .i32⟩
  | .hbm, ⟨23, _⟩ => ⟨S130510, .i32⟩
  | .hbm, ⟨24, _⟩ => ⟨S130510, .i32⟩
  | .hbm, ⟨25, _⟩ => ⟨S130510, .i32⟩
  | .hbm, ⟨26, _⟩ => ⟨S130510x1, .i32⟩
  | .hbm, ⟨27, _⟩ => ⟨S130510, .f32⟩
  | .hbm, ⟨28, _⟩ => ⟨S130510, .f32⟩
  | .hbm, ⟨29, _⟩ => ⟨S_, .f32⟩
  | .hbm, ⟨30, _⟩ => ⟨S4096x4096, .f32⟩
  | .hbm, ⟨31, _⟩ => ⟨S_, .i32⟩
  | .hbm, ⟨32, _⟩ => ⟨S130510, .i32⟩
  | .hbm, ⟨33, _⟩ => ⟨S130510, .i1⟩
  | .hbm, ⟨34, _⟩ => ⟨S_, .i32⟩
  | .hbm, ⟨35, _⟩ => ⟨S130510, .i32⟩
  | .hbm, ⟨36, _⟩ => ⟨S130510, .i32⟩
  | .hbm, ⟨37, _⟩ => ⟨S130510, .i32⟩
  | .hbm, ⟨38, _⟩ => ⟨S_, .i32⟩
  | .hbm, ⟨39, _⟩ => ⟨S130510, .i32⟩
  | .hbm, ⟨40, _⟩ => ⟨S130510, .i1⟩
  | .hbm, ⟨41, _⟩ => ⟨S_, .i32⟩
  | .hbm, ⟨42, _⟩ => ⟨S130510, .i32⟩
  | .hbm, ⟨43, _⟩ => ⟨S130510, .i32⟩
  | .hbm, ⟨44, _⟩ => ⟨S130510, .i32⟩
  | .hbm, ⟨45, _⟩ => ⟨S130510x1, .i32⟩
  | .hbm, ⟨46, _⟩ => ⟨S130510x1, .i32⟩
  | .hbm, ⟨47, _⟩ => ⟨S130510x2, .i32⟩
  | .hbm, ⟨48, _⟩ => ⟨S4096x4096, .f32⟩
  | .hbm, ⟨49, _⟩ => ⟨S512x4096, .f32⟩
  | .hbm, ⟨50, _⟩ => ⟨S512x4096, .f32⟩
  | .hbm, ⟨51, _⟩ => ⟨S512x4096, .f32⟩
  | .hbm, ⟨52, _⟩ => ⟨S512x4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S130510, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S4096x4096, .f32⟩
  | .hbm, ⟨64, _⟩ => ⟨S_, .i32⟩
  | .hbm, ⟨65, _⟩ => ⟨S130510, .i32⟩
  | .hbm, ⟨66, _⟩ => ⟨S130510, .i1⟩
  | .hbm, ⟨67, _⟩ => ⟨S_, .i32⟩
  | .hbm, ⟨68, _⟩ => ⟨S130510, .i32⟩
  | .hbm, ⟨69, _⟩ => ⟨S130510, .i32⟩
  | .hbm, ⟨70, _⟩ => ⟨S130510, .i32⟩
  | .hbm, ⟨71, _⟩ => ⟨S_, .i32⟩
  | .hbm, ⟨72, _⟩ => ⟨S130510, .i32⟩
  | .hbm, ⟨73, _⟩ => ⟨S130510, .i1⟩
  | .hbm, ⟨74, _⟩ => ⟨S_, .i32⟩
  | .hbm, ⟨75, _⟩ => ⟨S130510, .i32⟩
  | .hbm, ⟨76, _⟩ => ⟨S130510, .i32⟩
  | .hbm, ⟨77, _⟩ => ⟨S130510, .i32⟩
  | .hbm, ⟨78, _⟩ => ⟨S130510x1, .i32⟩
  | .hbm, ⟨79, _⟩ => ⟨S130510x1, .i32⟩
  | .hbm, ⟨80, _⟩ => ⟨S130510x2, .i32⟩
  | .hbm, ⟨81, _⟩ => ⟨S_, .f32⟩
  | .hbm, ⟨82, _⟩ => ⟨S130510, .f32⟩
  | .hbm, ⟨83, _⟩ => ⟨S4096x4096, .f32⟩
  | .hbm, ⟨84, _⟩ => ⟨S4096x1, .f32⟩
  | .hbm, ⟨85, _⟩ => ⟨S4096x4096, .f32⟩
  | .hbm, ⟨86, _⟩ => ⟨S4096x4096, .f32⟩
  | .hbm, ⟨87, _⟩ => ⟨S4096x4096, .f32⟩
  | .hbm, ⟨88, _⟩ => ⟨S4096x4096, .f32⟩
  | .hbm, ⟨89, _⟩ => ⟨S4096x4096, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_7 : Ref sig .tc := ⟨.hbm, 38, rfl⟩
abbrev main_v24 : Ref sig .tc := ⟨.hbm, 39, rfl⟩
abbrev main_v25 : Ref sig .tc := ⟨.hbm, 40, rfl⟩
abbrev main_c_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_cst_13 : Ref sig .tc := ⟨.hbm, 62, rfl⟩
abbrev main_v42 : Ref sig .tc := ⟨.hbm, 63, rfl⟩
abbrev main_c_14 : Ref sig .tc := ⟨.hbm, 64, rfl⟩
abbrev main_v43 : Ref sig .tc := ⟨.hbm, 65, rfl⟩
abbrev main_v44 : Ref sig .tc := ⟨.hbm, 66, rfl⟩
abbrev main_c_15 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_16 : Ref sig .tc := ⟨.hbm, 71, rfl⟩
abbrev main_v48 : Ref sig .tc := ⟨.hbm, 72, rfl⟩
abbrev main_v49 : Ref sig .tc := ⟨.hbm, 73, rfl⟩
abbrev main_c_17 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_18 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_19 : Ref sig .tc := ⟨.hbm, 90, rfl⟩
abbrev main_v64 : Ref sig .tc := ⟨.hbm, 91, rfl⟩
abbrev main_cst_20 : Ref sig .tc := ⟨.hbm, 92, rfl⟩
abbrev main_v65 : Ref sig .tc := ⟨.hbm, 93, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S_S130510 : S_.BroadcastsInDim S130510 (![] : Fin 0 → Fin S130510.rank)
  bcast_S130510_S130510x1_0 : S130510.BroadcastsInDim S130510x1 (![0] : Fin 1 → Fin S130510x1.rank)
  bcast_S_S4096x4096 : S_.BroadcastsInDim S4096x4096 (![] : Fin 0 → Fin S4096x4096.rank)
  concatenates_S130510x1_S130510x1_S130510x2_d1 : Shape.Concatenates [S130510x1, S130510x1] S130510x2 1
  transposes_S4096x512_S512x4096_1_0 : S4096x512.Transposes [1, 0] S512x4096
  reducesTo_S512x4096_S_d0_1 : S512x4096.ReducesTo [0, 1] S_
  h_S_ : 0 < S_.numel
  reducesTo_S130510_S_d0 : S130510.ReducesTo [0] S_
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  reducesTo_S4096x4096_S_d0_1 : S4096x4096.ReducesTo [0, 1] S_
  scatter_S4096_S130510x1_S130510_n_0_0_1_wf : ScatterDims.WF S4096 S130510x1 S130510 [] [0] [0] 1
  gather_S4096_S130510x1_S130510_n_0_n_n_0_1_1_wf : GatherDims.WF S4096 S130510x1 S130510 [] [0] [] [0] [] 1 ![1]
  scatter_S4096x4096_S130510x2_S130510_n_01_01_1_wf : ScatterDims.WF S4096x4096 S130510x2 S130510 [] [0, 1] [0, 1] 1
  dot_S512x4096_S4096x4096_S512x4096_1_0_0_1_n_n_wf : DotDims.WF S512x4096 S4096x4096 S512x4096 [1] [0] [0] [1] [] []
  dot_S4096x4096_S4096x4096_S4096x4096_1_0_0_1_n_n_wf : DotDims.WF S4096x4096 S4096x4096 S4096x4096 [1] [0] [0] [1] [] []

variable [Facts₀]

def scatter_S4096_S130510x1_S130510_n_0_0_1 : ScatterDims S4096 S130510x1 S130510 where
  updateWindowDims := []
  insertedWindowDims := [0]
  scatterDimsToOperandDims := [0]
  indexVectorDim := 1
  wf := scatter_S4096_S130510x1_S130510_n_0_0_1_wf
def gather_S4096_S130510x1_S130510_n_0_n_n_0_1_1 : GatherDims S4096 S130510x1 S130510 where
  offsetDims := []
  collapsedSliceDims := [0]
  operandBatchingDims := []
  startIndicesBatchingDims := []
  startIndexMap := [0]
  indexVectorDim := 1
  sliceSizes := ![1]
  wf := gather_S4096_S130510x1_S130510_n_0_n_n_0_1_1_wf
def scatter_S4096x4096_S130510x2_S130510_n_01_01_1 : ScatterDims S4096x4096 S130510x2 S130510 where
  updateWindowDims := []
  insertedWindowDims := [0, 1]
  scatterDimsToOperandDims := [0, 1]
  indexVectorDim := 1
  wf := scatter_S4096x4096_S130510x2_S130510_n_01_01_1_wf
def dot_S512x4096_S4096x4096_S512x4096_1_0_0_1_n_n : DotDims S512x4096 S4096x4096 S512x4096 where
  lhsContracting := [1]
  rhsContracting := [0]
  lhsNonContracting := [0]
  rhsNonContracting := [1]
  lhsBatch := []
  rhsBatch := []
  wf := dot_S512x4096_S4096x4096_S512x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Shares.lean ====
/-
  One array read through two input windows.

  Both kernels hand one array to two of their input windows (the feature matrix to the first kernel's windows 0 and
  2, the weight matrix to the second kernel's windows 1 and 2).  A region cannot then hold every window's array at
  the full share: at the region's entry the buffer behind the shared array is split into its left and right halves,
  one per window; both halves read the same contents throughout (an input array is never written), and at the exit
  the halves are joined again.  This module states, for each kernel, what the windows' arrays are as separate
  holdings (`arrays0_eq`, `arrays1_eq`), how the core's unscoped buffers at the entry contents make them
  (`entry0`, `entry1`) and how, with the output array at what the write-backs left, they make the core's unscoped
  buffers again (`exit0`, `exit1`).
-/
import proofs.«169932_j86088324481669_1_alg».proof.Proof.Gen.KernelIdeal.Launch
import proofs.«169932_j86088324481669_1_alg».proof.Proof.Gen.KernelIdeal.Skeleton
import proofs.«169932_j86088324481669_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A buffer held whole is its two halves, each at the same contents. -/
theorem halves (ℓ : Loc nD τ sig) (f : Buf (Elt F) ℓ) :
    ((ℓ ↦{fullShare} f) : sProp 𝕄) ⊣⊢ iprop((ℓ ↦{fullShare.left} f) ∗ (ℓ ↦{fullShare.right} f)) :=
  pointsTo_share (PosShare.mem_left_op_right fullShare)

/-- The windows' arrays of any pipeline whose arrays are whole buffers: each window holds the buffer behind its array
    at the window's share. -/
theorem arrays_shares {cfg : Cfg sig Λ₀} {c : Dev nD} (dat : Dat τ (Elt F) Unit ℕ (UR sig nD τ) ℕ cfg c)
    (harr : ∀ w, (cfg.spec w).arr.IsWhole)
    (G : (w : Fin cfg.W) → Buf (Elt F) ((cfg.win w).arr.view.loc (c : Thread nD τ))) :
    (dat.arrays G : sProp 𝕄)
      = bigSep Finset.univ fun w => (((c : Thread nD τ).loc (Pipeline.arrRef cfg.spec w)) ↦{dat.share w} G w : sProp 𝕄) := by
  unfold Dat.arrays
  exact bigSep_congr fun w _ => by rw [(harr w).set_eq_univ]

variable {c : Dev nD}

/-! ## The first kernel: windows 0 and 2 on the feature matrix -/

set_option maxHeartbeats 4000000 in
theorem arrays0_eq (dat : Dat τ (Elt F) Unit ℕ (UR sig nD τ) ℕ cfg0 c)
    (hq0 : dat.q 0 = fullShare.left) (hq1 : dat.q 1 = fullShare) (hq2 : dat.q 2 = fullShare.right)
    (G : (w : Fin cfg0.W) → Buf (Elt F) ((cfg0.win w).arr.view.loc (c : Thread nD τ))) :
    (dat.arrays G : sProp 𝕄)
      = iprop((((c : Thread nD τ).loc main_arg0) ↦{fullShare.left} G 0) ∗ (((c : Thread nD τ).loc main_v32) ↦{fullShare} G 1)
          ∗ (((c : Thread nD τ).loc main_arg0) ↦{fullShare.right} G 2) ∗ (((c : Thread nD τ).loc main_v52) ↦{fullShare} G 3)) := by
  rw [arrays_shares dat arr_whole0 G, bigSep_W0]
  have s0 : dat.share 0 = fullShare.left := hq0
  have s1 : dat.share 1 = fullShare := hq1
  have s2 : dat.share 2 = fullShare.right := hq2
  have s3 : dat.share 3 = fullShare := rfl
  rw [s0, s1, s2, s3]

set_option maxHeartbeats 4000000 in
/-- At the first region's entry the core's unscoped buffers at `V` make the windows' arrays at the proof data's
    entry contents — the feature matrix split into its halves — and the unscoped buffers no window reads. -/
theorem entry0 (dat : Dat τ (Elt F) Unit ℕ (UR sig nD τ) ℕ cfg0 c)
    (hq0 : dat.q 0 = fullShare.left) (hq1 : dat.q 1 = fullShare) (hq2 : dat.q 2 = fullShare.right)
    (V : (b : Ref sig .tc) → Buf (Elt F) ((c : Thread nD τ).loc b)) (hA : ∀ w, dat.A w = V (Pipeline.arrRef spec0 w)) :
    (unscopedBufs (Ix := Unit) (Name := ℕ) (U := UR sig nD τ) (Lvl := ℕ) c V : sProp 𝕄)
      ⊢ iprop(dat.arrays (dat.arrAt · 0) ∗ Pipeline.unscopedRest (Ix := Unit) (Name := ℕ) (U := UR sig nD τ) (Lvl := ℕ) spec0 c V) := by
  rw [Pipeline.unscopedBufs_split₀ cfgs 0 winFacts₀0.arr_unscoped c V, arrays0_eq dat hq0 hq1 hq2]
  refine sep_mono ?_ .rfl
  unfold Pipeline.arrBufs
  rw [show Finset.univ.image (Pipeline.arrRef (cfgs 0).spec) = {main_arg0, main_v32, main_v52} from by decide,
    bigSep_insert (by decide), bigSep_insert (by decide), bigSep_singleton]
  have e0 : dat.arrAt 0 0 = V main_arg0 := hA 0
  have e1 : dat.arrAt 1 0 = V main_v32 := hA 1
  have e2 : dat.arrAt 2 0 = V main_arg0 := hA 2
  have e3 : dat.arrAt 3 0 = V main_v52 := hA 3
  show iprop((((c : Thread nD τ).loc main_arg0) ↦{fullShare} V main_arg0) ∗ (((c : Thread nD τ).loc main_v32) ↦{fullShare} V main_v32)
      ∗ (((c : Thread nD τ).loc main_v52) ↦{fullShare} V main_v52))
    ⊢ iprop((_ ↦{fullShare.left} dat.arrAt 0 0) ∗ (_ ↦{fullShare} dat.arrAt 1 0) ∗ (_ ↦{fullShare.right} dat.arrAt 2 0)
      ∗ (_ ↦{fullShare} dat.arrAt 3 0))
  rw [e0, e1, e2, e3]
  have hh := (halves (F := F) ((c : Thread nD τ).loc main_arg0) (V main_arg0)).1
  iintro ⟨Ha, Hc, Ho⟩
  ihave Hs := hh $$ Ha
  icases Hs with ⟨Hl, Hr⟩
  isplitl [Hl]; · iexact Hl
  isplitl [Hc]; · iexact Hc
  isplitl [Hr]; · iexact Hr
  iexact Ho

set_option maxHeartbeats 4000000 in
/-- At the first region's exit the windows' arrays — the inputs as entered, the output at what the write-backs left —
    and the bypassing buffers make the core's unscoped buffers at any contents `V'` that agree. -/
theorem exit0 (dat : Dat τ (Elt F) Unit ℕ (UR sig nD τ) ℕ cfg0 c)
    (hq0 : dat.q 0 = fullShare.left) (hq1 : dat.q 1 = fullShare) (hq2 : dat.q 2 = fullShare.right)
    (V V' : (b : Ref sig .tc) → Buf (Elt F) ((c : Thread nD τ).loc b))
    (h0 : dat.arrAt 0 cfg0.N = V' main_arg0) (h1 : dat.arrAt 1 cfg0.N = V' main_v32)
    (h2 : dat.arrAt 2 cfg0.N = V' main_arg0) (h3 : dat.arrAt 3 cfg0.N = V' main_v52)
    (hrest : ∀ b, b ∉ Finset.univ.image (Pipeline.arrRef spec0) → V' b = V b) :
    iprop(dat.arrays (dat.arrAt · cfg0.N) ∗ Pipeline.unscopedRest (Ix := Unit) (Name := ℕ) (U := UR sig nD τ) (Lvl := ℕ) spec0 c V)
      ⊢ (unscopedBufs (Ix := Unit) (Name := ℕ) (U := UR sig nD τ) (Lvl := ℕ) c V' : sProp 𝕄) := by
  rw [Pipeline.unscopedBufs_split₀ cfgs 0 winFacts₀0.arr_unscoped c V', arrays0_eq dat hq0 hq1 hq2]
  refine sep_mono ?_ (Entails.of_eq ?_)
  · unfold Pipeline.arrBufs
    rw [show Finset.univ.image (Pipeline.arrRef (cfgs 0).spec) = {main_arg0, main_v32, main_v52} from by decide,
      bigSep_insert (by decide), bigSep_insert (by decide), bigSep_singleton]
    show iprop((_ ↦{fullShare.left} dat.arrAt 0 cfg0.N) ∗ (_ ↦{fullShare} dat.arrAt 1 cfg0.N) ∗ (_ ↦{fullShare.right} dat.arrAt 2 cfg0.N)
        ∗ (_ ↦{fullShare} dat.arrAt 3 cfg0.N))
      ⊢ iprop((((c : Thread nD τ).loc main_arg0) ↦{fullShare} V' main_arg0) ∗ (((c : Thread nD τ).loc main_v32) ↦{fullShare} V' main_v32)
        ∗ (((c : Thread nD τ).loc main_v52) ↦{fullShare} V' main_v52))
    rw [h0, h1, h2, h3]
    have hh := (halves (F := F) ((c : Thread nD τ).loc main_arg0) (V' main_arg0)).2
    iintro ⟨Hl, Hc, Hr, Ho⟩
    isplitl [Hl Hr]
    · iapply hh
      isplitl [Hl] <;> iassumption
    isplitl [Hc]; · iexact Hc
    iexact Ho
  · unfold Pipeline.unscopedRest
    exact bigSep_congr fun b hb => by rw [hrest b (Finset.mem_sdiff.mp hb).2]

/-! ## The second kernel: windows 1 and 2 on the weight matrix -/

set_option maxHeartbeats 4000000 in
theorem arrays1_eq (dat : Dat τ (Elt F) Unit ℕ (UR sig nD τ) ℕ cfg1 c)
    (hq0 : dat.q 0 = fullShare) (hq1 : dat.q 1 = fullShare.left) (hq2 : dat.q 2 = fullShare.right) (hq3 : dat.q 3 = fullShare)
    (G : (w : Fin cfg1.W) → Buf (Elt F) ((cfg1.win w).arr.view.loc (c : Thread nD τ))) :
    (dat.arrays G : sProp 𝕄)
      = iprop((((c : Thread nD τ).loc main_v48) ↦{fullShare} G 0) ∗ (((c : Thread nD τ).loc main_v32) ↦{fullShare.left} G 1)
          ∗ (((c : Thread nD τ).loc main_v32) ↦{fullShare.right} G 2) ∗ (((c : Thread nD τ).loc main_v55) ↦{fullShare} G 3)
          ∗ (((c : Thread nD τ).loc main_v56) ↦{fullShare} G 4)) := by
  rw [arrays_shares dat arr_whole1 G, bigSep_W1]
  have s0 : dat.share 0 = fullShare := hq0
  have s1 : dat.share 1 = fullShare.left := hq1
  have s2 : dat.share 2 = fullShare.right := hq2
  have s3 : dat.share 3 = fullShare := hq3
  have s4 : dat.share 4 = fullShare := rfl
  rw [s0, s1, s2, s3, s4]

set_option maxHeartbeats 4000000 in
theorem entry1 (dat : Dat τ (Elt F) Unit ℕ (UR sig nD τ) ℕ cfg1 c)
    (hq0 : dat.q 0 = fullShare) (hq1 : dat.q 1 = fullShare.left) (hq2 : dat.q 2 = fullShare.right) (hq3 : dat.q 3 = fullShare)
    (V : (b : Ref sig .tc) → Buf (Elt F) ((c : Thread nD τ).loc b)) (hA : ∀ w, dat.A w = V (Pipeline.arrRef spec1 w)) :
    (unscopedBufs (Ix := Unit) (Name := ℕ) (U := UR sig nD τ) (Lvl := ℕ) c V : sProp 𝕄)
      ⊢ iprop(dat.arrays (dat.arrAt · 0) ∗ Pipeline.unscopedRest (Ix := Unit) (Name := ℕ) (U := UR sig nD τ) (Lvl := ℕ) spec1 c V) := by
  rw [Pipeline.unscopedBufs_split₀ cfgs 1 winFacts₀1.arr_unscoped c V, arrays1_eq dat hq0 hq1 hq2 hq3]
  refine sep_mono ?_ .rfl
  unfold Pipeline.arrBufs
  rw [show Finset.univ.image (Pipeline.arrRef (cfgs 1).spec) = {main_v48, main_v32, main_v55, main_v56} from by decide,
    bigSep_insert (by decide), bigSep_insert (by decide), bigSep_insert (by decide), bigSep_singleton]
  have e0 : dat.arrAt 0 0 = V main_v48 := hA 0
  have e1 : dat.arrAt 1 0 = V main_v32 := hA 1
  have e2 : dat.arrAt 2 0 = V main_v32 := hA 2
  have e3 : dat.arrAt 3 0 = V main_v55 := hA 3
  have e4 : dat.arrAt 4 0 = V main_v56 := hA 4
  show iprop((((c : Thread nD τ).loc main_v48) ↦{fullShare} V main_v48) ∗ (((c : Thread nD τ).loc main_v32) ↦{fullShare} V main_v32)
      ∗ (((c : Thread nD τ).loc main_v55) ↦{fullShare} V main_v55) ∗ (((c : Thread nD τ).loc main_v56) ↦{fullShare} V main_v56))
    ⊢ iprop((_ ↦{fullShare} dat.arrAt 0 0) ∗ (_ ↦{fullShare.left} dat.arrAt 1 0) ∗ (_ ↦{fullShare.right} dat.arrAt 2 0)
      ∗ (_ ↦{fullShare} dat.arrAt 3 0) ∗ (_ ↦{fullShare} dat.arrAt 4 0))
  rw [e0, e1, e2, e3, e4]
  have hh := (halves (F := F) ((c : Thread nD τ).loc main_v32) (V main_v32)).1
  iintro ⟨Ha, Hc, Hd, Ho⟩
  ihave Hs := hh $$ Hc
  icases Hs with ⟨Hl, Hr⟩
  isplitl [Ha]; · iexact Ha
  isplitl [Hl]; · iexact Hl
  isplitl [Hr]; · iexact Hr
  isplitl [Hd]; · iexact Hd
  iexact Ho

set_option maxHeartbeats 4000000 in
theorem exit1 (dat : Dat τ (Elt F) Unit ℕ (UR sig nD τ) ℕ cfg1 c)
    (hq0 : dat.q 0 = fullShare) (hq1 : dat.q 1 = fullShare.left) (hq2 : dat.q 2 = fullShare.right) (hq3 : dat.q 3 = fullShare)
    (V V' : (b : Ref sig .tc) → Buf (Elt F) ((c : Thread nD τ).loc b))
    (h0 : dat.arrAt 0 cfg1.N = V' main_v48) (h1 : dat.arrAt 1 cfg1.N = V' main_v32)
    (h2 : dat.arrAt 2 cfg1.N = V' main_v32) (h3 : dat.arrAt 3 cfg1.N = V' main_v55) (h4 : dat.arrAt 4 cfg1.N = V' main_v56)
    (hrest : ∀ b, b ∉ Finset.univ.image (Pipeline.arrRef spec1) → V' b = V b) :
    iprop(dat.arrays (dat.arrAt · cfg1.N) ∗ Pipeline.unscopedRest (Ix := Unit) (Name := ℕ) (U := UR sig nD τ) (Lvl := ℕ) spec1 c V)
      ⊢ (unscopedBufs (Ix := Unit) (Name := ℕ) (U := UR sig nD τ) (Lvl := ℕ) c V' : sProp 𝕄) := by
  rw [Pipeline.unscopedBufs_split₀ cfgs 1 winFacts₀1.arr_unscoped c V', arrays1_eq dat hq0 hq1 hq2 hq3]
  refine sep_mono ?_ (Entails.of_eq ?_)
  · unfold Pipeline.arrBufs
    rw [show Finset.univ.image (Pipeline.arrRef (cfgs 1).spec) = {main_v48, main_v32, main_v55, main_v56} from by decide,
      bigSep_insert (by decide), bigSep_insert (by decide), bigSep_insert (by decide), bigSep_singleton]
    show iprop((_ ↦{fullShare} dat.arrAt 0 cfg1.N) ∗ (_ ↦{fullShare.left} dat.arrAt 1 cfg1.N) ∗ (_ ↦{fullShare.right} dat.arrAt 2 cfg1.N)
        ∗ (_ ↦{fullShare} dat.arrAt 3 cfg1.N) ∗ (_ ↦{fullShare} dat.arrAt 4 cfg1.N))
      ⊢ iprop((((c : Thread nD τ).loc main_v48) ↦{fullShare} V' main_v48) ∗ (((c : Thread nD τ).loc main_v32) ↦{fullShare} V' main_v32)
        ∗ (((c : Thread nD τ).loc main_v55) ↦{fullShare} V' main_v55) ∗ (((c : Thread nD τ).loc main_v56) ↦{fullShare} V' main_v56))
    rw [h0, h1, h2, h3, h4]
    have hh := (halves (F := F) ((c : Thread nD τ).loc main_v32) (V' main_v32)).2
    iintro ⟨Ha, Hl, Hr, Hd, Ho⟩
    isplitl [Ha]; · iexact Ha
    isplitl [Hl Hr]
    · iapply hh
      isplitl [Hl] <;> iassumption
    isplitl [Hd]; · iexact Hd
    iexact Ho
  · unfold Pipeline.unscopedRest
    exact bigSep_congr fun b hb => by rw [hrest b (Finset.mem_sdiff.mp hb).2]

end Cert.KernelIdeal.Run

end
-- ==== Proof.RunDefs.lean ====
/-
  The buffer contents at each boundary of @main, and what the run needs of each region's body side.

  @main is a stretch of host lines, the first kernel's region, a second stretch, the second kernel's region, a last
  line.  The contents at each boundary are named by folding @main from the launch memory: a stretch of host lines
  leaves what its operations compute (`StableHlo.after`); a region leaves its input arrays as they were and its
  one-element output array at what the last grid point wrote back, every other buffer untouched.  Each region's
  body side — what its staging buffers and carried accumulators hold point by point, and that the body keeps that
  account — enters as a record (`Body0`, `Body1`).
-/
import proofs.«169932_j86088324481669_1_alg».proof.Proof.Gen.KernelIdeal.Launch
import proofs.«169932_j86088324481669_1_alg».proof.Proof.Gen.KernelIdeal.Skeleton
import proofs.«169932_j86088324481669_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Records
variable (F)

/-- The TensorCore's buffer contents at a region's entry. -/
abbrev Entry : Type :=
  (c : Dev nD) → (b : Ref sig .tc) → Buf (Elt F) ((c : Thread nD τ).loc b)

/-- The body side of the first kernel's region at any entry contents: the proof data, its arrays the entry
    contents, the two windows on the feature matrix at the two halves, nothing owed, the body obligation, and the
    invariant entered from and returned to the scoped buffers no window stages. -/
structure Body0 where
  dat : Entry F → (c : Dev nD) → Dat τ (Elt F) Unit ℕ (UR sig nD τ) ℕ cfg0 c
  hA : ∀ V c w, (dat V c).A w = V c (Pipeline.arrRef spec0 w)
  hq0 : ∀ V c, (dat V c).q 0 = fullShare.left
  hq1 : ∀ V c, (dat V c).q 1 = fullShare
  hq2 : ∀ V c, (dat V c).q 2 = fullShare.right
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA (U := UR sig nD τ) (Val := Elt F) spec0 c : sProp 𝕄) ⊢ (dat V c).Φ 0
  hout : ∀ V c, (dat V c).Φ (Fin.last cfg0.N) ⊢ (Pipeline.ΦA (U := UR sig nD τ) (Val := Elt F) spec0 c : sProp 𝕄)

/-- The same for the second kernel's region: windows 1 and 2 on the weight matrix. -/
structure Body1 where
  dat : Entry F → (c : Dev nD) → Dat τ (Elt F) Unit ℕ (UR sig nD τ) ℕ cfg1 c
  hA : ∀ V c w, (dat V c).A w = V c (Pipeline.arrRef spec1 w)
  hq0 : ∀ V c, (dat V c).q 0 = fullShare
  hq1 : ∀ V c, (dat V c).q 1 = fullShare.left
  hq2 : ∀ V c, (dat V c).q 2 = fullShare.right
  hq3 : ∀ V c, (dat V c).q 3 = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA (U := UR sig nD τ) (Val := Elt F) spec1 c : sProp 𝕄) ⊢ (dat V c).Φ 0
  hout : ∀ V c, (dat V c).Φ (Fin.last cfg1.N) ⊢ (Pipeline.ΦA (U := UR sig nD τ) (Val := Elt F) spec1 c : sProp 𝕄)

end Records

variable (B0 : Body0 F) (B1 : Body1 F)
variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first stretch of host lines: the first region's entry. -/
abbrev W1 : Dev nD → Valuation τ sig (Elt F) := fun c => StableHlo.after hostOps0 (W0 m ρ c)
abbrev V1 : Entry F := fun c b => W1 m ρ c b
/-- What the first region's write-backs leave in its output array. -/
def out0 (c : Dev nD) : Buf (Elt F) ((c : Thread nD τ).loc main_v52) := (B0.dat (V1 m ρ) c).arrAt 3 cfg0.N
/-- At the first region's exit: its output array at what the write-backs left, everything else as entered. -/
def W2 (c : Dev nD) : Valuation τ sig (Elt F) := Function.update (W1 m ρ c) (Proc.devRef .tc main_v52) (out0 B0 m ρ c)
abbrev V2 : Entry F := fun c b => W2 B0 m ρ c b
/-- After the second stretch: the second region's entry. -/
abbrev W3 : Dev nD → Valuation τ sig (Elt F) := fun c => StableHlo.after hostOps1 (W2 B0 m ρ c)
abbrev V3 : Entry F := fun c b => W3 B0 m ρ c b
def out1 (c : Dev nD) : Buf (Elt F) ((c : Thread nD τ).loc main_v56) := (B1.dat (V3 B0 m ρ) c).arrAt 4 cfg1.N
/-- At the second region's exit. -/
def W4 (c : Dev nD) : Valuation τ sig (Elt F) := Function.update (W3 B0 m ρ c) (Proc.devRef .tc main_v56) (out1 B0 B1 m ρ c)
abbrev V4 : Entry F := fun c b => W4 B0 B1 m ρ c b
/-- After the last line: the end of @main. -/
abbrev W5 : Dev nD → Valuation τ sig (Elt F) := fun c => StableHlo.after hostOps2 (W4 B0 B1 m ρ c)

theorem W2_out (c : Dev nD) : W2 B0 m ρ c (Proc.devRef .tc main_v52) = out0 B0 m ρ c := by
  unfold W2; exact Function.update_self _ _ _
theorem W2_of_ne (c : Dev nD) (b : Ref sig .tc) (hb : b ≠ main_v52) :
    W2 B0 m ρ c (Proc.devRef .tc b) = W1 m ρ c (Proc.devRef .tc b) := by
  unfold W2; exact Function.update_of_ne (StableHlo.devRef_ne_of_ne hb) _ _
theorem W4_out (c : Dev nD) : W4 B0 B1 m ρ c (Proc.devRef .tc main_v56) = out1 B0 B1 m ρ c := by
  unfold W4; exact Function.update_self _ _ _
theorem W4_of_ne (c : Dev nD) (b : Ref sig .tc) (hb : b ≠ main_v56) :
    W4 B0 B1 m ρ c (Proc.devRef .tc b) = W3 B0 m ρ c (Proc.devRef .tc b) := by
  unfold W4; exact Function.update_of_ne (StableHlo.devRef_ne_of_ne hb) _ _

end Cert.KernelIdeal.Run

end
-- ==== Proof.Run.lean ====
/-
  The whole run of @main over its five segments: every weakly fair execution terminates with every unscoped buffer of
  the core at the last boundary's contents (`run`).  The two regions are entered from, and left to, "every unscoped
  buffer held at the boundary's contents": at a region's entry the buffers behind its windows' arrays are dealt to the
  windows (an array two windows read, by halves), at its exit they are joined again with the output array at what the
  write-backs left.
-/
import proofs.«169932_j86088324481669_1_alg».proof.Proof.Gen.KernelIdeal.Launch
import proofs.«169932_j86088324481669_1_alg».proof.Proof.Gen.KernelIdeal.Skeleton
import proofs.«169932_j86088324481669_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169932_j86088324481669_1_alg».proof.Proof.Shares
import proofs.«169932_j86088324481669_1_alg».proof.Proof.RunDefs
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (B0 : Body0 F) (B1 : Body1 F)
variable (m : (ℓ : Loc nD τ sig) → Buf (Elt F) ℓ) (ρ : Dev nD → PrngReg)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => B0.dat (V1 m ρ) c
  | ⟨1, _⟩ => fun c => B1.dat (V3 B0 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host lines as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the end-of-@main contents, the generator register at some state. -/
abbrev Tₙ (c : Dev nD) : sProp 𝕄 := iprop(StableHlo.held (c : Thread nD τ) (Pipeline.ucRefs τ sig) (W5 B0 B1 m ρ c) ∗ ∃ r, prngReg c r)

/-! ## The regions as segments -/

set_option backward.isDefEq.respectTransparency.types false in
set_option maxHeartbeats 4000000 in
/-- The first kernel's region: entered from every unscoped buffer at `W1`, left at `W2`. -/
def reg0 : Pipeline.RegionSeg (pcfgs (F := F)) adm (pdats B0 B1 m ρ) () defs₀ 𝒱₀ L lv 0 where
  win := winFacts₀0
  block_pos := block_pos0
  stage_whole := stage_whole0
  K := PEmpty
  osem k := k.elim
  ho := Pipeline.OwnSemFacts.none _
  hbody c := (B0.hbody (V1 m ρ) c).loose
  hwaits := Pipeline.hwaits_of_owed_zero _ _ _ _ L lv 0 fun c t => B0.howed (V1 m ρ) c t
  pre c := iprop(StableHlo.held (c : Thread nD τ) (Pipeline.ucRefs τ sig) (W1 m ρ c) ∗ R c)
  post c := iprop(StableHlo.held (c : Thread nD τ) (Pipeline.ucRefs τ sig) (W2 B0 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 (B0.dat (V1 m ρ) c) (B0.hq0 _ c) (B0.hq1 _ c) (B0.hq2 _ c) (V1 m ρ c) (B0.hA (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats B0 B1 m ρ 0 c).owed 0 = 0 from B0.howed _ c 0]
      icases HO with ⟨%W, HO⟩; iexists W; isplitr
      · ipureintro; intro x hx; left; show x ∈ (B0.dat (V1 m ρ) c).recorded _; rw [B0.hrec]; trivial
      iexact HO
    isplitl [Hp]; · iexact Hp
    iexact Hrest
  hin c := by
    refine BIBase.Entails.trans ?_ (B0.hin (V1 m ρ) c)
    unfold Pipeline.ΦA
    iintro ⟨Hp, -, Hr⟩
    isplitl [Hr]; · iexact Hr
    iexact Hp
  hout c := by
    rw [Pipeline.ownSems0_none]
    refine BIBase.Entails.trans (B0.hout (V1 m ρ) c) ?_
    unfold Pipeline.ΦA
    iintro ⟨Hr, Hp⟩
    isplitl [Hp]; · iexact Hp
    isplitr; · iempintro
    iexact Hr
  hexit c := by
    have hjoin := exit0 (B0.dat (V1 m ρ) c) (B0.hq0 _ c) (B0.hq1 _ c) (B0.hq2 _ c) (V1 m ρ c) (V2 B0 m ρ c)
      (((B0.dat (V1 m ρ) c).arrAt_in 0 rfl _).trans ((B0.hA (V1 m ρ) c 0).trans (W2_of_ne B0 m ρ c main_arg0 (by decide)).symm))
      (((B0.dat (V1 m ρ) c).arrAt_in 1 rfl _).trans ((B0.hA (V1 m ρ) c 1).trans (W2_of_ne B0 m ρ c main_v32 (by decide)).symm))
      (((B0.dat (V1 m ρ) c).arrAt_in 2 rfl _).trans ((B0.hA (V1 m ρ) c 2).trans (W2_of_ne B0 m ρ c main_arg0 (by decide)).symm))
      (W2_out B0 m ρ c).symm
      (fun b hb => W2_of_ne B0 m ρ c b fun e => hb (e ▸ (by decide)))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    rw [show (pdats B0 B1 m ρ 0 c).owed (Fin.last _) = 0 from B0.howed _ c _]
    icases HO with ⟨%W, -, HO⟩; iexists W; iexact HO

set_option backward.isDefEq.respectTransparency.types false in
set_option maxHeartbeats 4000000 in
/-- The second kernel's region: entered from every unscoped buffer at `W3`, left at `W4`. -/
def reg1 : Pipeline.RegionSeg (pcfgs (F := F)) adm (pdats B0 B1 m ρ) () defs₀ 𝒱₀ L lv 1 where
  win := winFacts₀1
  block_pos := block_pos1
  stage_whole := stage_whole1
  K := PEmpty
  osem k := k.elim
  ho := Pipeline.OwnSemFacts.none _
  hbody c := (B1.hbody (V3 B0 m ρ) c).loose
  hwaits := Pipeline.hwaits_of_owed_zero _ _ _ _ L lv 1 fun c t => B1.howed (V3 B0 m ρ) c t
  pre c := iprop(StableHlo.held (c : Thread nD τ) (Pipeline.ucRefs τ sig) (W3 B0 m ρ c) ∗ R c)
  post c := iprop(StableHlo.held (c : Thread nD τ) (Pipeline.ucRefs τ sig) (W4 B0 B1 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 B0 m ρ c)
  hentry c := by
    rw [Pipeline.ownSems0_none]
    have hsplit := entry1 (B1.dat (V3 B0 m ρ) c) (B1.hq0 _ c) (B1.hq1 _ c) (B1.hq2 _ c) (B1.hq3 _ c) (V3 B0 m ρ c) (B1.hA (V3 B0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats B0 B1 m ρ 1 c).owed 0 = 0 from B1.howed _ c 0]
      icases HO with ⟨%W, HO⟩; iexists W; isplitr
      · ipureintro; intro x hx; left; show x ∈ (B1.dat (V3 B0 m ρ) c).recorded _; rw [B1.hrec]; trivial
      iexact HO
    isplitl [Hp]; · iexact Hp
    iexact Hrest
  hin c := by
    refine BIBase.Entails.trans ?_ (B1.hin (V3 B0 m ρ) c)
    unfold Pipeline.ΦA
    iintro ⟨Hp, -, Hr⟩
    isplitl [Hr]; · iexact Hr
    iexact Hp
  hout c := by
    rw [Pipeline.ownSems0_none]
    refine BIBase.Entails.trans (B1.hout (V3 B0 m ρ) c) ?_
    unfold Pipeline.ΦA
    iintro ⟨Hr, Hp⟩
    isplitl [Hp]; · iexact Hp
    isplitr; · iempintro
    iexact Hr
  hexit c := by
    have hjoin := exit1 (B1.dat (V3 B0 m ρ) c) (B1.hq0 _ c) (B1.hq1 _ c) (B1.hq2 _ c) (B1.hq3 _ c) (V3 B0 m ρ c) (V4 B0 B1 m ρ c)
      (((B1.dat (V3 B0 m ρ) c).arrAt_in 0 rfl _).trans ((B1.hA (V3 B0 m ρ) c 0).trans (W4_of_ne B0 B1 m ρ c main_v48 (by decide)).symm))
      (((B1.dat (V3 B0 m ρ) c).arrAt_in 1 rfl _).trans ((B1.hA (V3 B0 m ρ) c 1).trans (W4_of_ne B0 B1 m ρ c main_v32 (by decide)).symm))
      (((B1.dat (V3 B0 m ρ) c).arrAt_in 2 rfl _).trans ((B1.hA (V3 B0 m ρ) c 2).trans (W4_of_ne B0 B1 m ρ c main_v32 (by decide)).symm))
      (((B1.dat (V3 B0 m ρ) c).arrAt_in 3 rfl _).trans ((B1.hA (V3 B0 m ρ) c 3).trans (W4_of_ne B0 B1 m ρ c main_v55 (by decide)).symm))
      (W4_out B0 B1 m ρ c).symm
      (fun b hb => W4_of_ne B0 B1 m ρ c b fun e => hb (e ▸ (by decide)))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    rw [show (pdats B0 B1 m ρ 1 c).owed (Fin.last _) = 0 from B1.howed _ c _]
    icases HO with ⟨%W, -, HO⟩; iexists W; iexact HO

/-! ## @main as segments, and the launch -/

abbrev segs : List (Pipeline.Seg (pcfgs (F := F)) adm (pdats B0 B1 m ρ) () defs₀ 𝒱₀ L lv) :=
  [ .host (hseg hostOps0 hostOps0_sub hostOps0_fresh (W0 m ρ)),
    .region (reg0 B0 B1 m ρ),
    .host (hseg hostOps1 hostOps1_sub hostOps1_fresh (W2 B0 m ρ)),
    .region (reg1 B0 B1 m ρ),
    .host (hseg hostOps2 hostOps2_sub hostOps2_fresh (W4 B0 B1 m ρ)) ]

set_option maxHeartbeats 4000000 in
theorem main_run (c : Dev nD) : main (F := F) c = Pipeline.Seg.run (segs B0 B1 m ρ) := (main_chain c).trans (by chain_rfl)

set_option backward.isDefEq.respectTransparency.types false in
set_option maxHeartbeats 4000000 in
/-- THE RUN: from any memory with zero counters, every weakly fair execution of @main terminates, nothing faulting, and
    every final state has every unscoped buffer of every core at the end-of-@main contents `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 B0 B1 m ρ c b) :=
  Pipeline.θ_run_regions_kit (pcfgs (F := F)) adm (pdats B0 B1 m ρ) () cellOf_inj emb₁ defs₀ 𝒱₀ L lv m ρ main (segs B0 B1 m ρ)
    (fun c Q => by rw [main_run B0 B1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ B0 B1 m ρ)
    (hch := ⟨fun _ => .rfl, fun _ => .rfl, fun _ => .rfl, fun _ => .rfl, fun _ => .rfl, fun c => by
      show iprop(StableHlo.held (c : Thread nD τ) (Pipeline.ucRefs τ sig) (W5 B0 B1 m ρ c) ∗ R c)
        ⊢ iprop(Tₙ B0 B1 m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 B0 B1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 B0 B1 m ρ c) s')
      isplitl [Hh] <;> iassumption)
    (hQ := fun s h c => h c)

end Cert.KernelIdeal.Run

end
-- ==== Proof.R0Conds.lean ====
import proofs.«169932_j86088324481669_1_alg».proof.Proof.Gen.KernelIdeal.Launch
import proofs.«169932_j86088324481669_1_alg».proof.Proof.Gen.KernelIdeal.Skeleton
import proofs.«169932_j86088324481669_1_alg».proof.Proof.Gen.KernelIdeal.Points
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body: its four conditionals over the 4 × 4 grid

Grid point `t = 4·j + k` has coordinates `(j, k)`.  The body clears the running total at `(0, 0)`, clears the matrix
accumulator where `k = 0`, folds the accumulator into the total where `k = 3`, and stores the total into the output
block at `(3, 3)`.  Each condition is stated as the body computes it and decided over the sixteen points. -/

/-- The first conditional: `j = 0 ∧ k = 0`. -/
abbrev cond0_1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_1 : ∀ t : Fin cfg0.N, cond0_1 (grid0.coords t) ↔ t.val = 0 :=
  (by decide +kernel : ∀ t : Fin grid0.N, cond0_1 (grid0.coords t) ↔ t.val = 0)

/-- The second conditional: `k = 0`. -/
abbrev cond0_2 (i : grid0.Coords) : Prop :=
  (Scalar.cmpi .ne (Scalar.extui (Scalar.cmpi .eq (BitVec.ofNat 32 (i 1).val) 0#32)) 0#32) = 1#1
/-- It holds at the points ≡ 0 (mod 4). -/
theorem hcond0_2 : ∀ t : Fin cfg0.N, cond0_2 (grid0.coords t) ↔ t.val % 4 = 0 :=
  (by decide +kernel : ∀ t : Fin grid0.N, cond0_2 (grid0.coords t) ↔ t.val % 4 = 0)

/-- The third conditional: `k = 3`. -/
abbrev cond0_3 (i : grid0.Coords) : Prop :=
  (Scalar.cmpi .ne (Scalar.extui (Scalar.cmpi .eq (BitVec.ofNat 32 (i 1).val) 3#32)) 0#32) = 1#1
/-- It holds at the points ≡ 3 (mod 4). -/
theorem hcond0_3 : ∀ t : Fin cfg0.N, cond0_3 (grid0.coords t) ↔ t.val % 4 = 3 :=
  (by decide +kernel : ∀ t : Fin grid0.N, cond0_3 (grid0.coords t) ↔ t.val % 4 = 3)

/-- The fourth conditional: `j = 3 ∧ k = 3`. -/
abbrev cond0_4 (i : grid0.Coords) : Prop := k0_cond4 i = 1#1
/-- It holds at the last point only. -/
theorem hcond0_4 : ∀ t : Fin cfg0.N, cond0_4 (grid0.coords t) ↔ t.val = 15 :=
  (by decide +kernel : ∀ t : Fin grid0.N, cond0_4 (grid0.coords t) ↔ t.val = 15)

/-! ## Where the output window is idle -/

/-- Away from the last point the output window is idle: the body stores nothing into its block there, -/
theorem idleAt0_3 : ∀ t : Fin cfg0.N, ¬cond0_4 (grid0.coords t) → cfg0.idle 3 (grid0.coords t) = true := by decide +kernel
/-- and the block is not written back there. -/
theorem noFlush0_3 : ∀ t : Fin cfg0.N, ¬cond0_4 (grid0.coords t) → (cfg0.win 3).flush t = false := by decide +kernel
/-- At the last point the output window is live. -/
theorem liveAt0_3 : ∀ t : Fin cfg0.N, cond0_4 (grid0.coords t) → cfg0.idle 3 (grid0.coords t) = false := by decide +kernel
/-- The three input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

/-! ## The memrefs the body is called with -/

/-- Each window's current staging memref at point `t`, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The matrix accumulator and the running total: whole scoped buffers passed beside the windows. -/
abbrev scM0_0 : Memref sig .tc .vmem S512x1024 .f32 := Memref.whole cc0_scratch0
abbrev scM0_1 : Memref sig .tc .vmem S1x1 .f32 := Memref.whole cc0_scratch1
/-- The same as views: what they hold is stated through these. -/
abbrev VS0_0 : View sig .tc .vmem S512x1024 .f32 := scM0_0.view
abbrev VS0_1 : View sig .tc .vmem S1x1 .f32 := scM0_1.view
/-- The output window's one staging buffer, as a view. -/
abbrev VO0_3 : View sig .tc .vmem S1x1 .f32 := (Memref.whole cc0_stg3_0 : Memref sig .tc .vmem S1x1 .f32).view

/-! ## The region's invariant, spelled out -/

/-- The scoped buffers of the core that this kernel never touches (the other kernel's staging buffers and
    accumulators), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- What the launch hands the region: the two accumulators at some contents, the untouched buffers, and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

end Cert.KernelIdeal.R0

end
-- ==== Proof.R0RunA.lean ====
import proofs.«169932_j86088324481669_1_alg».proof.Proof.R0Conds

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT (all of `j = 0 ∧ k = 0`, `k = 0` hold; `k = 3` and `j = 3 ∧ k = 3` fail).  On whole memrefs — the three
    input blocks at their contents, the output block at contents handed back untouched, both accumulators at
    anything — the body runs to the continuation holding the inputs as they were, and each accumulator with the
    pieces its stores wrote (last first): the pieces are the witness the symbolic execution finds. -/
noncomputable def kernelRun0_A (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : cond0_1 i) (hc2 : cond0_2 i) (hc3 : ¬cond0_3 i) (hc4 : ¬cond0_4 i) (x0 : Vec F S1024x512 .f32) (x1 : Vec F S1024x1024 .f32) (x2 : Vec F S1024x512 .f32) :
    Σ' (L3 : List (View.Piece (Elt F) S1x1 .f32)) (LS0 : List (View.Piece (Elt F) S512x1024 .f32)), { LS1 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__recon_kernel i arg2 harg2 arg3 harg3 arg4 harg4 arg5 harg5 arg6 harg6 arg7 harg7) K } := by
  refine ⟨[], ?_, ?_, fun xi3 E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.R0

end
-- ==== Proof.R0RunB.lean ====
import proofs.«169932_j86088324481669_1_alg».proof.Proof.R0RunA

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A POINT WITH `k ∈ {1, 2}` (none of the four conditions holds).  On whole memrefs — the three input blocks at their contents, the output block and the running total at contents handed back untouched, the matrix accumulator at what the point before left — the body runs to the continuation holding all of these as they were except the matrix accumulator, which holds the pieces its one store wrote. -/
noncomputable def kernelRun0_B (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : ¬cond0_3 i) (hc4 : ¬cond0_4 i) (x0 : Vec F S1024x512 .f32) (x1 : Vec F S1024x1024 .f32) (x2 : Vec F S1024x512 .f32) (xs0 : Vec F S512x1024 .f32) :
    Σ' (L3 : List (View.Piece (Elt F) S1x1 .f32)), { LS0 : List (View.Piece (Elt F) S512x1024 .f32) //
      ∀ (xi3 : Vec F S1x1 .f32) (xs1 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ owns (c : Thread nD τ) arg7 fullShare xs1) -∗ K ⟨⟩))
          ⊢ wp frame (wpE (defs₀ (F := F)) Variants.none c none) E (cc0__recon_kernel i arg2 harg2 arg3 harg3 arg4 harg4 arg5 harg5 arg6 harg6 arg7 harg7) K } := by
  refine ⟨[], ?_, fun xi3 xs1 E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; isplitr; · ipureintro; exact harg7.read_unread _
    iexact HS1

end Cert.KernelIdeal.R0

end
-- ==== Proof.R0RunC.lean ====
import proofs.«169932_j86088324481669_1_alg».proof.Proof.R0RunB

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A POINT WITH `k = 3` BEFORE THE LAST (only the third condition holds).  On whole memrefs — the three input blocks at their contents, the output block at contents handed back untouched, both accumulators at what the point before left — the body runs to the continuation holding the inputs and the output block as they were and each accumulator with the pieces its store wrote. -/
noncomputable def kernelRun0_C (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : ¬cond0_4 i) (x0 : Vec F S1024x512 .f32) (x1 : Vec F S1024x1024 .f32) (x2 : Vec F S1024x512 .f32) (xs0 : Vec F S512x1024 .f32) (xs1 : Vec F S1x1 .f32) :
    Σ' (L3 : List (View.Piece (Elt F) S1x1 .f32)) (LS0 : List (View.Piece (Elt F) S512x1024 .f32)), { LS1 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__recon_kernel i arg2 harg2 arg3 harg3 arg4 harg4 arg5 harg5 arg6 harg6 arg7 harg7) K } := by
  refine ⟨[], ?_, ?_, fun xi3 E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.R0

end
-- ==== Proof.R0RunD.lean ====
import proofs.«169932_j86088324481669_1_alg».proof.Proof.R0RunC

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A POINT WITH `k = 0` AFTER THE FIRST (only the second condition holds).  On whole memrefs — the three input blocks at their contents, the output block and the running total at contents handed back untouched, the matrix accumulator at anything — the body runs to the continuation holding all of these as they were except the matrix accumulator, which holds the pieces its two stores wrote (last first). -/
noncomputable def kernelRun0_D (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : cond0_2 i) (hc3 : ¬cond0_3 i) (hc4 : ¬cond0_4 i) (x0 : Vec F S1024x512 .f32) (x1 : Vec F S1024x1024 .f32) (x2 : Vec F S1024x512 .f32) :
    Σ' (L3 : List (View.Piece (Elt F) S1x1 .f32)), { LS0 : List (View.Piece (Elt F) S512x1024 .f32) //
      ∀ (xi3 : Vec F S1x1 .f32) (xs1 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ owns (c : Thread nD τ) arg7 fullShare xs1) -∗ K ⟨⟩))
          ⊢ wp frame (wpE (defs₀ (F := F)) Variants.none c none) E (cc0__recon_kernel i arg2 harg2 arg3 harg3 arg4 harg4 arg5 harg5 arg6 harg6 arg7 harg7) K } := by
  refine ⟨[], ?_, fun xi3 xs1 E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; isplitr; · ipureintro; exact harg7.read_unread _
    iexact HS1

end Cert.KernelIdeal.R0

end
-- ==== Proof.R0RunE.lean ====
import proofs.«169932_j86088324481669_1_alg».proof.Proof.R0RunD

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST POINT (`k = 3` and `j = 3 ∧ k = 3` hold).  On whole memrefs — the three input blocks at their contents, the output block at anything, both accumulators at what the point before left — the body runs to the continuation holding the inputs as they were and the output block and each accumulator with the pieces its store wrote. -/
noncomputable def kernelRun0_E (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : cond0_4 i) (x0 : Vec F S1024x512 .f32) (x1 : Vec F S1024x1024 .f32) (x2 : Vec F S1024x512 .f32) (xs0 : Vec F S512x1024 .f32) (xs1 : Vec F S1x1 .f32) :
    Σ' (L3 : List (View.Piece (Elt F) S1x1 .f32)) (LS0 : List (View.Piece (Elt F) S512x1024 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__recon_kernel i arg2 harg2 arg3 harg3 arg4 harg4 arg5 harg5 arg6 harg6 arg7 harg7) K } := by
  refine ⟨?_, ?_, ?_, fun E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.R0

end
-- ==== Proof.R0Body.lean ====
import proofs.«169932_j86088324481669_1_alg».proof.Proof.R0RunE

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! # What each case of the body leaves in the accumulators and in the output block

Each case's run found, per buffer it stores into, the list of pieces written (last first).  Read back over any prior
contents, a list that covers the buffer gives contents that do not depend on the prior contents. -/

/-- What the first point leaves in the output block's buffer: its pieces read back (none: the block is idle there, and nothing consults this). -/
def out0_A_3 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : cond0_1 i) (hc2 : cond0_2 i) (hc3 : ¬cond0_3 i) (hc4 : ¬cond0_4 i) (x0 : Vec F S1024x512 .f32) (x1 : Vec F S1024x1024 .f32) (x2 : Vec F S1024x512 .f32) : Vec F S1x1 .f32 :=
  VO0_3.read (Elt F) (VO0_3.writes (Elt F) VO0_3.junk (kernelRun0_A c i arg2 harg2 arg3 harg3 arg4 harg4 arg5 harg5 arg6 harg6 arg7 harg7 hc1 hc2 hc3 hc4 x0 x1 x2).1)

/-- At the first point the stores into the matrix accumulator cover it. -/
theorem scover0_A_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : cond0_1 i) (hc2 : cond0_2 i) (hc3 : ¬cond0_3 i) (hc4 : ¬cond0_4 i) (x0 : Vec F S1024x512 .f32) (x1 : Vec F S1024x1024 .f32) (x2 : Vec F S1024x512 .f32) (y : S512x1024.Idx) :
    ∃ pc ∈ (kernelRun0_A c i arg2 harg2 arg3 harg3 arg4 harg4 arg5 harg5 arg6 harg6 arg7 harg7 hc1 hc2 hc3 hc4 x0 x1 x2).2.1, y ∈ pc.1.set :=
  View.cover_of_tiledL (kernelRun0_A c i arg2 harg2 arg3 harg3 arg4 harg4 arg5 harg5 arg6 harg6 arg7 harg7 hc1 hc2 hc3 hc4 x0 x1 x2).2.1 S512x1024.size (by sl_kernel_rfl) y

/-- What the first point leaves in the matrix accumulator. -/
def sout0_A_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : cond0_1 i) (hc2 : cond0_2 i) (hc3 : ¬cond0_3 i) (hc4 : ¬cond0_4 i) (x0 : Vec F S1024x512 .f32) (x1 : Vec F S1024x1024 .f32) (x2 : Vec F S1024x512 .f32) : Vec F S512x1024 .f32 :=
  VS0_0.read (Elt F) (VS0_0.writes (Elt F) VS0_0.junk (kernelRun0_A c i arg2 harg2 arg3 harg3 arg4 harg4 arg5 harg5 arg6 harg6 arg7 harg7 hc1 hc2 hc3 hc4 x0 x1 x2).2.1)

/-- At the first point the store into the running total covers it. -/
theorem scover0_A_1 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : cond0_1 i) (hc2 : cond0_2 i) (hc3 : ¬cond0_3 i) (hc4 : ¬cond0_4 i) (x0 : Vec F S1024x512 .f32) (x1 : Vec F S1024x1024 .f32) (x2 : Vec F S1024x512 .f32) (y : S1x1.Idx) :
    ∃ pc ∈ (kernelRun0_A c i arg2 harg2 arg3 harg3 arg4 harg4 arg5 harg5 arg6 harg6 arg7 harg7 hc1 hc2 hc3 hc4 x0 x1 x2).2.2.1, y ∈ pc.1.set :=
  View.cover_of_tiledL (kernelRun0_A c i arg2 harg2 arg3 harg3 arg4 harg4 arg5 harg5 arg6 harg6 arg7 harg7 hc1 hc2 hc3 hc4 x0 x1 x2).2.2.1 S1x1.size (by sl_kernel_rfl) y

/-- What the first point leaves in the running total. -/
def sout0_A_1 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : cond0_1 i) (hc2 : cond0_2 i) (hc3 : ¬cond0_3 i) (hc4 : ¬cond0_4 i) (x0 : Vec F S1024x512 .f32) (x1 : Vec F S1024x1024 .f32) (x2 : Vec F S1024x512 .f32) : Vec F S1x1 .f32 :=
  VS0_1.read (Elt F) (VS0_1.writes (Elt F) VS0_1.junk (kernelRun0_A c i arg2 harg2 arg3 harg3 arg4 harg4 arg5 harg5 arg6 harg6 arg7 harg7 hc1 hc2 hc3 hc4 x0 x1 x2).2.2.1)

/-- What a point with k ∈ {1, 2} leaves in the output block's buffer: its pieces read back (none: the block is idle there, and nothing consults this). -/
def out0_B_3 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : ¬cond0_3 i) (hc4 : ¬cond0_4 i) (x0 : Vec F S1024x512 .f32) (x1 : Vec F S1024x1024 .f32) (x2 : Vec F S1024x512 .f32) (xs0 : Vec F S512x1024 .f32) : Vec F S1x1 .f32 :=
  VO0_3.read (Elt F) (VO0_3.writes (Elt F) VO0_3.junk (kernelRun0_B c i arg2 harg2 arg3 harg3 arg4 harg4 arg5 harg5 arg6 harg6 arg7 harg7 hc1 hc2 hc3 hc4 x0 x1 x2 xs0).1)

/-- At a point with k ∈ {1, 2} the stores into the matrix accumulator cover it. -/
theorem scover0_B_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : ¬cond0_3 i) (hc4 : ¬cond0_4 i) (x0 : Vec F S1024x512 .f32) (x1 : Vec F S1024x1024 .f32) (x2 : Vec F S1024x512 .f32) (xs0 : Vec F S512x1024 .f32) (y : S512x1024.Idx) :
    ∃ pc ∈ (kernelRun0_B c i arg2 harg2 arg3 harg3 arg4 harg4 arg5 harg5 arg6 harg6 arg7 harg7 hc1 hc2 hc3 hc4 x0 x1 x2 xs0).2.1, y ∈ pc.1.set :=
  View.cover_of_tiledL (kernelRun0_B c i arg2 harg2 arg3 harg3 arg4 harg4 arg5 harg5 arg6 harg6 arg7 harg7 hc1 hc2 hc3 hc4 x0 x1 x2 xs0).2.1 S512x1024.size (by sl_kernel_rfl) y

/-- What a point with k ∈ {1, 2} leaves in the matrix accumulator. -/
def sout0_B_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : ¬cond0_3 i) (hc4 : ¬cond0_4 i) (x0 : Vec F S1024x512 .f32) (x1 : Vec F S1024x1024 .f32) (x2 : Vec F S1024x512 .f32) (xs0 : Vec F S512x1024 .f32) : Vec F S512x1024 .f32 :=
  VS0_0.read (Elt F) (VS0_0.writes (Elt F) VS0_0.junk (kernelRun0_B c i arg2 harg2 arg3 harg3 arg4 harg4 arg5 harg5 arg6 harg6 arg7 harg7 hc1 hc2 hc3 hc4 x0 x1 x2 xs0).2.1)

/-- What a point with k = 3 before the last leaves in the output block's buffer: its pieces read back (none: the block is idle there, and nothing consults this). -/
def out0_C_3 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : ¬cond0_4 i) (x0 : Vec F S1024x512 .f32) (x1 : Vec F S1024x1024 .f32) (x2 : Vec F S1024x512 .f32) (xs0 : Vec F S512x1024 .f32) (xs1 : Vec F S1x1 .f32) : Vec F S1x1 .f32 :=
  VO0_3.read (Elt F) (VO0_3.writes (Elt F) VO0_3.junk (kernelRun0_C c i arg2 harg2 arg3 harg3 arg4 harg4 arg5 harg5 arg6 harg6 arg7 harg7 hc1 hc2 hc3 hc4 x0 x1 x2 xs0 xs1).1)

/-- At a point with k = 3 before the last the stores into the matrix accumulator cover it. -/
theorem scover0_C_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : ¬cond0_4 i) (x0 : Vec F S1024x512 .f32) (x1 : Vec F S1024x1024 .f32) (x2 : Vec F S1024x512 .f32) (xs0 : Vec F S512x1024 .f32) (xs1 : Vec F S1x1 .f32) (y : S512x1024.Idx) :
    ∃ pc ∈ (kernelRun0_C c i arg2 harg2 arg3 harg3 arg4 harg4 arg5 harg5 arg6 harg6 arg7 harg7 hc1 hc2 hc3 hc4 x0 x1 x2 xs0 xs1).2.1, y ∈ pc.1.set :=
  View.cover_of_tiledL (kernelRun0_C c i arg2 harg2 arg3 harg3 arg4 harg4 arg5 harg5 arg6 harg6 arg7 harg7 hc1 hc2 hc3 hc4 x0 x1 x2 xs0 xs1).2.1 S512x1024.size (by sl_kernel_rfl) y

/-- What a point with k = 3 before the last leaves in the matrix accumulator. -/
def sout0_C_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : ¬cond0_4 i) (x0 : Vec F S1024x512 .f32) (x1 : Vec F S1024x1024 .f32) (x2 : Vec F S1024x512 .f32) (xs0 : Vec F S512x1024 .f32) (xs1 : Vec F S1x1 .f32) : Vec F S512x1024 .f32 :=
  VS0_0.read (Elt F) (VS0_0.writes (Elt F) VS0_0.junk (kernelRun0_C c i arg2 harg2 arg3 harg3 arg4 harg4 arg5 harg5 arg6 harg6 arg7 harg7 hc1 hc2 hc3 hc4 x0 x1 x2 xs0 xs1).2.1)

/-- At a point with k = 3 before the last the store into the running total covers it. -/
theorem scover0_C_1 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : ¬cond0_4 i) (x0 : Vec F S1024x512 .f32) (x1 : Vec F S1024x1024 .f32) (x2 : Vec F S1024x512 .f32) (xs0 : Vec F S512x1024 .f32) (xs1 : Vec F S1x1 .f32) (y : S1x1.Idx) :
    ∃ pc ∈ (kernelRun0_C c i arg2 harg2 arg3 harg3 arg4 harg4 arg5 harg5 arg6 harg6 arg7 harg7 hc1 hc2 hc3 hc4 x0 x1 x2 xs0 xs1).2.2.1, y ∈ pc.1.set :=
  View.cover_of_tiledL (kernelRun0_C c i arg2 harg2 arg3 harg3 arg4 harg4 arg5 harg5 arg6 harg6 arg7 harg7 hc1 hc2 hc3 hc4 x0 x1 x2 xs0 xs1).2.2.1 S1x1.size (by sl_kernel_rfl) y

/-- What a point with k = 3 before the last leaves in the running total. -/
def sout0_C_1 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : ¬cond0_4 i) (x0 : Vec F S1024x512 .f32) (x1 : Vec F S1024x1024 .f32) (x2 : Vec F S1024x512 .f32) (xs0 : Vec F S512x1024 .f32) (xs1 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 hc1 hc2 hc3 hc4 x0 x1 x2 xs0 xs1).2.2.1)

/-- What a point with k = 0 after the first leaves in the output block's buffer: its pieces read back (none: the block is idle there, and nothing consults this). -/
def out0_D_3 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : cond0_2 i) (hc3 : ¬cond0_3 i) (hc4 : ¬cond0_4 i) (x0 : Vec F S1024x512 .f32) (x1 : Vec F S1024x1024 .f32) (x2 : Vec F S1024x512 .f32) : Vec F S1x1 .f32 :=
  VO0_3.read (Elt F) (VO0_3.writes (Elt F) VO0_3.junk (kernelRun0_D c i arg2 harg2 arg3 harg3 arg4 harg4 arg5 harg5 arg6 harg6 arg7 harg7 hc1 hc2 hc3 hc4 x0 x1 x2).1)

/-- At a point with k = 0 after the first the stores into the matrix accumulator cover it. -/
theorem scover0_D_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : cond0_2 i) (hc3 : ¬cond0_3 i) (hc4 : ¬cond0_4 i) (x0 : Vec F S1024x512 .f32) (x1 : Vec F S1024x1024 .f32) (x2 : Vec F S1024x512 .f32) (y : S512x1024.Idx) :
    ∃ pc ∈ (kernelRun0_D c i arg2 harg2 arg3 harg3 arg4 harg4 arg5 harg5 arg6 harg6 arg7 harg7 hc1 hc2 hc3 hc4 x0 x1 x2).2.1, y ∈ pc.1.set :=
  View.cover_of_tiledL (kernelRun0_D c i arg2 harg2 arg3 harg3 arg4 harg4 arg5 harg5 arg6 harg6 arg7 harg7 hc1 hc2 hc3 hc4 x0 x1 x2).2.1 S512x1024.size (by sl_kernel_rfl) y

/-- What a point with k = 0 after the first leaves in the matrix accumulator. -/
def sout0_D_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : cond0_2 i) (hc3 : ¬cond0_3 i) (hc4 : ¬cond0_4 i) (x0 : Vec F S1024x512 .f32) (x1 : Vec F S1024x1024 .f32) (x2 : Vec F S1024x512 .f32) : Vec F S512x1024 .f32 :=
  VS0_0.read (Elt F) (VS0_0.writes (Elt F) VS0_0.junk (kernelRun0_D c i arg2 harg2 arg3 harg3 arg4 harg4 arg5 harg5 arg6 harg6 arg7 harg7 hc1 hc2 hc3 hc4 x0 x1 x2).2.1)

/-- At the last point the one store into the output block covers it. -/
theorem cover0_E_3 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : cond0_4 i) (x0 : Vec F S1024x512 .f32) (x1 : Vec F S1024x1024 .f32) (x2 : Vec F S1024x512 .f32) (xs0 : Vec F S512x1024 .f32) (xs1 : Vec F S1x1 .f32) (y : S1x1.Idx) :
    ∃ pc ∈ (kernelRun0_E c i arg2 harg2 arg3 harg3 arg4 harg4 arg5 harg5 arg6 harg6 arg7 harg7 hc1 hc2 hc3 hc4 x0 x1 x2 xs0 xs1).1, y ∈ pc.1.set :=
  View.cover_of_tiledL (kernelRun0_E c i arg2 harg2 arg3 harg3 arg4 harg4 arg5 harg5 arg6 harg6 arg7 harg7 hc1 hc2 hc3 hc4 x0 x1 x2 xs0 xs1).1 S1x1.size (by sl_kernel_rfl) y

/-- What the last point leaves in the output block's buffer: its pieces read back. -/
def out0_E_3 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : cond0_4 i) (x0 : Vec F S1024x512 .f32) (x1 : Vec F S1024x1024 .f32) (x2 : Vec F S1024x512 .f32) (xs0 : Vec F S512x1024 .f32) (xs1 : Vec F S1x1 .f32) : Vec F S1x1 .f32 :=
  VO0_3.read (Elt F) (VO0_3.writes (Elt F) VO0_3.junk (kernelRun0_E c i arg2 harg2 arg3 harg3 arg4 harg4 arg5 harg5 arg6 harg6 arg7 harg7 hc1 hc2 hc3 hc4 x0 x1 x2 xs0 xs1).1)

/-- At the last point the stores into the matrix accumulator cover it. -/
theorem scover0_E_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : cond0_4 i) (x0 : Vec F S1024x512 .f32) (x1 : Vec F S1024x1024 .f32) (x2 : Vec F S1024x512 .f32) (xs0 : Vec F S512x1024 .f32) (xs1 : Vec F S1x1 .f32) (y : S512x1024.Idx) :
    ∃ pc ∈ (kernelRun0_E c i arg2 harg2 arg3 harg3 arg4 harg4 arg5 harg5 arg6 harg6 arg7 harg7 hc1 hc2 hc3 hc4 x0 x1 x2 xs0 xs1).2.1, y ∈ pc.1.set :=
  View.cover_of_tiledL (kernelRun0_E c i arg2 harg2 arg3 harg3 arg4 harg4 arg5 harg5 arg6 harg6 arg7 harg7 hc1 hc2 hc3 hc4 x0 x1 x2 xs0 xs1).2.1 S512x1024.size (by sl_kernel_rfl) y

/-- What the last point leaves in the matrix accumulator. -/
def sout0_E_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : cond0_4 i) (x0 : Vec F S1024x512 .f32) (x1 : Vec F S1024x1024 .f32) (x2 : Vec F S1024x512 .f32) (xs0 : Vec F S512x1024 .f32) (xs1 : Vec F S1x1 .f32) : Vec F S512x1024 .f32 :=
  VS0_0.read (Elt F) (VS0_0.writes (Elt F) VS0_0.junk (kernelRun0_E c i arg2 harg2 arg3 harg3 arg4 harg4 arg5 harg5 arg6 harg6 arg7 harg7 hc1 hc2 hc3 hc4 x0 x1 x2 xs0 xs1).2.1)

/-- At the last point the store into the running total covers it. -/
theorem scover0_E_1 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : cond0_4 i) (x0 : Vec F S1024x512 .f32) (x1 : Vec F S1024x1024 .f32) (x2 : Vec F S1024x512 .f32) (xs0 : Vec F S512x1024 .f32) (xs1 : Vec F S1x1 .f32) (y : S1x1.Idx) :
    ∃ pc ∈ (kernelRun0_E c i arg2 harg2 arg3 harg3 arg4 harg4 arg5 harg5 arg6 harg6 arg7 harg7 hc1 hc2 hc3 hc4 x0 x1 x2 xs0 xs1).2.2.1, y ∈ pc.1.set :=
  View.cover_of_tiledL (kernelRun0_E c i arg2 harg2 arg3 harg3 arg4 harg4 arg5 harg5 arg6 harg6 arg7 harg7 hc1 hc2 hc3 hc4 x0 x1 x2 xs0 xs1).2.2.1 S1x1.size (by sl_kernel_rfl) y

/-- What the last point leaves in the running total. -/
def sout0_E_1 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : cond0_4 i) (x0 : Vec F S1024x512 .f32) (x1 : Vec F S1024x1024 .f32) (x2 : Vec F S1024x512 .f32) (xs0 : Vec F S512x1024 .f32) (xs1 : Vec F S1x1 .f32) : Vec F S1x1 .f32 :=
  VS0_1.read (Elt F) (VS0_1.writes (Elt F) VS0_1.junk (kernelRun0_E c i arg2 harg2 arg3 harg3 arg4 harg4 arg5 harg5 arg6 harg6 arg7 harg7 hc1 hc2 hc3 hc4 x0 x1 x2 xs0 xs1).2.2.1)

section Region
-- the TensorCore's buffer contents when the region is entered
variable (V : (c : Dev nD) → (b : Ref sig .tc) → Buf (Elt F) ((c : Thread nD τ).loc b))

/-! # The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved since the point before), for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! # The five kinds of point, from the point's number -/

theorem caseA (t : Fin cfg0.N) (h : t.val = 0) : cond0_1 (grid0.coords t) ∧ cond0_2 (grid0.coords t) ∧ ¬cond0_3 (grid0.coords t) ∧ ¬cond0_4 (grid0.coords t) :=
  ⟨(hcond0_1 t).mpr h, (hcond0_2 t).mpr (by omega), fun h' => by have := (hcond0_3 t).mp h'; omega,
    fun h' => by have := (hcond0_4 t).mp h'; omega⟩
theorem caseB (t : Fin cfg0.N) (h0 : ¬t.val % 4 = 0) (h3 : ¬t.val % 4 = 3) : ¬cond0_1 (grid0.coords t) ∧ ¬cond0_2 (grid0.coords t) ∧ ¬cond0_3 (grid0.coords t) ∧ ¬cond0_4 (grid0.coords t) :=
  ⟨fun h' => by have := (hcond0_1 t).mp h'; omega, fun h' => h0 ((hcond0_2 t).mp h'), fun h' => h3 ((hcond0_3 t).mp h'),
    fun h' => by have := (hcond0_4 t).mp h'; omega⟩
theorem caseC (t : Fin cfg0.N) (h3 : t.val % 4 = 3) (hL : ¬t.val = 15) : ¬cond0_1 (grid0.coords t) ∧ ¬cond0_2 (grid0.coords t) ∧ cond0_3 (grid0.coords t) ∧ ¬cond0_4 (grid0.coords t) :=
  ⟨fun h' => by have := (hcond0_1 t).mp h'; omega, fun h' => by have := (hcond0_2 t).mp h'; omega, (hcond0_3 t).mpr h3,
    fun h' => hL ((hcond0_4 t).mp h')⟩
theorem caseD (t : Fin cfg0.N) (h0 : t.val % 4 = 0) (hz : ¬t.val = 0) : ¬cond0_1 (grid0.coords t) ∧ cond0_2 (grid0.coords t) ∧ ¬cond0_3 (grid0.coords t) ∧ ¬cond0_4 (grid0.coords t) :=
  ⟨fun h' => hz ((hcond0_1 t).mp h'), (hcond0_2 t).mpr h0, fun h' => by have := (hcond0_3 t).mp h'; omega,
    fun h' => by have := (hcond0_4 t).mp h'; omega⟩
theorem caseE (t : Fin cfg0.N) (hL : t.val = 15) : ¬cond0_1 (grid0.coords t) ∧ ¬cond0_2 (grid0.coords t) ∧ cond0_3 (grid0.coords t) ∧ cond0_4 (grid0.coords t) :=
  ⟨fun h' => by have := (hcond0_1 t).mp h'; omega, fun h' => by have := (hcond0_2 t).mp h'; omega, (hcond0_3 t).mpr (by omega),
    (hcond0_4 t).mpr hL⟩

/-! # What the buffers hold after each point

A triple: the output block's buffer, the matrix accumulator, the running total.  Each kind of point is run at the
point's memrefs and input blocks, over what the point before left in the accumulators (`p`). -/

def atA (c : Dev nD) (t : Fin cfg0.N) (h : t.val = 0) : Vec F S1x1 .f32 × Vec F S512x1024 .f32 × Vec F S1x1 .f32 :=
  (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseA t h).1 (caseA t h).2.1 (caseA t h).2.2.1 (caseA t h).2.2.2 (iblk0 V c 0 t) (iblk0 V c 1 t) (iblk0 V c 2 t),
   sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseA t h).1 (caseA t h).2.1 (caseA t h).2.2.1 (caseA t h).2.2.2 (iblk0 V c 0 t) (iblk0 V c 1 t) (iblk0 V c 2 t),
   sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseA t h).1 (caseA t h).2.1 (caseA t h).2.2.1 (caseA t h).2.2.2 (iblk0 V c 0 t) (iblk0 V c 1 t) (iblk0 V c 2 t))
def atB (c : Dev nD) (t : Fin cfg0.N) (h0 : ¬t.val % 4 = 0) (h3 : ¬t.val % 4 = 3) (p : Vec F S1x1 .f32 × Vec F S512x1024 .f32 × Vec F S1x1 .f32) : Vec F S1x1 .f32 × Vec F S512x1024 .f32 × Vec F S1x1 .f32 :=
  (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseB t h0 h3).1 (caseB t h0 h3).2.1 (caseB t h0 h3).2.2.1 (caseB t h0 h3).2.2.2 (iblk0 V c 0 t) (iblk0 V c 1 t) (iblk0 V c 2 t) p.2.1,
   sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseB t h0 h3).1 (caseB t h0 h3).2.1 (caseB t h0 h3).2.2.1 (caseB t h0 h3).2.2.2 (iblk0 V c 0 t) (iblk0 V c 1 t) (iblk0 V c 2 t) p.2.1,
   p.2.2)
def atC (c : Dev nD) (t : Fin cfg0.N) (h3 : t.val % 4 = 3) (hL : ¬t.val = 15) (p : Vec F S1x1 .f32 × Vec F S512x1024 .f32 × Vec F S1x1 .f32) : Vec F S1x1 .f32 × Vec F S512x1024 .f32 × Vec F S1x1 .f32 :=
  (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseC t h3 hL).1 (caseC t h3 hL).2.1 (caseC t h3 hL).2.2.1 (caseC t h3 hL).2.2.2 (iblk0 V c 0 t) (iblk0 V c 1 t) (iblk0 V c 2 t) p.2.1 p.2.2,
   sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseC t h3 hL).1 (caseC t h3 hL).2.1 (caseC t h3 hL).2.2.1 (caseC t h3 hL).2.2.2 (iblk0 V c 0 t) (iblk0 V c 1 t) (iblk0 V c 2 t) p.2.1 p.2.2,
   sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseC t h3 hL).1 (caseC t h3 hL).2.1 (caseC t h3 hL).2.2.1 (caseC t h3 hL).2.2.2 (iblk0 V c 0 t) (iblk0 V c 1 t) (iblk0 V c 2 t) p.2.1 p.2.2)
def atD (c : Dev nD) (t : Fin cfg0.N) (h0 : t.val % 4 = 0) (hz : ¬t.val = 0) (p : Vec F S1x1 .f32 × Vec F S512x1024 .f32 × Vec F S1x1 .f32) : Vec F S1x1 .f32 × Vec F S512x1024 .f32 × Vec F S1x1 .f32 :=
  (out0_D_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseD t h0 hz).1 (caseD t h0 hz).2.1 (caseD t h0 hz).2.2.1 (caseD t h0 hz).2.2.2 (iblk0 V c 0 t) (iblk0 V c 1 t) (iblk0 V c 2 t),
   sout0_D_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseD t h0 hz).1 (caseD t h0 hz).2.1 (caseD t h0 hz).2.2.1 (caseD t h0 hz).2.2.2 (iblk0 V c 0 t) (iblk0 V c 1 t) (iblk0 V c 2 t),
   p.2.2)
def atE (c : Dev nD) (t : Fin cfg0.N) (hL : t.val = 15) (p : Vec F S1x1 .f32 × Vec F S512x1024 .f32 × Vec F S1x1 .f32) : Vec F S1x1 .f32 × Vec F S512x1024 .f32 × Vec F S1x1 .f32 :=
  (out0_E_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseE t hL).1 (caseE t hL).2.1 (caseE t hL).2.2.1 (caseE t hL).2.2.2 (iblk0 V c 0 t) (iblk0 V c 1 t) (iblk0 V c 2 t) p.2.1 p.2.2,
   sout0_E_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseE t hL).1 (caseE t hL).2.1 (caseE t hL).2.2.1 (caseE t hL).2.2.2 (iblk0 V c 0 t) (iblk0 V c 1 t) (iblk0 V c 2 t) p.2.1 p.2.2,
   sout0_E_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseE t hL).1 (caseE t hL).2.1 (caseE t hL).2.2.1 (caseE t hL).2.2.2 (iblk0 V c 0 t) (iblk0 V c 1 t) (iblk0 V c 2 t) p.2.1 p.2.2)

/-- THE ACCUMULATION: what the three buffers hold after the body at position `n`. -/
def outsAt0 (c : Dev nD) : (n : ℕ) → n < cfg0.N → Vec F S1x1 .f32 × Vec F S512x1024 .f32 × Vec F S1x1 .f32
  | 0, hn => atA V c ⟨0, hn⟩ rfl
  | n + 1, hn =>
    if h0 : (n + 1) % 4 = 0 then atD V c ⟨n + 1, hn⟩ h0 (Nat.succ_ne_zero n) (outsAt0 c n (Nat.lt_of_succ_lt hn))
    else if h3 : (n + 1) % 4 = 3 then
      if hL : n + 1 = 15 then atE V c ⟨n + 1, hn⟩ hL (outsAt0 c n (Nat.lt_of_succ_lt hn))
      else atC V c ⟨n + 1, hn⟩ h3 hL (outsAt0 c n (Nat.lt_of_succ_lt hn))
    else atB V c ⟨n + 1, hn⟩ h0 h3 (outsAt0 c n (Nat.lt_of_succ_lt hn))

theorem outsAt0_A (c : Dev nD) (t : Fin cfg0.N) (h : t.val = 0) : outsAt0 V c t.val t.isLt = atA V c t h := by
  obtain ⟨n, hn⟩ := t
  cases n with
  | zero => rfl
  | succ n => exact absurd h (Nat.succ_ne_zero n)
theorem outsAt0_B (c : Dev nD) (t : Fin cfg0.N) (h0 : ¬t.val % 4 = 0) (h3 : ¬t.val % 4 = 3) : outsAt0 V c t.val t.isLt = atB V c t h0 h3 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)
theorem outsAt0_C (c : Dev nD) (t : Fin cfg0.N) (h3 : t.val % 4 = 3) (hL : ¬t.val = 15) : outsAt0 V c t.val t.isLt = atC V c t h3 hL (outsAt0 V c (t.val - 1) (Nat.lt_of_le_of_lt (Nat.sub_le _ _) t.isLt)) := by
  obtain ⟨n, hn⟩ := t
  cases n with
  | zero => exact absurd h3 (by dsimp only; omega)
  | succ n => exact (dif_neg (by dsimp only at h3 ⊢; omega)).trans ((dif_pos h3).trans ((dif_neg hL).trans rfl))
theorem outsAt0_D (c : Dev nD) (t : Fin cfg0.N) (h0 : t.val % 4 = 0) (hz : ¬t.val = 0) : outsAt0 V c t.val t.isLt = atD V c t h0 hz (outsAt0 V c (t.val - 1) (Nat.lt_of_le_of_lt (Nat.sub_le _ _) t.isLt)) := by
  obtain ⟨n, hn⟩ := t
  cases n with
  | zero => exact absurd rfl hz
  | succ n => exact (dif_pos h0).trans rfl
theorem outsAt0_E (c : Dev nD) (t : Fin cfg0.N) (hL : t.val = 15) : outsAt0 V c t.val t.isLt = atE V c t hL (outsAt0 V c (t.val - 1) (Nat.lt_of_le_of_lt (Nat.sub_le _ _) t.isLt)) := by
  obtain ⟨n, hn⟩ := t
  cases n with
  | zero => exact absurd hL (by dsimp only; omega)
  | succ n => exact (dif_neg (by dsimp only at hL ⊢; omega)).trans ((dif_pos (by dsimp only at hL ⊢; omega)).trans ((dif_pos hL).trans rfl))

/-! # The region's invariant -/

/-- Before the first point: what the launch hands over (both accumulators at anything).  Afterwards: both accumulators
    at what the point before left, the buffers the kernel never touches at some contents, the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2 ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (outsAt0 V c n hn).2.1 ∗ owns (c : Thread nD τ) scM0_1 fullShare (outsAt0 V c n hn).2.2 ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (outsAt0 V c (n - 1) (by omega)).2.1 ∗ owns (c : Thread nD τ) scM0_1 fullShare (outsAt0 V c (n - 1) (by omega)).2.2 ∗ others0 c) ∗ (∃ r, prngReg c r)) := by
  cases n with
  | zero => exact absurd rfl hz
  | succ n => rfl

/-! # The proof data -/

/-- The arrays as the region finds them; after the body each input's buffer at its block and the output's at the
    accumulation's first component; the invariant above; nothing owed.  The first and third windows read one array:
    each holds half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q w := match w with
    | ⟨0, _⟩ => fullShare.left
    | ⟨1, _⟩ => fullShare
    | ⟨2, _⟩ => fullShare.right
    | ⟨3, _⟩ => fullShare
  owed _ := 0

theorem A_eq0 (c : Dev nD) (w : Fin cfg0.W) : (dat0 V c).A w = V c (Pipeline.arrRef spec0 w) := by
  dsimp only [dat0]
theorem owed0 (c : Dev nD) (t : Fin (cfg0.N + 1)) : (dat0 V c).owed t = 0 := rfl
theorem q0_0 (c : Dev nD) : (dat0 V c).q 0 = fullShare.left := rfl
theorem q0_1 (c : Dev nD) : (dat0 V c).q 1 = fullShare := rfl
theorem q0_2 (c : Dev nD) : (dat0 V c).q 2 = fullShare.right := rfl
theorem q0_3 (c : Dev nD) : (dat0 V c).q 3 = fullShare := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- An input window's array is never written: after the region it holds what it held. -/
theorem arrAt_in0_0 (c : Dev nD) : (dat0 V c).arrAt 0 cfg0.N = V c (Pipeline.arrRef spec0 0) :=
  ((dat0 V c).arrAt_in 0 rfl _).trans (A_eq0 V c 0)
theorem arrAt_in0_1 (c : Dev nD) : (dat0 V c).arrAt 1 cfg0.N = V c (Pipeline.arrRef spec0 1) :=
  ((dat0 V c).arrAt_in 1 rfl _).trans (A_eq0 V c 1)
theorem arrAt_in0_2 (c : Dev nD) : (dat0 V c).arrAt 2 cfg0.N = V c (Pipeline.arrRef spec0 2) :=
  ((dat0 V c).arrAt_in 2 rfl _).trans (A_eq0 V c 2)
theorem arrAt_in0 (c : Dev nD) (w : Fin cfg0.W) (hw : (cfg0.win w).isOut = false) :
    (dat0 V c).arrAt w cfg0.N = V c (Pipeline.arrRef spec0 w) :=
  ((dat0 V c).arrAt_in w hw _).trans (A_eq0 V c w)

/-! # The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point.  The inputs' buffers hold their blocks; the point's number says which kind of point it is,
    and that kind's run applies: the invariant hands the body the accumulators at what the point before left (at
    anything at the first point) and takes them back at this point's contents; the output block's buffer is handed back
    untouched except at the last point, where the body's store covers it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 16 := lt_of_lt_of_eq t.isLt (show cfg0.N = 16 from N_0)
  by_cases hz : t.val = 0
  · rw [Dat.leavesExact_idle (dat0 V c) 3 t (idleAt0_3 t (caseA t hz).2.2.2) (noFlush0_3 t (caseA t hz).2.2.2)]
    rw [outsAt0_A V c t hz]
    unfold atA sout0_A_0 sout0_A_1; (try dsimp only)
    rw [PhiS0_castSucc V c t, PhiS0_zero V c _ _ hz, PhiA0_eq]
    iintro ⟨⟨⟨HS0, HS1, HR⟩, Hg⟩, Ho, ⟨%d0, H0⟩, ⟨%d1, H1⟩, ⟨%d2, H2⟩, ⟨%d3, H3⟩⟩
    iapply ((kernelRun0_A c (grid0.coords t) _ _ _ _ _ _ _ _ _ _ _ _ (caseA t hz).1 (caseA t hz).2.1 (caseA t hz).2.2.1 (caseA t hz).2.2.2 (iblk0 V c 0 t) (iblk0 V c 1 t) (iblk0 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 HR Hg]
    · isplitr [Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · by_cases h0 : t.val % 4 = 0
    · rw [Dat.leavesExact_idle (dat0 V c) 3 t (idleAt0_3 t (caseD t h0 hz).2.2.2) (noFlush0_3 t (caseD t h0 hz).2.2.2)]
      rw [outsAt0_D V c t h0 hz]
      unfold atD sout0_D_0; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_D c (grid0.coords t) _ _ _ _ _ _ _ _ _ _ _ _ (caseD t h0 hz).1 (caseD t h0 hz).2.1 (caseD t h0 hz).2.2.1 (caseD t h0 hz).2.2.2 (iblk0 V c 0 t) (iblk0 V c 1 t) (iblk0 V c 2 t)).2.2 _ _ Set.univ _)
      isplitl [H0]; · iexact H0
      isplitl [H1]; · iexact H1
      isplitl [H2]; · iexact H2
      isplitl [H3]; · iexact H3
      isplitl [HS0]; · iexists _; iexact HS0
      isplitl [HS1]; · iexact HS1
      iintro ⟨H0, H1, H2, H3, ⟨%es0, HS0⟩, HS1⟩
      isplitl [HS0 HS1 HR Hg]
      · isplitr [Hg]
        · isplitl [HS0]
          · unfold owns; iexists _; isplitr
            swap; · iexact HS0
            ipureintro; exact View.read_writes_of_cover _ _ _ _ _ (scover0_D_0 c _ _ _ _ _ _ _ _ _ _ _ _ _ _ _ _ _ _ _ _)
          isplitl [HS1]; · iexact HS1
          iexact HR
        iexact Hg
      isplitl [Ho]; · iexact Ho
      isplitl [H0]; · iexact H0
      isplitl [H1]; · iexact H1
      isplitl [H2]; · iexact H2
      iexists _; iexact H3
    · by_cases h3 : t.val % 4 = 3
      · by_cases hL : t.val = 15
        · rw [show (dat0 V c).leavesExact 3 t = owns (c : Thread nD τ) (ms0_3 t) fullShare ((dat0 V c).after 3 t) from by
            unfold Dat.leavesExact; rw [liveAt0_3 t (caseE t hL).2.2.2], after0_3]
          rw [outsAt0_E V c t hL]
          unfold atE out0_E_3 sout0_E_0 sout0_E_1; (try dsimp only)
          rw [PhiS0_castSucc V c t, PhiS0_pos V c _ _ hz]
          iintro ⟨⟨⟨HS0, HS1, HR⟩, Hg⟩, Ho, ⟨%d0, H0⟩, ⟨%d1, H1⟩, ⟨%d2, H2⟩, ⟨%d3, H3⟩⟩
          iapply ((kernelRun0_E c (grid0.coords t) _ _ _ _ _ _ _ _ _ _ _ _ (caseE t hL).1 (caseE t hL).2.1 (caseE t hL).2.2.1 (caseE t hL).2.2.2 (iblk0 V c 0 t) (iblk0 V c 1 t) (iblk0 V c 2 t) _ _).2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          iintro ⟨H0, H1, H2, ⟨%e3, H3⟩, ⟨%es0, HS0⟩, ⟨%es1, HS1⟩⟩
          isplitl [HS0 HS1 HR Hg]
          · isplitr [Hg]
            · isplitl [HS0]
              · unfold owns; iexists _; isplitr
                swap; · iexact HS0
                ipureintro; exact View.read_writes_of_cover _ _ _ _ _ (scover0_E_0 c _ _ _ _ _ _ _ _ _ _ _ _ _ _ _ _ _ _ _ _ _ _)
              isplitl [HS1]
              · unfold owns; iexists _; isplitr
                swap; · iexact HS1
                ipureintro; exact View.read_writes_of_cover _ _ _ _ _ (scover0_E_1 c _ _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_E_3 c _ _ _ _ _ _ _ _ _ _ _ _ _ _ _ _ _ _ _ _ _ _)
        · rw [Dat.leavesExact_idle (dat0 V c) 3 t (idleAt0_3 t (caseC t h3 hL).2.2.2) (noFlush0_3 t (caseC t h3 hL).2.2.2)]
          rw [outsAt0_C V c t h3 hL]
          unfold atC sout0_C_0 sout0_C_1; (try dsimp only)
          rw [PhiS0_castSucc V c t, PhiS0_pos V c _ _ hz]
          iintro ⟨⟨⟨HS0, HS1, HR⟩, Hg⟩, Ho, ⟨%d0, H0⟩, ⟨%d1, H1⟩, ⟨%d2, H2⟩, ⟨%d3, H3⟩⟩
          iapply ((kernelRun0_C c (grid0.coords t) _ _ _ _ _ _ _ _ _ _ _ _ (caseC t h3 hL).1 (caseC t h3 hL).2.1 (caseC t h3 hL).2.2.1 (caseC t h3 hL).2.2.2 (iblk0 V c 0 t) (iblk0 V c 1 t) (iblk0 V c 2 t) _ _).2.2.2 _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, ⟨%es0, HS0⟩, ⟨%es1, HS1⟩⟩
          isplitl [HS0 HS1 HR Hg]
          · isplitr [Hg]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _)
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          iexists _; iexact H3
      · rw [Dat.leavesExact_idle (dat0 V c) 3 t (idleAt0_3 t (caseB t h0 h3).2.2.2) (noFlush0_3 t (caseB t h0 h3).2.2.2)]
        rw [outsAt0_B V c t h0 h3]
        unfold atB sout0_B_0; (try dsimp only)
        rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩⟩
        iapply ((kernelRun0_B c (grid0.coords t) _ _ _ _ _ _ _ _ _ _ _ _ (caseB t h0 h3).1 (caseB t h0 h3).2.1 (caseB t h0 h3).2.2.1 (caseB t h0 h3).2.2.2 (iblk0 V c 0 t) (iblk0 V c 1 t) (iblk0 V c 2 t) _).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, HS1⟩
        isplitl [HS0 HS1 HR Hg]
        · isplitr [Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _)
            isplitl [HS1]; · iexact HS1
            iexact HR
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives back what the launch handed over: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitr [Hg]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Region

end Cert.KernelIdeal.R0

end
-- ==== Proof.R1Conds.lean ====
/-
  The second kernel region (the Laplacian total, grid 4 × 4 × 4, point t = 16·i + 4·j + k), body side: what every
  later module of the region is stated over.

  * each window's block at a point, read off the window's array as the region finds it (a parameter `V`: the
    TensorCore's buffer contents when the region is entered);
  * an input window's staging buffer holds its block at every point, fetched there or not;
  * the four conditions of the body in closed form over the point number: the first point (t = 0), the first step
    of a contraction (t % 4 = 0), its last step (t % 4 = 3), the last point (t = 63);
  * where the output window is idle and where it is written back;
  * the staging memrefs at a point, the two scratch accumulators as memrefs, and the region's resting invariant
    with the two accumulators split off from the other scoped buffers.
-/
import proofs.«169932_j86088324481669_1_alg».proof.Proof.Gen.KernelIdeal.Launch
import proofs.«169932_j86088324481669_1_alg».proof.Proof.Gen.KernelIdeal.Skeleton
import proofs.«169932_j86088324481669_1_alg».proof.Proof.Gen.KernelIdeal.Points
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions -/

/-- The first conditional's condition (all three coordinates zero), from the grid coordinates. -/
abbrev cond1_0 (i : grid1.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional's condition (the contraction coordinate is zero). -/
abbrev cond1_1 (i : grid1.Coords) : Prop :=
  (Scalar.cmpi .ne (Scalar.extui (Scalar.cmpi .eq (BitVec.ofNat 32 (i 2).val) 0#32)) 0#32) = 1#1
/-- It holds at the points ≡ 0 (mod 4). -/
theorem hcond1_1 : ∀ t : Fin cfg1.N, cond1_1 (grid1.coords t) ↔ t.val % 4 = 0 :=
  (by decide +kernel : ∀ t : Fin grid1.N, cond1_1 (grid1.coords t) ↔ t.val % 4 = 0)

/-- The third conditional's condition (the contraction coordinate is three). -/
abbrev cond1_2 (i : grid1.Coords) : Prop :=
  (Scalar.cmpi .ne (Scalar.extui (Scalar.cmpi .eq (BitVec.ofNat 32 (i 2).val) 3#32)) 0#32) = 1#1
/-- It holds at the points ≡ 3 (mod 4). -/
theorem hcond1_2 : ∀ t : Fin cfg1.N, cond1_2 (grid1.coords t) ↔ t.val % 4 = 3 :=
  (by decide +kernel : ∀ t : Fin grid1.N, cond1_2 (grid1.coords t) ↔ t.val % 4 = 3)

/-- The fourth conditional's condition (all three coordinates three). -/
abbrev cond1_3 (i : grid1.Coords) : Prop := k1_cond4 i = 1#1
/-- It holds at the last point only. -/
theorem hcond1_3 : ∀ t : Fin cfg1.N, cond1_3 (grid1.coords t) ↔ t.val = 63 :=
  (by decide +kernel : ∀ t : Fin grid1.N, cond1_3 (grid1.coords t) ↔ t.val = 63)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the last point the output window is idle: nothing is stored into it there, -/
theorem idleAt1_4 : ∀ t : Fin cfg1.N, ¬cond1_3 (grid1.coords t) → cfg1.idle 4 (grid1.coords t) = true := by decide +kernel
/-- and its block is not written back there. -/
theorem noFlush1_4 : ∀ t : Fin cfg1.N, ¬cond1_3 (grid1.coords t) → (cfg1.win 4).flush t = false := by decide +kernel
/-- At the last point it is live. -/
theorem liveAt1_4 : ∀ t : Fin cfg1.N, cond1_3 (grid1.coords t) → cfg1.idle 4 (grid1.coords t) = false := by decide +kernel

/-! ## The memrefs the body is called with -/

/-- One staging buffer of the output window, through which its contents are stated. -/
abbrev VO1_4 : View sig .tc .vmem S1x1 .f32 := (Memref.whole cc1_stg4_0 : Memref sig .tc .vmem S1x1 .f32).view
/-- Each window's current staging memref at point `t`, spelled as the pipeline passes it, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The scratch operands: the matrix accumulator and the running total, whole scoped buffers of the kernel's own. -/
abbrev scM1_0 : Memref sig .tc .vmem S1024x1024 .f32 := Memref.whole cc1_scratch0
abbrev scM1_1 : Memref sig .tc .vmem S1x1 .f32 := Memref.whole cc1_scratch1
/-- The same as views: what each holds is stated through them. -/
abbrev VS1_0 : View sig .tc .vmem S1024x1024 .f32 := scM1_0.view
abbrev VS1_1 : View sig .tc .vmem S1x1 .f32 := scM1_1.view

/-! ## The resting invariant -/

/-- The scoped buffers of the core that belong to the other kernel (its staging and scratch buffers), each whole at
    some contents: this region never touches them. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The region's resting invariant with this kernel's two accumulators as memrefs owned at some contents, beside
    the other kernel's buffers and the generator register. -/
theorem PhiA1_eq (c : Dev nD) :
    (Pipeline.ΦA spec1 c : sProp 𝕄)
      = iprop(iprop(other1 (F := F) c ∗ (∃ d, owns (c : Thread nD τ) scM1_0 fullShare d) ∗ (∃ d, owns (c : Thread nD τ) scM1_1 fullShare d)) ∗ (∃ r, prngReg c r)) := by
  have h₁ : (Pipeline.ΦA spec1 c : sProp 𝕄) ⊢ iprop(iprop(other1 (F := F) c ∗ (∃ d, owns (c : Thread nD τ) scM1_0 fullShare d) ∗ (∃ d, owns (c : Thread nD τ) scM1_1 fullShare d)) ∗ (∃ r, prngReg c r)) := by
    unfold Pipeline.ΦA; rw [scopedRest1_eq]; unfold other1; simp only [scM1_0, scM1_1, owns_whole]
    iintro ⟨⟨R0, R1, R2, R3, R4, R5, R6, R7, R8, S0, S1⟩, Hg⟩
    isplitr [Hg]
    · isplitr [S0 S1]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iexact R8
      isplitl [S0]; · iexact S0
      iexact S1
    iexact Hg
  have h₂ : iprop(iprop(other1 (F := F) c ∗ (∃ d, owns (c : Thread nD τ) scM1_0 fullShare d) ∗ (∃ d, owns (c : Thread nD τ) scM1_1 fullShare d)) ∗ (∃ r, prngReg c r)) ⊢ (Pipeline.ΦA spec1 c : sProp 𝕄) := by
    unfold Pipeline.ΦA; rw [scopedRest1_eq]; unfold other1; simp only [scM1_0, scM1_1, owns_whole]
    iintro ⟨⟨⟨R0, R1, R2, R3, R4, R5, R6, R7, R8⟩, S0, S1⟩, Hg⟩
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [S0]; · iexact S0
      iexact S1
    iexact Hg
  exact BI.equiv_iff.mp ⟨h₁, h₂⟩

end Cert.KernelIdeal.R1

end
-- ==== Proof.R1RunA.lean ====
/-
  The second kernel's body run whole in case A of its conditionals — the first point: both accumulators are cleared, then the matrix accumulator gains the point's product.
  The triple is stated on any whole memrefs: the input buffers at given contents are handed back as they were, the output's buffer, into which nothing is stored, likewise, and each accumulator
  the body stores into ends with the pieces written over what it held; the pieces are found by running the body.
-/
import proofs.«169932_j86088324481669_1_alg».proof.Proof.R1Conds

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A: the first point: both accumulators are cleared, then the matrix accumulator gains the point's product. The pieces each stored buffer ends with (last store first), with the proof that the
    body runs to the continuation holding them. -/
noncomputable def kernelRun1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) :
    Σ' (LS0 : List (View.Piece (Elt F) S1024x1024 .f32)), { LS1 : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__lap_kernel i arg3 harg3 arg4 harg4 arg5 harg5 arg6 harg6 arg7 harg7 arg8 harg8 arg9 harg9) K } := by
  refine ⟨?_, ?_, fun xi4 E K => ?run⟩
  case run =>
    simp only [cc1__lap_kernel_eq_skeleton]; unfold cc1__lap_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.KernelIdeal.R1

end
-- ==== Proof.R1RunB.lean ====
/-
  The second kernel's body run whole in case B of its conditionals — a middle step of a contraction: the matrix accumulator gains the point's product, the running total is not touched.
  The triple is stated on any whole memrefs: the input buffers at given contents are handed back as they were, the output's buffer, into which nothing is stored, likewise, and each accumulator
  the body stores into ends with the pieces written over what it held; the pieces are found by running the body.
-/
import proofs.«169932_j86088324481669_1_alg».proof.Proof.R1RunA

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B: a middle step of a contraction: the matrix accumulator gains the point's product, the running total is not touched. The pieces each stored buffer ends with (last store first), with the proof that the
    body runs to the continuation holding them. -/
noncomputable def kernelRun1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : ¬cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) :
    { LS0 : List (View.Piece (Elt F) S1024x1024 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ owns (c : Thread nD τ) arg9 fullShare xs1) -∗ K ⟨⟩))
          ⊢ wp frame (wpE (defs₀ (F := F)) Variants.none c none) E (cc1__lap_kernel i arg3 harg3 arg4 harg4 arg5 harg5 arg6 harg6 arg7 harg7 arg8 harg8 arg9 harg9) K } := by
  refine ⟨?_, fun xi4 E K => ?run⟩
  case run =>
    simp only [cc1__lap_kernel_eq_skeleton]; unfold cc1__lap_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; isplitr; · ipureintro; exact harg9.read_unread _
    iexact HS1

end Cert.KernelIdeal.R1

end
-- ==== Proof.R1RunC.lean ====
/-
  The second kernel's body run whole in case C of its conditionals — the last step of a contraction, not the last point: the matrix accumulator gains the point's product and the running total gains the tile's sum.
  The triple is stated on any whole memrefs: the input buffers at given contents are handed back as they were, the output's buffer, into which nothing is stored, likewise, and each accumulator
  the body stores into ends with the pieces written over what it held; the pieces are found by running the body.
-/
import proofs.«169932_j86088324481669_1_alg».proof.Proof.R1RunB

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C: the last step of a contraction, not the last point: the matrix accumulator gains the point's product and the running total gains the tile's sum. The pieces each stored buffer ends with (last store first), with the proof that the
    body runs to the continuation holding them. -/
noncomputable def kernelRun1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) :
    Σ' (LS0 : List (View.Piece (Elt F) S1024x1024 .f32)), { LS1 : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__lap_kernel i arg3 harg3 arg4 harg4 arg5 harg5 arg6 harg6 arg7 harg7 arg8 harg8 arg9 harg9) K } := by
  refine ⟨?_, ?_, fun xi4 E K => ?run⟩
  case run =>
    simp only [cc1__lap_kernel_eq_skeleton]; unfold cc1__lap_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.KernelIdeal.R1

end
-- ==== Proof.R1RunD.lean ====
/-
  The second kernel's body run whole in case D of its conditionals — the first step of a contraction, not the first point: the matrix accumulator is cleared and gains the point's product, the running total is not touched.
  The triple is stated on any whole memrefs: the input buffers at given contents are handed back as they were, the output's buffer, into which nothing is stored, likewise, and each accumulator
  the body stores into ends with the pieces written over what it held; the pieces are found by running the body.
-/
import proofs.«169932_j86088324481669_1_alg».proof.Proof.R1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case D: the first step of a contraction, not the first point: the matrix accumulator is cleared and gains the point's product, the running total is not touched. The pieces each stored buffer ends with (last store first), with the proof that the
    body runs to the continuation holding them. -/
noncomputable def kernelRun1_D (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) :
    { LS0 : List (View.Piece (Elt F) S1024x1024 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ owns (c : Thread nD τ) arg9 fullShare xs1) -∗ K ⟨⟩))
          ⊢ wp frame (wpE (defs₀ (F := F)) Variants.none c none) E (cc1__lap_kernel i arg3 harg3 arg4 harg4 arg5 harg5 arg6 harg6 arg7 harg7 arg8 harg8 arg9 harg9) K } := by
  refine ⟨?_, fun xi4 E K => ?run⟩
  case run =>
    simp only [cc1__lap_kernel_eq_skeleton]; unfold cc1__lap_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; isplitr; · ipureintro; exact harg9.read_unread _
    iexact HS1

end Cert.KernelIdeal.R1

end
-- ==== Proof.R1RunE.lean ====
/-
  The second kernel's body run whole in case E of its conditionals — the last point: as at the last step of a contraction, and then the output is stored from the running total.
  The triple is stated on any whole memrefs: the input buffers at given contents are handed back as they were, the output's buffer, at anything before, ends with the pieces stored into it, and each accumulator
  the body stores into ends with the pieces written over what it held; the pieces are found by running the body.
-/
import proofs.«169932_j86088324481669_1_alg».proof.Proof.R1RunD

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case E: the last point: as at the last step of a contraction, and then the output is stored from the running total. The pieces each stored buffer ends with (last store first), with the proof that the
    body runs to the continuation holding them. -/
noncomputable def kernelRun1_E (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) :
    Σ' (L4 : List (View.Piece (Elt F) S1x1 .f32)) (LS0 : List (View.Piece (Elt F) S1024x1024 .f32)), { LS1 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__lap_kernel i arg3 harg3 arg4 harg4 arg5 harg5 arg6 harg6 arg7 harg7 arg8 harg8 arg9 harg9) K } := by
  refine ⟨?_, ?_, ?_, fun E K => ?run⟩
  case run =>
    simp only [cc1__lap_kernel_eq_skeleton]; unfold cc1__lap_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg8.eq_unread hfs0; obtain rfl := harg9.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    iexists _; iexact HS1

end Cert.KernelIdeal.R1

end
-- ==== Proof.R1Body.lean ====
/-
  The second kernel region, body side: from the pieces each case's run leaves to the contents of the two
  accumulators and of the output's staging buffer after every grid point, the proof data of the region's pipeline
  at the region-entry contents `V`, and the body obligation.

  After point n the matrix accumulator and the running total hold what the case of point n makes of the point's input
  blocks and of what point n − 1 left (nothing, at the first point): the accumulation `outsAt1`.  The region's
  invariant before a point other than the first names these contents; before the first point, and once the region
  is left, it is the resting invariant with the accumulators at some contents.  The two windows that read the one
  shared array hold complementary shares of it.
-/
import proofs.«169932_j86088324481669_1_alg».proof.Proof.R1RunE

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions at a point, from the closed forms -/

theorem c0 (n : ℕ) (hn : n < cfg1.N) (h : n = 0) : cond1_0 (grid1.coords ⟨n, hn⟩) := (hcond1_0 ⟨n, hn⟩).mpr h
theorem nc0 (n : ℕ) (hn : n < cfg1.N) (h : ¬n = 0) : ¬cond1_0 (grid1.coords ⟨n, hn⟩) := fun hc => h ((hcond1_0 ⟨n, hn⟩).mp hc)
theorem c1 (n : ℕ) (hn : n < cfg1.N) (h : n % 4 = 0) : cond1_1 (grid1.coords ⟨n, hn⟩) := (hcond1_1 ⟨n, hn⟩).mpr h
theorem nc1 (n : ℕ) (hn : n < cfg1.N) (h : ¬n % 4 = 0) : ¬cond1_1 (grid1.coords ⟨n, hn⟩) := fun hc => h ((hcond1_1 ⟨n, hn⟩).mp hc)
theorem c2 (n : ℕ) (hn : n < cfg1.N) (h : n % 4 = 3) : cond1_2 (grid1.coords ⟨n, hn⟩) := (hcond1_2 ⟨n, hn⟩).mpr h
theorem nc2 (n : ℕ) (hn : n < cfg1.N) (h : ¬n % 4 = 3) : ¬cond1_2 (grid1.coords ⟨n, hn⟩) := fun hc => h ((hcond1_2 ⟨n, hn⟩).mp hc)
theorem c3 (n : ℕ) (hn : n < cfg1.N) (h : n = 63) : cond1_3 (grid1.coords ⟨n, hn⟩) := (hcond1_3 ⟨n, hn⟩).mpr h
theorem nc3 (n : ℕ) (hn : n < cfg1.N) (h : ¬n = 63) : ¬cond1_3 (grid1.coords ⟨n, hn⟩) := fun hc => h ((hcond1_3 ⟨n, hn⟩).mp hc)

/-! ## From pieces to contents, case by case -/

/-- Case A's pieces for the matrix accumulator cover it. -/
theorem scover1_A_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) (y : S1024x1024.Idx) :
    ∃ pc ∈ (kernelRun1_A c i arg3 harg3 arg4 harg4 arg5 harg5 arg6 harg6 arg7 harg7 arg8 harg8 arg9 harg9 hc0 hc1 hc2 hc3 x0 x1 x2 x3).1, y ∈ pc.1.set :=
  View.cover_of_tiledL (kernelRun1_A c i arg3 harg3 arg4 harg4 arg5 harg5 arg6 harg6 arg7 harg7 arg8 harg8 arg9 harg9 hc0 hc1 hc2 hc3 x0 x1 x2 x3).1 S1024x1024.size (by sl_kernel_rfl) y

/-- What case A leaves in the matrix accumulator: its pieces read back. -/
def sout1_A_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) : Vec F S1024x1024 .f32 :=
  VS1_0.read (Elt F) (VS1_0.writes (Elt F) VS1_0.junk (kernelRun1_A c i arg3 harg3 arg4 harg4 arg5 harg5 arg6 harg6 arg7 harg7 arg8 harg8 arg9 harg9 hc0 hc1 hc2 hc3 x0 x1 x2 x3).1)

/-- Case A's pieces for the running total cover it. -/
theorem scover1_A_1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) (y : S1x1.Idx) :
    ∃ pc ∈ (kernelRun1_A c i arg3 harg3 arg4 harg4 arg5 harg5 arg6 harg6 arg7 harg7 arg8 harg8 arg9 harg9 hc0 hc1 hc2 hc3 x0 x1 x2 x3).2.1, y ∈ pc.1.set :=
  View.cover_of_tiledL (kernelRun1_A c i arg3 harg3 arg4 harg4 arg5 harg5 arg6 harg6 arg7 harg7 arg8 harg8 arg9 harg9 hc0 hc1 hc2 hc3 x0 x1 x2 x3).2.1 S1x1.size (by sl_kernel_rfl) y

/-- What case A leaves in the running total: its pieces read back. -/
def sout1_A_1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) : Vec F S1x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 hc3 x0 x1 x2 x3).2.1)

/-- Case B's pieces for the matrix accumulator cover it. -/
theorem scover1_B_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : ¬cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) (y : S1024x1024.Idx) :
    ∃ pc ∈ (kernelRun1_B c i arg3 harg3 arg4 harg4 arg5 harg5 arg6 harg6 arg7 harg7 arg8 harg8 arg9 harg9 hc0 hc1 hc2 hc3 x0 x1 x2 x3 xs0 xs1).1, y ∈ pc.1.set :=
  View.cover_of_tiledL (kernelRun1_B c i arg3 harg3 arg4 harg4 arg5 harg5 arg6 harg6 arg7 harg7 arg8 harg8 arg9 harg9 hc0 hc1 hc2 hc3 x0 x1 x2 x3 xs0 xs1).1 S1024x1024.size (by sl_kernel_rfl) y

/-- What case B leaves in the matrix accumulator: its pieces read back. -/
def sout1_B_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : ¬cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) : Vec F S1024x1024 .f32 :=
  VS1_0.read (Elt F) (VS1_0.writes (Elt F) VS1_0.junk (kernelRun1_B c i arg3 harg3 arg4 harg4 arg5 harg5 arg6 harg6 arg7 harg7 arg8 harg8 arg9 harg9 hc0 hc1 hc2 hc3 x0 x1 x2 x3 xs0 xs1).1)

/-- Case C's pieces for the matrix accumulator cover it. -/
theorem scover1_C_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) (y : S1024x1024.Idx) :
    ∃ pc ∈ (kernelRun1_C c i arg3 harg3 arg4 harg4 arg5 harg5 arg6 harg6 arg7 harg7 arg8 harg8 arg9 harg9 hc0 hc1 hc2 hc3 x0 x1 x2 x3 xs0 xs1).1, y ∈ pc.1.set :=
  View.cover_of_tiledL (kernelRun1_C c i arg3 harg3 arg4 harg4 arg5 harg5 arg6 harg6 arg7 harg7 arg8 harg8 arg9 harg9 hc0 hc1 hc2 hc3 x0 x1 x2 x3 xs0 xs1).1 S1024x1024.size (by sl_kernel_rfl) y

/-- What case C leaves in the matrix accumulator: its pieces read back. -/
def sout1_C_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) : Vec F S1024x1024 .f32 :=
  VS1_0.read (Elt F) (VS1_0.writes (Elt F) VS1_0.junk (kernelRun1_C c i arg3 harg3 arg4 harg4 arg5 harg5 arg6 harg6 arg7 harg7 arg8 harg8 arg9 harg9 hc0 hc1 hc2 hc3 x0 x1 x2 x3 xs0 xs1).1)

/-- Case C's pieces for the running total cover it. -/
theorem scover1_C_1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) (y : S1x1.Idx) :
    ∃ pc ∈ (kernelRun1_C c i arg3 harg3 arg4 harg4 arg5 harg5 arg6 harg6 arg7 harg7 arg8 harg8 arg9 harg9 hc0 hc1 hc2 hc3 x0 x1 x2 x3 xs0 xs1).2.1, y ∈ pc.1.set :=
  View.cover_of_tiledL (kernelRun1_C c i arg3 harg3 arg4 harg4 arg5 harg5 arg6 harg6 arg7 harg7 arg8 harg8 arg9 harg9 hc0 hc1 hc2 hc3 x0 x1 x2 x3 xs0 xs1).2.1 S1x1.size (by sl_kernel_rfl) y

/-- What case C leaves in the running total: its pieces read back. -/
def sout1_C_1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) : Vec F S1x1 .f32 :=
  VS1_1.read (Elt F) (VS1_1.writes (Elt F) VS1_1.junk (kernelRun1_C c i arg3 harg3 arg4 harg4 arg5 harg5 arg6 harg6 arg7 harg7 arg8 harg8 arg9 harg9 hc0 hc1 hc2 hc3 x0 x1 x2 x3 xs0 xs1).2.1)

/-- Case D's pieces for the matrix accumulator cover it. -/
theorem scover1_D_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) (y : S1024x1024.Idx) :
    ∃ pc ∈ (kernelRun1_D c i arg3 harg3 arg4 harg4 arg5 harg5 arg6 harg6 arg7 harg7 arg8 harg8 arg9 harg9 hc0 hc1 hc2 hc3 x0 x1 x2 x3 xs0 xs1).1, y ∈ pc.1.set :=
  View.cover_of_tiledL (kernelRun1_D c i arg3 harg3 arg4 harg4 arg5 harg5 arg6 harg6 arg7 harg7 arg8 harg8 arg9 harg9 hc0 hc1 hc2 hc3 x0 x1 x2 x3 xs0 xs1).1 S1024x1024.size (by sl_kernel_rfl) y

/-- What case D leaves in the matrix accumulator: its pieces read back. -/
def sout1_D_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) : Vec F S1024x1024 .f32 :=
  VS1_0.read (Elt F) (VS1_0.writes (Elt F) VS1_0.junk (kernelRun1_D c i arg3 harg3 arg4 harg4 arg5 harg5 arg6 harg6 arg7 harg7 arg8 harg8 arg9 harg9 hc0 hc1 hc2 hc3 x0 x1 x2 x3 xs0 xs1).1)

/-- Case E's pieces for the matrix accumulator cover it. -/
theorem scover1_E_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) (y : S1024x1024.Idx) :
    ∃ pc ∈ (kernelRun1_E c i arg3 harg3 arg4 harg4 arg5 harg5 arg6 harg6 arg7 harg7 arg8 harg8 arg9 harg9 hc0 hc1 hc2 hc3 x0 x1 x2 x3 xs0 xs1).2.1, y ∈ pc.1.set :=
  View.cover_of_tiledL (kernelRun1_E c i arg3 harg3 arg4 harg4 arg5 harg5 arg6 harg6 arg7 harg7 arg8 harg8 arg9 harg9 hc0 hc1 hc2 hc3 x0 x1 x2 x3 xs0 xs1).2.1 S1024x1024.size (by sl_kernel_rfl) y

/-- What case E leaves in the matrix accumulator: its pieces read back. -/
def sout1_E_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) : Vec F S1024x1024 .f32 :=
  VS1_0.read (Elt F) (VS1_0.writes (Elt F) VS1_0.junk (kernelRun1_E c i arg3 harg3 arg4 harg4 arg5 harg5 arg6 harg6 arg7 harg7 arg8 harg8 arg9 harg9 hc0 hc1 hc2 hc3 x0 x1 x2 x3 xs0 xs1).2.1)

/-- Case E's pieces for the running total cover it. -/
theorem scover1_E_1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) (y : S1x1.Idx) :
    ∃ pc ∈ (kernelRun1_E c i arg3 harg3 arg4 harg4 arg5 harg5 arg6 harg6 arg7 harg7 arg8 harg8 arg9 harg9 hc0 hc1 hc2 hc3 x0 x1 x2 x3 xs0 xs1).2.2.1, y ∈ pc.1.set :=
  View.cover_of_tiledL (kernelRun1_E c i arg3 harg3 arg4 harg4 arg5 harg5 arg6 harg6 arg7 harg7 arg8 harg8 arg9 harg9 hc0 hc1 hc2 hc3 x0 x1 x2 x3 xs0 xs1).2.2.1 S1x1.size (by sl_kernel_rfl) y

/-- What case E leaves in the running total: its pieces read back. -/
def sout1_E_1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) : Vec F S1x1 .f32 :=
  VS1_1.read (Elt F) (VS1_1.writes (Elt F) VS1_1.junk (kernelRun1_E c i arg3 harg3 arg4 harg4 arg5 harg5 arg6 harg6 arg7 harg7 arg8 harg8 arg9 harg9 hc0 hc1 hc2 hc3 x0 x1 x2 x3 xs0 xs1).2.2.1)

/-- Case E's pieces for the output's block cover it. -/
theorem cover1_E_4 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) (y : S1x1.Idx) :
    ∃ pc ∈ (kernelRun1_E c i arg3 harg3 arg4 harg4 arg5 harg5 arg6 harg6 arg7 harg7 arg8 harg8 arg9 harg9 hc0 hc1 hc2 hc3 x0 x1 x2 x3 xs0 xs1).1, y ∈ pc.1.set :=
  View.cover_of_tiledL (kernelRun1_E c i arg3 harg3 arg4 harg4 arg5 harg5 arg6 harg6 arg7 harg7 arg8 harg8 arg9 harg9 hc0 hc1 hc2 hc3 x0 x1 x2 x3 xs0 xs1).1 S1x1.size (by sl_kernel_rfl) y

/-- What case E leaves in the output's staging buffer: its pieces read back. -/
def out1_E_4 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) : Vec F S1x1 .f32 :=
  VO1_4.read (Elt F) (VO1_4.writes (Elt F) VO1_4.junk (kernelRun1_E c i arg3 harg3 arg4 harg4 arg5 harg5 arg6 harg6 arg7 harg7 arg8 harg8 arg9 harg9 hc0 hc1 hc2 hc3 x0 x1 x2 x3 xs0 xs1).1)

section
variable (V : (c : Dev nD) → (b : Ref sig .tc) → Buf (Elt F) ((c : Thread nD τ).loc b))

/-! ## What the accumulators and the output's buffer hold after each point -/

/-- THE ACCUMULATION. After the body at point `n`: the output's staging buffer, the matrix accumulator, the running
    total.  The case the closed forms select at `n` is run at the point's memrefs and input blocks, over what point
    `n - 1` left in the two accumulators; a case that does not store into the running total leaves it as it was.  The
    output's component is read only at the last point (elsewhere the window is idle and a placeholder stands there). -/
def outsAt1 (c : Dev nD) : (n : ℕ) → n < cfg1.N → Vec F S1x1 .f32 × Vec F S1024x1024 .f32 × Vec F S1x1 .f32
  | 0, hn => ((VO1_4.read (Elt F) VO1_4.junk), (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) (c0 0 hn rfl) (c1 0 hn rfl) (nc2 0 hn (by decide)) (nc3 0 hn (by decide)) (iblk1 V c 0 ⟨0, hn⟩) (iblk1 V c 1 ⟨0, hn⟩) (iblk1 V c 2 ⟨0, hn⟩) (iblk1 V c 3 ⟨0, hn⟩)), (sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) (c0 0 hn rfl) (c1 0 hn rfl) (nc2 0 hn (by decide)) (nc3 0 hn (by decide)) (iblk1 V c 0 ⟨0, hn⟩) (iblk1 V c 1 ⟨0, hn⟩) (iblk1 V c 2 ⟨0, hn⟩) (iblk1 V c 3 ⟨0, hn⟩)))
  | n + 1, hn =>
    if h1 : (n + 1) % 4 = 0 then
      ((VO1_4.read (Elt F) VO1_4.junk), (sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (nc0 (n + 1) hn (Nat.succ_ne_zero n)) (c1 (n + 1) hn h1) (nc2 (n + 1) hn (by omega)) (nc3 (n + 1) hn (by omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2), (outsAt1 c n (Nat.lt_of_succ_lt hn)).2.2)
    else
      if h2 : (n + 1) % 4 = 3 then
        if h3 : n + 1 = 63 then
          ((out1_E_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (nc0 (n + 1) hn (Nat.succ_ne_zero n)) (nc1 (n + 1) hn h1) (c2 (n + 1) hn h2) (c3 (n + 1) hn h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2), (sout1_E_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (nc0 (n + 1) hn (Nat.succ_ne_zero n)) (nc1 (n + 1) hn h1) (c2 (n + 1) hn h2) (c3 (n + 1) hn h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2), (sout1_E_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (nc0 (n + 1) hn (Nat.succ_ne_zero n)) (nc1 (n + 1) hn h1) (c2 (n + 1) hn h2) (c3 (n + 1) hn h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2))
        else
          ((VO1_4.read (Elt F) VO1_4.junk), (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (nc0 (n + 1) hn (Nat.succ_ne_zero n)) (nc1 (n + 1) hn h1) (c2 (n + 1) hn h2) (nc3 (n + 1) hn h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2), (sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (nc0 (n + 1) hn (Nat.succ_ne_zero n)) (nc1 (n + 1) hn h1) (c2 (n + 1) hn h2) (nc3 (n + 1) hn h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2))
      else
        ((VO1_4.read (Elt F) VO1_4.junk), (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (nc0 (n + 1) hn (Nat.succ_ne_zero n)) (nc1 (n + 1) hn h1) (nc2 (n + 1) hn h2) (nc3 (n + 1) hn (by omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2), (outsAt1 c n (Nat.lt_of_succ_lt hn)).2.2)

/-- `outsAt1` at the first point: that case's contents. -/
theorem outsAt1_A (c : Dev nD) (t : Fin cfg1.N) (h0 : t.val = 0) :
    outsAt1 V c t.val t.isLt = ((VO1_4.read (Elt F) VO1_4.junk), (sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (c0 t.val t.isLt h0) (c1 t.val t.isLt (by omega)) (nc2 t.val t.isLt (by omega)) (nc3 t.val t.isLt (by omega)) (iblk1 V c 0 t) (iblk1 V c 1 t) (iblk1 V c 2 t) (iblk1 V c 3 t)), (sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (c0 t.val t.isLt h0) (c1 t.val t.isLt (by omega)) (nc2 t.val t.isLt (by omega)) (nc3 t.val t.isLt (by omega)) (iblk1 V c 0 t) (iblk1 V c 1 t) (iblk1 V c 2 t) (iblk1 V c 3 t))) := by
  obtain ⟨n, hn⟩ := t
  cases n with
  | zero => rfl
  | succ n => exact absurd h0 (Nat.succ_ne_zero n)

/-- `outsAt1` at a middle step of a contraction: that case's contents, over what the point before left. -/
theorem outsAt1_B (c : Dev nD) (t : Fin cfg1.N) (h1 : ¬t.val % 4 = 0) (h2 : ¬t.val % 4 = 3) :
    outsAt1 V c t.val t.isLt = ((VO1_4.read (Elt F) VO1_4.junk), (sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (nc0 t.val t.isLt (by omega)) (nc1 t.val t.isLt h1) (nc2 t.val t.isLt h2) (nc3 t.val t.isLt (by omega)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2), (outsAt1 V c (t.val - 1) (Nat.lt_of_le_of_lt (Nat.sub_le _ _) t.isLt)).2.2) := by
  obtain ⟨n, hn⟩ := t
  cases n with
  | zero => exact absurd (Nat.zero_mod 4) h1
  | succ n => exact (dif_neg h1).trans ((dif_neg h2).trans rfl)

/-- `outsAt1` at the last step of a contraction, not the last point: that case's contents, over what the point before left. -/
theorem outsAt1_C (c : Dev nD) (t : Fin cfg1.N) (h1 : ¬t.val % 4 = 0) (h2 : t.val % 4 = 3) (h3 : ¬t.val = 63) :
    outsAt1 V c t.val t.isLt = ((VO1_4.read (Elt F) VO1_4.junk), (sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (nc0 t.val t.isLt (by omega)) (nc1 t.val t.isLt h1) (c2 t.val t.isLt h2) (nc3 t.val t.isLt h3) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2), (sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (nc0 t.val t.isLt (by omega)) (nc1 t.val t.isLt h1) (c2 t.val t.isLt h2) (nc3 t.val t.isLt h3) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2)) := by
  obtain ⟨n, hn⟩ := t
  cases n with
  | zero => exact absurd (Nat.zero_mod 4) h1
  | succ n => exact (dif_neg h1).trans ((dif_pos h2).trans ((dif_neg h3).trans rfl))

/-- `outsAt1` at the first step of a contraction, not the first point: that case's contents, over what the point before left. -/
theorem outsAt1_D (c : Dev nD) (t : Fin cfg1.N) (h0 : ¬t.val = 0) (h1 : t.val % 4 = 0) :
    outsAt1 V c t.val t.isLt = ((VO1_4.read (Elt F) VO1_4.junk), (sout1_D_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (nc0 t.val t.isLt h0) (c1 t.val t.isLt h1) (nc2 t.val t.isLt (by omega)) (nc3 t.val t.isLt (by omega)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2), (outsAt1 V c (t.val - 1) (Nat.lt_of_le_of_lt (Nat.sub_le _ _) t.isLt)).2.2) := by
  obtain ⟨n, hn⟩ := t
  cases n with
  | zero => exact absurd rfl h0
  | succ n => exact (dif_pos h1).trans rfl

/-- `outsAt1` at the last point: that case's contents, over what the point before left. -/
theorem outsAt1_E (c : Dev nD) (t : Fin cfg1.N) (h1 : ¬t.val % 4 = 0) (h2 : t.val % 4 = 3) (h3 : t.val = 63) :
    outsAt1 V c t.val t.isLt = ((out1_E_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (nc0 t.val t.isLt (by omega)) (nc1 t.val t.isLt h1) (c2 t.val t.isLt h2) (c3 t.val t.isLt h3) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2), (sout1_E_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (nc0 t.val t.isLt (by omega)) (nc1 t.val t.isLt h1) (c2 t.val t.isLt h2) (c3 t.val t.isLt h3) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2), (sout1_E_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (nc0 t.val t.isLt (by omega)) (nc1 t.val t.isLt h1) (c2 t.val t.isLt h2) (c3 t.val t.isLt h3) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2)) := by
  obtain ⟨n, hn⟩ := t
  cases n with
  | zero => exact absurd (Nat.zero_mod 4) h1
  | succ n => exact (dif_neg h1).trans ((dif_pos h2).trans ((dif_pos h3).trans rfl))

/-! ## The region's invariant -/

/-- Before point `n`: at the first point the resting invariant; afterwards the other kernel's buffers, the two
    accumulators at what the point before left in them, and the generator register at some state. -/
def PhiS1 (c : Dev nD) : (n : ℕ) → n ≤ cfg1.N → sProp 𝕄
  | 0, _ => Pipeline.ΦA spec1 c
  | n + 1, hn => iprop(iprop(other1 (F := F) c ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(other1 (F := F) c ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop(other1 (F := F) c ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The pipeline's proof data -/

/-- The proof data of the region's pipeline on core `c`: the arrays as the region finds them; after the body at a
    point each input's buffer at its block and the output's at the accumulation's first component; the invariant
    `PhiS1`; nothing owed; the two windows on the shared array at the two halves of the full share, every other
    window at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

/-- The proof data's arrays are the region-entry contents. -/
theorem A_eq1 (c : Dev nD) (w : Fin cfg1.W) : (dat1 V c).A w = V c (Pipeline.arrRef spec1 w) := by
  dsimp only [dat1]

/-- Nothing is owed at any point. -/
theorem owed1 (c : Dev nD) (t : Fin (cfg1.N + 1)) : (dat1 V c).owed t = 0 := rfl

/-- The shares of the two windows on the shared array, and of the others. -/
theorem q1_0 (c : Dev nD) : (dat1 V c).q 0 = fullShare := rfl
theorem q1_1 (c : Dev nD) : (dat1 V c).q 1 = fullShare.left := rfl
theorem q1_2 (c : Dev nD) : (dat1 V c).q 2 = fullShare.right := rfl
theorem q1_3 (c : Dev nD) : (dat1 V c).q 3 = fullShare := rfl
theorem q1_4 (c : Dev nD) : (dat1 V c).q 4 = fullShare := rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- An input window's array is never written: after the last point it is what the region found. -/
theorem arrAt_in1_0 (c : Dev nD) : (dat1 V c).arrAt 0 cfg1.N = V c (Pipeline.arrRef spec1 0) := ((dat1 V c).arrAt_in 0 rfl _).trans (A_eq1 V c 0)
theorem arrAt_in1_1 (c : Dev nD) : (dat1 V c).arrAt 1 cfg1.N = V c (Pipeline.arrRef spec1 1) := ((dat1 V c).arrAt_in 1 rfl _).trans (A_eq1 V c 1)
theorem arrAt_in1_2 (c : Dev nD) : (dat1 V c).arrAt 2 cfg1.N = V c (Pipeline.arrRef spec1 2) := ((dat1 V c).arrAt_in 2 rfl _).trans (A_eq1 V c 2)
theorem arrAt_in1_3 (c : Dev nD) : (dat1 V c).arrAt 3 cfg1.N = V c (Pipeline.arrRef spec1 3) := ((dat1 V c).arrAt_in 3 rfl _).trans (A_eq1 V c 3)
/-- The same for any input window. -/
theorem arrAt_in1 (c : Dev nD) (w : Fin cfg1.W) (hw : (cfg1.win w).isOut = false) :
    (dat1 V c).arrAt w cfg1.N = V c (Pipeline.arrRef spec1 w) := ((dat1 V c).arrAt_in w hw _).trans (A_eq1 V c w)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in;
    the invariant hands the body the two accumulators at what the point before left (at anything at the first
    point) and takes them back at this point's contents; away from the last point the output's buffer is handed
    back untouched, at the last point it holds the case's pieces; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h1 : t.val % 4 = 0
  · by_cases h0 : t.val = 0
    · -- the first point
      rw [Dat.leavesExact_idle (dat1 V c) 4 t (idleAt1_4 t (nc3 t.val t.isLt (by omega))) (noFlush1_4 t (nc3 t.val t.isLt (by omega)))]
      rw [outsAt1_A V c t h0]
      unfold sout1_A_0 sout1_A_1; (try dsimp only)
      rw [PhiS1_castSucc V c t, PhiS1_zero V c _ _ h0, PhiA1_eq]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ (c0 t.val t.isLt h0) (c1 t.val t.isLt (by omega)) (nc2 t.val t.isLt (by omega)) (nc3 t.val t.isLt (by omega)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1 Hg]
      · isplitr [Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · -- the first step of a contraction, not the first point
      rw [Dat.leavesExact_idle (dat1 V c) 4 t (idleAt1_4 t (nc3 t.val t.isLt (by omega))) (noFlush1_4 t (nc3 t.val t.isLt (by omega)))]
      rw [outsAt1_D V c t h0 h1]
      unfold sout1_D_0; (try dsimp only)
      have hz : t.val ≠ 0 := by omega
      rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_D c (grid1.coords t) _ _ _ _ _ _ _ _ _ _ _ _ _ _ (nc0 t.val t.isLt h0) (c1 t.val t.isLt h1) (nc2 t.val t.isLt (by omega)) (nc3 t.val t.isLt (by omega)) (iblk1 V c 0 t) (iblk1 V c 1 t) (iblk1 V c 2 t) (iblk1 V c 3 t) _ _).2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, HS1⟩
      isplitl [HR HS0 HS1 Hg]
      · isplitr [Hg]
        · isplitl [HR]; · iexact HR
          isplitl [HS0]
          · unfold owns; iexists _; isplitr
            swap; · iexact HS0
            ipureintro; exact View.read_writes_of_cover _ _ _ _ _ (scover1_D_0 c _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      iexists _; iexact H4
  · by_cases h2 : t.val % 4 = 3
    · by_cases h3 : t.val = 63
      · -- the last point
        rw [show (dat1 V c).leavesExact 4 t = owns (c : Thread nD τ) (ms1_4 t) fullShare ((dat1 V c).after 4 t) from by
          unfold Dat.leavesExact; rw [liveAt1_4 t (c3 t.val t.isLt h3)], after1_4]
        rw [outsAt1_E V c t h1 h2 h3]
        unfold sout1_E_0 sout1_E_1 out1_E_4; (try dsimp only)
        have hz : t.val ≠ 0 := by omega
        rw [PhiS1_castSucc V c t, PhiS1_pos V c _ _ hz]
        iintro ⟨⟨⟨HR, HS0, HS1⟩, Hg⟩, Ho, ⟨%d0, H0⟩, ⟨%d1, H1⟩, ⟨%d2, H2⟩, ⟨%d3, H3⟩, ⟨%d4, H4⟩⟩
        iapply ((kernelRun1_E c (grid1.coords t) _ _ _ _ _ _ _ _ _ _ _ _ _ _ (nc0 t.val t.isLt (by omega)) (nc1 t.val t.isLt h1) (c2 t.val t.isLt h2) (c3 t.val t.isLt h3) (iblk1 V c 0 t) (iblk1 V c 1 t) (iblk1 V c 2 t) (iblk1 V c 3 t) _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [HR HS0 HS1 Hg]
        · isplitr [Hg]
          · isplitl [HR]; · iexact HR
            isplitl [HS0]
            · unfold owns; iexists _; isplitr
              swap; · iexact HS0
              ipureintro; exact View.read_writes_of_cover _ _ _ _ _ (scover1_E_0 c _ _ _ _ _ _ _ _ _ _ _ _ _ _ _ _ _ _ _ _ _ _ _ _ _)
            unfold owns; iexists _; isplitr
            swap; · iexact HS1
            ipureintro; exact View.read_writes_of_cover _ _ _ _ _ (scover1_E_1 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_E_4 c _ _ _ _ _ _ _ _ _ _ _ _ _ _ _ _ _ _ _ _ _ _ _ _ _)
      · -- the last step of a contraction, not the last point
        rw [Dat.leavesExact_idle (dat1 V c) 4 t (idleAt1_4 t (nc3 t.val t.isLt h3)) (noFlush1_4 t (nc3 t.val t.isLt h3))]
        rw [outsAt1_C V c t h1 h2 h3]
        unfold sout1_C_0 sout1_C_1; (try dsimp only)
        have hz : t.val ≠ 0 := by omega
        rw [PhiS1_castSucc V c t, PhiS1_pos V c _ _ hz]
        iintro ⟨⟨⟨HR, HS0, HS1⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ (nc0 t.val t.isLt (by omega)) (nc1 t.val t.isLt h1) (c2 t.val t.isLt h2) (nc3 t.val t.isLt h3) (iblk1 V c 0 t) (iblk1 V c 1 t) (iblk1 V c 2 t) (iblk1 V c 3 t) _ _).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HR HS0 HS1 Hg]
        · isplitr [Hg]
          · isplitl [HR]; · iexact HR
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
    · -- a middle step of a contraction
      rw [Dat.leavesExact_idle (dat1 V c) 4 t (idleAt1_4 t (nc3 t.val t.isLt (by omega))) (noFlush1_4 t (nc3 t.val t.isLt (by omega)))]
      rw [outsAt1_B V c t h1 h2]
      unfold sout1_B_0; (try dsimp only)
      have hz : t.val ≠ 0 := by omega
      rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ (nc0 t.val t.isLt (by omega)) (nc1 t.val t.isLt h1) (nc2 t.val t.isLt h2) (nc3 t.val t.isLt (by omega)) (iblk1 V c 0 t) (iblk1 V c 1 t) (iblk1 V c 2 t) (iblk1 V c 3 t) _ _).2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, HS1⟩
      isplitl [HR HS0 HS1 Hg]
      · isplitr [Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the resting invariant back: the accumulators' named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1⟩, Hg⟩
  isplitr [Hg]
  · isplitl [HR]; · iexact HR
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end

end Cert.KernelIdeal.R1

end
-- ==== Proof.Bodies.lean ====
/-
  The two regions' body sides, as the records the run is stated over: the first kernel's proof data with its two
  windows on the feature matrix at the two halves, the second kernel's with its two windows on the weight matrix at
  the two halves; each with its body obligation and its invariant's entry and exit.
-/
import proofs.«169932_j86088324481669_1_alg».proof.Proof.Gen.KernelIdeal.Launch
import proofs.«169932_j86088324481669_1_alg».proof.Proof.Gen.KernelIdeal.Skeleton
import proofs.«169932_j86088324481669_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169932_j86088324481669_1_alg».proof.Proof.RunDefs
import proofs.«169932_j86088324481669_1_alg».proof.Proof.R0Body
import proofs.«169932_j86088324481669_1_alg».proof.Proof.R1Body
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first kernel's body side. -/
def body0 : Body0 F where
  dat V c := R0.dat0 V c
  hA := R0.A_eq0
  hq0 _ _ := rfl
  hq1 _ _ := rfl
  hq2 _ _ := rfl
  howed := R0.owed0
  hrec _ _ _ := rfl
  hbody := R0.body_obligation0
  hin := R0.hin0
  hout := R0.hout0

/-- The second kernel's body side. -/
def body1 : Body1 F where
  dat V c := R1.dat1 V c
  hA := R1.A_eq1
  hq0 _ _ := rfl
  hq1 _ _ := rfl
  hq2 _ _ := rfl
  hq3 _ _ := rfl
  howed := R1.owed1
  hrec _ _ _ := rfl
  hbody := R1.body_obligation1
  hin := R1.hin1
  hout := R1.hout1

end Cert.KernelIdeal.Run

end
-- ==== Proof.EndsArgs.lean ====
import proofs.«169932_j86088324481669_1_alg».proof.Proof.RunDefs

/-
  What no line and no region of @main writes keeps its contents.

  @main is: a first stretch of host lines; the first region, which writes its one-element output array and nothing
  else; a second stretch (a reshape of that output, a constant, a quotient, a reshape of the degree vector); the second
  region, which writes its own one-element output array; a last reshape.  A buffer that is none of the seven buffers
  written after the first stretch holds at the end what it held when the first region was entered; an argument is not
  written by the first stretch either, so it ends at its launch contents.
-/

set_option maxRecDepth 16384

noncomputable section

namespace Cert.KernelIdeal.Ends

open Idealize.ShloMosaic Idealize.ShloMosaic.TcCoe Idealize.SL.Sem
open Cert.KernelIdeal Cert.KernelIdeal.Gen Cert.KernelIdeal.Run

variable {F : FTy → Type} [FloatOps F] (B0 : Body0 F) (B1 : Body1 F)
variable (m : (ℓ : Loc nD τ sig) → Buf (Elt F) ℓ) (ρ : Dev nD → PrngReg)

/-- Closes "no operation of the literal stretch writes the literal reference": the stretch's written buffers one by
    one, each a different reference. -/
macro "stretch_keeps " ops:ident : tactic => `(tactic| (
  refine List.forall_iff_forall_mem.mp ?_
  simp only [$ops:ident, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- A buffer the second stretch does not write and that is not the first region's output enters the second region
    as it entered the first. -/
theorem W3_eq_W1 (c : Dev nD) (b : Ref sig .tc) (h53 : b ≠ main_v53) (h17 : b ≠ main_cst_17) (h54 : b ≠ main_v54)
    (h55 : b ≠ main_v55) (h52 : b ≠ main_v52) :
    W3 B0 m ρ c (Proc.devRef .tc b) = W1 m ρ c (Proc.devRef .tc b) :=
  (StableHlo.after_of_forall_not_mem (b := Proc.devRef .tc b) _ _ (List.forall_iff_forall_mem.mp (by
    simp only [hostOps1, List.Forall, StableHlo.nullary_writes, StableHlo.binary_writes, StableHlo.reshape_writes,
      Finset.mem_singleton]
    exact ⟨StableHlo.devRef_ne_of_ne h53, StableHlo.devRef_ne_of_ne h17, StableHlo.devRef_ne_of_ne h54,
      StableHlo.devRef_ne_of_ne h55⟩))).trans (W2_of_ne B0 m ρ c b h52)

/-- A buffer the last line does not write and that is not the second region's output ends as it entered the second
    region. -/
theorem W5_eq_W3 (c : Dev nD) (b : Ref sig .tc) (h57 : b ≠ main_v57) (h56 : b ≠ main_v56) :
    W5 B0 B1 m ρ c (Proc.devRef .tc b) = W3 B0 m ρ c (Proc.devRef .tc b) :=
  (StableHlo.after_of_forall_not_mem (b := Proc.devRef .tc b) _ _ (List.forall_iff_forall_mem.mp (by
    simp only [hostOps2, List.Forall, StableHlo.reshape_writes, Finset.mem_singleton]
    exact StableHlo.devRef_ne_of_ne h57))).trans (W4_of_ne B0 B1 m ρ c b h56)

/-- A buffer written by nothing after the first stretch ends as it entered the first region. -/
theorem W5_eq_W1 (c : Dev nD) (b : Ref sig .tc) (h57 : b ≠ main_v57) (h56 : b ≠ main_v56) (h53 : b ≠ main_v53)
    (h17 : b ≠ main_cst_17) (h54 : b ≠ main_v54) (h55 : b ≠ main_v55) (h52 : b ≠ main_v52) :
    W5 B0 B1 m ρ c (Proc.devRef .tc b) = W1 m ρ c (Proc.devRef .tc b) :=
  (W5_eq_W3 B0 B1 m ρ c b h57 h56).trans (W3_eq_W1 B0 m ρ c b h53 h17 h54 h55 h52)

/-- Argument 0 is at its launch contents when the first region is entered. -/
theorem W1_arg0 (c : Dev nD) : W1 m ρ c (Proc.devRef .tc main_arg0) = m ((c : Thread nD τ).loc main_arg0) :=
  (StableHlo.after_of_forall_not_mem (b := Proc.devRef .tc main_arg0) _ _ (by stretch_keeps hostOps0)).trans rfl

/-- Argument 0 ends at its launch contents. -/
theorem W5_arg0 (c : Dev nD) : W5 B0 B1 m ρ c (Proc.devRef .tc main_arg0) = m ((c : Thread nD τ).loc main_arg0) :=
  (W5_eq_W1 B0 B1 m ρ c main_arg0 (by decide) (by decide) (by decide) (by decide) (by decide) (by decide) (by decide)).trans
    (W1_arg0 m ρ c)

/-- Argument 1 is at its launch contents when the first region is entered. -/
theorem W1_arg1 (c : Dev nD) : W1 m ρ c (Proc.devRef .tc main_arg1) = m ((c : Thread nD τ).loc main_arg1) :=
  (StableHlo.after_of_forall_not_mem (b := Proc.devRef .tc main_arg1) _ _ (by stretch_keeps hostOps0)).trans rfl

/-- Argument 1 ends at its launch contents. -/
theorem W5_arg1 (c : Dev nD) : W5 B0 B1 m ρ c (Proc.devRef .tc main_arg1) = m ((c : Thread nD τ).loc main_arg1) :=
  (W5_eq_W1 B0 B1 m ρ c main_arg1 (by decide) (by decide) (by decide) (by decide) (by decide) (by decide) (by decide)).trans
    (W1_arg1 m ρ c)

/-- Argument 2 is at its launch contents when the first region is entered. -/
theorem W1_arg2 (c : Dev nD) : W1 m ρ c (Proc.devRef .tc main_arg2) = m ((c : Thread nD τ).loc main_arg2) :=
  (StableHlo.after_of_forall_not_mem (b := Proc.devRef .tc main_arg2) _ _ (by stretch_keeps hostOps0)).trans rfl

/-- Argument 2 ends at its launch contents. -/
theorem W5_arg2 (c : Dev nD) : W5 B0 B1 m ρ c (Proc.devRef .tc main_arg2) = m ((c : Thread nD τ).loc main_arg2) :=
  (W5_eq_W1 B0 B1 m ρ c main_arg2 (by decide) (by decide) (by decide) (by decide) (by decide) (by decide) (by decide)).trans
    (W1_arg2 m ρ c)

/-- Argument 3 is at its launch contents when the first region is entered. -/
theorem W1_arg3 (c : Dev nD) : W1 m ρ c (Proc.devRef .tc main_arg3) = m ((c : Thread nD τ).loc main_arg3) :=
  (StableHlo.after_of_forall_not_mem (b := Proc.devRef .tc main_arg3) _ _ (by stretch_keeps hostOps0)).trans rfl

/-- Argument 3 ends at its launch contents. -/
theorem W5_arg3 (c : Dev nD) : W5 B0 B1 m ρ c (Proc.devRef .tc main_arg3) = m ((c : Thread nD τ).loc main_arg3) :=
  (W5_eq_W1 B0 B1 m ρ c main_arg3 (by decide) (by decide) (by decide) (by decide) (by decide) (by decide) (by decide)).trans
    (W1_arg3 m ρ c)

/-- Argument 4 is at its launch contents when the first region is entered. -/
theorem W1_arg4 (c : Dev nD) : W1 m ρ c (Proc.devRef .tc main_arg4) = m ((c : Thread nD τ).loc main_arg4) :=
  (StableHlo.after_of_forall_not_mem (b := Proc.devRef .tc main_arg4) _ _ (by stretch_keeps hostOps0)).trans rfl

/-- Argument 4 ends at its launch contents. -/
theorem W5_arg4 (c : Dev nD) : W5 B0 B1 m ρ c (Proc.devRef .tc main_arg4) = m ((c : Thread nD τ).loc main_arg4) :=
  (W5_eq_W1 B0 B1 m ρ c main_arg4 (by decide) (by decide) (by decide) (by decide) (by decide) (by decide) (by decide)).trans
    (W1_arg4 m ρ c)

end Cert.KernelIdeal.Ends

end
-- ==== Proof.EndsEntry.lean ====
import proofs.«169932_j86088324481669_1_alg».proof.Proof.RunDefs
import proofs.«169932_j86088324481669_1_alg».proof.Proof.EndsArgs
import Idealize.ShloMosaic.Lib.Pipeline.Value
import Idealize.ShloMosaic.Lib.ValueIdx

/-
  What each region finds at the arrays it reads, and what the first stretch leaves in the regularization result,
  as terms of the launch memory.

  The first stretch builds, from the edge list and the edge values: the normalized edge values (each value divided by
  its column's total plus a small constant), the weight matrix C (their scatter-add into a zero 4096 × 4096 array),
  the adjacency matrix A (a scatter of ones at the same positions), and the regularization result (the sum of the
  squared normalized values, times one).  Nothing after the first stretch writes C, A or that result; the degree
  vector reaches the second region reshaped to a 4096 × 1 column.
-/

set_option maxRecDepth 16384

noncomputable section

namespace Cert.KernelIdeal.Ends

open Idealize.ShloMosaic Idealize.ShloMosaic.TcCoe Idealize.SL.Sem
open Cert.KernelIdeal Cert.KernelIdeal.Gen Cert.KernelIdeal.Run

variable {F : FTy → Type} [FloatOps F] (B0 : Body0 F) (B1 : Body1 F)
variable (m : (ℓ : Loc nD τ sig) → Buf (Elt F) ℓ) (ρ : Dev nD → PrngReg)

open Idealize.ShloMosaic.ValueIdx

/-- The normalized edge values. -/
def valsk (c : Dev nD) : FVec F S130510 .f32 :=
  Host.divf (m ((c.tc : Thread nD τ).loc main_arg1)) (Host.gather gather_S4096_S130510x1_S130510_n_0_n_n_0_1_1 (addf (Host.scatterAdd scatter_S4096_S130510x1_S130510_n_0_0_1 (broadcastInDim S4096 ![] bcast_S_S4096 (constant S_ .f32 0x00000000#32)) (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3)))) (m ((c.tc : Thread nD τ).loc main_arg1))) (broadcastInDim S4096 ![] bcast_S_S4096 (constant S_ .f32 0x322BCC77#32))) (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3)))))

/-- The weight matrix C: the scatter-add of the normalized edge values. -/
def Ck (c : Dev nD) : FVec F S4096x4096 .f32 :=
  Host.scatterAdd scatter_S4096x4096_S130510x2_S130510_n_01_01_1 (broadcastInDim S4096x4096 ![] bcast_S_S4096x4096 (constant S_ .f32 0x00000000#32)) (concatenate S130510x2 1 [⟨S130510x1, (broadcastInDim S130510x1 ![0] bcast_S130510_S130510x1_0 (select (cmpi .slt (m ((c.tc : Thread nD τ).loc main_arg2)) (broadcastInDim S130510 ![] bcast_S_S130510 (constantI S_ 32 0#32))) (addi (m ((c.tc : Thread nD τ).loc main_arg2)) (broadcastInDim S130510 ![] bcast_S_S130510 (constantI S_ 32 4096#32))) (m ((c.tc : Thread nD τ).loc main_arg2))))⟩, ⟨S130510x1, (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3))))⟩] concatenates_S130510x1_S130510x1_S130510x2_d1) (Host.divf (m ((c.tc : Thread nD τ).loc main_arg1)) (Host.gather gather_S4096_S130510x1_S130510_n_0_n_n_0_1_1 (addf (Host.scatterAdd scatter_S4096_S130510x1_S130510_n_0_0_1 (broadcastInDim S4096 ![] bcast_S_S4096 (constant S_ .f32 0x00000000#32)) (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3)))) (m ((c.tc : Thread nD τ).loc main_arg1))) (broadcastInDim S4096 ![] bcast_S_S4096 (constant S_ .f32 0x322BCC77#32))) (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3))))))

/-- The adjacency matrix A: the scatter of ones at the edge positions. -/
def Ak (c : Dev nD) : FVec F S4096x4096 .f32 :=
  Host.scatter scatter_S4096x4096_S130510x2_S130510_n_01_01_1 (fun _ b => b) (broadcastInDim S4096x4096 ![] bcast_S_S4096x4096 (constant S_ .f32 0x00000000#32)) (concatenate S130510x2 1 [⟨S130510x1, (broadcastInDim S130510x1 ![0] bcast_S130510_S130510x1_0 (select (cmpi .slt (m ((c.tc : Thread nD τ).loc main_arg2)) (broadcastInDim S130510 ![] bcast_S_S130510 (constantI S_ 32 0#32))) (addi (m ((c.tc : Thread nD τ).loc main_arg2)) (broadcastInDim S130510 ![] bcast_S_S130510 (constantI S_ 32 4096#32))) (m ((c.tc : Thread nD τ).loc main_arg2))))⟩, ⟨S130510x1, (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3))))⟩] concatenates_S130510x1_S130510x1_S130510x2_d1) (broadcastInDim S130510 ![] bcast_S_S130510 (constant S_ .f32 0x3F800000#32))

/-- The regularization result: one times the sum of the squared normalized edge values. -/
def regk (c : Dev nD) : FVec F S_ .f32 :=
  mulf (constant S_ .f32 0x3F800000#32) (Host.reduceAdd (mulf (Host.divf (m ((c.tc : Thread nD τ).loc main_arg1)) (Host.gather gather_S4096_S130510x1_S130510_n_0_n_n_0_1_1 (addf (Host.scatterAdd scatter_S4096_S130510x1_S130510_n_0_0_1 (broadcastInDim S4096 ![] bcast_S_S4096 (constant S_ .f32 0x00000000#32)) (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3)))) (m ((c.tc : Thread nD τ).loc main_arg1))) (broadcastInDim S4096 ![] bcast_S_S4096 (constant S_ .f32 0x322BCC77#32))) (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3)))))) (Host.divf (m ((c.tc : Thread nD τ).loc main_arg1)) (Host.gather gather_S4096_S130510x1_S130510_n_0_n_n_0_1_1 (addf (Host.scatterAdd scatter_S4096_S130510x1_S130510_n_0_0_1 (broadcastInDim S4096 ![] bcast_S_S4096 (constant S_ .f32 0x00000000#32)) (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3)))) (m ((c.tc : Thread nD τ).loc main_arg1))) (broadcastInDim S4096 ![] bcast_S_S4096 (constant S_ .f32 0x322BCC77#32))) (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3))))))) (constant S_ .f32 0x00000000#32) reducesTo_S130510_S_d0 h_S_)

/-- The feature matrix enters the first region at its launch contents. -/
theorem V1_arg0 (c : Dev nD) : V1 m ρ c main_arg0 = m ((c : Thread nD τ).loc main_arg0) := W1_arg0 m ρ c

set_option maxHeartbeats 4000000 in
/-- The first region finds C in its second array. -/
theorem V1_v32 (c : Dev nD) : V1 m ρ c main_v32 = Ck m c := by
  show StableHlo.after hostOps0 (W0 m ρ c) (Proc.devRef .tc main_v32) = _
  after_results_simp <;> rfl

set_option maxHeartbeats 4000000 in
/-- The first stretch leaves A in its buffer. -/
theorem V1_v48 (c : Dev nD) : V1 m ρ c main_v48 = Ak m c := by
  show StableHlo.after hostOps0 (W0 m ρ c) (Proc.devRef .tc main_v48) = _
  after_results_simp <;> rfl

set_option maxHeartbeats 4000000 in
/-- The first stretch leaves the regularization result in its buffer. -/
theorem V1_v51 (c : Dev nD) : V1 m ρ c main_v51 = regk m c := by
  show StableHlo.after hostOps0 (W0 m ρ c) (Proc.devRef .tc main_v51) = _
  after_results_simp <;> rfl

/-- The second region finds C in its weight arrays. -/
theorem V3_v32 (c : Dev nD) : V3 B0 m ρ c main_v32 = Ck m c :=
  (W3_eq_W1 B0 m ρ c main_v32 (by decide) (by decide) (by decide) (by decide) (by decide)).trans (V1_v32 m ρ c)

/-- The second region finds A in its adjacency array. -/
theorem V3_v48 (c : Dev nD) : V3 B0 m ρ c main_v48 = Ak m c :=
  (W3_eq_W1 B0 m ρ c main_v48 (by decide) (by decide) (by decide) (by decide) (by decide)).trans (V1_v48 m ρ c)

/-- The second region finds the degree vector as a 4096 × 1 column. -/
theorem V3_v55 (c : Dev nD) :
    V3 B0 m ρ c main_v55 = shapeCast S4096x1 (m ((c : Thread nD τ).loc main_arg4)) shapeCasts_S4096_S4096x1 := by
  show StableHlo.after hostOps1 (W2 B0 m ρ c) (Proc.devRef .tc main_v55) = _
  after_results
  rw [W2_of_ne B0 m ρ c main_arg4 (by decide), W1_arg4 m ρ c]
  rfl

/-- The degree column at row r is the degree of r. -/
theorem V3_v55_apply (c : Dev nD) (r : Fin 4096) :
    (V3 B0 m ρ c main_v55) (ix2 r (0 : Fin 1)) = m ((c : Thread nD τ).loc main_arg4) (ix1 r) := by
  rw [V3_v55]
  exact shapeCast_apply _ shapeCasts_S4096_S4096x1 _ _ (by
    rw [Shape.rowMajor_val_one, Shape.rowMajor_val_two]
    show r.val = r.val * 1 + 0
    omega)

end Cert.KernelIdeal.Ends

end
-- ==== Proof.Ends.lean ====
import proofs.«169932_j86088324481669_1_alg».proof.Proof.RunDefs
import proofs.«169932_j86088324481669_1_alg».proof.Proof.EndsArgs
import proofs.«169932_j86088324481669_1_alg».proof.Proof.EndsEntry
import Idealize.ShloMosaic.Lib.Pipeline.Value
import Idealize.ShloMosaic.Lib.ValueIdx

/-
  The four results at the end of @main.

  The weight matrix and the regularization result are written by the first stretch and by nothing after it.  The
  reconstruction result is the first region's one-element output, reshaped to a scalar and divided by 2²¹; the
  Laplacian result is the second region's one-element output, reshaped to a scalar.  A 1 × 1 array reshaped to a
  scalar holds its one element.
-/

set_option maxRecDepth 16384

noncomputable section

namespace Cert.KernelIdeal.Ends

open Idealize.ShloMosaic Idealize.ShloMosaic.TcCoe Idealize.SL.Sem
open Cert.KernelIdeal Cert.KernelIdeal.Gen Cert.KernelIdeal.Run

variable {F : FTy → Type} [FloatOps F] (B0 : Body0 F) (B1 : Body1 F)
variable (m : (ℓ : Loc nD τ sig) → Buf (Elt F) ℓ) (ρ : Dev nD → PrngReg)

open Idealize.ShloMosaic.ValueIdx

/-- The weight matrix ends at C. -/
theorem W5_v32 (c : Dev nD) : W5 B0 B1 m ρ c (Proc.devRef .tc main_v32) = Ck m c :=
  (W5_eq_W1 B0 B1 m ρ c main_v32 (by decide) (by decide) (by decide) (by decide) (by decide) (by decide) (by decide)).trans
    (V1_v32 m ρ c)

/-- The regularization result ends at the sum of the squared normalized edge values, times one. -/
theorem W5_v51 (c : Dev nD) : W5 B0 B1 m ρ c (Proc.devRef .tc main_v51) = regk m c :=
  (W5_eq_W1 B0 B1 m ρ c main_v51 (by decide) (by decide) (by decide) (by decide) (by decide) (by decide) (by decide)).trans
    (V1_v51 m ρ c)

/-- The reconstruction result ends at the first region's output, reshaped to a scalar, divided by 2²¹. -/
theorem W5_v54 (c : Dev nD) :
    W5 B0 B1 m ρ c (Proc.devRef .tc main_v54)
      = Host.divf (shapeCast S_ (out0 B0 m ρ c) shapeCasts_S1x1_S_) (constant S_ .f32 0x4A000000#32) := by
  refine (W5_eq_W3 B0 B1 m ρ c main_v54 (by decide) (by decide)).trans ?_
  show StableHlo.after hostOps1 (W2 B0 m ρ c) (Proc.devRef .tc main_v54) = _
  after_results
  rw [W2_out B0 m ρ c]
  rfl

/-- The Laplacian result ends at the second region's output, reshaped to a scalar. -/
theorem W5_v57 (c : Dev nD) :
    W5 B0 B1 m ρ c (Proc.devRef .tc main_v57) = shapeCast S_ (out1 B0 B1 m ρ c) shapeCasts_S1x1_S_ := by
  show StableHlo.after hostOps2 (W4 B0 B1 m ρ c) (Proc.devRef .tc main_v57) = _
  after_results
  rw [W4_out B0 B1 m ρ c]
  rfl

/-- A 1 × 1 array reshaped to a scalar holds its one element. -/
theorem reshape11_apply {α : Type} (X : S1x1.Idx → α) :
    shapeCast S_ X shapeCasts_S1x1_S_ ix0 = X (ix2 (0 : Fin 1) (0 : Fin 1)) :=
  shapeCast_apply X shapeCasts_S1x1_S_ ix0 (ix2 (0 : Fin 1) (0 : Fin 1)) (by
    rw [Shape.rowMajor_val_two]
    have h : (S_.rowMajor ix0).val < 1 := (S_.rowMajor ix0).isLt
    show 0 * 1 + 0 = (S_.rowMajor ix0).val
    omega)

end Cert.KernelIdeal.Ends

end
-- ==== Proof.Spec.lean ====
/-
  What the two programs compute, as plain sums over the extended reals.

  For a feature matrix Z (4096 × 512), a weight matrix C (4096 × 4096), an adjacency matrix A (4096 × 4096) and a
  degree vector deg (4096):
    * the projection  (Zᵀ C)[d, n] = Σ_l Z[l, d] · C[l, n];
    * the reconstruction total  Σ_{d, n} ((Zᵀ C)[d, n] − Z[n, d])²;
    * the neighbour sum  (A C)[r, c] = Σ_l A[r, l] · C[l, c];
    * the Laplacian total  Σ_{r, c} C[r, c] · (deg[r] · C[r, c] − (A C)[r, c]).
  Both programs produce the first total divided by 2²¹ and the second multiplied by one shared constant; they differ
  only in how the sums are grouped (by 1024-wide tiles on one side, all at once on the other).  Addition and
  multiplication of extended reals are commutative and associative, so the grouping does not matter, at infinite
  entries too.

  Also here: the 1024-row band and the 1024 × 1024 tile of a matrix, the pieces one grid point sees.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with literal extents. -/
abbrev Arr2 (a b : Nat) : Type := (⟨2, ![a, b]⟩ : Shape).Idx → EReal
/-- A vector of extended reals with a literal extent. -/
abbrev Arr1 (a : Nat) : Type := (⟨1, ![a]⟩ : Shape).Idx → EReal

/-- (Zᵀ C)[d, n]. -/
def proj (Z : Arr2 4096 512) (C : Arr2 4096 4096) (d : Fin 512) (n : Fin 4096) : EReal :=
  ∑ l : Fin 4096, Z (ix2 l d) * C (ix2 l n)

/-- Σ_{d, n} ((Zᵀ C)[d, n] − Z[n, d])². -/
def reconSum (Z : Arr2 4096 512) (C : Arr2 4096 4096) : EReal :=
  ∑ d : Fin 512, ∑ n : Fin 4096, (proj Z C d n - Z (ix2 n d)) * (proj Z C d n - Z (ix2 n d))

/-- (A C)[r, c]. -/
def nbr (A C : Arr2 4096 4096) (r c : Fin 4096) : EReal :=
  ∑ l : Fin 4096, A (ix2 r l) * C (ix2 l c)

/-- Σ_{r, c} C[r, c] · (deg[r] · C[r, c] − (A C)[r, c]). -/
def lapSum (A C : Arr2 4096 4096) (deg : Arr1 4096) : EReal :=
  ∑ r : Fin 4096, ∑ c : Fin 4096, C (ix2 r c) * (deg (ix1 r) * C (ix2 r c) - nbr A C r c)

/-- Row `1024·k + y` of a 4096-row matrix. -/
def bandRow (k : Fin 4) (y : Fin 1024) : Fin 4096 := ⟨k.val * 1024 + y.val, by have := k.isLt; have := y.isLt; omega⟩

/-- Rows 1024·k … 1024·k + 1023 of a 4096-row matrix. -/
def band {b : Nat} (X : Arr2 4096 b) (k : Fin 4) : Arr2 1024 b :=
  fun y => X (ix2 (bandRow k (y 0)) (y 1))

/-- The 1024 × 1024 tile (k, j) of a 4096 × 4096 matrix. -/
def tile (X : Arr2 4096 4096) (k j : Fin 4) : Arr2 1024 1024 :=
  fun y => X (ix2 (bandRow k (y 0)) (bandRow j (y 1)))

end Cert.Spec

end
-- ==== Proof.RefOps.lean ====
import proofs.«169932_j86088324481669_1_alg».proof.Proof.Gen.ReferenceIdeal.Read
import proofs.«169932_j86088324481669_1_alg».proof.Proof.Spec

/-
  The reference's layout operations and contractions, each read at one index (d, n) or (r, c), over arbitrary
  operand arrays:
    * the transpose of Z:                      Zᵀ[d, n] = Z[n, d];
    * the contraction of a 512 × 4096 array L with a 4096 × 4096 array R over L's columns and R's rows:
                                               (L R)[d, n] = Σ_l L[d, l] · R[l, n];
    * the contraction of two 4096 × 4096 arrays likewise:
                                               (A C)[r, c] = Σ_l A[r, l] · C[l, c];
    * the degree vector spread along rows:     deg[:, None] broadcast to 4096 × 4096 reads deg[r] at (r, c).
-/

noncomputable section

open scoped BigOperators

namespace Cert.ReferenceIdeal.RefValue

open Cert.ReferenceIdeal Cert.ReferenceIdeal.Gen Idealize.ShloMosaic Idealize.ShloMosaic.ValueIdx

/-- Zᵀ[d, n] = Z[n, d]. -/
theorem transposeZ_apply (Z : FVec Ideal S4096x512 .f32) (d : Fin 512) (n : Fin 4096) :
    transpose S512x4096 [1, 0] Z transposes_S4096x512_S512x4096_1_0 (ix2 d n) = Z (ix2 n d) :=
  transpose_apply [1, 0] Z transposes_S4096x512_S512x4096_1_0 (ix2 d n) (ix2 n d) (fun b => match b with
    | ⟨0, _⟩ => rfl
    | ⟨1, _⟩ => rfl)

/-- (L R)[d, n] = Σ_l L[d, l] · R[l, n] for the 512 × 4096 by 4096 × 4096 contraction. -/
theorem dotProj_apply (L : FVec Ideal S512x4096 .f32) (R : FVec Ideal S4096x4096 .f32) (d : Fin 512) (n : Fin 4096) :
    Host.dotGeneral (F := Ideal) dot_S512x4096_S4096x4096_S512x4096_1_0_0_1_n_n none L R (ix2 d n)
      = ∑ l : Fin 4096, L (ix2 d l) * R (ix2 l n) := by
  simp only [Host.dotGeneral]
  rw [Ideal.dotGeneral_apply, ← Equiv.sum_comp (contrEquiv1 dot_S512x4096_S4096x4096_S512x4096_1_0_0_1_n_n 4096 rfl rfl).symm]
  refine Finset.sum_congr rfl fun k _ => ?_
  have hk := contrEquiv1_symm_val dot_S512x4096_S4096x4096_S512x4096_1_0_0_1_n_n 4096 rfl rfl k
  have el : dot_S512x4096_S4096x4096_S512x4096_1_0_0_1_n_n.lhsIdx (ix2 d n)
      ((contrEquiv1 dot_S512x4096_S4096x4096_S512x4096_1_0_0_1_n_n 4096 rfl rfl).symm k) = ix2 d k :=
    funext fun a => Fin.ext (by
      match a with
      | ⟨0, _⟩ => exact Read.lhs_main_v34_0 _ _
      | ⟨1, _⟩ => exact (Read.lhs_main_v34_1 _ _).trans hk)
  have er : dot_S512x4096_S4096x4096_S512x4096_1_0_0_1_n_n.rhsIdx (ix2 d n)
      ((contrEquiv1 dot_S512x4096_S4096x4096_S512x4096_1_0_0_1_n_n 4096 rfl rfl).symm k) = ix2 k n :=
    funext fun a => Fin.ext (by
      match a with
      | ⟨0, _⟩ => exact (Read.rhs_main_v34_0 _ _).trans hk
      | ⟨1, _⟩ => exact Read.rhs_main_v34_1 _ _)
  rw [el, er]

/-- (A C)[r, c] = Σ_l A[r, l] · C[l, c] for the 4096 × 4096 by 4096 × 4096 contraction. -/
theorem dotNbr_apply (A C : FVec Ideal S4096x4096 .f32) (r c : Fin 4096) :
    Host.dotGeneral (F := Ideal) dot_S4096x4096_S4096x4096_S4096x4096_1_0_0_1_n_n none A C (ix2 r c)
      = ∑ l : Fin 4096, A (ix2 r l) * C (ix2 l c) := by
  simp only [Host.dotGeneral]
  rw [Ideal.dotGeneral_apply, ← Equiv.sum_comp (contrEquiv1 dot_S4096x4096_S4096x4096_S4096x4096_1_0_0_1_n_n 4096 rfl rfl).symm]
  refine Finset.sum_congr rfl fun k _ => ?_
  have hk := contrEquiv1_symm_val dot_S4096x4096_S4096x4096_S4096x4096_1_0_0_1_n_n 4096 rfl rfl k
  have el : dot_S4096x4096_S4096x4096_S4096x4096_1_0_0_1_n_n.lhsIdx (ix2 r c)
      ((contrEquiv1 dot_S4096x4096_S4096x4096_S4096x4096_1_0_0_1_n_n 4096 rfl rfl).symm k) = ix2 r k :=
    funext fun a => Fin.ext (by
      match a with
      | ⟨0, _⟩ => exact Read.lhs_main_v61_0 _ _
      | ⟨1, _⟩ => exact (Read.lhs_main_v61_1 _ _).trans hk)
  have er : dot_S4096x4096_S4096x4096_S4096x4096_1_0_0_1_n_n.rhsIdx (ix2 r c)
      ((contrEquiv1 dot_S4096x4096_S4096x4096_S4096x4096_1_0_0_1_n_n 4096 rfl rfl).symm k) = ix2 k c :=
    funext fun a => Fin.ext (by
      match a with
      | ⟨0, _⟩ => exact (Read.rhs_main_v61_0 _ _).trans hk
      | ⟨1, _⟩ => exact Read.rhs_main_v61_1 _ _)
  rw [el, er]

/-- The degree vector as a column, spread along rows, reads deg[r] at (r, c). -/
theorem degRows_apply (deg : FVec Ideal S4096 .f32) (r c : Fin 4096) :
    broadcastInDim S4096x4096 ![0, 1] bcast_S4096x1_S4096x4096_0_1
        (broadcastInDim S4096x1 ![0] bcast_S4096_S4096x1_0 deg) (ix2 r c) = deg (ix1 r) := by
  refine (broadcastInDim_apply _ bcast_S4096x1_S4096x4096_0_1 _ (ix2 r c) (ix2 r (0 : Fin 1)) (fun a => match a with
    | ⟨0, _⟩ => by show r.val = if (4096 : Nat) = 1 then 0 else r.val; rw [if_neg (by decide)]
    | ⟨1, _⟩ => by show 0 = if (1 : Nat) = 1 then 0 else c.val; rw [if_pos rfl])).trans ?_
  exact broadcastInDim_apply _ bcast_S4096_S4096x1_0 deg (ix2 r (0 : Fin 1)) (ix1 r) (fun a => match a with
    | ⟨0, _⟩ => by show r.val = if (4096 : Nat) = 1 then 0 else r.val; rw [if_neg (by decide)])

end Cert.ReferenceIdeal.RefValue

end
-- ==== Proof.RefValue.lean ====
import proofs.«169932_j86088324481669_1_alg».proof.Defs
import proofs.«169932_j86088324481669_1_alg».proof.Proof.Gen.ReferenceIdeal.Read
import proofs.«169932_j86088324481669_1_alg».proof.Proof.Spec
import proofs.«169932_j86088324481669_1_alg».proof.Proof.RefOps

/-
  The reference's two scalar results as the plain sums of Spec.

  The reference forms the weight matrix C (a scatter-add of the normalized edge values into a zero 4096 × 4096 array) and
  the adjacency matrix A (a scatter of ones at the same positions); both stay opaque here: the results below hold for
  any two such arrays.  With Z the feature matrix and deg the degree vector,
    * the reconstruction result is  ( Σ_{d, n} ((Zᵀ C)[d, n] − Zᵀ[d, n])² ) / 2²¹, the sum taken over the whole
      512 × 4096 array at once;
    * the Laplacian result is  0.1f · Σ_{r, c} C[r, c] · (deg[r] · C[r, c] − (A C)[r, c]), the sum taken over the whole
      4096 × 4096 array at once.
  A sum over a two-axis index set is the double sum over its coordinates, each contraction is a sum over the shared
  axis, and the zero the host's sum starts from is the extended real 0; nothing else is used.
-/

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-- The weight matrix C the reference builds from the launch memory: the scatter-add of the normalized edge values. -/
def Cm (m : (ℓ : Loc nD τ sig) → Buf (Elt Ideal) ℓ) (c : Dev nD) : FVec Ideal S4096x4096 .f32 :=
  Host.scatterAdd scatter_S4096x4096_S130510x2_S130510_n_01_01_1 (broadcastInDim S4096x4096 ![] bcast_S_S4096x4096 (constant S_ .f32 0x00000000#32)) (concatenate S130510x2 1 [⟨S130510x1, (broadcastInDim S130510x1 ![0] bcast_S130510_S130510x1_0 (select (cmpi .slt (m ((c.tc : Thread nD τ).loc main_arg2)) (broadcastInDim S130510 ![] bcast_S_S130510 (constantI S_ 32 0#32))) (addi (m ((c.tc : Thread nD τ).loc main_arg2)) (broadcastInDim S130510 ![] bcast_S_S130510 (constantI S_ 32 4096#32))) (m ((c.tc : Thread nD τ).loc main_arg2))))⟩, ⟨S130510x1, (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3))))⟩] concatenates_S130510x1_S130510x1_S130510x2_d1) (Host.divf (m ((c.tc : Thread nD τ).loc main_arg1)) (Host.gather gather_S4096_S130510x1_S130510_n_0_n_n_0_1_1 (addf (Host.scatterAdd scatter_S4096_S130510x1_S130510_n_0_0_1 (broadcastInDim S4096 ![] bcast_S_S4096 (constant S_ .f32 0x00000000#32)) (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3)))) (m ((c.tc : Thread nD τ).loc main_arg1))) (broadcastInDim S4096 ![] bcast_S_S4096 (constant S_ .f32 0x322BCC77#32))) (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3))))))

/-- The adjacency matrix A the reference builds from the launch memory: the scatter of ones at the edge positions. -/
def Am (m : (ℓ : Loc nD τ sig) → Buf (Elt Ideal) ℓ) (c : Dev nD) : FVec Ideal S4096x4096 .f32 :=
  Host.scatter scatter_S4096x4096_S130510x2_S130510_n_01_01_1 (fun _ b => b) (broadcastInDim S4096x4096 ![] bcast_S_S4096x4096 (constant S_ .f32 0x00000000#32)) (concatenate S130510x2 1 [⟨S130510x1, (broadcastInDim S130510x1 ![0] bcast_S130510_S130510x1_0 (select (cmpi .slt (m ((c.tc : Thread nD τ).loc main_arg2)) (broadcastInDim S130510 ![] bcast_S_S130510 (constantI S_ 32 0#32))) (addi (m ((c.tc : Thread nD τ).loc main_arg2)) (broadcastInDim S130510 ![] bcast_S_S130510 (constantI S_ 32 4096#32))) (m ((c.tc : Thread nD τ).loc main_arg2))))⟩, ⟨S130510x1, (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3))))⟩] concatenates_S130510x1_S130510x1_S130510x2_d1) (broadcastInDim S130510 ![] bcast_S_S130510 (constant S_ .f32 0x3F800000#32))

/-- C is the stage the generated reading names for the scatter-add. -/
theorem Cm_eq_val (m : (ℓ : Loc nD τ sig) → Buf (Elt Ideal) ℓ) (c : Dev nD) :
    Cm m c = Read.val_main_v32 (F := Ideal) (m ((c.tc : Thread nD τ).loc main_arg1)) (m ((c.tc : Thread nD τ).loc main_arg2)) (m ((c.tc : Thread nD τ).loc main_arg3)) := rfl

/-- A is the stage the generated reading names for the scatter of ones. -/
theorem Am_eq_val (m : (ℓ : Loc nD τ sig) → Buf (Elt Ideal) ℓ) (c : Dev nD) :
    Am m c = Read.val_main_v57 (F := Ideal) (m ((c.tc : Thread nD τ).loc main_arg2)) (m ((c.tc : Thread nD τ).loc main_arg3)) := rfl

/-- The host's sum of ((Zᵀ C) − Zᵀ)² over the whole 512 × 4096 array is the reconstruction total. -/
theorem recon_read (Z : FVec Ideal S4096x512 .f32) (C : FVec Ideal S4096x4096 .f32) :
    Host.reduceAdd (F := Ideal) (mulf (subf (Host.dotGeneral (F := Ideal) dot_S512x4096_S4096x4096_S512x4096_1_0_0_1_n_n none (transpose S512x4096 [1, 0] Z transposes_S4096x512_S512x4096_1_0) C) (transpose S512x4096 [1, 0] Z transposes_S4096x512_S512x4096_1_0)) (subf (Host.dotGeneral (F := Ideal) dot_S512x4096_S4096x4096_S512x4096_1_0_0_1_n_n none (transpose S512x4096 [1, 0] Z transposes_S4096x512_S512x4096_1_0) C) (transpose S512x4096 [1, 0] Z transposes_S4096x512_S512x4096_1_0))) (constant (F := Ideal) S_ .f32 0x00000000#32) reducesTo_S512x4096_S_d0_1 h_S_ ValueIdx.ix0
      = Cert.Spec.reconSum Z C := by
  simp only [Host.reduceAdd, Ideal.hostReduceAdd_def]
  refine (Ideal.hostReduceAdd_total reducesTo_S512x4096_S_d0_1 (fun b => b.elim0) _ _ ix0).trans ?_
  rw [sum_idx2]
  show Ideal.ofBits .f32 0x00000000#32 + _ = _
  rw [Ideal.ofBits_zero_f32, zero_add]
  unfold Cert.Spec.reconSum Cert.Spec.proj
  refine Finset.sum_congr rfl fun d _ => Finset.sum_congr rfl fun n _ => ?_
  simp only [mulf_apply, subf_apply]
  rw [dotProj_apply, transposeZ_apply]
  have hs : ∑ l : Fin 4096, transpose S512x4096 [1, 0] Z transposes_S4096x512_S512x4096_1_0 (ix2 d l) * C (ix2 l n)
      = ∑ l : Fin 4096, Z (ix2 l d) * C (ix2 l n) :=
    Finset.sum_congr rfl fun l _ => by rw [transposeZ_apply]
  rw [hs]

/-- The host's sum of C · (deg · C − A C) over the whole 4096 × 4096 array is the Laplacian total. -/
theorem lap_read (A C : FVec Ideal S4096x4096 .f32) (deg : FVec Ideal S4096 .f32) :
    Host.reduceAdd (F := Ideal) (mulf C (subf (mulf (broadcastInDim S4096x4096 ![0, 1] bcast_S4096x1_S4096x4096_0_1 (broadcastInDim S4096x1 ![0] bcast_S4096_S4096x1_0 deg)) C) (Host.dotGeneral (F := Ideal) dot_S4096x4096_S4096x4096_S4096x4096_1_0_0_1_n_n none A C))) (constant (F := Ideal) S_ .f32 0x00000000#32) reducesTo_S4096x4096_S_d0_1 h_S_ ValueIdx.ix0
      = Cert.Spec.lapSum A C deg := by
  simp only [Host.reduceAdd, Ideal.hostReduceAdd_def]
  refine (Ideal.hostReduceAdd_total reducesTo_S4096x4096_S_d0_1 (fun b => b.elim0) _ _ ix0).trans ?_
  rw [sum_idx2]
  show Ideal.ofBits .f32 0x00000000#32 + _ = _
  rw [Ideal.ofBits_zero_f32, zero_add]
  unfold Cert.Spec.lapSum Cert.Spec.nbr
  refine Finset.sum_congr rfl fun r _ => Finset.sum_congr rfl fun c _ => ?_
  simp only [mulf_apply, subf_apply]
  rw [dotNbr_apply, degRows_apply]

/-- The reference's reconstruction result: the reconstruction total of Z and C, divided by 2²¹. -/
theorem res_out1_eq (m : (ℓ : Loc nD τ sig) → Buf (Elt Ideal) ℓ) (c : Dev nD) :
    Value.res_main_v38 (F := Ideal) m c
      = Host.divf (F := Ideal) (fun _ => Cert.Spec.reconSum (m ((c.tc : Thread nD τ).loc main_arg0)) (Cm m c))
          (constant (F := Ideal) S_ .f32 0x4A000000#32) := by
  have h : (Host.reduceAdd (F := Ideal) (mulf (subf (Host.dotGeneral (F := Ideal) dot_S512x4096_S4096x4096_S512x4096_1_0_0_1_n_n none (transpose S512x4096 [1, 0] (m ((c.tc : Thread nD τ).loc main_arg0)) transposes_S4096x512_S512x4096_1_0) (Cm m c)) (transpose S512x4096 [1, 0] (m ((c.tc : Thread nD τ).loc main_arg0)) transposes_S4096x512_S512x4096_1_0)) (subf (Host.dotGeneral (F := Ideal) dot_S512x4096_S4096x4096_S512x4096_1_0_0_1_n_n none (transpose S512x4096 [1, 0] (m ((c.tc : Thread nD τ).loc main_arg0)) transposes_S4096x512_S512x4096_1_0) (Cm m c)) (transpose S512x4096 [1, 0] (m ((c.tc : Thread nD τ).loc main_arg0)) transposes_S4096x512_S512x4096_1_0))) (constant (F := Ideal) S_ .f32 0x00000000#32) reducesTo_S512x4096_S_d0_1 h_S_ : FVec Ideal S_ .f32)
      = fun _ => Cert.Spec.reconSum (m ((c.tc : Thread nD τ).loc main_arg0)) (Cm m c) :=
    funext fun i => by rw [eq_ix0 i]; exact recon_read _ _
  unfold Value.res_main_v38
  exact congrArg (fun x : FVec Ideal S_ .f32 => Host.divf (F := Ideal) x (constant (F := Ideal) S_ .f32 0x4A000000#32)) h

/-- The reference's Laplacian result: the shared constant times the Laplacian total of A, C and deg. -/
theorem res_out3_eq (m : (ℓ : Loc nD τ sig) → Buf (Elt Ideal) ℓ) (c : Dev nD) :
    Value.res_main_v65 (F := Ideal) m c
      = mulf (constant (F := Ideal) S_ .f32 0x3DCCCCCD#32)
          (fun _ => Cert.Spec.lapSum (Am m c) (Cm m c) (m ((c.tc : Thread nD τ).loc main_arg4))) := by
  have h : (Host.reduceAdd (F := Ideal) (mulf (Cm m c) (subf (mulf (broadcastInDim S4096x4096 ![0, 1] bcast_S4096x1_S4096x4096_0_1 (broadcastInDim S4096x1 ![0] bcast_S4096_S4096x1_0 (m ((c.tc : Thread nD τ).loc main_arg4)))) (Cm m c)) (Host.dotGeneral (F := Ideal) dot_S4096x4096_S4096x4096_S4096x4096_1_0_0_1_n_n none (Am m c) (Cm m c)))) (constant (F := Ideal) S_ .f32 0x00000000#32) reducesTo_S4096x4096_S_d0_1 h_S_ : FVec Ideal S_ .f32)
      = fun _ => Cert.Spec.lapSum (Am m c) (Cm m c) (m ((c.tc : Thread nD τ).loc main_arg4)) :=
    funext fun i => by rw [eq_ix0 i]; exact lap_read _ _ _
  unfold Value.res_main_v65
  exact congrArg (fun x : FVec Ideal S_ .f32 => mulf (constant (F := Ideal) S_ .f32 0x3DCCCCCD#32) x) h

end Cert.ReferenceIdeal.RefValue

end
-- ==== Proof.EndsIdeal.lean ====
import proofs.«169932_j86088324481669_1_alg».proof.Proof.RefValue
import proofs.«169932_j86088324481669_1_alg».proof.Proof.EndsEntry

/-
  The two programs build the same matrices from the same edge list.

  Up to the first region the kernel's program and the reference apply the same host operations to the edge values
  and the edge rows and columns: from equal arguments they form the same normalized values, the same weight matrix C,
  the same adjacency matrix A and the same regularization result.  Read at the exact values; nothing is computed:
  the two sides are one term over equal arguments.
-/

set_option maxRecDepth 16384

noncomputable section

namespace Cert.EndsIdeal

section Reference

open Cert.ReferenceIdeal Cert.ReferenceIdeal.Gen Idealize.ShloMosaic Idealize.ShloMosaic.TcCoe Idealize.SL.Sem Idealize.ShloMosaic.StableHlo

/-- The reference's regularization result as a term of its launch memory: one times the sum of the squared normalized
    edge values. -/
def regRef (m : (ℓ : Loc nD τ sig) → Buf (Elt Ideal) ℓ) (c : Dev nD) : FVec Ideal S_ .f32 :=
  mulf (constant S_ .f32 0x3F800000#32) (Host.reduceAdd (mulf (Host.divf (m ((c.tc : Thread nD τ).loc main_arg1)) (Host.gather gather_S4096_S130510x1_S130510_n_0_n_n_0_1_1 (addf (Host.scatterAdd scatter_S4096_S130510x1_S130510_n_0_0_1 (broadcastInDim S4096 ![] bcast_S_S4096 (constant S_ .f32 0x00000000#32)) (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3)))) (m ((c.tc : Thread nD τ).loc main_arg1))) (broadcastInDim S4096 ![] bcast_S_S4096 (constant S_ .f32 0x322BCC77#32))) (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3)))))) (Host.divf (m ((c.tc : Thread nD τ).loc main_arg1)) (Host.gather gather_S4096_S130510x1_S130510_n_0_n_n_0_1_1 (addf (Host.scatterAdd scatter_S4096_S130510x1_S130510_n_0_0_1 (broadcastInDim S4096 ![] bcast_S_S4096 (constant S_ .f32 0x00000000#32)) (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3)))) (m ((c.tc : Thread nD τ).loc main_arg1))) (broadcastInDim S4096 ![] bcast_S_S4096 (constant S_ .f32 0x322BCC77#32))) (broadcastInDim S130510x1 ![0] bcast_S130510_S130510x1_0 (select (cmpi .slt (m ((c.tc : Thread nD τ).loc main_arg3)) (broadcastInDim S130510 ![] bcast_S_S130510 (constantI S_ 32 0#32))) (addi (m ((c.tc : Thread nD τ).loc main_arg3)) (broadcastInDim S130510 ![] bcast_S_S130510 (constantI S_ 32 4096#32))) (m ((c.tc : Thread nD τ).loc main_arg3))))))) (constant S_ .f32 0x00000000#32) reducesTo_S130510_S_d0 h_S_)

/-- It is the stage the generated reading names for that result. -/
theorem regRef_eq_val (m : (ℓ : Loc nD τ sig) → Buf (Elt Ideal) ℓ) (c : Dev nD) :
    regRef m c = Read.val_main_v41 (F := Ideal) (m ((c.tc : Thread nD τ).loc main_arg1)) (m ((c.tc : Thread nD τ).loc main_arg3)) := rfl

end Reference

section Both

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- From equal edge values, rows and columns the two programs build the same weight matrix. -/
theorem Cm_eq_Ck (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.RefValue.Cm m' c = Cert.KernelIdeal.Ends.Ck (F := Ideal) m c := by
  unfold Cert.ReferenceIdeal.RefValue.Cm
  rw [h1, h2, h3]
  rfl

/-- From equal edge rows and columns the two programs build the same adjacency matrix. -/
theorem Am_eq_Ak (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.RefValue.Am m' c = Cert.KernelIdeal.Ends.Ak (F := Ideal) m c := by
  unfold Cert.ReferenceIdeal.RefValue.Am
  rw [h2, h3]
  rfl

/-- From equal edge values and columns the two programs form the same regularization result. -/
theorem regRef_eq_regk (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    regRef m' c = Cert.KernelIdeal.Ends.regk (F := Ideal) m c := by
  unfold regRef
  rw [h1, h3]
  rfl

end Both

end Cert.EndsIdeal

end
-- ==== Proof.R0Pieces.lean ====
import proofs.«169932_j86088324481669_1_alg».proof.Proof.R0Body
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What each kind of point leaves, as the body's own arithmetic

Every store of the body writes a whole buffer, and every load reads one.  So what a buffer holds after a point is the
payload of the last store into it, with each value the payload was computed from being what the loaded buffer held:
the input block, the accumulator as the point before left it, or the payload of an earlier store at the same point. -/

theorem hz2 : (![0, 0] : Fin 2 → Nat) = fun _ => 0 := funext fun a => by fin_cases a <;> rfl

/-- The first point: the matrix accumulator is cleared, then gains the product of the two input blocks. -/
theorem sout_A_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : cond0_1 i) (hc2 : cond0_2 i) (hc3 : ¬cond0_3 i) (hc4 : ¬cond0_4 i) (x0 : Vec F S1024x512 .f32) (x1 : Vec F S1024x1024 .f32) (x2 : Vec F S1024x512 .f32) :
    sout0_A_0 c i arg2 harg2 arg3 harg3 arg4 harg4 arg5 harg5 arg6 harg6 arg7 harg7 hc1 hc2 hc3 hc4 x0 x1 x2 = k0_pay3 (k0_pay2 (F := F)) x0 x1 := by
  unfold sout0_A_0
  rw [View.read_writes_eq_canon _ _ _ (scover0_A_0 c i arg2 harg2 arg3 harg3 arg4 harg4 arg5 harg5 arg6 harg6 arg7 harg7 hc1 hc2 hc3 hc4 x0 x1 x2)]
  unfold kernelRun0_A
  dsimp only
  (try sl_unfold_words)
  simp only [View.canon_cons_unit_zero (S := S512x1024) hz2, View.canon_cons_unit_zero (S := S1x1) hz2, View.readCov_unit_zero (S := S512x1024) _ hz2, View.readCov_unit_zero (S := S1x1) _ hz2, View.readAt_eq_ld, harg2.read_unread, harg3.read_unread, harg4.read_unread, harg6.read_unread, harg7.read_unread, View.ld_unit_zero (S := S1024x512) hz2, View.ld_unit_zero (S := S1024x1024) hz2, View.ld_unit_zero (S := S512x1024) hz2, View.ld_unit_zero (S := S1x1) hz2]

/-- The first point: the running total is cleared. -/
theorem sout_A_1 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : cond0_1 i) (hc2 : cond0_2 i) (hc3 : ¬cond0_3 i) (hc4 : ¬cond0_4 i) (x0 : Vec F S1024x512 .f32) (x1 : Vec F S1024x1024 .f32) (x2 : Vec F S1024x512 .f32) :
    sout0_A_1 c i arg2 harg2 arg3 harg3 arg4 harg4 arg5 harg5 arg6 harg6 arg7 harg7 hc1 hc2 hc3 hc4 x0 x1 x2 = k0_pay1 (F := F) := by
  unfold sout0_A_1
  rw [View.read_writes_eq_canon _ _ _ (scover0_A_1 c i arg2 harg2 arg3 harg3 arg4 harg4 arg5 harg5 arg6 harg6 arg7 harg7 hc1 hc2 hc3 hc4 x0 x1 x2)]
  unfold kernelRun0_A
  dsimp only
  (try sl_unfold_words)
  simp only [View.canon_cons_unit_zero (S := S512x1024) hz2, View.canon_cons_unit_zero (S := S1x1) hz2, View.readCov_unit_zero (S := S512x1024) _ hz2, View.readCov_unit_zero (S := S1x1) _ hz2, View.readAt_eq_ld, harg2.read_unread, harg3.read_unread, harg4.read_unread, harg6.read_unread, harg7.read_unread, View.ld_unit_zero (S := S1024x512) hz2, View.ld_unit_zero (S := S1024x1024) hz2, View.ld_unit_zero (S := S512x1024) hz2, View.ld_unit_zero (S := S1x1) hz2]

/-- A point with k ∈ {1, 2}: the matrix accumulator gains the product of the two input blocks. -/
theorem sout_B_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : ¬cond0_3 i) (hc4 : ¬cond0_4 i) (x0 : Vec F S1024x512 .f32) (x1 : Vec F S1024x1024 .f32) (x2 : Vec F S1024x512 .f32) (xs0 : Vec F S512x1024 .f32) :
    sout0_B_0 c i arg2 harg2 arg3 harg3 arg4 harg4 arg5 harg5 arg6 harg6 arg7 harg7 hc1 hc2 hc3 hc4 x0 x1 x2 xs0 = k0_pay3 xs0 x0 x1 := by
  unfold sout0_B_0
  rw [View.read_writes_eq_canon _ _ _ (scover0_B_0 c i arg2 harg2 arg3 harg3 arg4 harg4 arg5 harg5 arg6 harg6 arg7 harg7 hc1 hc2 hc3 hc4 x0 x1 x2 xs0)]
  unfold kernelRun0_B
  dsimp only
  (try sl_unfold_words)
  simp only [View.canon_cons_unit_zero (S := S512x1024) hz2, View.canon_cons_unit_zero (S := S1x1) hz2, View.readCov_unit_zero (S := S512x1024) _ hz2, View.readCov_unit_zero (S := S1x1) _ hz2, View.readAt_eq_ld, harg2.read_unread, harg3.read_unread, harg4.read_unread, harg6.read_unread, harg7.read_unread, View.ld_unit_zero (S := S1024x512) hz2, View.ld_unit_zero (S := S1024x1024) hz2, View.ld_unit_zero (S := S512x1024) hz2, View.ld_unit_zero (S := S1x1) hz2]

/-- A point with k = 3: the matrix accumulator gains the product of the two input blocks, -/
theorem sout_C_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : ¬cond0_4 i) (x0 : Vec F S1024x512 .f32) (x1 : Vec F S1024x1024 .f32) (x2 : Vec F S1024x512 .f32) (xs0 : Vec F S512x1024 .f32) (xs1 : Vec F S1x1 .f32) :
    sout0_C_0 c i arg2 harg2 arg3 harg3 arg4 harg4 arg5 harg5 arg6 harg6 arg7 harg7 hc1 hc2 hc3 hc4 x0 x1 x2 xs0 xs1 = k0_pay3 xs0 x0 x1 := by
  unfold sout0_C_0
  rw [View.read_writes_eq_canon _ _ _ (scover0_C_0 c i arg2 harg2 arg3 harg3 arg4 harg4 arg5 harg5 arg6 harg6 arg7 harg7 hc1 hc2 hc3 hc4 x0 x1 x2 xs0 xs1)]
  unfold kernelRun0_C
  dsimp only
  (try sl_unfold_words)
  simp only [View.canon_cons_unit_zero (S := S512x1024) hz2, View.canon_cons_unit_zero (S := S1x1) hz2, View.readCov_unit_zero (S := S512x1024) _ hz2, View.readCov_unit_zero (S := S1x1) _ hz2, View.readAt_eq_ld, harg2.read_unread, harg3.read_unread, harg4.read_unread, harg6.read_unread, harg7.read_unread, View.ld_unit_zero (S := S1024x512) hz2, View.ld_unit_zero (S := S1024x1024) hz2, View.ld_unit_zero (S := S512x1024) hz2, View.ld_unit_zero (S := S1x1) hz2]

/-- and the running total gains the sum of squares of the accumulator just completed against the third input block. -/
theorem sout_C_1 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : ¬cond0_4 i) (x0 : Vec F S1024x512 .f32) (x1 : Vec F S1024x1024 .f32) (x2 : Vec F S1024x512 .f32) (xs0 : Vec F S512x1024 .f32) (xs1 : Vec F S1x1 .f32) :
    sout0_C_1 c i arg2 harg2 arg3 harg3 arg4 harg4 arg5 harg5 arg6 harg6 arg7 harg7 hc1 hc2 hc3 hc4 x0 x1 x2 xs0 xs1 = k0_pay4 (k0_pay3 xs0 x0 x1) x2 xs1 := by
  unfold sout0_C_1
  rw [View.read_writes_eq_canon _ _ _ (scover0_C_1 c i arg2 harg2 arg3 harg3 arg4 harg4 arg5 harg5 arg6 harg6 arg7 harg7 hc1 hc2 hc3 hc4 x0 x1 x2 xs0 xs1)]
  unfold kernelRun0_C
  dsimp only
  (try sl_unfold_words)
  simp only [View.canon_cons_unit_zero (S := S512x1024) hz2, View.canon_cons_unit_zero (S := S1x1) hz2, View.readCov_unit_zero (S := S512x1024) _ hz2, View.readCov_unit_zero (S := S1x1) _ hz2, View.readAt_eq_ld, harg2.read_unread, harg3.read_unread, harg4.read_unread, harg6.read_unread, harg7.read_unread, View.ld_unit_zero (S := S1024x512) hz2, View.ld_unit_zero (S := S1024x1024) hz2, View.ld_unit_zero (S := S512x1024) hz2, View.ld_unit_zero (S := S1x1) hz2]

/-- A point with k = 0 after the first: the matrix accumulator is cleared, then gains the product of the two input blocks. -/
theorem sout_D_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : cond0_2 i) (hc3 : ¬cond0_3 i) (hc4 : ¬cond0_4 i) (x0 : Vec F S1024x512 .f32) (x1 : Vec F S1024x1024 .f32) (x2 : Vec F S1024x512 .f32) :
    sout0_D_0 c i arg2 harg2 arg3 harg3 arg4 harg4 arg5 harg5 arg6 harg6 arg7 harg7 hc1 hc2 hc3 hc4 x0 x1 x2 = k0_pay3 (k0_pay2 (F := F)) x0 x1 := by
  unfold sout0_D_0
  rw [View.read_writes_eq_canon _ _ _ (scover0_D_0 c i arg2 harg2 arg3 harg3 arg4 harg4 arg5 harg5 arg6 harg6 arg7 harg7 hc1 hc2 hc3 hc4 x0 x1 x2)]
  unfold kernelRun0_D
  dsimp only
  (try sl_unfold_words)
  simp only [View.canon_cons_unit_zero (S := S512x1024) hz2, View.canon_cons_unit_zero (S := S1x1) hz2, View.readCov_unit_zero (S := S512x1024) _ hz2, View.readCov_unit_zero (S := S1x1) _ hz2, View.readAt_eq_ld, harg2.read_unread, harg3.read_unread, harg4.read_unread, harg6.read_unread, harg7.read_unread, View.ld_unit_zero (S := S1024x512) hz2, View.ld_unit_zero (S := S1024x1024) hz2, View.ld_unit_zero (S := S512x1024) hz2, View.ld_unit_zero (S := S1x1) hz2]

/-- The last point: as at any point with k = 3, -/
theorem sout_E_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : cond0_4 i) (x0 : Vec F S1024x512 .f32) (x1 : Vec F S1024x1024 .f32) (x2 : Vec F S1024x512 .f32) (xs0 : Vec F S512x1024 .f32) (xs1 : Vec F S1x1 .f32) :
    sout0_E_0 c i arg2 harg2 arg3 harg3 arg4 harg4 arg5 harg5 arg6 harg6 arg7 harg7 hc1 hc2 hc3 hc4 x0 x1 x2 xs0 xs1 = k0_pay3 xs0 x0 x1 := by
  unfold sout0_E_0
  rw [View.read_writes_eq_canon _ _ _ (scover0_E_0 c i arg2 harg2 arg3 harg3 arg4 harg4 arg5 harg5 arg6 harg6 arg7 harg7 hc1 hc2 hc3 hc4 x0 x1 x2 xs0 xs1)]
  unfold kernelRun0_E
  dsimp only
  (try sl_unfold_words)
  simp only [View.canon_cons_unit_zero (S := S512x1024) hz2, View.canon_cons_unit_zero (S := S1x1) hz2, View.readCov_unit_zero (S := S512x1024) _ hz2, View.readCov_unit_zero (S := S1x1) _ hz2, View.readAt_eq_ld, harg2.read_unread, harg3.read_unread, harg4.read_unread, harg6.read_unread, harg7.read_unread, View.ld_unit_zero (S := S1024x512) hz2, View.ld_unit_zero (S := S1024x1024) hz2, View.ld_unit_zero (S := S512x1024) hz2, View.ld_unit_zero (S := S1x1) hz2]

/-- for both accumulators; -/
theorem sout_E_1 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : cond0_4 i) (x0 : Vec F S1024x512 .f32) (x1 : Vec F S1024x1024 .f32) (x2 : Vec F S1024x512 .f32) (xs0 : Vec F S512x1024 .f32) (xs1 : Vec F S1x1 .f32) :
    sout0_E_1 c i arg2 harg2 arg3 harg3 arg4 harg4 arg5 harg5 arg6 harg6 arg7 harg7 hc1 hc2 hc3 hc4 x0 x1 x2 xs0 xs1 = k0_pay4 (k0_pay3 xs0 x0 x1) x2 xs1 := by
  unfold sout0_E_1
  rw [View.read_writes_eq_canon _ _ _ (scover0_E_1 c i arg2 harg2 arg3 harg3 arg4 harg4 arg5 harg5 arg6 harg6 arg7 harg7 hc1 hc2 hc3 hc4 x0 x1 x2 xs0 xs1)]
  unfold kernelRun0_E
  dsimp only
  (try sl_unfold_words)
  simp only [View.canon_cons_unit_zero (S := S512x1024) hz2, View.canon_cons_unit_zero (S := S1x1) hz2, View.readCov_unit_zero (S := S512x1024) _ hz2, View.readCov_unit_zero (S := S1x1) _ hz2, View.readAt_eq_ld, harg2.read_unread, harg3.read_unread, harg4.read_unread, harg6.read_unread, harg7.read_unread, View.ld_unit_zero (S := S1024x512) hz2, View.ld_unit_zero (S := S1024x1024) hz2, View.ld_unit_zero (S := S512x1024) hz2, View.ld_unit_zero (S := S1x1) hz2]

/-- and the output block receives the running total just completed. -/
theorem out_E_3 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : cond0_4 i) (x0 : Vec F S1024x512 .f32) (x1 : Vec F S1024x1024 .f32) (x2 : Vec F S1024x512 .f32) (xs0 : Vec F S512x1024 .f32) (xs1 : Vec F S1x1 .f32) :
    out0_E_3 c i arg2 harg2 arg3 harg3 arg4 harg4 arg5 harg5 arg6 harg6 arg7 harg7 hc1 hc2 hc3 hc4 x0 x1 x2 xs0 xs1 = k0_pay4 (k0_pay3 xs0 x0 x1) x2 xs1 := by
  unfold out0_E_3
  rw [View.read_writes_eq_canon _ _ _ (cover0_E_3 c i arg2 harg2 arg3 harg3 arg4 harg4 arg5 harg5 arg6 harg6 arg7 harg7 hc1 hc2 hc3 hc4 x0 x1 x2 xs0 xs1)]
  unfold kernelRun0_E
  dsimp only
  (try sl_unfold_words)
  simp only [View.canon_cons_unit_zero (S := S512x1024) hz2, View.canon_cons_unit_zero (S := S1x1) hz2, View.readCov_unit_zero (S := S512x1024) _ hz2, View.readCov_unit_zero (S := S1x1) _ hz2, View.readAt_eq_ld, harg2.read_unread, harg3.read_unread, harg4.read_unread, harg6.read_unread, harg7.read_unread, View.ld_unit_zero (S := S1024x512) hz2, View.ld_unit_zero (S := S1024x1024) hz2, View.ld_unit_zero (S := S512x1024) hz2, View.ld_unit_zero (S := S1x1) hz2]

end Cert.KernelIdeal.R0

end
-- ==== Proof.TileState.lean ====
/-
  What the two kernels' carried accumulators hold after each grid point, as pure functions of the arrays.

  First kernel, grid point t = 4·j + k (j the column band of C, k the row band being contracted): the matrix
  accumulator is cleared at k = 0 and gains (band k of Z)ᵀ · (tile (k, j) of C); at k = 3 the running total gains the
  sum of squares of (accumulator − (band j of Z)ᵀ); the total is cleared at t = 0 only.
  Second kernel, grid point t = 16·i + 4·j + k: the matrix accumulator is cleared at k = 0 and gains
  (tile (i, k) of A) · (tile (k, j) of C); at k = 3 the running total gains the sum over the tile of
  C·(deg·C − accumulator); the total is cleared at t = 0 only, and the value written out after the last point is the
  total times the kernel's closing constant.
  The step functions are written with the generated payload terms of the kernel bodies, so that the contents an
  execution finds are these terms on the nose; what the totals ARE is proved elsewhere.
-/
import proofs.«169932_j86088324481669_1_alg».proof.Proof.Gen.KernelIdeal.Skeleton
import proofs.«169932_j86088324481669_1_alg».proof.Proof.Spec

noncomputable section

namespace Cert.KernelIdeal.Tiles

open Idealize.ShloMosaic Idealize.ShloMosaic.ValueIdx Cert.KernelIdeal Cert.KernelIdeal.Gen Cert.Spec

variable [Cert.KernelIdeal.Facts]

/-- A coordinate below 4 from a natural number, reduced modulo 4. -/
def q4 (n : Nat) : Fin 4 := ⟨n % 4, Nat.mod_lt _ (by decide)⟩

/-- One grid point of the first kernel: from the accumulators found to the accumulators left. -/
def step0 (Z : Arr2 4096 512) (C : Arr2 4096 4096) (t : Nat)
    (s : FVec Ideal S512x1024 .f32 × FVec Ideal S1x1 .f32) : FVec Ideal S512x1024 .f32 × FVec Ideal S1x1 .f32 :=
  let j := q4 (t / 4)
  let k := q4 t
  let accIn : FVec Ideal S512x1024 .f32 := if t % 4 = 0 then k0_pay2 (F := Ideal) else s.1
  let totIn : FVec Ideal S1x1 .f32 := if t = 0 then k0_pay1 (F := Ideal) else s.2
  let acc : FVec Ideal S512x1024 .f32 := k0_pay3 (F := Ideal) accIn (band Z k) (tile C k j)
  (acc, if t % 4 = 3 then k0_pay4 (F := Ideal) acc (band Z j) totIn else totIn)

/-- The first kernel's accumulators after grid point `t`. -/
def state0 (Z : Arr2 4096 512) (C : Arr2 4096 4096) : Nat → FVec Ideal S512x1024 .f32 × FVec Ideal S1x1 .f32
  | 0 => step0 Z C 0 (k0_pay2 (F := Ideal), k0_pay1 (F := Ideal))
  | t + 1 => step0 Z C (t + 1) (state0 Z C t)

/-- One grid point of the second kernel. -/
def step1 (A C : Arr2 4096 4096) (deg2 : Arr2 4096 1) (t : Nat)
    (s : FVec Ideal S1024x1024 .f32 × FVec Ideal S1x1 .f32) : FVec Ideal S1024x1024 .f32 × FVec Ideal S1x1 .f32 :=
  let i := q4 (t / 16)
  let j := q4 (t / 4)
  let k := q4 t
  let accIn : FVec Ideal S1024x1024 .f32 := if t % 4 = 0 then k1_pay2 (F := Ideal) else s.1
  let totIn : FVec Ideal S1x1 .f32 := if t = 0 then k1_pay1 (F := Ideal) else s.2
  let acc : FVec Ideal S1024x1024 .f32 := k1_pay3 (F := Ideal) accIn (tile A i k) (tile C k j)
  (acc, if t % 4 = 3 then k1_pay4 (F := Ideal) (band deg2 i) (tile C i j) acc totIn (tile C i j) else totIn)

/-- The second kernel's accumulators after grid point `t`. -/
def state1 (A C : Arr2 4096 4096) (deg2 : Arr2 4096 1) : Nat → FVec Ideal S1024x1024 .f32 × FVec Ideal S1x1 .f32
  | 0 => step1 A C deg2 0 (k1_pay2 (F := Ideal), k1_pay1 (F := Ideal))
  | t + 1 => step1 A C deg2 (t + 1) (state1 A C deg2 t)

end Cert.KernelIdeal.Tiles

end
-- ==== Proof.R0Value.lean ====
import proofs.«169932_j86088324481669_1_alg».proof.Proof.R0Pieces
import proofs.«169932_j86088324481669_1_alg».proof.Proof.TileState
import Idealize.ShloMosaic.Lib.Pipeline.Value

set_option maxRecDepth 16384

noncomputable section

namespace Cert.KernelIdeal.R0

open Cert.KernelIdeal Cert.KernelIdeal.Gen Cert.KernelIdeal.Tiles Cert.Spec
open Idealize.ShloMosaic Idealize.ShloMosaic.TcCoe Idealize.ShloMosaic.ValueIdx
open Idealize.SL Idealize.SL.Sem
open Idealize.ShloMosaic.Pipeline (Dat)

/-! # The first kernel's output, as the tile-by-tile accumulation

At exact arithmetic.  Grid point `t = 4·j + k` sees rows `1024·k …` of `Z` (first window), tile `(k, j)` of `C`
(second window) and rows `1024·j …` of `Z` (third window): a block's coordinate is the window's block index times
the block size plus the coordinate inside the block.  With these blocks the two accumulators after point `t` are the
pure accumulation `state0 Z C t`, by induction on the point; the output array is written once, after the last point,
with the running total. -/

/-! ## The windows' block indices, decided over the grid -/

theorem idx0_0 : ∀ t : Fin cfg0.N, win0_0.index t 0 = t.val % 4 ∧ win0_0.index t 1 = 0 :=
  (by decide +kernel : ∀ t : Fin grid0.N, win0_0.index t 0 = t.val % 4 ∧ win0_0.index t 1 = 0)
theorem idx0_1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)
theorem idx0_2 : ∀ t : Fin cfg0.N, win0_2.index t 0 = t.val / 4 ∧ win0_2.index t 1 = 0 :=
  (by decide +kernel : ∀ t : Fin grid0.N, win0_2.index t 0 = t.val / 4 ∧ win0_2.index t 1 = 0)

section Region
variable (V : (c : Dev nD) → (b : Ref sig .tc) → Buf (Elt Ideal) ((c : Thread nD τ).loc b))

/-- The two arrays the kernel reads, as the region finds them. -/
abbrev Z0 (c : Dev nD) : Arr2 4096 512 := V c main_arg0
abbrev C0 (c : Dev nD) : Arr2 4096 4096 := V c main_v32

/-! ## The blocks -/

/-- The first window's block at point `t` is the band `t mod 4` of `Z`. -/
theorem blk0 (c : Dev nD) (t : Fin cfg0.N) : (iblk0 V c 0 t : Arr2 1024 512) = band (Z0 V c) (q4 t.val) := by
  have hi := idx0_0 t
  funext j
  unfold iblk0 band
  rw [View.read_apply]
  show V c main_arg0 _ = V c main_arg0 _
  congr 1
  funext a
  apply Fin.ext
  match a with
  | ⟨0, _⟩ => show win0_0.index t 0 * 1024 + 1 * (j 0).val = t.val % 4 * 1024 + (j 0).val; rw [hi.1]; omega
  | ⟨1, _⟩ => show win0_0.index t 1 * 512 + 1 * (j 1).val = (j 1).val; rw [hi.2]; omega

/-- The second window's block at point `t` is the tile `(t mod 4, t / 4)` of `C`. -/
theorem blk1 (c : Dev nD) (t : Fin cfg0.N) : (iblk0 V c 1 t : Arr2 1024 1024) = tile (C0 V c) (q4 t.val) (q4 (t.val / 4)) := by
  have hi := idx0_1 t
  have hN : t.val < 16 := lt_of_lt_of_eq t.isLt (show cfg0.N = 16 from N_0)
  funext j
  unfold iblk0 tile
  rw [View.read_apply]
  show V c main_v32 _ = V c main_v32 _
  congr 1
  funext a
  apply Fin.ext
  match a with
  | ⟨0, _⟩ => show win0_1.index t 0 * 1024 + 1 * (j 0).val = t.val % 4 * 1024 + (j 0).val; rw [hi.1]; omega
  | ⟨1, _⟩ => show win0_1.index t 1 * 1024 + 1 * (j 1).val = t.val / 4 % 4 * 1024 + (j 1).val; rw [hi.2]; omega

/-- The third window's block at point `t` is the band `t / 4` of `Z`. -/
theorem blk2 (c : Dev nD) (t : Fin cfg0.N) : (iblk0 V c 2 t : Arr2 1024 512) = band (Z0 V c) (q4 (t.val / 4)) := by
  have hi := idx0_2 t
  have hN : t.val < 16 := lt_of_lt_of_eq t.isLt (show cfg0.N = 16 from N_0)
  funext j
  unfold iblk0 band
  rw [View.read_apply]
  show V c main_arg0 _ = V c main_arg0 _
  congr 1
  funext a
  apply Fin.ext
  match a with
  | ⟨0, _⟩ => show win0_2.index t 0 * 1024 + 1 * (j 0).val = t.val / 4 % 4 * 1024 + (j 0).val; rw [hi.1]; omega
  | ⟨1, _⟩ => show win0_2.index t 1 * 512 + 1 * (j 1).val = (j 1).val; rw [hi.2]; omega

/-! ## One step of the accumulation, by the kind of point -/

theorem step0_first (Z : Arr2 4096 512) (C : Arr2 4096 4096) (s : FVec Ideal S512x1024 .f32 × FVec Ideal S1x1 .f32) :
    step0 Z C 0 s = (k0_pay3 (F := Ideal) (k0_pay2 (F := Ideal)) (band Z (q4 0)) (tile C (q4 0) (q4 (0 / 4))), k0_pay1 (F := Ideal)) := by
  unfold step0; dsimp only; rw [if_pos (Nat.zero_mod 4), if_pos rfl, if_neg (by decide)]
theorem step0_mid (Z : Arr2 4096 512) (C : Arr2 4096 4096) (t : Nat) (h0 : ¬t % 4 = 0) (h3 : ¬t % 4 = 3)
    (s : FVec Ideal S512x1024 .f32 × FVec Ideal S1x1 .f32) :
    step0 Z C t s = (k0_pay3 (F := Ideal) s.1 (band Z (q4 t)) (tile C (q4 t) (q4 (t / 4))), s.2) := by
  have hz : ¬t = 0 := fun h => h0 (by rw [h])
  unfold step0; dsimp only; rw [if_neg h0, if_neg hz, if_neg h3]
theorem step0_fold (Z : Arr2 4096 512) (C : Arr2 4096 4096) (t : Nat) (h3 : t % 4 = 3)
    (s : FVec Ideal S512x1024 .f32 × FVec Ideal S1x1 .f32) :
    step0 Z C t s = (k0_pay3 (F := Ideal) s.1 (band Z (q4 t)) (tile C (q4 t) (q4 (t / 4))),
      k0_pay4 (F := Ideal) (k0_pay3 (F := Ideal) s.1 (band Z (q4 t)) (tile C (q4 t) (q4 (t / 4)))) (band Z (q4 (t / 4))) s.2) := by
  have h0 : ¬t % 4 = 0 := by omega
  have hz : ¬t = 0 := fun h => h0 (by rw [h])
  unfold step0; dsimp only; rw [if_neg h0, if_neg hz, if_pos h3]
theorem step0_clear (Z : Arr2 4096 512) (C : Arr2 4096 4096) (t : Nat) (h0 : t % 4 = 0) (hz : ¬t = 0)
    (s : FVec Ideal S512x1024 .f32 × FVec Ideal S1x1 .f32) :
    step0 Z C t s = (k0_pay3 (F := Ideal) (k0_pay2 (F := Ideal)) (band Z (q4 t)) (tile C (q4 t) (q4 (t / 4))), s.2) := by
  have h3 : ¬t % 4 = 3 := by omega
  unfold step0; dsimp only; rw [if_pos h0, if_neg hz, if_neg h3]

/-! ## The accumulators after each point -/

/-- After the first point. -/
theorem outs_first (c : Dev nD) (t : Fin cfg0.N) (hz : t.val = 0) (s : FVec Ideal S512x1024 .f32 × FVec Ideal S1x1 .f32) :
    (outsAt0 V c t.val t.isLt).2 = step0 (Z0 V c) (C0 V c) 0 s := by
  rw [outsAt0_A V c t hz, step0_first]
  unfold atA
  refine Prod.ext ?_ ?_
  · dsimp only
    have b0 : (iblk0 V c 0 t : Arr2 1024 512) = band (Z0 V c) (q4 0) := by rw [blk0 V c t, hz]
    have b1 : (iblk0 V c 1 t : Arr2 1024 1024) = tile (C0 V c) (q4 0) (q4 (0 / 4)) := by rw [blk1 V c t, hz]
    rw [← b0, ← b1]
    exact sout_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseA t hz).1 (caseA t hz).2.1 (caseA t hz).2.2.1 (caseA t hz).2.2.2 (iblk0 V c 0 t) (iblk0 V c 1 t) (iblk0 V c 2 t)
  · dsimp only
    exact sout_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseA t hz).1 (caseA t hz).2.1 (caseA t hz).2.2.1 (caseA t hz).2.2.2 (iblk0 V c 0 t) (iblk0 V c 1 t) (iblk0 V c 2 t)

/-- After a later point: one step from what the point before left. -/
theorem outs_step (c : Dev nD) (t : Fin cfg0.N) (hz : ¬t.val = 0) :
    (outsAt0 V c t.val t.isLt).2 = step0 (Z0 V c) (C0 V c) t.val (outsAt0 V c (t.val - 1) (Nat.lt_of_le_of_lt (Nat.sub_le _ _) t.isLt)).2 := by
  by_cases h0 : t.val % 4 = 0
  · rw [outsAt0_D V c t h0 hz, step0_clear _ _ _ h0 hz]
    unfold atD
    refine Prod.ext ?_ rfl
    dsimp only
    rw [← blk0 V c t, ← blk1 V c t]
    exact sout_D_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseD t h0 hz).1 (caseD t h0 hz).2.1 (caseD t h0 hz).2.2.1 (caseD t h0 hz).2.2.2 (iblk0 V c 0 t) (iblk0 V c 1 t) (iblk0 V c 2 t)
  · by_cases h3 : t.val % 4 = 3
    · by_cases hL : t.val = 15
      · rw [outsAt0_E V c t hL, step0_fold _ _ _ h3]
        unfold atE
        refine Prod.ext ?_ ?_
        · dsimp only
          rw [← blk0 V c t, ← blk1 V c t]
          exact sout_E_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseE t hL).1 (caseE t hL).2.1 (caseE t hL).2.2.1 (caseE t hL).2.2.2 (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
        · dsimp only
          rw [← blk0 V c t, ← blk1 V c t, ← blk2 V c t]
          exact sout_E_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseE t hL).1 (caseE t hL).2.1 (caseE t hL).2.2.1 (caseE t hL).2.2.2 (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
      · rw [outsAt0_C V c t h3 hL, step0_fold _ _ _ h3]
        unfold atC
        refine Prod.ext ?_ ?_
        · dsimp only
          rw [← blk0 V c t, ← blk1 V c t]
          exact sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseC t h3 hL).1 (caseC t h3 hL).2.1 (caseC t h3 hL).2.2.1 (caseC t h3 hL).2.2.2 (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
        · dsimp only
          rw [← blk0 V c t, ← blk1 V c t, ← blk2 V c t]
          exact sout_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseC t h3 hL).1 (caseC t h3 hL).2.1 (caseC t h3 hL).2.2.1 (caseC t h3 hL).2.2.2 (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
    · rw [outsAt0_B V c t h0 h3, step0_mid _ _ _ h0 h3]
      unfold atB
      refine Prod.ext ?_ rfl
      dsimp only
      rw [← blk0 V c t, ← blk1 V c t]
      exact sout_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseB t h0 h3).1 (caseB t h0 h3).2.1 (caseB t h0 h3).2.2.1 (caseB t h0 h3).2.2.2 (iblk0 V c 0 t) (iblk0 V c 1 t) (iblk0 V c 2 t) (outsAt0 V c (t.val - 1) (Nat.lt_of_le_of_lt (Nat.sub_le _ _) t.isLt)).2.1

/-- THE ACCUMULATION: after point `n` the matrix accumulator and the running total are `state0 Z C n`. -/
theorem outs_eq (c : Dev nD) : ∀ (n : ℕ) (hn : n < cfg0.N), (outsAt0 V c n hn).2 = state0 (Z0 V c) (C0 V c) n
  | 0, hn => outs_first V c ⟨0, hn⟩ rfl _
  | n + 1, hn => by
    rw [show state0 (Z0 V c) (C0 V c) (n + 1) = step0 (Z0 V c) (C0 V c) (n + 1) (state0 (Z0 V c) (C0 V c) n) from rfl, ← outs_eq c n (Nat.lt_of_succ_lt hn)]
    exact outs_step V c ⟨n + 1, hn⟩ (Nat.succ_ne_zero n)

/-- At the last point the output block receives the running total just completed. -/
theorem out_last (c : Dev nD) (t : Fin cfg0.N) (hL : t.val = 15) :
    (outsAt0 V c t.val t.isLt).1 = (outsAt0 V c t.val t.isLt).2.2 := by
  rw [outsAt0_E V c t hL]
  unfold atE
  dsimp only
  exact (out_E_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseE t hL).1 (caseE t hL).2.1 (caseE t hL).2.2.1 (caseE t hL).2.2.2 (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2).trans
    (sout_E_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseE t hL).1 (caseE t hL).2.1 (caseE t hL).2.2.1 (caseE t hL).2.2.2 (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2).symm

/-! ## The output array -/

/-- The running total after the last point, as contents of the output array (its one block is the array). -/
abbrev result0 (c : Dev nD) : Buf (Elt Ideal) ((c : Thread nD τ).loc main_v52) := (state0 (Z0 V c) (C0 V c) 15).2

/-- The one write-back, after the last point, writes it. -/
theorem flushed0_3_eq (c : Dev nD) (t : Fin cfg0.N) (hf : (cfg0.win 3).flush t = true) :
    (dat0 V c).flushed 3 t = ((cfg0.win 3).blk t).view.read (Elt Ideal) (result0 V c) := by
  have hN : cfg0.N = 16 := N_0
  have h15 : t.val = 15 := by have := (flush0_3 t).mp hf; have := t.isLt; omega
  obtain rfl : t = t0_15 := Fin.ext h15
  show (cfg0.win 3).cut (grid0.coords t0_15) ((dat0 V c).after 3 t0_15) = _
  rw [after0_3, out_last V c t0_15 h15, outs_eq V c]
  have hz' : (fun a => win0_3.index t0_15 a * main_v52.ty.shape.size a) = fun _ => 0 := funext fun a => by fin_cases a <;> decide
  exact (Memref.read_access_unit_zero (Elt Ideal) main_v52 hz' (fun a => by rw [congrFun hz' a]; simp) (result0 V c)).symm

/-- THE VALUE: after the region the output array holds the running total after the last point. -/
theorem value0 (c : Dev nD) : (dat0 V c).arrAt 3 cfg0.N = result0 V c :=
  (dat0 V c).arrAt_eq_of_cover 3 (result0 V c) (flushed0_3_eq V c) fun i =>
    ⟨t0_15, (flush0_3 t0_15).mpr rfl, by
      show i ∈ ((View.whole main_v52).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 1 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 1 from by decide +kernel]; omega⟩

/-- The same, read at the array's one index. -/
theorem value0_apply (c : Dev nD) :
    (dat0 V c).arrAt 3 cfg0.N (ix2 0 0) = (state0 (Z0 V c) (C0 V c) 15).2 (ix2 0 0) :=
  congrFun (value0 V c) _

end Region

end Cert.KernelIdeal.R0

end
-- ==== Proof.R1Pieces.lean ====
/-
  The second kernel region: what each case of the body leaves in the two accumulators and in the output's buffer, as
  the kernel's own payload terms of the input blocks and of what the accumulators held.

  Every store of the body writes a whole buffer, and every load reads one; so the contents a buffer ends with are the
  payload of the last store into it, and a load that follows a store reads that store's payload.  The matrix
  accumulator ends at (cleared-or-found accumulator) + (first block) · (second block); the running total, where the
  case stores into it, at (found total) + the tile's sum over the third and fourth blocks and the accumulator just
  written (at the first point it is cleared); the output at the closing constant times the running total.
-/
import proofs.«169932_j86088324481669_1_alg».proof.Proof.R1Body
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The first point: the matrix accumulator is cleared, read back, and gains the product. -/
theorem sout1_A_0_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) :
    sout1_A_0 c i arg3 harg3 arg4 harg4 arg5 harg5 arg6 harg6 arg7 harg7 arg8 harg8 arg9 harg9 hc0 hc1 hc2 hc3 x0 x1 x2 x3 = k1_pay3 (k1_pay2 (F := F)) x0 x1 := by
  unfold sout1_A_0
  rw [View.read_writes_eq_canon _ _ _ (scover1_A_0 c i arg3 harg3 arg4 harg4 arg5 harg5 arg6 harg6 arg7 harg7 arg8 harg8 arg9 harg9 hc0 hc1 hc2 hc3 x0 x1 x2 x3)]
  unfold kernelRun1_A
  dsimp only
  sl_unfold_words
  rw [View.canon_cons_unit_zero (S := S1024x1024) hz]
  simp only [View.readCov_unit_zero (S := S1024x1024) (h := hz), View.readCov_unit_zero (S := S1x1) (h := hz), View.readAt_eq_ld, harg3.read_unread, harg4.read_unread, harg5.read_unread, harg6.read_unread, harg8.read_unread, harg9.read_unread, View.ld_unit_zero (S := S1024x1024) hz, View.ld_unit_zero (S := S1024x1) hz, View.ld_unit_zero (S := S1x1) hz]

/-- The first point: the running total is cleared. -/
theorem sout1_A_1_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) :
    sout1_A_1 c i arg3 harg3 arg4 harg4 arg5 harg5 arg6 harg6 arg7 harg7 arg8 harg8 arg9 harg9 hc0 hc1 hc2 hc3 x0 x1 x2 x3 = k1_pay1 (F := F) := by
  unfold sout1_A_1
  rw [View.read_writes_eq_canon _ _ _ (scover1_A_1 c i arg3 harg3 arg4 harg4 arg5 harg5 arg6 harg6 arg7 harg7 arg8 harg8 arg9 harg9 hc0 hc1 hc2 hc3 x0 x1 x2 x3)]
  unfold kernelRun1_A
  dsimp only
  sl_unfold_words
  rw [View.canon_cons_unit_zero (S := S1x1) hz]

/-- A middle step: the matrix accumulator gains the product. -/
theorem sout1_B_0_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : ¬cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) :
    sout1_B_0 c i arg3 harg3 arg4 harg4 arg5 harg5 arg6 harg6 arg7 harg7 arg8 harg8 arg9 harg9 hc0 hc1 hc2 hc3 x0 x1 x2 x3 xs0 xs1 = k1_pay3 xs0 x0 x1 := by
  unfold sout1_B_0
  rw [View.read_writes_eq_canon _ _ _ (scover1_B_0 c i arg3 harg3 arg4 harg4 arg5 harg5 arg6 harg6 arg7 harg7 arg8 harg8 arg9 harg9 hc0 hc1 hc2 hc3 x0 x1 x2 x3 xs0 xs1)]
  unfold kernelRun1_B
  dsimp only
  sl_unfold_words
  rw [View.canon_cons_unit_zero (S := S1024x1024) hz]
  simp only [View.readCov_unit_zero (S := S1024x1024) (h := hz), View.readCov_unit_zero (S := S1x1) (h := hz), View.readAt_eq_ld, harg3.read_unread, harg4.read_unread, harg5.read_unread, harg6.read_unread, harg8.read_unread, harg9.read_unread, View.ld_unit_zero (S := S1024x1024) hz, View.ld_unit_zero (S := S1024x1) hz, View.ld_unit_zero (S := S1x1) hz]

/-- A last step: the matrix accumulator gains the product, -/
theorem sout1_C_0_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) :
    sout1_C_0 c i arg3 harg3 arg4 harg4 arg5 harg5 arg6 harg6 arg7 harg7 arg8 harg8 arg9 harg9 hc0 hc1 hc2 hc3 x0 x1 x2 x3 xs0 xs1 = k1_pay3 xs0 x0 x1 := by
  unfold sout1_C_0
  rw [View.read_writes_eq_canon _ _ _ (scover1_C_0 c i arg3 harg3 arg4 harg4 arg5 harg5 arg6 harg6 arg7 harg7 arg8 harg8 arg9 harg9 hc0 hc1 hc2 hc3 x0 x1 x2 x3 xs0 xs1)]
  unfold kernelRun1_C
  dsimp only
  sl_unfold_words
  rw [View.canon_cons_unit_zero (S := S1024x1024) hz]
  simp only [View.readCov_unit_zero (S := S1024x1024) (h := hz), View.readCov_unit_zero (S := S1x1) (h := hz), View.readAt_eq_ld, harg3.read_unread, harg4.read_unread, harg5.read_unread, harg6.read_unread, harg8.read_unread, harg9.read_unread, View.ld_unit_zero (S := S1024x1024) hz, View.ld_unit_zero (S := S1024x1) hz, View.ld_unit_zero (S := S1x1) hz]

/-- and the running total gains the tile's sum over the accumulator just written. -/
theorem sout1_C_1_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) :
    sout1_C_1 c i arg3 harg3 arg4 harg4 arg5 harg5 arg6 harg6 arg7 harg7 arg8 harg8 arg9 harg9 hc0 hc1 hc2 hc3 x0 x1 x2 x3 xs0 xs1 = k1_pay4 x3 x2 (k1_pay3 xs0 x0 x1) xs1 x2 := by
  unfold sout1_C_1
  rw [View.read_writes_eq_canon _ _ _ (scover1_C_1 c i arg3 harg3 arg4 harg4 arg5 harg5 arg6 harg6 arg7 harg7 arg8 harg8 arg9 harg9 hc0 hc1 hc2 hc3 x0 x1 x2 x3 xs0 xs1)]
  unfold kernelRun1_C
  dsimp only
  sl_unfold_words
  rw [View.canon_cons_unit_zero (S := S1x1) hz]
  simp only [View.readCov_unit_zero (S := S1024x1024) (h := hz), View.readCov_unit_zero (S := S1x1) (h := hz), View.readAt_eq_ld, harg3.read_unread, harg4.read_unread, harg5.read_unread, harg6.read_unread, harg8.read_unread, harg9.read_unread, View.ld_unit_zero (S := S1024x1024) hz, View.ld_unit_zero (S := S1024x1) hz, View.ld_unit_zero (S := S1x1) hz]

/-- A first step after the first point: the matrix accumulator is cleared, read back, and gains the product. -/
theorem sout1_D_0_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) :
    sout1_D_0 c i arg3 harg3 arg4 harg4 arg5 harg5 arg6 harg6 arg7 harg7 arg8 harg8 arg9 harg9 hc0 hc1 hc2 hc3 x0 x1 x2 x3 xs0 xs1 = k1_pay3 (k1_pay2 (F := F)) x0 x1 := by
  unfold sout1_D_0
  rw [View.read_writes_eq_canon _ _ _ (scover1_D_0 c i arg3 harg3 arg4 harg4 arg5 harg5 arg6 harg6 arg7 harg7 arg8 harg8 arg9 harg9 hc0 hc1 hc2 hc3 x0 x1 x2 x3 xs0 xs1)]
  unfold kernelRun1_D
  dsimp only
  sl_unfold_words
  rw [View.canon_cons_unit_zero (S := S1024x1024) hz]
  simp only [View.readCov_unit_zero (S := S1024x1024) (h := hz), View.readCov_unit_zero (S := S1x1) (h := hz), View.readAt_eq_ld, harg3.read_unread, harg4.read_unread, harg5.read_unread, harg6.read_unread, harg8.read_unread, harg9.read_unread, View.ld_unit_zero (S := S1024x1024) hz, View.ld_unit_zero (S := S1024x1) hz, View.ld_unit_zero (S := S1x1) hz]

/-- The last point: the matrix accumulator gains the product, -/
theorem sout1_E_0_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) :
    sout1_E_0 c i arg3 harg3 arg4 harg4 arg5 harg5 arg6 harg6 arg7 harg7 arg8 harg8 arg9 harg9 hc0 hc1 hc2 hc3 x0 x1 x2 x3 xs0 xs1 = k1_pay3 xs0 x0 x1 := by
  unfold sout1_E_0
  rw [View.read_writes_eq_canon _ _ _ (scover1_E_0 c i arg3 harg3 arg4 harg4 arg5 harg5 arg6 harg6 arg7 harg7 arg8 harg8 arg9 harg9 hc0 hc1 hc2 hc3 x0 x1 x2 x3 xs0 xs1)]
  unfold kernelRun1_E
  dsimp only
  sl_unfold_words
  rw [View.canon_cons_unit_zero (S := S1024x1024) hz]
  simp only [View.readCov_unit_zero (S := S1024x1024) (h := hz), View.readCov_unit_zero (S := S1x1) (h := hz), View.readAt_eq_ld, harg3.read_unread, harg4.read_unread, harg5.read_unread, harg6.read_unread, harg8.read_unread, harg9.read_unread, View.ld_unit_zero (S := S1024x1024) hz, View.ld_unit_zero (S := S1024x1) hz, View.ld_unit_zero (S := S1x1) hz]

/-- the running total gains the tile's sum over the accumulator just written, -/
theorem sout1_E_1_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) :
    sout1_E_1 c i arg3 harg3 arg4 harg4 arg5 harg5 arg6 harg6 arg7 harg7 arg8 harg8 arg9 harg9 hc0 hc1 hc2 hc3 x0 x1 x2 x3 xs0 xs1 = k1_pay4 x3 x2 (k1_pay3 xs0 x0 x1) xs1 x2 := by
  unfold sout1_E_1
  rw [View.read_writes_eq_canon _ _ _ (scover1_E_1 c i arg3 harg3 arg4 harg4 arg5 harg5 arg6 harg6 arg7 harg7 arg8 harg8 arg9 harg9 hc0 hc1 hc2 hc3 x0 x1 x2 x3 xs0 xs1)]
  unfold kernelRun1_E
  dsimp only
  sl_unfold_words
  rw [View.canon_cons_unit_zero (S := S1x1) hz]
  simp only [View.readCov_unit_zero (S := S1024x1024) (h := hz), View.readCov_unit_zero (S := S1x1) (h := hz), View.readAt_eq_ld, harg3.read_unread, harg4.read_unread, harg5.read_unread, harg6.read_unread, harg8.read_unread, harg9.read_unread, View.ld_unit_zero (S := S1024x1024) hz, View.ld_unit_zero (S := S1024x1) hz, View.ld_unit_zero (S := S1x1) hz]

/-- and the output is the closing constant times the running total just written. -/
theorem out1_E_4_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) :
    out1_E_4 c i arg3 harg3 arg4 harg4 arg5 harg5 arg6 harg6 arg7 harg7 arg8 harg8 arg9 harg9 hc0 hc1 hc2 hc3 x0 x1 x2 x3 xs0 xs1 = k1_pay5 (k1_pay4 x3 x2 (k1_pay3 xs0 x0 x1) xs1 x2) := by
  unfold out1_E_4
  rw [View.read_writes_eq_canon _ _ _ (cover1_E_4 c i arg3 harg3 arg4 harg4 arg5 harg5 arg6 harg6 arg7 harg7 arg8 harg8 arg9 harg9 hc0 hc1 hc2 hc3 x0 x1 x2 x3 xs0 xs1)]
  unfold kernelRun1_E
  dsimp only
  sl_unfold_words
  rw [View.canon_cons_unit_zero (S := S1x1) hz]
  simp only [View.readCov_unit_zero (S := S1024x1024) (h := hz), View.readCov_unit_zero (S := S1x1) (h := hz), View.readAt_eq_ld, harg3.read_unread, harg4.read_unread, harg5.read_unread, harg6.read_unread, harg8.read_unread, harg9.read_unread, View.ld_unit_zero (S := S1024x1024) hz, View.ld_unit_zero (S := S1024x1) hz, View.ld_unit_zero (S := S1x1) hz]

end Cert.KernelIdeal.R1

end
-- ==== Proof.R1Tiles.lean ====
/-
  The second kernel region at the exact instance: the block each input window reads at a grid point is a tile (or a
  band) of the window's array.

  At point t = 16·i + 4·j + k the first window reads tile (i, k) of the adjacency matrix, the second tile (k, j) of
  the weight matrix, the third tile (i, j) of the weight matrix, the fourth rows band i of the degree column.  A
  block's coordinate on an axis is the block index there times the block's extent plus the coordinate inside the
  block; the block indices are decided once over the grid.
-/
import proofs.«169932_j86088324481669_1_alg».proof.Proof.R1Conds
import proofs.«169932_j86088324481669_1_alg».proof.Proof.TileState
import Idealize.ShloMosaic.Lib.Pipeline.Value

set_option maxRecDepth 16384

noncomputable section

namespace Cert.KernelIdeal.R1

open Cert.KernelIdeal Cert.KernelIdeal.Gen Cert.KernelIdeal.Tiles Cert.Spec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps over the grid: i = t / 16, j = t / 4 mod 4, k = t mod 4. -/
theorem idx_facts1 : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = t.val / 16 ∧ win1_2.index t (1 : Fin 2) = t.val / 4 % 4
    ∧ win1_3.index t (0 : Fin 2) = t.val / 16 ∧ win1_3.index t (1 : Fin 2) = 0 :=
  (by decide +kernel : ∀ t : Fin grid1.N, _)

/-- The first window's block at point `t` is tile (i, k) of its array. -/
theorem iblk1_0_eq (c : Dev nD) (t : Fin cfg1.N) :
    (iblk1 V c 0 t : FVec Ideal S1024x1024 .f32) = tile (V c main_v48) (q4 (t.val / 16)) (q4 t.val) := by
  obtain ⟨e0, e1, -⟩ := idx_facts1 t
  have hN : t.val < 64 := lt_of_lt_of_eq t.isLt N_1
  funext y
  unfold iblk1 tile
  rw [View.read_apply]
  show V c main_v48 _ = V c main_v48 _
  congr 1
  funext a; apply Fin.ext
  match a with
  | ⟨0, _⟩ => show win1_0.index t (0 : Fin 2) * 1024 + 1 * (y 0).val = (t.val / 16 % 4) * 1024 + (y 0).val; rw [e0]; omega
  | ⟨1, _⟩ => show win1_0.index t (1 : Fin 2) * 1024 + 1 * (y 1).val = (t.val % 4) * 1024 + (y 1).val; rw [e1]; omega

/-- The second window's block at point `t` is tile (k, j) of the shared array. -/
theorem iblk1_1_eq (c : Dev nD) (t : Fin cfg1.N) :
    (iblk1 V c 1 t : FVec Ideal S1024x1024 .f32) = tile (V c main_v32) (q4 t.val) (q4 (t.val / 4)) := by
  obtain ⟨-, -, e0, e1, -⟩ := idx_facts1 t
  funext y
  unfold iblk1 tile
  rw [View.read_apply]
  show V c main_v32 _ = V c main_v32 _
  congr 1
  funext a; apply Fin.ext
  match a with
  | ⟨0, _⟩ => show win1_1.index t (0 : Fin 2) * 1024 + 1 * (y 0).val = (t.val % 4) * 1024 + (y 0).val; rw [e0]; omega
  | ⟨1, _⟩ => show win1_1.index t (1 : Fin 2) * 1024 + 1 * (y 1).val = (t.val / 4 % 4) * 1024 + (y 1).val; rw [e1]; omega

/-- The third window's block at point `t` is tile (i, j) of the shared array. -/
theorem iblk1_2_eq (c : Dev nD) (t : Fin cfg1.N) :
    (iblk1 V c 2 t : FVec Ideal S1024x1024 .f32) = tile (V c main_v32) (q4 (t.val / 16)) (q4 (t.val / 4)) := by
  obtain ⟨-, -, -, -, e0, e1, -⟩ := idx_facts1 t
  have hN : t.val < 64 := lt_of_lt_of_eq t.isLt N_1
  funext y
  unfold iblk1 tile
  rw [View.read_apply]
  show V c main_v32 _ = V c main_v32 _
  congr 1
  funext a; apply Fin.ext
  match a with
  | ⟨0, _⟩ => show win1_2.index t (0 : Fin 2) * 1024 + 1 * (y 0).val = (t.val / 16 % 4) * 1024 + (y 0).val; rw [e0]; omega
  | ⟨1, _⟩ => show win1_2.index t (1 : Fin 2) * 1024 + 1 * (y 1).val = (t.val / 4 % 4) * 1024 + (y 1).val; rw [e1]; omega

/-- The fourth window's block at point `t` is rows band i of the degree column. -/
theorem iblk1_3_eq (c : Dev nD) (t : Fin cfg1.N) :
    (iblk1 V c 3 t : FVec Ideal S1024x1 .f32) = band (V c main_v55) (q4 (t.val / 16)) := by
  obtain ⟨-, -, -, -, -, -, e0, e1⟩ := idx_facts1 t
  have hN : t.val < 64 := lt_of_lt_of_eq t.isLt N_1
  funext y
  unfold iblk1 band
  rw [View.read_apply]
  show V c main_v55 _ = V c main_v55 _
  congr 1
  funext a; apply Fin.ext
  match a with
  | ⟨0, _⟩ => show win1_3.index t (0 : Fin 2) * 1024 + 1 * (y 0).val = (t.val / 16 % 4) * 1024 + (y 0).val; rw [e0]; omega
  | ⟨1, _⟩ => show win1_3.index t (1 : Fin 2) * 1 + 1 * (y 1).val = (y 1).val; rw [e1]; omega

end Cert.KernelIdeal.R1

end
-- ==== Proof.R1Value.lean ====
/-
  The second kernel region at the exact instance: the value of its output array.

  The two accumulators after grid point n, as the body's runs leave them, are the tile state after n steps: the
  matrix accumulator cleared at the first step of each contraction and gaining (tile (i, k) of the adjacency matrix)
  · (tile (k, j) of the weight matrix) at every step; the running total cleared at the first point and gaining, at
  the last step of each contraction, the tile's sum of C · (deg · C − accumulator).  By induction on the point: at
  each point the closed forms of the conditions select the case, the case's pieces are the kernel's payload terms of
  the point's blocks, and the blocks are tiles.  The output's one block is written back once, after the last point,
  holding the closing constant times the final running total; that block is the whole 1 × 1 array.
-/
import proofs.«169932_j86088324481669_1_alg».proof.Proof.R1Pieces
import proofs.«169932_j86088324481669_1_alg».proof.Proof.R1Tiles

set_option maxRecDepth 16384

noncomputable section

namespace Cert.KernelIdeal.R1

open Cert.KernelIdeal Cert.KernelIdeal.Gen Cert.KernelIdeal.Tiles Cert.Spec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## One step of the tile state, by the case of the point -/

theorem state1_succ (A C : Arr2 4096 4096) (deg2 : Arr2 4096 1) (n : ℕ) :
    state1 A C deg2 (n + 1) = step1 A C deg2 (n + 1) (state1 A C deg2 n) := rfl

theorem state1_zero (A C : Arr2 4096 4096) (deg2 : Arr2 4096 1) :
    state1 A C deg2 0 = step1 A C deg2 0 (k1_pay2 (F := Ideal), k1_pay1 (F := Ideal)) := rfl

/-- A step that clears both accumulators (the first point). -/
theorem step1_A (A C : Arr2 4096 4096) (deg2 : Arr2 4096 1) (t : ℕ) (h0 : t = 0) (h1 : t % 4 = 0) (h2 : ¬t % 4 = 3)
    (s : FVec Ideal S1024x1024 .f32 × FVec Ideal S1x1 .f32) :
    step1 A C deg2 t s = (k1_pay3 (F := Ideal) (k1_pay2 (F := Ideal)) (tile A (q4 (t / 16)) (q4 t)) (tile C (q4 t) (q4 (t / 4))), k1_pay1 (F := Ideal)) := by
  unfold step1; simp only [if_pos h1, if_pos h0, if_neg h2]

/-- A step that clears the matrix accumulator only (the first step of a later contraction). -/
theorem step1_D (A C : Arr2 4096 4096) (deg2 : Arr2 4096 1) (t : ℕ) (h0 : ¬t = 0) (h1 : t % 4 = 0) (h2 : ¬t % 4 = 3)
    (s : FVec Ideal S1024x1024 .f32 × FVec Ideal S1x1 .f32) :
    step1 A C deg2 t s = (k1_pay3 (F := Ideal) (k1_pay2 (F := Ideal)) (tile A (q4 (t / 16)) (q4 t)) (tile C (q4 t) (q4 (t / 4))), s.2) := by
  unfold step1; simp only [if_pos h1, if_neg h0, if_neg h2]

/-- A middle step. -/
theorem step1_B (A C : Arr2 4096 4096) (deg2 : Arr2 4096 1) (t : ℕ) (h0 : ¬t = 0) (h1 : ¬t % 4 = 0) (h2 : ¬t % 4 = 3)
    (s : FVec Ideal S1024x1024 .f32 × FVec Ideal S1x1 .f32) :
    step1 A C deg2 t s = (k1_pay3 (F := Ideal) s.1 (tile A (q4 (t / 16)) (q4 t)) (tile C (q4 t) (q4 (t / 4))), s.2) := by
  unfold step1; simp only [if_neg h1, if_neg h0, if_neg h2]

/-- The last step of a contraction. -/
theorem step1_C (A C : Arr2 4096 4096) (deg2 : Arr2 4096 1) (t : ℕ) (h0 : ¬t = 0) (h1 : ¬t % 4 = 0) (h2 : t % 4 = 3)
    (s : FVec Ideal S1024x1024 .f32 × FVec Ideal S1x1 .f32) :
    step1 A C deg2 t s = (k1_pay3 (F := Ideal) s.1 (tile A (q4 (t / 16)) (q4 t)) (tile C (q4 t) (q4 (t / 4))),
      k1_pay4 (F := Ideal) (band deg2 (q4 (t / 16))) (tile C (q4 (t / 16)) (q4 (t / 4)))
        (k1_pay3 (F := Ideal) s.1 (tile A (q4 (t / 16)) (q4 t)) (tile C (q4 t) (q4 (t / 4)))) s.2 (tile C (q4 (t / 16)) (q4 (t / 4)))) := by
  unfold step1; simp only [if_neg h1, if_neg h0, if_pos h2]

/-! ## The accumulators after each point are the tile state -/

/-- After point `n` the matrix accumulator and the running total hold the tile state after `n` steps. -/
theorem outsAt1_eq_state (c : Dev nD) : ∀ (n : ℕ) (hn : n < cfg1.N),
    (outsAt1 V c n hn).2.1 = (state1 (V c main_v48) (V c main_v32) (V c main_v55) n).1 ∧ (outsAt1 V c n hn).2.2 = (state1 (V c main_v48) (V c main_v32) (V c main_v55) n).2
  | 0, hn => by
    rw [outsAt1_A V c ⟨0, hn⟩ rfl]
    dsimp only
    rw [sout1_A_0_eq, sout1_A_1_eq, iblk1_0_eq, iblk1_1_eq, state1_zero, step1_A _ _ _ 0 rfl rfl (by decide)]
    exact ⟨rfl, rfl⟩
  | n + 1, hn => by
    obtain ⟨ih0, ih1⟩ := outsAt1_eq_state c n (Nat.lt_of_succ_lt hn)
    have hN : n + 1 < 64 := lt_of_lt_of_eq hn N_1
    have e0 : outsAt1 V c ((⟨n + 1, hn⟩ : Fin cfg1.N).val - 1) (Nat.lt_of_le_of_lt (Nat.sub_le _ _) (⟨n + 1, hn⟩ : Fin cfg1.N).isLt) = outsAt1 V c n (Nat.lt_of_succ_lt hn) := rfl
    rw [state1_succ]
    by_cases h1 : (n + 1) % 4 = 0
    · rw [outsAt1_D V c ⟨n + 1, hn⟩ (Nat.succ_ne_zero n) h1, e0]
      dsimp only
      rw [sout1_D_0_eq, iblk1_0_eq, iblk1_1_eq, ih1, step1_D _ _ _ (n + 1) (Nat.succ_ne_zero n) h1 (by omega)]
      exact ⟨rfl, rfl⟩
    · by_cases h2 : (n + 1) % 4 = 3
      · by_cases h3 : n + 1 = 63
        · rw [outsAt1_E V c ⟨n + 1, hn⟩ h1 h2 h3, e0]
          dsimp only
          rw [sout1_E_0_eq, sout1_E_1_eq, iblk1_0_eq, iblk1_1_eq, iblk1_2_eq, iblk1_3_eq, ih0, ih1, step1_C _ _ _ (n + 1) (Nat.succ_ne_zero n) h1 h2]
          exact ⟨rfl, rfl⟩
        · rw [outsAt1_C V c ⟨n + 1, hn⟩ h1 h2 h3, e0]
          dsimp only
          rw [sout1_C_0_eq, sout1_C_1_eq, iblk1_0_eq, iblk1_1_eq, iblk1_2_eq, iblk1_3_eq, ih0, ih1, step1_C _ _ _ (n + 1) (Nat.succ_ne_zero n) h1 h2]
          exact ⟨rfl, rfl⟩
      · rw [outsAt1_B V c ⟨n + 1, hn⟩ h1 h2, e0]
        dsimp only
        rw [sout1_B_0_eq, iblk1_0_eq, iblk1_1_eq, ih0, ih1, step1_B _ _ _ (n + 1) (Nat.succ_ne_zero n) h1 h2]
        exact ⟨rfl, rfl⟩

/-! ## The output array -/

/-- The last grid point. -/
def t63 : Fin cfg1.N := ⟨63, by rw [show cfg1.N = 64 from N_1]; decide⟩

/-- What the region writes into its output array: the closing constant times the running total after the last point. -/
abbrev result1 (c : Dev nD) : FVec Ideal S1x1 .f32 := k1_pay5 (F := Ideal) (state1 (V c main_v48) (V c main_v32) (V c main_v55) 63).2

/-- After the last point the output's staging buffer holds it. -/
theorem out_last (c : Dev nD) : (outsAt1 V c t63.val t63.isLt).1 = result1 V c := by
  have e := (outsAt1_eq_state V c t63.val t63.isLt).2
  rw [outsAt1_E V c t63 (by decide) (by decide) rfl] at e ⊢
  dsimp only at e ⊢
  rw [sout1_E_1_eq] at e
  rw [out1_E_4_eq, e]
  rfl

/-- The one write-back, at the last point, writes it: block (0, 0) of the 1 × 1 array read through zero offsets is the
    array. -/
theorem flushed1_eq (c : Dev nD) (t : Fin cfg1.N) (hf : (cfg1.win 4).flush t = true) :
    (dat1 V c).flushed 4 t = ((cfg1.win 4).blk t).view.read (Elt Ideal) (result1 V c) := by
  have hN : cfg1.N = 64 := N_1
  have h63 : t.val = 63 := by have := (flush1_4 t).mp hf; have := t.isLt; omega
  obtain rfl : t = t63 := Fin.ext h63
  show (cfg1.win 4).cut (grid1.coords t63) ((dat1 V c).after 4 t63) = _
  rw [after1_4, out_last]
  have hz' : (fun a => win1_4.index t63 a * main_v56.ty.shape.size a) = fun _ => 0 := funext fun a => by fin_cases a <;> decide
  exact (Memref.read_access_unit_zero (Elt Ideal) main_v56 hz' (fun a => by rw [congrFun hz' a]; simp) (result1 V c)).symm

/-- THE VALUE OF THE OUTPUT ARRAY: after the last write-back the region's output array is the closing constant times
    the tile state's running total after the last point. -/
theorem value1 (c : Dev nD) : (dat1 V c).arrAt 4 cfg1.N = result1 V c :=
  (dat1 V c).arrAt_eq_of_cover 4 (result1 V c) (flushed1_eq V c) fun i =>
    ⟨t63, (flush1_4 t63).mpr rfl, by
      show i ∈ ((View.whole main_v56).slice (win1_4.rect t63)).set
      rw [View.set_slice_whole, Rect.mem_set_unit]
      intro a
      have h0 : (i 0 : Nat) < 1 := (i 0).isLt
      have h1 : (i 1 : Nat) < 1 := (i 1).isLt
      match a with
      | ⟨0, _⟩ => show win1_4.index t63 0 * win1_4.size 0 ≤ (i 0 : Nat) ∧ (i 0 : Nat) < win1_4.index t63 0 * win1_4.size 0 + win1_4.xsize (grid1.coords t63) 0
                  rw [show win1_4.index t63 0 * win1_4.size 0 = 0 from by decide +kernel, show win1_4.xsize (grid1.coords t63) 0 = 1 from by decide +kernel]; omega
      | ⟨1, _⟩ => show win1_4.index t63 1 * win1_4.size 1 ≤ (i 1 : Nat) ∧ (i 1 : Nat) < win1_4.index t63 1 * win1_4.size 1 + win1_4.xsize (grid1.coords t63) 1
                  rw [show win1_4.index t63 1 * win1_4.size 1 = 0 from by decide +kernel, show win1_4.xsize (grid1.coords t63) 1 = 1 from by decide +kernel]; omega⟩

/-- The same read at its one index. -/
theorem value1_apply (c : Dev nD) :
    (dat1 (F := Ideal) V c).arrAt 4 cfg1.N (ValueIdx.ix2 0 0)
      = Cert.KernelIdeal.Gen.k1_pay5 (F := Ideal) (Cert.KernelIdeal.Tiles.state1 (V c main_v48) (V c main_v32) (V c main_v55) 63).2 (ValueIdx.ix2 0 0) :=
  congrFun (value1 V c) (ValueIdx.ix2 0 0)

end Cert.KernelIdeal.R1

end
-- ==== Proof.LibContractFirst.lean ====
/-
  One tactic for a matrix product that contracts the FIRST axis of both operands: the contraction of a rank-2 left
  operand [K, A] with a rank-2 right operand [K, B] over their shared first axis, summed over the contraction index,
  is re-indexed as the sum over k of left (k, p) times right (k, q) at the output entry (p, q) — the product of the
  left operand's transpose with the right operand, with no transpose materialised.
-/
import Idealize.ShloMosaic.PureOps.Ideal.Laws
import Idealize.ShloMosaic.Lib.ValueIdx

namespace Cert.ContractFirst

open Idealize.ShloMosaic

set_option hygiene false in
/-- Closes `∑ c, l (D.lhsIdx (ix2 p q) c) * r (D.rhsIdx (ix2 p q) c) = ∑ k : Fin K, l (ix2 k p) * r (ix2 k q)` for a
    dimension record `D` that contracts the left operand's axis 0 (extent `K`) with the right operand's axis 0 and keeps
    the left operand's axis 1 and the right operand's axis 1 as the output's two axes; `SL` and `SR` are the operands'
    shapes. It expects `l`, `r`, `p`, `q` in scope under these names. -/
macro "contract_first " D:term:max SL:term:max SR:term:max K:term:max : tactic => `(tactic| (
  have l0 : ∀ c, ((($D).lhsIdx (ValueIdx.ix2 p q) c) 0).val = (c ⟨0, by decide⟩).val := fun c =>
    ($D).lhsIdx_val_of_single rfl (ValueIdx.ix2 p q) c
  have l1 : ∀ c, ((($D).lhsIdx (ValueIdx.ix2 p q) c) 1).val = p.val := fun c => by
    unfold DotDims.lhsIdx
    rw [dif_neg (show ¬(1 : Fin ($SL).rank) ∈ ($D).lhsBatch by decide), dif_pos (show (1 : Fin ($SL).rank) ∈ ($D).lhsNonContracting by decide)]
    rfl
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 k p := funext fun a => Fin.ext (by
    match a with
    | ⟨0, _⟩ => exact (l0 _).trans hk
    | ⟨1, _⟩ => exact l1 _)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.ContractFirst
-- ==== Proof.ReconAccUpdate.lean ====
/-
  The first kernel's two zero fills and its matrix accumulator update, read at an entry.

  The fills are zero everywhere.  The update at entry (d, n) is the accumulator found there plus the sum, over the
  1024 rows l of the band being contracted, of (band of Z)(l, d) · (tile of C)(l, n): the product of the band's
  transpose with the tile, added in.
-/
import proofs.«169932_j86088324481669_1_alg».proof.Proof.Gen.KernelIdeal.Skeleton
import proofs.«169932_j86088324481669_1_alg».proof.Proof.LibContractFirst
import Idealize.ShloMosaic.Lib.Pipeline.Value

noncomputable section

open scoped BigOperators

namespace Cert.KernelIdeal.Recon

open Idealize.ShloMosaic Idealize.ShloMosaic.ValueIdx Cert.KernelIdeal Cert.KernelIdeal.Gen

variable [Cert.KernelIdeal.Facts]

/-- The running total's fill is zero. -/
theorem totalFill_apply (i : S1x1.Idx) : k0_pay1 (F := Ideal) i = 0 := by
  unfold k0_pay1
  simp only [shapeCast_self]
  exact Ideal.ofBits_zero_f32

/-- The matrix accumulator's fill is zero. -/
theorem accFill_apply (i : S512x1024.Idx) : k0_pay2 (F := Ideal) i = 0 := by
  unfold k0_pay2
  simp only [shapeCast_self]
  exact Ideal.ofBits_zero_f32

/-- The accumulator update at entry (p, q): what was there plus Σ_k l(k, p) · r(k, q). -/
theorem accUpdate_apply (acc : Vec Ideal S512x1024 .f32) (l : Vec Ideal S1024x512 .f32) (r : Vec Ideal S1024x1024 .f32)
    (p : Fin 512) (q : Fin 1024) :
    k0_pay3 (F := Ideal) acc l r (ix2 p q) = acc (ix2 p q) + ∑ k : Fin 1024, l (ix2 k p) * r (ix2 k q) := by
  unfold k0_pay3
  simp only [shapeCast_self]
  refine congrArg (acc (ix2 p q) + ·) ?_
  refine (Ideal.matmul_constant_zero_apply dot_S1024x512_S1024x1024_S512x1024_0_0_1_1_n_n none l r (ix2 p q)).trans ?_
  contract_first dot_S1024x512_S1024x1024_S512x1024_0_0_1_1_n_n S1024x512 S1024x1024 1024

end Cert.KernelIdeal.Recon

end
-- ==== Proof.ReconTotalUpdate.lean ====
/-
  The first kernel's running-total update, read at its one entry.

  The update adds to the total found the sum, over all 512 × 1024 entries (d, n) of the matrix accumulator, of
  (accumulator(d, n) − (band of Z)(n, d))²: the accumulator minus the band's transpose, squared entrywise, viewed as a
  1 × 512 × 1024 array and summed over its last two axes into one number.
-/
import proofs.«169932_j86088324481669_1_alg».proof.Proof.Gen.KernelIdeal.Skeleton
import Idealize.ShloMosaic.Lib.ValueLayout
import Idealize.ShloMosaic.PureOps.Ideal.Laws

noncomputable section

open scoped BigOperators

namespace Cert.KernelIdeal.Recon

open Idealize.ShloMosaic Idealize.ShloMosaic.ValueIdx Cert.KernelIdeal Cert.KernelIdeal.Gen

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum into one number of a 1 × a × b view of an a × b matrix is the double sum of the matrix's entries. -/
theorem sum_unitStack {a b : Nat} (x : (⟨2, ![a, b]⟩ : Shape).Idx → EReal)
    (h : (⟨2, ![a, b]⟩ : Shape).ShapeCasts ⟨3, ![1, a, b]⟩) :
    ∑ i, shapeCast (⟨3, ![1, a, b]⟩ : Shape) x h i = ∑ p : Fin a, ∑ q : Fin b, x (ix2 p q) := by
  rw [sum_idx3, Fin.sum_univ_one]
  exact Finset.sum_congr rfl fun p _ => Finset.sum_congr rfl fun q _ => shapeCast_ab_1ab_apply x h 0 p q

variable [Cert.KernelIdeal.Facts]

/-- The one entry of a one-entry vector, viewed as 1 × 1 × 1, taken out and spread over a 1 × 1 vector. -/
theorem unitRead (v : FVec Ideal S1 .f32) (i : S1x1.Idx) :
    broadcast S1x1 (extractAt ![0, 0, 0] (shapeCast S1x1x1 v shapeCasts_S1_S1x1x1) inpos_S1x1x1_p0_0_0) i
      = v (Shape.reshapeEquiv shapeCasts_S1_S1x1x1 (fun a => ⟨![0, 0, 0] a, inpos_S1x1x1_p0_0_0 a⟩)) := rfl

/-- Summing a 1 × 512 × 1024 array over its last two axes into one number adds up every entry. -/
theorem sumAll (src : FVec Ideal S1x512x1024 .f32) (j : S1.Idx) :
    multiReduction (F := Ideal) .add [1, 2] S1 src 0x00000000#32 reduces_S1x512x1024_S1 (.inl rfl) rfl j
      = ∑ i, src i :=
  Ideal.multiReduction_add_total src _ reduces_S1x512x1024_S1 (fun b => by match b with | ⟨0, _⟩ => rfl) _ _ j

/-- The total's update at its entry: what was there plus Σ_{d, n} (acc(d, n) − z(n, d))². -/
theorem totalUpdate_apply (acc : Vec Ideal S512x1024 .f32) (z : Vec Ideal S1024x512 .f32) (tot : Vec Ideal S1x1 .f32)
    (i : S1x1.Idx) :
    k0_pay4 (F := Ideal) acc z tot i
      = tot i + ∑ d : Fin 512, ∑ n : Fin 1024,
          (acc (ix2 d n) - z (ix2 n d)) * (acc (ix2 d n) - z (ix2 n d)) := by
  unfold k0_pay4
  simp only [shapeCast_self]
  refine congrArg (tot i + ·) ?_
  refine (unitRead _ i).trans ?_
  refine (sumAll _ _).trans ?_
  refine (sum_unitStack _ shapeCasts_S512x1024_S1x512x1024).trans ?_
  refine Finset.sum_congr rfl fun d _ => Finset.sum_congr rfl fun n _ => ?_
  refine (mulf_apply _ _ (ix2 d n)).trans ?_
  refine (congrArg (fun x => x * x) ((subf_apply _ _ (ix2 d n)).trans ?_) : _)
  exact congrArg (acc (ix2 d n) - ·) (transpose_ix2_apply z transposes_S1024x512_p1_0_S512x1024 d n)

end Cert.KernelIdeal.Recon

end
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.ReconSteps.lean ====
/-
  One grid point of the first kernel, read entry by entry, and the accumulators after every grid point.

  With j = (t / 4) mod 4 the column band of C and k = t mod 4 the row band being contracted, a grid point leaves in the
  matrix accumulator what it found (nothing when k = 0) plus the band-k part of (Zᵀ C)[d, 1024·j + n], and, when k = 3,
  adds to the running total the sum over the tile of (accumulator − Z[1024·j + n, d])².  So after point t the matrix
  accumulator holds the parts of bands 0 … k of the projection's tile j, and the running total holds the sums of
  squares of the tiles already finished.
-/
import proofs.«169932_j86088324481669_1_alg».proof.Proof.TileState
import proofs.«169932_j86088324481669_1_alg».proof.Proof.ReconAccUpdate
import proofs.«169932_j86088324481669_1_alg».proof.Proof.ReconTotalUpdate
import proofs.«169932_j86088324481669_1_alg».proof.Proof.LibSumSplit

noncomputable section

open scoped BigOperators

namespace Cert.KernelIdeal.Recon

open Idealize.ShloMosaic Idealize.ShloMosaic.ValueIdx Cert.KernelIdeal Cert.KernelIdeal.Gen Cert.Spec
  Cert.KernelIdeal.Tiles

/-- The part of (Zᵀ C)[d, 1024·j + n] that row band k contributes. -/
def bandTerm (Z : Arr2 4096 512) (C : Arr2 4096 4096) (j k : Fin 4) (d : Fin 512) (n : Fin 1024) : EReal :=
  ∑ l : Fin 1024, Z (ix2 (bandRow k l) d) * C (ix2 (bandRow k l) (bandRow j n))

/-- The parts of the first m row bands together. -/
def partialProj (Z : Arr2 4096 512) (C : Arr2 4096 4096) (j : Fin 4) (m : Nat) (d : Fin 512) (n : Fin 1024) : EReal :=
  ∑ k ∈ Finset.range m, bandTerm Z C j (q4 k) d n

/-- The sum of squares over column band j. -/
def tileSq (Z : Arr2 4096 512) (C : Arr2 4096 4096) (j : Fin 4) : EReal :=
  ∑ d : Fin 512, ∑ n : Fin 1024,
    (proj Z C d (bandRow j n) - Z (ix2 (bandRow j n) d)) * (proj Z C d (bandRow j n) - Z (ix2 (bandRow j n) d))

/-- A coordinate below 4 is its own remainder. -/
theorem q4_val (k : Fin 4) : q4 k.val = k := Fin.ext (Nat.mod_eq_of_lt k.isLt)

/-- Row 1024·k + y, as the tile index of the regrouping lemma. -/
theorem bandRow_eq (k : Fin 4) (y : Fin 1024) :
    bandRow k y = Cert.PointDist.tileIdx (show 4 * 1024 = 4096 by norm_num) k y := rfl

/-- All four row bands together are the whole contraction. -/
theorem partialProj_four (Z : Arr2 4096 512) (C : Arr2 4096 4096) (j : Fin 4) (d : Fin 512) (n : Fin 1024) :
    partialProj Z C j 4 d n = proj Z C d (bandRow j n) := by
  unfold partialProj proj
  rw [Finset.sum_range (fun k => bandTerm Z C j (q4 k) d n),
    Cert.PointDist.sum_tiles (show 4 * 1024 = 4096 by norm_num) (fun l => Z (ix2 l d) * C (ix2 l (bandRow j n)))]
  refine Finset.sum_congr rfl fun k _ => ?_
  rw [q4_val]
  rfl

variable [Cert.KernelIdeal.Facts]

/-- The matrix accumulator a grid point leaves. -/
theorem step0_fst (Z : Arr2 4096 512) (C : Arr2 4096 4096) (t : Nat)
    (s : FVec Ideal S512x1024 .f32 × FVec Ideal S1x1 .f32) :
    (step0 Z C t s).1 = k0_pay3 (F := Ideal) (if t % 4 = 0 then k0_pay2 (F := Ideal) else s.1)
      (band Z (q4 t)) (tile C (q4 t) (q4 (t / 4))) := rfl

/-- The running total a grid point leaves. -/
theorem step0_snd (Z : Arr2 4096 512) (C : Arr2 4096 4096) (t : Nat)
    (s : FVec Ideal S512x1024 .f32 × FVec Ideal S1x1 .f32) :
    (step0 Z C t s).2 = if t % 4 = 3 then
        k0_pay4 (F := Ideal) (step0 Z C t s).1 (band Z (q4 (t / 4))) (if t = 0 then k0_pay1 (F := Ideal) else s.2)
      else (if t = 0 then k0_pay1 (F := Ideal) else s.2) := rfl

/-- The matrix accumulator a grid point leaves, at an entry. -/
theorem step0_acc (Z : Arr2 4096 512) (C : Arr2 4096 4096) (t : Nat)
    (s : FVec Ideal S512x1024 .f32 × FVec Ideal S1x1 .f32) (d : Fin 512) (n : Fin 1024) :
    (step0 Z C t s).1 (ix2 d n)
      = (if t % 4 = 0 then 0 else s.1 (ix2 d n)) + bandTerm Z C (q4 (t / 4)) (q4 t) d n := by
  rw [step0_fst]
  refine (accUpdate_apply _ _ _ d n).trans ?_
  refine congrArg₂ (· + ·) ?_ rfl
  split_ifs
  · exact accFill_apply _
  · rfl

/-- The running total a grid point leaves, at its entry. -/
theorem step0_tot (Z : Arr2 4096 512) (C : Arr2 4096 4096) (t : Nat)
    (s : FVec Ideal S512x1024 .f32 × FVec Ideal S1x1 .f32) (i : S1x1.Idx) :
    (step0 Z C t s).2 i
      = (if t = 0 then 0 else s.2 i)
        + (if t % 4 = 3 then ∑ d : Fin 512, ∑ n : Fin 1024,
            ((step0 Z C t s).1 (ix2 d n) - Z (ix2 (bandRow (q4 (t / 4)) n) d))
              * ((step0 Z C t s).1 (ix2 d n) - Z (ix2 (bandRow (q4 (t / 4)) n) d)) else 0) := by
  have hfill : (if t = 0 then k0_pay1 (F := Ideal) else s.2) i = if t = 0 then 0 else s.2 i := by
    split_ifs
    · exact totalFill_apply _
    · rfl
  rw [step0_snd]
  by_cases h3 : t % 4 = 3
  · rw [if_pos h3, if_pos h3]
    refine (totalUpdate_apply _ _ _ i).trans ?_
    exact congrArg₂ (· + ·) hfill rfl
  · rw [if_neg h3, if_neg h3, add_zero]
    exact hfill

/-- The accumulators after the first grid point. -/
theorem state0_zero (Z : Arr2 4096 512) (C : Arr2 4096 4096) :
    state0 Z C 0 = step0 Z C 0 (k0_pay2 (F := Ideal), k0_pay1 (F := Ideal)) := by rw [state0]

/-- The accumulators after a later grid point. -/
theorem state0_succ (Z : Arr2 4096 512) (C : Arr2 4096 4096) (t : Nat) :
    state0 Z C (t + 1) = step0 Z C (t + 1) (state0 Z C t) := by rw [state0]

/-- A grid point that starts a tile leaves the first band's part. -/
theorem step0_acc_first (Z : Arr2 4096 512) (C : Arr2 4096 4096) (t : Nat) (h : t % 4 = 0)
    (s : FVec Ideal S512x1024 .f32 × FVec Ideal S1x1 .f32) (d : Fin 512) (n : Fin 1024) :
    (step0 Z C t s).1 (ix2 d n) = partialProj Z C (q4 (t / 4)) (t % 4 + 1) d n := by
  have hq : q4 t = q4 0 := Fin.ext (show t % 4 = 0 % 4 from h)
  rw [step0_acc, if_pos h, zero_add, h, hq]
  exact (Finset.sum_range_one (fun k => bandTerm Z C (q4 (t / 4)) (q4 k) d n)).symm

/-- A grid point inside a tile adds the next band's part. -/
theorem step0_acc_next (Z : Arr2 4096 512) (C : Arr2 4096 4096) (t : Nat) (h : (t + 1) % 4 ≠ 0)
    (s : FVec Ideal S512x1024 .f32 × FVec Ideal S1x1 .f32) (d : Fin 512) (n : Fin 1024)
    (hs : s.1 (ix2 d n) = partialProj Z C (q4 (t / 4)) (t % 4 + 1) d n) :
    (step0 Z C (t + 1) s).1 (ix2 d n) = partialProj Z C (q4 ((t + 1) / 4)) ((t + 1) % 4 + 1) d n := by
  have h1 : (t + 1) / 4 = t / 4 := by omega
  have h2 : (t + 1) % 4 = t % 4 + 1 := by omega
  have hq : q4 (t + 1) = q4 (t % 4 + 1) := Fin.ext (show (t + 1) % 4 = (t % 4 + 1) % 4 by omega)
  rw [step0_acc, if_neg h, hs, h1, h2, hq]
  exact (Finset.sum_range_succ (fun k => bandTerm Z C (q4 (t / 4)) (q4 k) d n) (t % 4 + 1)).symm

/-- After grid point t the matrix accumulator holds the parts of row bands 0 … t mod 4 of tile (t / 4) mod 4. -/
theorem state0_acc (Z : Arr2 4096 512) (C : Arr2 4096 4096) (t : Nat) (d : Fin 512) (n : Fin 1024) :
    (state0 Z C t).1 (ix2 d n) = partialProj Z C (q4 (t / 4)) (t % 4 + 1) d n := by
  induction t with
  | zero =>
    rw [state0_zero]
    exact step0_acc_first Z C 0 (Nat.zero_mod 4) _ d n
  | succ t ih =>
    rw [state0_succ]
    by_cases h : (t + 1) % 4 = 0
    · exact step0_acc_first Z C (t + 1) h _ d n
    · exact step0_acc_next Z C t h _ d n ih

end Cert.KernelIdeal.Recon

end
-- ==== Proof.ReconTotal.lean ====
/-
  The first kernel's total.

  After its last grid point the first kernel's running total is the reconstruction total
  Σ_{d, n} ((Zᵀ C)[d, n] − Z[n, d])² of the whole arrays: after grid point t it holds the sums of squares of the column
  bands of C already finished, band j being finished at point 4·j + 3, when the matrix accumulator holds all four row
  bands' parts of the projection's tile j; and the four column bands together are every column.
-/
import proofs.«169932_j86088324481669_1_alg».proof.Proof.ReconSteps

noncomputable section

open scoped BigOperators

namespace Cert.KernelIdeal.Recon

open Idealize.ShloMosaic Idealize.ShloMosaic.ValueIdx Cert.KernelIdeal Cert.KernelIdeal.Gen Cert.Spec
  Cert.KernelIdeal.Tiles

/-- The four column bands' sums of squares together are the whole reconstruction total. -/
theorem tiles_total (Z : Arr2 4096 512) (C : Arr2 4096 4096) : ∑ j : Fin 4, tileSq Z C j = reconSum Z C := by
  unfold tileSq reconSum
  rw [Finset.sum_comm]
  refine Finset.sum_congr rfl fun d _ => ?_
  exact (Cert.PointDist.sum_tiles (show 4 * 1024 = 4096 by norm_num)
    (fun n => (proj Z C d n - Z (ix2 n d)) * (proj Z C d n - Z (ix2 n d)))).symm

variable [Cert.KernelIdeal.Facts]

/-- After grid point t the running total holds the sums of squares of the column bands finished so far. -/
theorem state0_tot (Z : Arr2 4096 512) (C : Arr2 4096 4096) (t : Nat) (i : S1x1.Idx) :
    (state0 Z C t).2 i = ∑ j ∈ Finset.range ((t + 1) / 4), tileSq Z C (q4 j) := by
  induction t with
  | zero =>
    rw [state0_zero, step0_tot, if_pos rfl, if_neg (by decide), add_zero]
    exact (Finset.sum_range_zero _).symm
  | succ t ih =>
    rw [state0_succ, step0_tot, if_neg (Nat.succ_ne_zero t), ih]
    by_cases h3 : (t + 1) % 4 = 3
    · have hd : (t + 1 + 1) / 4 = (t + 1) / 4 + 1 := by omega
      rw [if_pos h3, hd, Finset.sum_range_succ]
      refine congrArg (_ + ·) ?_
      unfold tileSq
      refine Finset.sum_congr rfl fun d _ => Finset.sum_congr rfl fun n _ => ?_
      have hacc : (step0 Z C (t + 1) (state0 Z C t)).1 (ix2 d n)
          = proj Z C d (bandRow (q4 ((t + 1) / 4)) n) := by
        rw [← state0_succ Z C t, state0_acc, h3]
        exact partialProj_four Z C _ d n
      rw [hacc]
    · have hd : (t + 1 + 1) / 4 = (t + 1) / 4 := by omega
      rw [if_neg h3, hd, add_zero]

/-- THE FIRST KERNEL'S TOTAL: after the sixteenth grid point the running total is the reconstruction total. -/
theorem recon_total (Z : Cert.Spec.Arr2 4096 512) (C : Cert.Spec.Arr2 4096 4096) :
    (Cert.KernelIdeal.Tiles.state0 Z C 15).2 (ValueIdx.ix2 0 0) = Cert.Spec.reconSum Z C := by
  have h : (15 + 1) / 4 = 4 := by norm_num
  rw [state0_tot, h, Finset.sum_range (fun j => tileSq Z C (q4 j))]
  simp only [q4_val]
  exact tiles_total Z C

end Cert.KernelIdeal.Recon

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LapPayloads.lean ====
/-
  The second kernel's stored values read at an index, as sums of extended reals.

  * the two fills are zero everywhere;
  * the matrix accumulator's update at (p, q) is the accumulator there plus Σ_k a[p, k] · c[k, q], the product of the two
    1024 × 1024 tiles contracted over the first one's columns and the second one's rows;
  * the running total's update is the total plus Σ_{r, c} c'[r, c] · (d[r, 0] · c[r, c] − acc[r, c]): the column d is
    broadcast along the rows, the product is cast to one 1 × 1024 × 1024 slab, and the slab is summed over its last two axes;
  * the value written out is the total times the closing constant, whose word is kept as it is printed.
-/
import proofs.«169932_j86088324481669_1_alg».proof.Proof.Gen.KernelIdeal.Skeleton
import proofs.«169932_j86088324481669_1_alg».proof.Proof.LibDotRows
import Idealize.ShloMosaic.Lib.ValueLayout

noncomputable section

open scoped BigOperators

namespace Cert.KernelIdeal.LapPay

open Idealize.ShloMosaic Idealize.ShloMosaic.ValueIdx Cert.KernelIdeal Cert.KernelIdeal.Gen

/-! ## Two layout facts: a column broadcast along the rows, and a one-slab index set as a product -/

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index set of a `[1, a, b]` slab is the product of its last two coordinate ranges. -/
def slabEquiv {a b : ℕ} : (⟨3, ![1, a, b]⟩ : Shape).Idx ≃ Fin a × Fin b where
  toFun i := (i 1, i 2)
  invFun p := ix3 (0 : Fin 1) p.1 p.2
  left_inv i := by
    funext d
    match d with
    | ⟨0, _⟩ =>
      apply Fin.ext
      have h : (i 0).val < 1 := (i 0).isLt
      show 0 = (i 0).val
      omega
    | ⟨1, _⟩ => rfl
    | ⟨2, _⟩ => rfl
  right_inv _ := rfl

/-- A sum over a `[1, a, b]` slab is the double sum over its last two coordinates. -/
theorem sum_slab {M : Type*} [AddCommMonoid M] {a b : ℕ} (f : (⟨3, ![1, a, b]⟩ : Shape).Idx → M) :
    ∑ i, f i = ∑ r : Fin a, ∑ c : Fin b, f (ix3 (0 : Fin 1) r c) := by
  rw [← Equiv.sum_comp (slabEquiv (a := a) (b := b)).symm f, Fintype.sum_prod_type]
  rfl

/-! ## The fills -/

/-- The total's fill is zero. -/
theorem pay1_apply (j : S1x1.Idx) : k1_pay1 (F := Ideal) j = 0 := by
  show shapeCast S1x1 (broadcast S1x1 (Scalar.ofBits (F := Ideal) .f32 0x00000000#32)) shapeCasts_S1x1_S1x1 j = 0
  rw [shapeCast_self]
  exact Ideal.ofBits_zero_f32

/-- The matrix accumulator's fill is zero. -/
theorem pay2_apply (j : S1024x1024.Idx) : k1_pay2 (F := Ideal) j = 0 := by
  show shapeCast S1024x1024 (broadcast S1024x1024 (Scalar.ofBits (F := Ideal) .f32 0x00000000#32))
    shapeCasts_S1024x1024_S1024x1024 j = 0
  rw [shapeCast_self]
  exact Ideal.ofBits_zero_f32

/-! ## The matrix accumulator's update -/

/-- The tile product into a zero accumulator, at (p, q): Σ_k l[p, k] · r[k, q]. -/
theorem tile_product_apply (l r : FVec Ideal S1024x1024 .f32) (p q : Fin 1024) :
    matmul (F := Ideal) dot_S1024x1024_S1024x1024_S1024x1024_1_0_0_1_n_n none l r
        (constant (F := Ideal) S1024x1024 .f32 0x00000000#32) (ix2 p q)
      = ∑ k : Fin 1024, l (ix2 p k) * r (ix2 k q) := by
  refine (Ideal.matmul_constant_zero_apply dot_S1024x1024_S1024x1024_S1024x1024_1_0_0_1_n_n none l r (ix2 p q)).trans ?_
  dot_rows (dot_S1024x1024_S1024x1024_S1024x1024_1_0_0_1_n_n) (S1024x1024) (S1024x1024) (1024)

/-- The accumulator's update at (p, q): what it held there plus Σ_k a[p, k] · c[k, q]. -/
theorem pay3_apply (acc a cc : FVec Ideal S1024x1024 .f32) (p q : Fin 1024) :
    k1_pay3 (F := Ideal) acc a cc (ix2 p q) = acc (ix2 p q) + ∑ k : Fin 1024, a (ix2 p k) * cc (ix2 k q) := by
  show shapeCast S1024x1024 (addf acc (matmul (F := Ideal) dot_S1024x1024_S1024x1024_S1024x1024_1_0_0_1_n_n none
      (shapeCast S1024x1024 a shapeCasts_S1024x1024_S1024x1024) (shapeCast S1024x1024 cc shapeCasts_S1024x1024_S1024x1024)
      (constant (F := Ideal) S1024x1024 .f32 0x00000000#32))) shapeCasts_S1024x1024_S1024x1024 (ix2 p q) = _
  rw [shapeCast_self, shapeCast_self, shapeCast_self, addf_apply]
  exact congrArg (acc (ix2 p q) + ·) (tile_product_apply a cc p q)

/-! ## The running total's update -/

/-- The sum of a `[1, 1024, 1024]` slab over its last two axes, at its one index: the double sum. -/
theorem slab_total (x : FVec Ideal S1x1024x1024 .f32) (j : S1.Idx) :
    multiReduction (F := Ideal) .add [1, 2] S1 x 0x00000000#32 reduces_S1x1024x1024_S1 (.inl rfl) rfl j
      = ∑ r : Fin 1024, ∑ c : Fin 1024, x (ix3 (0 : Fin 1) r c) := by
  refine (Ideal.multiReduction_add_total x 0x00000000#32 reduces_S1x1024x1024_S1
    (fun b => by match b with | ⟨0, _⟩ => rfl) (.inl rfl) rfl j).trans ?_
  exact sum_slab x

/-- The same sum behind the cast to `[1, 1, 1]` and the extraction of its one element. -/
theorem slab_total_extract (x : FVec Ideal S1x1024x1024 .f32) :
    extractAt ![0, 0, 0]
        (shapeCast S1x1x1 (multiReduction (F := Ideal) .add [1, 2] S1 x 0x00000000#32 reduces_S1x1024x1024_S1 (.inl rfl) rfl)
          shapeCasts_S1_S1x1x1) inpos_S1x1x1_p0_0_0
      = ∑ r : Fin 1024, ∑ c : Fin 1024, x (ix3 (0 : Fin 1) r c) := by
  unfold extractAt shapeCast
  exact slab_total x _

/-- The total's update: what it held plus Σ_{r, c} c'[r, c] · (d[r, 0] · c[r, c] − acc[r, c]). -/
theorem pay4_apply (dg : FVec Ideal S1024x1 .f32) (cs acc : FVec Ideal S1024x1024 .f32) (tot : FVec Ideal S1x1 .f32)
    (cs' : FVec Ideal S1024x1024 .f32) (j : S1x1.Idx) :
    k1_pay4 (F := Ideal) dg cs acc tot cs' j
      = tot j + ∑ r : Fin 1024, ∑ c : Fin 1024, cs' (ix2 r c) * (dg (ix2 r (0 : Fin 1)) * cs (ix2 r c) - acc (ix2 r c)) := by
  show shapeCast S1x1 (addf tot (broadcast S1x1 (extractAt ![0, 0, 0]
      (shapeCast S1x1x1 (multiReduction (F := Ideal) .add [1, 2] S1
        (shapeCast S1x1024x1024
          (mulf (shapeCast S1024x1024 cs' shapeCasts_S1024x1024_S1024x1024)
            (subf (mulf (broadcastTo S1024x1024 (shapeCast S1024x1 dg shapeCasts_S1024x1_S1024x1) broadcasts_S1024x1_S1024x1024)
              (shapeCast S1024x1024 cs shapeCasts_S1024x1024_S1024x1024)) acc))
          shapeCasts_S1024x1024_S1x1024x1024)
        0x00000000#32 reduces_S1x1024x1024_S1 (.inl rfl) rfl) shapeCasts_S1_S1x1x1) inpos_S1x1x1_p0_0_0)))
    shapeCasts_S1x1_S1x1 j = _
  rw [shapeCast_self, shapeCast_self, shapeCast_self, shapeCast_self, addf_apply, broadcast_apply]
  refine congrArg (tot j + ·) ?_
  refine (slab_total_extract _).trans ?_
  refine Finset.sum_congr rfl fun r _ => Finset.sum_congr rfl fun c _ => ?_
  refine (shapeCast_ab_1ab_apply _ _ 0 r c).trans ?_
  rw [mulf_apply, subf_apply, mulf_apply, broadcastTo_a1_ab_apply]

/-! ## The value written out -/

/-- The value written out: the total times the closing constant. -/
theorem pay5_apply (tot : FVec Ideal S1x1 .f32) (j : S1x1.Idx) :
    k1_pay5 (F := Ideal) tot j = tot j * Scalar.ofBits (F := Ideal) .f32 0x3DCCCCCD#32 := rfl

end Cert.KernelIdeal.LapPay

end
-- ==== Proof.LapBands.lean ====
/-
  The Laplacian total regrouped by 1024-wide tiles.

  A row index below 4096 is 1024·k + y for exactly one band k < 4 and one y < 1024, so a sum over 4096 rows is the sum
  over the four bands of the sums within each band. Applied to the contraction index, the neighbour sum (A C)[r, c] is
  the sum over k of the products of tile (i, k) of A with tile (k, j) of C; applied to the rows and to the columns, the
  Laplacian total is the sum over the sixteen tiles (i, j) of the tile's own total. Only commutativity and associativity
  of + on the extended reals are used.
-/
import proofs.«169932_j86088324481669_1_alg».proof.Proof.Spec
import proofs.«169932_j86088324481669_1_alg».proof.Proof.LibSumSplit

noncomputable section

open scoped BigOperators

namespace Cert.LapBands

open Idealize.ShloMosaic Idealize.ShloMosaic.ValueIdx Cert.Spec

/-- A sum over 4096 rows is the sum over the four bands of the sums within each band. -/
theorem sum_bands {M : Type*} [AddCommMonoid M] (f : Fin 4096 → M) :
    ∑ n, f n = ∑ k : Fin 4, ∑ y : Fin 1024, f (bandRow k y) :=
  Cert.PointDist.sum_tiles (a := 4) (b := 1024) (N := 4096) rfl f

/-- The part of (A C)[1024·i + r, 1024·j + c] contributed by band k of the contraction index: entry (r, c) of the
    product of tile (i, k) of A with tile (k, j) of C. -/
def accTerm (A C : Arr2 4096 4096) (i j k : Fin 4) (r c : Fin 1024) : EReal :=
  ∑ l : Fin 1024, A (ix2 (bandRow i r) (bandRow k l)) * C (ix2 (bandRow k l) (bandRow j c))

/-- The neighbour sum is the sum of its four band parts. -/
theorem nbr_bands (A C : Arr2 4096 4096) (i j : Fin 4) (r c : Fin 1024) :
    nbr A C (bandRow i r) (bandRow j c) = ∑ k : Fin 4, accTerm A C i j k r c :=
  sum_bands fun l => A (ix2 (bandRow i r) l) * C (ix2 l (bandRow j c))

/-- Tile (i, j)'s share of the Laplacian total, with the degrees held as a column. -/
def tileTerm (A C : Arr2 4096 4096) (deg2 : Arr2 4096 1) (i j : Fin 4) : EReal :=
  ∑ r : Fin 1024, ∑ c : Fin 1024,
    C (ix2 (bandRow i r) (bandRow j c))
      * (deg2 (ix2 (bandRow i r) (0 : Fin 1)) * C (ix2 (bandRow i r) (bandRow j c)) - nbr A C (bandRow i r) (bandRow j c))

/-- The Laplacian total is the sum of the sixteen tiles' shares. -/
theorem lapSum_tiles (A C : Arr2 4096 4096) (deg2 : Arr2 4096 1) (deg : Arr1 4096)
    (hdeg : ∀ r : Fin 4096, deg2 (ix2 r 0) = deg (ix1 r)) :
    lapSum A C deg = ∑ i : Fin 4, ∑ j : Fin 4, tileTerm A C deg2 i j := by
  unfold lapSum tileTerm
  rw [sum_bands]
  refine Finset.sum_congr rfl fun i _ => ?_
  calc ∑ y : Fin 1024, ∑ c : Fin 4096,
          C (ix2 (bandRow i y) c) * (deg (ix1 (bandRow i y)) * C (ix2 (bandRow i y) c) - nbr A C (bandRow i y) c)
      = ∑ y : Fin 1024, ∑ j : Fin 4, ∑ x : Fin 1024,
          C (ix2 (bandRow i y) (bandRow j x))
            * (deg (ix1 (bandRow i y)) * C (ix2 (bandRow i y) (bandRow j x)) - nbr A C (bandRow i y) (bandRow j x)) :=
        Finset.sum_congr rfl fun y _ => sum_bands _
    _ = ∑ j : Fin 4, ∑ y : Fin 1024, ∑ x : Fin 1024,
          C (ix2 (bandRow i y) (bandRow j x))
            * (deg (ix1 (bandRow i y)) * C (ix2 (bandRow i y) (bandRow j x)) - nbr A C (bandRow i y) (bandRow j x)) :=
        Finset.sum_comm
    _ = _ := by
        refine Finset.sum_congr rfl fun j _ => Finset.sum_congr rfl fun y _ => Finset.sum_congr rfl fun x _ => ?_
        rw [hdeg]

end Cert.LapBands

end
-- ==== Proof.LapRun.lean ====
/-
  What the second kernel's two accumulators hold after each grid point.

  Grid point t is (i, j, k) = (t / 16, t / 4 mod 4, t mod 4). One point adds, to the matrix accumulator (cleared when
  k = 0), the product of tile (i, k) of A with tile (k, j) of C; so after point t the accumulator holds the band parts
  0 … k of the neighbour sum on tile (i, j), and at k = 3 all four of them: the neighbour sum itself. At k = 3 the point
  adds tile (i, j)'s share of the Laplacian total to the running total (cleared at t = 0 only); so after point t the
  total is the sum of the shares of the tiles completed so far, (t + 1) / 4 of them, in row-major order. Both facts by
  induction on t; no bound on t is needed, the coordinates being read modulo 4.
-/
import proofs.«169932_j86088324481669_1_alg».proof.Proof.TileState
import proofs.«169932_j86088324481669_1_alg».proof.Proof.LapPayloads
import proofs.«169932_j86088324481669_1_alg».proof.Proof.LapBands

noncomputable section

open scoped BigOperators

namespace Cert.KernelIdeal.LapRun

open Idealize.ShloMosaic Idealize.ShloMosaic.ValueIdx Cert.KernelIdeal Cert.KernelIdeal.Gen Cert.Spec
open Cert.KernelIdeal.Tiles Cert.KernelIdeal.LapPay Cert.LapBands

variable [Cert.KernelIdeal.Facts]

/-! ## Coordinates modulo 4 -/

/-- A sum over the naturals below 4, read modulo 4, is the sum over the four coordinates. -/
theorem sum_range_four {M : Type*} [AddCommMonoid M] (f : Fin 4 → M) : ∑ k ∈ Finset.range 4, f (q4 k) = ∑ k : Fin 4, f k := by
  rw [Finset.sum_range]
  exact Finset.sum_congr rfl fun k _ => congrArg f (Fin.ext (Nat.mod_eq_of_lt k.isLt))

/-- A sum over the sixteen tiles in row-major order, m = 4·i + j, is the double sum over (i, j). -/
theorem sum_range_sixteen {M : Type*} [AddCommMonoid M] (g : Fin 4 → Fin 4 → M) :
    ∑ m ∈ Finset.range 16, g (q4 (m / 4)) (q4 m) = ∑ i : Fin 4, ∑ j : Fin 4, g i j := by
  rw [Finset.sum_range, Cert.PointDist.sum_tiles (a := 4) (b := 4) (N := 16) rfl]
  refine Finset.sum_congr rfl fun i _ => Finset.sum_congr rfl fun j _ => ?_
  have hi : q4 ((Cert.PointDist.tileIdx (a := 4) (b := 4) (N := 16) rfl i j).val / 4) = i := Fin.ext (by
    show (i.val * 4 + j.val) / 4 % 4 = i.val
    have := i.isLt; have := j.isLt; omega)
  have hj : q4 (Cert.PointDist.tileIdx (a := 4) (b := 4) (N := 16) rfl i j).val = j := Fin.ext (by
    show (i.val * 4 + j.val) % 4 = j.val
    have := i.isLt; have := j.isLt; omega)
  rw [hi, hj]

/-! ## One grid point -/

theorem state1_zero (A C : Arr2 4096 4096) (deg2 : Arr2 4096 1) :
    state1 A C deg2 0 = step1 A C deg2 0 (k1_pay2 (F := Ideal), k1_pay1 (F := Ideal)) := rfl

theorem state1_succ (A C : Arr2 4096 4096) (deg2 : Arr2 4096 1) (t : ℕ) :
    state1 A C deg2 (t + 1) = step1 A C deg2 (t + 1) (state1 A C deg2 t) := rfl

/-- The matrix accumulator a point leaves, at (r, c): what it found there (nothing when k = 0) plus band k's part of
    the neighbour sum. -/
theorem step1_fst_apply (A C : Arr2 4096 4096) (deg2 : Arr2 4096 1) (t : ℕ)
    (s : FVec Ideal S1024x1024 .f32 × FVec Ideal S1x1 .f32) (r c : Fin 1024) :
    (step1 A C deg2 t s).1 (ix2 r c)
      = (if t % 4 = 0 then 0 else s.1 (ix2 r c)) + accTerm A C (q4 (t / 16)) (q4 (t / 4)) (q4 t) r c := by
  show k1_pay3 (F := Ideal) (if t % 4 = 0 then k1_pay2 (F := Ideal) else s.1) (tile A (q4 (t / 16)) (q4 t))
    (tile C (q4 t) (q4 (t / 4))) (ix2 r c) = _
  refine (pay3_apply (if t % 4 = 0 then k1_pay2 (F := Ideal) else s.1) (tile A (q4 (t / 16)) (q4 t))
    (tile C (q4 t) (q4 (t / 4))) r c).trans ?_
  refine congrArg₂ (fun x y : EReal => x + y) ?_ rfl
  by_cases h : t % 4 = 0
  · rw [if_pos h, if_pos h]
    exact pay2_apply _
  · rw [if_neg h, if_neg h]

/-- The running total a point leaves. -/
theorem step1_snd (A C : Arr2 4096 4096) (deg2 : Arr2 4096 1) (t : ℕ)
    (s : FVec Ideal S1024x1024 .f32 × FVec Ideal S1x1 .f32) :
    (step1 A C deg2 t s).2
      = if t % 4 = 3 then
          k1_pay4 (F := Ideal) (band deg2 (q4 (t / 16))) (tile C (q4 (t / 16)) (q4 (t / 4))) (step1 A C deg2 t s).1
            (if t = 0 then k1_pay1 (F := Ideal) else s.2) (tile C (q4 (t / 16)) (q4 (t / 4)))
        else (if t = 0 then k1_pay1 (F := Ideal) else s.2) := rfl

/-- At k = 3 the total gains the tile's sum of C · (deg · C − accumulator). -/
theorem step1_snd_apply_of_eq (A C : Arr2 4096 4096) (deg2 : Arr2 4096 1) (t : ℕ)
    (s : FVec Ideal S1024x1024 .f32 × FVec Ideal S1x1 .f32) (h : t % 4 = 3) (j : S1x1.Idx) :
    (step1 A C deg2 t s).2 j
      = s.2 j + ∑ r : Fin 1024, ∑ c : Fin 1024,
          C (ix2 (bandRow (q4 (t / 16)) r) (bandRow (q4 (t / 4)) c))
            * (deg2 (ix2 (bandRow (q4 (t / 16)) r) (0 : Fin 1)) * C (ix2 (bandRow (q4 (t / 16)) r) (bandRow (q4 (t / 4)) c))
                - (step1 A C deg2 t s).1 (ix2 r c)) := by
  have h0 : ¬ t = 0 := by omega
  rw [step1_snd, if_pos h, if_neg h0]
  refine (pay4_apply (band deg2 (q4 (t / 16))) (tile C (q4 (t / 16)) (q4 (t / 4))) (step1 A C deg2 t s).1 s.2
    (tile C (q4 (t / 16)) (q4 (t / 4))) j).trans ?_
  rfl

/-- At every other k the total is what the point found (zero at the first point). -/
theorem step1_snd_of_ne (A C : Arr2 4096 4096) (deg2 : Arr2 4096 1) (t : ℕ)
    (s : FVec Ideal S1024x1024 .f32 × FVec Ideal S1x1 .f32) (h : ¬ t % 4 = 3) :
    (step1 A C deg2 t s).2 = if t = 0 then k1_pay1 (F := Ideal) else s.2 := by
  rw [step1_snd, if_neg h]

/-! ## The matrix accumulator after point t -/

/-- After point t the accumulator holds the band parts 0 … t mod 4 of the neighbour sum on the point's tile. -/
theorem acc_inv (A C : Arr2 4096 4096) (deg2 : Arr2 4096 1) (t : ℕ) : ∀ r c : Fin 1024,
    (state1 A C deg2 t).1 (ix2 r c)
      = ∑ k ∈ Finset.range (t % 4 + 1), accTerm A C (q4 (t / 16)) (q4 (t / 4)) (q4 k) r c := by
  induction t with
  | zero =>
    intro r c
    rw [state1_zero, step1_fst_apply, if_pos (Nat.zero_mod 4), zero_add]
    exact (Finset.sum_range_one fun k => accTerm A C (q4 (0 / 16)) (q4 (0 / 4)) (q4 k) r c).symm
  | succ t ih =>
    intro r c
    rw [state1_succ, step1_fst_apply]
    by_cases h : (t + 1) % 4 = 0
    · have hq : q4 (t + 1) = q4 0 := Fin.ext (by show (t + 1) % 4 = 0 % 4; omega)
      rw [if_pos h, zero_add, hq, h]
      exact (Finset.sum_range_one fun k => accTerm A C (q4 ((t + 1) / 16)) (q4 ((t + 1) / 4)) (q4 k) r c).symm
    · have h1 : (t + 1) % 4 = t % 4 + 1 := by omega
      have h4 : (t + 1) / 4 = t / 4 := by omega
      have h16 : (t + 1) / 16 = t / 16 := by omega
      have hq : q4 (t + 1) = q4 (t % 4 + 1) := Fin.ext (by show (t + 1) % 4 = (t % 4 + 1) % 4; omega)
      rw [if_neg h, h4, h16, h1, ih r c, hq]
      exact (Finset.sum_range_succ (fun k => accTerm A C (q4 (t / 16)) (q4 (t / 4)) (q4 k) r c) (t % 4 + 1)).symm

/-- At k = 3 the accumulator holds the neighbour sum on the point's tile. -/
theorem acc_full (A C : Arr2 4096 4096) (deg2 : Arr2 4096 1) (t : ℕ) (h : t % 4 = 3) (r c : Fin 1024) :
    (state1 A C deg2 t).1 (ix2 r c) = nbr A C (bandRow (q4 (t / 16)) r) (bandRow (q4 (t / 4)) c) := by
  rw [acc_inv, h, nbr_bands]
  exact sum_range_four fun k => accTerm A C (q4 (t / 16)) (q4 (t / 4)) k r c

/-! ## The running total after point t -/

/-- After point t the total is the sum of the shares of the (t + 1) / 4 tiles completed so far. -/
theorem tot_inv (A C : Arr2 4096 4096) (deg2 : Arr2 4096 1) (t : ℕ) (j : S1x1.Idx) :
    (state1 A C deg2 t).2 j = ∑ m ∈ Finset.range ((t + 1) / 4), tileTerm A C deg2 (q4 (m / 4)) (q4 m) := by
  induction t with
  | zero =>
    rw [state1_zero, step1_snd_of_ne A C deg2 0 _ (by decide), if_pos rfl, pay1_apply]
    exact (Finset.sum_range_zero _).symm
  | succ t ih =>
    by_cases h : (t + 1) % 4 = 3
    · have hd : (t + 1 + 1) / 4 = (t + 1) / 4 + 1 := by omega
      have h16 : (t + 1) / 4 / 4 = (t + 1) / 16 := by omega
      rw [hd, Finset.sum_range_succ, ← ih, h16, state1_succ, step1_snd_apply_of_eq A C deg2 (t + 1) _ h j]
      refine congrArg (fun x : EReal => (state1 A C deg2 t).2 j + x) ?_
      unfold tileTerm
      refine Finset.sum_congr rfl fun r _ => Finset.sum_congr rfl fun c _ => ?_
      rw [← state1_succ, acc_full A C deg2 (t + 1) h r c]
    · have hd : (t + 1 + 1) / 4 = (t + 1) / 4 := by omega
      have h0 : ¬ t + 1 = 0 := by omega
      rw [hd, ← ih, state1_succ, step1_snd_of_ne A C deg2 (t + 1) _ h, if_neg h0]

end Cert.KernelIdeal.LapRun

end
-- ==== Proof.LapTotal.lean ====
/-
  The second kernel's output. After the last grid point, t = 63, the running total is the sum of all sixteen tiles'
  shares, which is the Laplacian total Σ_{r, c} C[r, c] · (deg[r] · C[r, c] − (A C)[r, c]); the value written out is that
  total times the kernel's closing constant, whose word is kept as it is printed.
-/
import proofs.«169932_j86088324481669_1_alg».proof.Proof.LapRun

noncomputable section

open scoped BigOperators

open Idealize.ShloMosaic Idealize.ShloMosaic.ValueIdx

/-- The value the second kernel writes out after its last grid point: the Laplacian total times the closing constant. -/
theorem lap_total [Cert.KernelIdeal.Facts] (A C : Cert.Spec.Arr2 4096 4096) (deg2 : Cert.Spec.Arr2 4096 1)
    (deg : Cert.Spec.Arr1 4096) (hdeg : ∀ r : Fin 4096, deg2 (ValueIdx.ix2 r 0) = deg (ValueIdx.ix1 r)) :
    Cert.KernelIdeal.Gen.k1_pay5 (F := Ideal) (Cert.KernelIdeal.Tiles.state1 A C deg2 63).2 (ValueIdx.ix2 0 0)
      = Cert.Spec.lapSum A C deg * (Scalar.ofBits (F := Ideal) .f32 0x3DCCCCCD#32) := by
  rw [Cert.KernelIdeal.LapPay.pay5_apply, Cert.KernelIdeal.LapRun.tot_inv, Cert.LapBands.lapSum_tiles A C deg2 deg hdeg]
  exact congrArg (fun x : EReal => x * Scalar.ofBits (F := Ideal) .f32 0x3DCCCCCD#32)
    (Cert.KernelIdeal.LapRun.sum_range_sixteen fun i j => Cert.LapBands.tileTerm A C deg2 i j)

end
-- ==== Proof.Totals.lean ====
/-
  The two scalar totals the kernels write out, as the plain sums of the specification.

  The first region's one-element output is the running total after its sixteenth grid point, which is the
  reconstruction total of the feature matrix and the weight matrix as the first stretch of host lines leaves them;
  the second region's is the running total after its sixty-fourth point times the closing constant, which is the
  Laplacian total of the adjacency matrix, the weight matrix and the degree vector, times that constant.
-/
import proofs.«169932_j86088324481669_1_alg».proof.Proof.Bodies
import proofs.«169932_j86088324481669_1_alg».proof.Proof.Ends
import proofs.«169932_j86088324481669_1_alg».proof.Proof.R0Value
import proofs.«169932_j86088324481669_1_alg».proof.Proof.R1Value
import proofs.«169932_j86088324481669_1_alg».proof.Proof.ReconTotal
import proofs.«169932_j86088324481669_1_alg».proof.Proof.LapTotal

set_option maxRecDepth 16384

noncomputable section

namespace Cert.KernelIdeal.Totals

open Idealize.ShloMosaic Idealize.ShloMosaic.TcCoe Idealize.ShloMosaic.ValueIdx Idealize.SL.Sem
open Cert.KernelIdeal Cert.KernelIdeal.Gen Cert.KernelIdeal.Run Cert.KernelIdeal.Ends Cert.Spec

variable (m : (ℓ : Loc nD τ sig) → Buf (Elt Ideal) ℓ) (ρ : Dev nD → PrngReg)

/-- The first region writes out the reconstruction total. -/
theorem recon_out (c : Dev nD) :
    out0 (body0 (F := Ideal)) m ρ c (ix2 (0 : Fin 1) (0 : Fin 1))
      = reconSum (m ((c : Thread nD τ).loc main_arg0)) (Ck (F := Ideal) m c) := by
  refine (R0.value0_apply (V1 m ρ) c).trans ?_
  rw [Recon.recon_total]
  show reconSum (V1 m ρ c main_arg0) (V1 m ρ c main_v32) = _
  rw [V1_arg0, V1_v32]

/-- The second region writes out the Laplacian total times the closing constant. -/
theorem lap_out (c : Dev nD) :
    out1 (body0 (F := Ideal)) (body1 (F := Ideal)) m ρ c (ix2 (0 : Fin 1) (0 : Fin 1))
      = lapSum (Ak (F := Ideal) m c) (Ck (F := Ideal) m c) (m ((c : Thread nD τ).loc main_arg4))
          * (Scalar.ofBits (F := Ideal) .f32 0x3DCCCCCD#32) := by
  refine (R1.value1_apply (V3 (body0 (F := Ideal)) m ρ) c).trans ?_
  refine (lap_total (V3 (body0 (F := Ideal)) m ρ c main_v48) (V3 (body0 (F := Ideal)) m ρ c main_v32)
    (V3 (body0 (F := Ideal)) m ρ c main_v55) (m ((c : Thread nD τ).loc main_arg4))
    (fun r => V3_v55_apply (body0 (F := Ideal)) m ρ c r)).trans ?_
  rw [V3_v48, V3_v32]

end Cert.KernelIdeal.Totals

end
-- ==== Proof.Bits.Shares.lean ====
/-
  One array read through two input windows.

  Both kernels hand one array to two of their input windows (the feature matrix to the first kernel's windows 0 and
  2, the weight matrix to the second kernel's windows 1 and 2).  A region cannot then hold every window's array at
  the full share: at the region's entry the buffer behind the shared array is split into its left and right halves,
  one per window; both halves read the same contents throughout (an input array is never written), and at the exit
  the halves are joined again.  This module states, for each kernel, what the windows' arrays are as separate
  holdings (`arrays0_eq`, `arrays1_eq`), how the core's unscoped buffers at the entry contents make them
  (`entry0`, `entry1`) and how, with the output array at what the write-backs left, they make the core's unscoped
  buffers again (`exit0`, `exit1`).
-/
import proofs.«169932_j86088324481669_1_alg».proof.Proof.Gen.Kernel.Launch
import proofs.«169932_j86088324481669_1_alg».proof.Proof.Gen.Kernel.Skeleton
import proofs.«169932_j86088324481669_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A buffer held whole is its two halves, each at the same contents. -/
theorem halves (ℓ : Loc nD τ sig) (f : Buf (Elt F) ℓ) :
    ((ℓ ↦{fullShare} f) : sProp 𝕄) ⊣⊢ iprop((ℓ ↦{fullShare.left} f) ∗ (ℓ ↦{fullShare.right} f)) :=
  pointsTo_share (PosShare.mem_left_op_right fullShare)

/-- The windows' arrays of any pipeline whose arrays are whole buffers: each window holds the buffer behind its array
    at the window's share. -/
theorem arrays_shares {cfg : Cfg sig Λ₀} {c : Dev nD} (dat : Dat τ (Elt F) Unit ℕ (UR sig nD τ) ℕ cfg c)
    (harr : ∀ w, (cfg.spec w).arr.IsWhole)
    (G : (w : Fin cfg.W) → Buf (Elt F) ((cfg.win w).arr.view.loc (c : Thread nD τ))) :
    (dat.arrays G : sProp 𝕄)
      = bigSep Finset.univ fun w => (((c : Thread nD τ).loc (Pipeline.arrRef cfg.spec w)) ↦{dat.share w} G w : sProp 𝕄) := by
  unfold Dat.arrays
  exact bigSep_congr fun w _ => by rw [(harr w).set_eq_univ]

variable {c : Dev nD}

/-! ## The first kernel: windows 0 and 2 on the feature matrix -/

set_option maxHeartbeats 4000000 in
theorem arrays0_eq (dat : Dat τ (Elt F) Unit ℕ (UR sig nD τ) ℕ cfg0 c)
    (hq0 : dat.q 0 = fullShare.left) (hq1 : dat.q 1 = fullShare) (hq2 : dat.q 2 = fullShare.right)
    (G : (w : Fin cfg0.W) → Buf (Elt F) ((cfg0.win w).arr.view.loc (c : Thread nD τ))) :
    (dat.arrays G : sProp 𝕄)
      = iprop((((c : Thread nD τ).loc main_arg0) ↦{fullShare.left} G 0) ∗ (((c : Thread nD τ).loc main_v32) ↦{fullShare} G 1)
          ∗ (((c : Thread nD τ).loc main_arg0) ↦{fullShare.right} G 2) ∗ (((c : Thread nD τ).loc main_v52) ↦{fullShare} G 3)) := by
  rw [arrays_shares dat arr_whole0 G, bigSep_W0]
  have s0 : dat.share 0 = fullShare.left := hq0
  have s1 : dat.share 1 = fullShare := hq1
  have s2 : dat.share 2 = fullShare.right := hq2
  have s3 : dat.share 3 = fullShare := rfl
  rw [s0, s1, s2, s3]

set_option maxHeartbeats 4000000 in
/-- At the first region's entry the core's unscoped buffers at `V` make the windows' arrays at the proof data's
    entry contents — the feature matrix split into its halves — and the unscoped buffers no window reads. -/
theorem entry0 (dat : Dat τ (Elt F) Unit ℕ (UR sig nD τ) ℕ cfg0 c)
    (hq0 : dat.q 0 = fullShare.left) (hq1 : dat.q 1 = fullShare) (hq2 : dat.q 2 = fullShare.right)
    (V : (b : Ref sig .tc) → Buf (Elt F) ((c : Thread nD τ).loc b)) (hA : ∀ w, dat.A w = V (Pipeline.arrRef spec0 w)) :
    (unscopedBufs (Ix := Unit) (Name := ℕ) (U := UR sig nD τ) (Lvl := ℕ) c V : sProp 𝕄)
      ⊢ iprop(dat.arrays (dat.arrAt · 0) ∗ Pipeline.unscopedRest (Ix := Unit) (Name := ℕ) (U := UR sig nD τ) (Lvl := ℕ) spec0 c V) := by
  rw [Pipeline.unscopedBufs_split₀ cfgs 0 winFacts₀0.arr_unscoped c V, arrays0_eq dat hq0 hq1 hq2]
  refine sep_mono ?_ .rfl
  unfold Pipeline.arrBufs
  rw [show Finset.univ.image (Pipeline.arrRef (cfgs 0).spec) = {main_arg0, main_v32, main_v52} from by decide,
    bigSep_insert (by decide), bigSep_insert (by decide), bigSep_singleton]
  have e0 : dat.arrAt 0 0 = V main_arg0 := hA 0
  have e1 : dat.arrAt 1 0 = V main_v32 := hA 1
  have e2 : dat.arrAt 2 0 = V main_arg0 := hA 2
  have e3 : dat.arrAt 3 0 = V main_v52 := hA 3
  show iprop((((c : Thread nD τ).loc main_arg0) ↦{fullShare} V main_arg0) ∗ (((c : Thread nD τ).loc main_v32) ↦{fullShare} V main_v32)
      ∗ (((c : Thread nD τ).loc main_v52) ↦{fullShare} V main_v52))
    ⊢ iprop((_ ↦{fullShare.left} dat.arrAt 0 0) ∗ (_ ↦{fullShare} dat.arrAt 1 0) ∗ (_ ↦{fullShare.right} dat.arrAt 2 0)
      ∗ (_ ↦{fullShare} dat.arrAt 3 0))
  rw [e0, e1, e2, e3]
  have hh := (halves (F := F) ((c : Thread nD τ).loc main_arg0) (V main_arg0)).1
  iintro ⟨Ha, Hc, Ho⟩
  ihave Hs := hh $$ Ha
  icases Hs with ⟨Hl, Hr⟩
  isplitl [Hl]; · iexact Hl
  isplitl [Hc]; · iexact Hc
  isplitl [Hr]; · iexact Hr
  iexact Ho

set_option maxHeartbeats 4000000 in
/-- At the first region's exit the windows' arrays — the inputs as entered, the output at what the write-backs left —
    and the bypassing buffers make the core's unscoped buffers at any contents `V'` that agree. -/
theorem exit0 (dat : Dat τ (Elt F) Unit ℕ (UR sig nD τ) ℕ cfg0 c)
    (hq0 : dat.q 0 = fullShare.left) (hq1 : dat.q 1 = fullShare) (hq2 : dat.q 2 = fullShare.right)
    (V V' : (b : Ref sig .tc) → Buf (Elt F) ((c : Thread nD τ).loc b))
    (h0 : dat.arrAt 0 cfg0.N = V' main_arg0) (h1 : dat.arrAt 1 cfg0.N = V' main_v32)
    (h2 : dat.arrAt 2 cfg0.N = V' main_arg0) (h3 : dat.arrAt 3 cfg0.N = V' main_v52)
    (hrest : ∀ b, b ∉ Finset.univ.image (Pipeline.arrRef spec0) → V' b = V b) :
    iprop(dat.arrays (dat.arrAt · cfg0.N) ∗ Pipeline.unscopedRest (Ix := Unit) (Name := ℕ) (U := UR sig nD τ) (Lvl := ℕ) spec0 c V)
      ⊢ (unscopedBufs (Ix := Unit) (Name := ℕ) (U := UR sig nD τ) (Lvl := ℕ) c V' : sProp 𝕄) := by
  rw [Pipeline.unscopedBufs_split₀ cfgs 0 winFacts₀0.arr_unscoped c V', arrays0_eq dat hq0 hq1 hq2]
  refine sep_mono ?_ (Entails.of_eq ?_)
  · unfold Pipeline.arrBufs
    rw [show Finset.univ.image (Pipeline.arrRef (cfgs 0).spec) = {main_arg0, main_v32, main_v52} from by decide,
      bigSep_insert (by decide), bigSep_insert (by decide), bigSep_singleton]
    show iprop((_ ↦{fullShare.left} dat.arrAt 0 cfg0.N) ∗ (_ ↦{fullShare} dat.arrAt 1 cfg0.N) ∗ (_ ↦{fullShare.right} dat.arrAt 2 cfg0.N)
        ∗ (_ ↦{fullShare} dat.arrAt 3 cfg0.N))
      ⊢ iprop((((c : Thread nD τ).loc main_arg0) ↦{fullShare} V' main_arg0) ∗ (((c : Thread nD τ).loc main_v32) ↦{fullShare} V' main_v32)
        ∗ (((c : Thread nD τ).loc main_v52) ↦{fullShare} V' main_v52))
    rw [h0, h1, h2, h3]
    have hh := (halves (F := F) ((c : Thread nD τ).loc main_arg0) (V' main_arg0)).2
    iintro ⟨Hl, Hc, Hr, Ho⟩
    isplitl [Hl Hr]
    · iapply hh
      isplitl [Hl] <;> iassumption
    isplitl [Hc]; · iexact Hc
    iexact Ho
  · unfold Pipeline.unscopedRest
    exact bigSep_congr fun b hb => by rw [hrest b (Finset.mem_sdiff.mp hb).2]

/-! ## The second kernel: windows 1 and 2 on the weight matrix -/

set_option maxHeartbeats 4000000 in
theorem arrays1_eq (dat : Dat τ (Elt F) Unit ℕ (UR sig nD τ) ℕ cfg1 c)
    (hq0 : dat.q 0 = fullShare) (hq1 : dat.q 1 = fullShare.left) (hq2 : dat.q 2 = fullShare.right) (hq3 : dat.q 3 = fullShare)
    (G : (w : Fin cfg1.W) → Buf (Elt F) ((cfg1.win w).arr.view.loc (c : Thread nD τ))) :
    (dat.arrays G : sProp 𝕄)
      = iprop((((c : Thread nD τ).loc main_v48) ↦{fullShare} G 0) ∗ (((c : Thread nD τ).loc main_v32) ↦{fullShare.left} G 1)
          ∗ (((c : Thread nD τ).loc main_v32) ↦{fullShare.right} G 2) ∗ (((c : Thread nD τ).loc main_v55) ↦{fullShare} G 3)
          ∗ (((c : Thread nD τ).loc main_v56) ↦{fullShare} G 4)) := by
  rw [arrays_shares dat arr_whole1 G, bigSep_W1]
  have s0 : dat.share 0 = fullShare := hq0
  have s1 : dat.share 1 = fullShare.left := hq1
  have s2 : dat.share 2 = fullShare.right := hq2
  have s3 : dat.share 3 = fullShare := hq3
  have s4 : dat.share 4 = fullShare := rfl
  rw [s0, s1, s2, s3, s4]

set_option maxHeartbeats 4000000 in
theorem entry1 (dat : Dat τ (Elt F) Unit ℕ (UR sig nD τ) ℕ cfg1 c)
    (hq0 : dat.q 0 = fullShare) (hq1 : dat.q 1 = fullShare.left) (hq2 : dat.q 2 = fullShare.right) (hq3 : dat.q 3 = fullShare)
    (V : (b : Ref sig .tc) → Buf (Elt F) ((c : Thread nD τ).loc b)) (hA : ∀ w, dat.A w = V (Pipeline.arrRef spec1 w)) :
    (unscopedBufs (Ix := Unit) (Name := ℕ) (U := UR sig nD τ) (Lvl := ℕ) c V : sProp 𝕄)
      ⊢ iprop(dat.arrays (dat.arrAt · 0) ∗ Pipeline.unscopedRest (Ix := Unit) (Name := ℕ) (U := UR sig nD τ) (Lvl := ℕ) spec1 c V) := by
  rw [Pipeline.unscopedBufs_split₀ cfgs 1 winFacts₀1.arr_unscoped c V, arrays1_eq dat hq0 hq1 hq2 hq3]
  refine sep_mono ?_ .rfl
  unfold Pipeline.arrBufs
  rw [show Finset.univ.image (Pipeline.arrRef (cfgs 1).spec) = {main_v48, main_v32, main_v55, main_v56} from by decide,
    bigSep_insert (by decide), bigSep_insert (by decide), bigSep_insert (by decide), bigSep_singleton]
  have e0 : dat.arrAt 0 0 = V main_v48 := hA 0
  have e1 : dat.arrAt 1 0 = V main_v32 := hA 1
  have e2 : dat.arrAt 2 0 = V main_v32 := hA 2
  have e3 : dat.arrAt 3 0 = V main_v55 := hA 3
  have e4 : dat.arrAt 4 0 = V main_v56 := hA 4
  show iprop((((c : Thread nD τ).loc main_v48) ↦{fullShare} V main_v48) ∗ (((c : Thread nD τ).loc main_v32) ↦{fullShare} V main_v32)
      ∗ (((c : Thread nD τ).loc main_v55) ↦{fullShare} V main_v55) ∗ (((c : Thread nD τ).loc main_v56) ↦{fullShare} V main_v56))
    ⊢ iprop((_ ↦{fullShare} dat.arrAt 0 0) ∗ (_ ↦{fullShare.left} dat.arrAt 1 0) ∗ (_ ↦{fullShare.right} dat.arrAt 2 0)
      ∗ (_ ↦{fullShare} dat.arrAt 3 0) ∗ (_ ↦{fullShare} dat.arrAt 4 0))
  rw [e0, e1, e2, e3, e4]
  have hh := (halves (F := F) ((c : Thread nD τ).loc main_v32) (V main_v32)).1
  iintro ⟨Ha, Hc, Hd, Ho⟩
  ihave Hs := hh $$ Hc
  icases Hs with ⟨Hl, Hr⟩
  isplitl [Ha]; · iexact Ha
  isplitl [Hl]; · iexact Hl
  isplitl [Hr]; · iexact Hr
  isplitl [Hd]; · iexact Hd
  iexact Ho

set_option maxHeartbeats 4000000 in
theorem exit1 (dat : Dat τ (Elt F) Unit ℕ (UR sig nD τ) ℕ cfg1 c)
    (hq0 : dat.q 0 = fullShare) (hq1 : dat.q 1 = fullShare.left) (hq2 : dat.q 2 = fullShare.right) (hq3 : dat.q 3 = fullShare)
    (V V' : (b : Ref sig .tc) → Buf (Elt F) ((c : Thread nD τ).loc b))
    (h0 : dat.arrAt 0 cfg1.N = V' main_v48) (h1 : dat.arrAt 1 cfg1.N = V' main_v32)
    (h2 : dat.arrAt 2 cfg1.N = V' main_v32) (h3 : dat.arrAt 3 cfg1.N = V' main_v55) (h4 : dat.arrAt 4 cfg1.N = V' main_v56)
    (hrest : ∀ b, b ∉ Finset.univ.image (Pipeline.arrRef spec1) → V' b = V b) :
    iprop(dat.arrays (dat.arrAt · cfg1.N) ∗ Pipeline.unscopedRest (Ix := Unit) (Name := ℕ) (U := UR sig nD τ) (Lvl := ℕ) spec1 c V)
      ⊢ (unscopedBufs (Ix := Unit) (Name := ℕ) (U := UR sig nD τ) (Lvl := ℕ) c V' : sProp 𝕄) := by
  rw [Pipeline.unscopedBufs_split₀ cfgs 1 winFacts₀1.arr_unscoped c V', arrays1_eq dat hq0 hq1 hq2 hq3]
  refine sep_mono ?_ (Entails.of_eq ?_)
  · unfold Pipeline.arrBufs
    rw [show Finset.univ.image (Pipeline.arrRef (cfgs 1).spec) = {main_v48, main_v32, main_v55, main_v56} from by decide,
      bigSep_insert (by decide), bigSep_insert (by decide), bigSep_insert (by decide), bigSep_singleton]
    show iprop((_ ↦{fullShare} dat.arrAt 0 cfg1.N) ∗ (_ ↦{fullShare.left} dat.arrAt 1 cfg1.N) ∗ (_ ↦{fullShare.right} dat.arrAt 2 cfg1.N)
        ∗ (_ ↦{fullShare} dat.arrAt 3 cfg1.N) ∗ (_ ↦{fullShare} dat.arrAt 4 cfg1.N))
      ⊢ iprop((((c : Thread nD τ).loc main_v48) ↦{fullShare} V' main_v48) ∗ (((c : Thread nD τ).loc main_v32) ↦{fullShare} V' main_v32)
        ∗ (((c : Thread nD τ).loc main_v55) ↦{fullShare} V' main_v55) ∗ (((c : Thread nD τ).loc main_v56) ↦{fullShare} V' main_v56))
    rw [h0, h1, h2, h3, h4]
    have hh := (halves (F := F) ((c : Thread nD τ).loc main_v32) (V' main_v32)).2
    iintro ⟨Ha, Hl, Hr, Hd, Ho⟩
    isplitl [Ha]; · iexact Ha
    isplitl [Hl Hr]
    · iapply hh
      isplitl [Hl] <;> iassumption
    isplitl [Hd]; · iexact Hd
    iexact Ho
  · unfold Pipeline.unscopedRest
    exact bigSep_congr fun b hb => by rw [hrest b (Finset.mem_sdiff.mp hb).2]

end Cert.Kernel.Run

end
-- ==== Proof.Bits.RunDefs.lean ====
/-
  The buffer contents at each boundary of @main, and what the run needs of each region's body side.

  @main is a stretch of host lines, the first kernel's region, a second stretch, the second kernel's region, a last
  line.  The contents at each boundary are named by folding @main from the launch memory: a stretch of host lines
  leaves what its operations compute (`StableHlo.after`); a region leaves its input arrays as they were and its
  one-element output array at what the last grid point wrote back, every other buffer untouched.  Each region's
  body side — what its staging buffers and carried accumulators hold point by point, and that the body keeps that
  account — enters as a record (`Body0`, `Body1`).
-/
import proofs.«169932_j86088324481669_1_alg».proof.Proof.Gen.Kernel.Launch
import proofs.«169932_j86088324481669_1_alg».proof.Proof.Gen.Kernel.Skeleton
import proofs.«169932_j86088324481669_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Records
variable (F)

/-- The TensorCore's buffer contents at a region's entry. -/
abbrev Entry : Type :=
  (c : Dev nD) → (b : Ref sig .tc) → Buf (Elt F) ((c : Thread nD τ).loc b)

/-- The body side of the first kernel's region at any entry contents: the proof data, its arrays the entry
    contents, the two windows on the feature matrix at the two halves, nothing owed, the body obligation, and the
    invariant entered from and returned to the scoped buffers no window stages. -/
structure Body0 where
  dat : Entry F → (c : Dev nD) → Dat τ (Elt F) Unit ℕ (UR sig nD τ) ℕ cfg0 c
  hA : ∀ V c w, (dat V c).A w = V c (Pipeline.arrRef spec0 w)
  hq0 : ∀ V c, (dat V c).q 0 = fullShare.left
  hq1 : ∀ V c, (dat V c).q 1 = fullShare
  hq2 : ∀ V c, (dat V c).q 2 = fullShare.right
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA (U := UR sig nD τ) (Val := Elt F) spec0 c : sProp 𝕄) ⊢ (dat V c).Φ 0
  hout : ∀ V c, (dat V c).Φ (Fin.last cfg0.N) ⊢ (Pipeline.ΦA (U := UR sig nD τ) (Val := Elt F) spec0 c : sProp 𝕄)

/-- The same for the second kernel's region: windows 1 and 2 on the weight matrix. -/
structure Body1 where
  dat : Entry F → (c : Dev nD) → Dat τ (Elt F) Unit ℕ (UR sig nD τ) ℕ cfg1 c
  hA : ∀ V c w, (dat V c).A w = V c (Pipeline.arrRef spec1 w)
  hq0 : ∀ V c, (dat V c).q 0 = fullShare
  hq1 : ∀ V c, (dat V c).q 1 = fullShare.left
  hq2 : ∀ V c, (dat V c).q 2 = fullShare.right
  hq3 : ∀ V c, (dat V c).q 3 = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA (U := UR sig nD τ) (Val := Elt F) spec1 c : sProp 𝕄) ⊢ (dat V c).Φ 0
  hout : ∀ V c, (dat V c).Φ (Fin.last cfg1.N) ⊢ (Pipeline.ΦA (U := UR sig nD τ) (Val := Elt F) spec1 c : sProp 𝕄)

end Records

variable (B0 : Body0 F) (B1 : Body1 F)
variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first stretch of host lines: the first region's entry. -/
abbrev W1 : Dev nD → Valuation τ sig (Elt F) := fun c => StableHlo.after hostOps0 (W0 m ρ c)
abbrev V1 : Entry F := fun c b => W1 m ρ c b
/-- What the first region's write-backs leave in its output array. -/
def out0 (c : Dev nD) : Buf (Elt F) ((c : Thread nD τ).loc main_v52) := (B0.dat (V1 m ρ) c).arrAt 3 cfg0.N
/-- At the first region's exit: its output array at what the write-backs left, everything else as entered. -/
def W2 (c : Dev nD) : Valuation τ sig (Elt F) := Function.update (W1 m ρ c) (Proc.devRef .tc main_v52) (out0 B0 m ρ c)
abbrev V2 : Entry F := fun c b => W2 B0 m ρ c b
/-- After the second stretch: the second region's entry. -/
abbrev W3 : Dev nD → Valuation τ sig (Elt F) := fun c => StableHlo.after hostOps1 (W2 B0 m ρ c)
abbrev V3 : Entry F := fun c b => W3 B0 m ρ c b
def out1 (c : Dev nD) : Buf (Elt F) ((c : Thread nD τ).loc main_v56) := (B1.dat (V3 B0 m ρ) c).arrAt 4 cfg1.N
/-- At the second region's exit. -/
def W4 (c : Dev nD) : Valuation τ sig (Elt F) := Function.update (W3 B0 m ρ c) (Proc.devRef .tc main_v56) (out1 B0 B1 m ρ c)
abbrev V4 : Entry F := fun c b => W4 B0 B1 m ρ c b
/-- After the last line: the end of @main. -/
abbrev W5 : Dev nD → Valuation τ sig (Elt F) := fun c => StableHlo.after hostOps2 (W4 B0 B1 m ρ c)

theorem W2_out (c : Dev nD) : W2 B0 m ρ c (Proc.devRef .tc main_v52) = out0 B0 m ρ c := by
  unfold W2; exact Function.update_self _ _ _
theorem W2_of_ne (c : Dev nD) (b : Ref sig .tc) (hb : b ≠ main_v52) :
    W2 B0 m ρ c (Proc.devRef .tc b) = W1 m ρ c (Proc.devRef .tc b) := by
  unfold W2; exact Function.update_of_ne (StableHlo.devRef_ne_of_ne hb) _ _
theorem W4_out (c : Dev nD) : W4 B0 B1 m ρ c (Proc.devRef .tc main_v56) = out1 B0 B1 m ρ c := by
  unfold W4; exact Function.update_self _ _ _
theorem W4_of_ne (c : Dev nD) (b : Ref sig .tc) (hb : b ≠ main_v56) :
    W4 B0 B1 m ρ c (Proc.devRef .tc b) = W3 B0 m ρ c (Proc.devRef .tc b) := by
  unfold W4; exact Function.update_of_ne (StableHlo.devRef_ne_of_ne hb) _ _

end Cert.Kernel.Run

end
-- ==== Proof.Bits.Run.lean ====
/-
  The whole run of @main over its five segments: every weakly fair execution terminates with every unscoped buffer of
  the core at the last boundary's contents (`run`).  The two regions are entered from, and left to, "every unscoped
  buffer held at the boundary's contents": at a region's entry the buffers behind its windows' arrays are dealt to the
  windows (an array two windows read, by halves), at its exit they are joined again with the output array at what the
  write-backs left.
-/
import proofs.«169932_j86088324481669_1_alg».proof.Proof.Gen.Kernel.Launch
import proofs.«169932_j86088324481669_1_alg».proof.Proof.Gen.Kernel.Skeleton
import proofs.«169932_j86088324481669_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169932_j86088324481669_1_alg».proof.Proof.Bits.Shares
import proofs.«169932_j86088324481669_1_alg».proof.Proof.Bits.RunDefs
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (B0 : Body0 F) (B1 : Body1 F)
variable (m : (ℓ : Loc nD τ sig) → Buf (Elt F) ℓ) (ρ : Dev nD → PrngReg)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => B0.dat (V1 m ρ) c
  | ⟨1, _⟩ => fun c => B1.dat (V3 B0 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host lines as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the end-of-@main contents, the generator register at some state. -/
abbrev Tₙ (c : Dev nD) : sProp 𝕄 := iprop(StableHlo.held (c : Thread nD τ) (Pipeline.ucRefs τ sig) (W5 B0 B1 m ρ c) ∗ ∃ r, prngReg c r)

/-! ## The regions as segments -/

set_option backward.isDefEq.respectTransparency.types false in
set_option maxHeartbeats 4000000 in
/-- The first kernel's region: entered from every unscoped buffer at `W1`, left at `W2`. -/
def reg0 : Pipeline.RegionSeg (pcfgs (F := F)) adm (pdats B0 B1 m ρ) () defs₀ 𝒱₀ L lv 0 where
  win := winFacts₀0
  block_pos := block_pos0
  stage_whole := stage_whole0
  K := PEmpty
  osem k := k.elim
  ho := Pipeline.OwnSemFacts.none _
  hbody c := (B0.hbody (V1 m ρ) c).loose
  hwaits := Pipeline.hwaits_of_owed_zero _ _ _ _ L lv 0 fun c t => B0.howed (V1 m ρ) c t
  pre c := iprop(StableHlo.held (c : Thread nD τ) (Pipeline.ucRefs τ sig) (W1 m ρ c) ∗ R c)
  post c := iprop(StableHlo.held (c : Thread nD τ) (Pipeline.ucRefs τ sig) (W2 B0 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 (B0.dat (V1 m ρ) c) (B0.hq0 _ c) (B0.hq1 _ c) (B0.hq2 _ c) (V1 m ρ c) (B0.hA (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats B0 B1 m ρ 0 c).owed 0 = 0 from B0.howed _ c 0]
      icases HO with ⟨%W, HO⟩; iexists W; isplitr
      · ipureintro; intro x hx; left; show x ∈ (B0.dat (V1 m ρ) c).recorded _; rw [B0.hrec]; trivial
      iexact HO
    isplitl [Hp]; · iexact Hp
    iexact Hrest
  hin c := by
    refine BIBase.Entails.trans ?_ (B0.hin (V1 m ρ) c)
    unfold Pipeline.ΦA
    iintro ⟨Hp, -, Hr⟩
    isplitl [Hr]; · iexact Hr
    iexact Hp
  hout c := by
    rw [Pipeline.ownSems0_none]
    refine BIBase.Entails.trans (B0.hout (V1 m ρ) c) ?_
    unfold Pipeline.ΦA
    iintro ⟨Hr, Hp⟩
    isplitl [Hp]; · iexact Hp
    isplitr; · iempintro
    iexact Hr
  hexit c := by
    have hjoin := exit0 (B0.dat (V1 m ρ) c) (B0.hq0 _ c) (B0.hq1 _ c) (B0.hq2 _ c) (V1 m ρ c) (V2 B0 m ρ c)
      (((B0.dat (V1 m ρ) c).arrAt_in 0 rfl _).trans ((B0.hA (V1 m ρ) c 0).trans (W2_of_ne B0 m ρ c main_arg0 (by decide)).symm))
      (((B0.dat (V1 m ρ) c).arrAt_in 1 rfl _).trans ((B0.hA (V1 m ρ) c 1).trans (W2_of_ne B0 m ρ c main_v32 (by decide)).symm))
      (((B0.dat (V1 m ρ) c).arrAt_in 2 rfl _).trans ((B0.hA (V1 m ρ) c 2).trans (W2_of_ne B0 m ρ c main_arg0 (by decide)).symm))
      (W2_out B0 m ρ c).symm
      (fun b hb => W2_of_ne B0 m ρ c b fun e => hb (e ▸ (by decide)))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    rw [show (pdats B0 B1 m ρ 0 c).owed (Fin.last _) = 0 from B0.howed _ c _]
    icases HO with ⟨%W, -, HO⟩; iexists W; iexact HO

set_option backward.isDefEq.respectTransparency.types false in
set_option maxHeartbeats 4000000 in
/-- The second kernel's region: entered from every unscoped buffer at `W3`, left at `W4`. -/
def reg1 : Pipeline.RegionSeg (pcfgs (F := F)) adm (pdats B0 B1 m ρ) () defs₀ 𝒱₀ L lv 1 where
  win := winFacts₀1
  block_pos := block_pos1
  stage_whole := stage_whole1
  K := PEmpty
  osem k := k.elim
  ho := Pipeline.OwnSemFacts.none _
  hbody c := (B1.hbody (V3 B0 m ρ) c).loose
  hwaits := Pipeline.hwaits_of_owed_zero _ _ _ _ L lv 1 fun c t => B1.howed (V3 B0 m ρ) c t
  pre c := iprop(StableHlo.held (c : Thread nD τ) (Pipeline.ucRefs τ sig) (W3 B0 m ρ c) ∗ R c)
  post c := iprop(StableHlo.held (c : Thread nD τ) (Pipeline.ucRefs τ sig) (W4 B0 B1 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 B0 m ρ c)
  hentry c := by
    rw [Pipeline.ownSems0_none]
    have hsplit := entry1 (B1.dat (V3 B0 m ρ) c) (B1.hq0 _ c) (B1.hq1 _ c) (B1.hq2 _ c) (B1.hq3 _ c) (V3 B0 m ρ c) (B1.hA (V3 B0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats B0 B1 m ρ 1 c).owed 0 = 0 from B1.howed _ c 0]
      icases HO with ⟨%W, HO⟩; iexists W; isplitr
      · ipureintro; intro x hx; left; show x ∈ (B1.dat (V3 B0 m ρ) c).recorded _; rw [B1.hrec]; trivial
      iexact HO
    isplitl [Hp]; · iexact Hp
    iexact Hrest
  hin c := by
    refine BIBase.Entails.trans ?_ (B1.hin (V3 B0 m ρ) c)
    unfold Pipeline.ΦA
    iintro ⟨Hp, -, Hr⟩
    isplitl [Hr]; · iexact Hr
    iexact Hp
  hout c := by
    rw [Pipeline.ownSems0_none]
    refine BIBase.Entails.trans (B1.hout (V3 B0 m ρ) c) ?_
    unfold Pipeline.ΦA
    iintro ⟨Hr, Hp⟩
    isplitl [Hp]; · iexact Hp
    isplitr; · iempintro
    iexact Hr
  hexit c := by
    have hjoin := exit1 (B1.dat (V3 B0 m ρ) c) (B1.hq0 _ c) (B1.hq1 _ c) (B1.hq2 _ c) (B1.hq3 _ c) (V3 B0 m ρ c) (V4 B0 B1 m ρ c)
      (((B1.dat (V3 B0 m ρ) c).arrAt_in 0 rfl _).trans ((B1.hA (V3 B0 m ρ) c 0).trans (W4_of_ne B0 B1 m ρ c main_v48 (by decide)).symm))
      (((B1.dat (V3 B0 m ρ) c).arrAt_in 1 rfl _).trans ((B1.hA (V3 B0 m ρ) c 1).trans (W4_of_ne B0 B1 m ρ c main_v32 (by decide)).symm))
      (((B1.dat (V3 B0 m ρ) c).arrAt_in 2 rfl _).trans ((B1.hA (V3 B0 m ρ) c 2).trans (W4_of_ne B0 B1 m ρ c main_v32 (by decide)).symm))
      (((B1.dat (V3 B0 m ρ) c).arrAt_in 3 rfl _).trans ((B1.hA (V3 B0 m ρ) c 3).trans (W4_of_ne B0 B1 m ρ c main_v55 (by decide)).symm))
      (W4_out B0 B1 m ρ c).symm
      (fun b hb => W4_of_ne B0 B1 m ρ c b fun e => hb (e ▸ (by decide)))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    rw [show (pdats B0 B1 m ρ 1 c).owed (Fin.last _) = 0 from B1.howed _ c _]
    icases HO with ⟨%W, -, HO⟩; iexists W; iexact HO

/-! ## @main as segments, and the launch -/

abbrev segs : List (Pipeline.Seg (pcfgs (F := F)) adm (pdats B0 B1 m ρ) () defs₀ 𝒱₀ L lv) :=
  [ .host (hseg hostOps0 hostOps0_sub hostOps0_fresh (W0 m ρ)),
    .region (reg0 B0 B1 m ρ),
    .host (hseg hostOps1 hostOps1_sub hostOps1_fresh (W2 B0 m ρ)),
    .region (reg1 B0 B1 m ρ),
    .host (hseg hostOps2 hostOps2_sub hostOps2_fresh (W4 B0 B1 m ρ)) ]

set_option maxHeartbeats 4000000 in
theorem main_run (c : Dev nD) : main (F := F) c = Pipeline.Seg.run (segs B0 B1 m ρ) := (main_chain c).trans (by chain_rfl)

set_option backward.isDefEq.respectTransparency.types false in
set_option maxHeartbeats 4000000 in
/-- THE RUN: from any memory with zero counters, every weakly fair execution of @main terminates, nothing faulting, and
    every final state has every unscoped buffer of every core at the end-of-@main contents `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 B0 B1 m ρ c b) :=
  Pipeline.θ_run_regions_kit (pcfgs (F := F)) adm (pdats B0 B1 m ρ) () cellOf_inj emb₁ defs₀ 𝒱₀ L lv m ρ main (segs B0 B1 m ρ)
    (fun c Q => by rw [main_run B0 B1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ B0 B1 m ρ)
    (hch := ⟨fun _ => .rfl, fun _ => .rfl, fun _ => .rfl, fun _ => .rfl, fun _ => .rfl, fun c => by
      show iprop(StableHlo.held (c : Thread nD τ) (Pipeline.ucRefs τ sig) (W5 B0 B1 m ρ c) ∗ R c)
        ⊢ iprop(Tₙ B0 B1 m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 B0 B1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 B0 B1 m ρ c) s')
      isplitl [Hh] <;> iassumption)
    (hQ := fun s h c => h c)

end Cert.Kernel.Run

end
-- ==== Proof.Bits.R0Conds.lean ====
import proofs.«169932_j86088324481669_1_alg».proof.Proof.Gen.Kernel.Launch
import proofs.«169932_j86088324481669_1_alg».proof.Proof.Gen.Kernel.Skeleton
import proofs.«169932_j86088324481669_1_alg».proof.Proof.Gen.Kernel.Points
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body: its four conditionals over the 4 × 4 grid

Grid point `t = 4·j + k` has coordinates `(j, k)`.  The body clears the running total at `(0, 0)`, clears the matrix
accumulator where `k = 0`, folds the accumulator into the total where `k = 3`, and stores the total into the output
block at `(3, 3)`.  Each condition is stated as the body computes it and decided over the sixteen points. -/

/-- The first conditional: `j = 0 ∧ k = 0`. -/
abbrev cond0_1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_1 : ∀ t : Fin cfg0.N, cond0_1 (grid0.coords t) ↔ t.val = 0 :=
  (by decide +kernel : ∀ t : Fin grid0.N, cond0_1 (grid0.coords t) ↔ t.val = 0)

/-- The second conditional: `k = 0`. -/
abbrev cond0_2 (i : grid0.Coords) : Prop :=
  (Scalar.cmpi .ne (Scalar.extui (Scalar.cmpi .eq (BitVec.ofNat 32 (i 1).val) 0#32)) 0#32) = 1#1
/-- It holds at the points ≡ 0 (mod 4). -/
theorem hcond0_2 : ∀ t : Fin cfg0.N, cond0_2 (grid0.coords t) ↔ t.val % 4 = 0 :=
  (by decide +kernel : ∀ t : Fin grid0.N, cond0_2 (grid0.coords t) ↔ t.val % 4 = 0)

/-- The third conditional: `k = 3`. -/
abbrev cond0_3 (i : grid0.Coords) : Prop :=
  (Scalar.cmpi .ne (Scalar.extui (Scalar.cmpi .eq (BitVec.ofNat 32 (i 1).val) 3#32)) 0#32) = 1#1
/-- It holds at the points ≡ 3 (mod 4). -/
theorem hcond0_3 : ∀ t : Fin cfg0.N, cond0_3 (grid0.coords t) ↔ t.val % 4 = 3 :=
  (by decide +kernel : ∀ t : Fin grid0.N, cond0_3 (grid0.coords t) ↔ t.val % 4 = 3)

/-- The fourth conditional: `j = 3 ∧ k = 3`. -/
abbrev cond0_4 (i : grid0.Coords) : Prop := k0_cond4 i = 1#1
/-- It holds at the last point only. -/
theorem hcond0_4 : ∀ t : Fin cfg0.N, cond0_4 (grid0.coords t) ↔ t.val = 15 :=
  (by decide +kernel : ∀ t : Fin grid0.N, cond0_4 (grid0.coords t) ↔ t.val = 15)

/-! ## Where the output window is idle -/

/-- Away from the last point the output window is idle: the body stores nothing into its block there, -/
theorem idleAt0_3 : ∀ t : Fin cfg0.N, ¬cond0_4 (grid0.coords t) → cfg0.idle 3 (grid0.coords t) = true := by decide +kernel
/-- and the block is not written back there. -/
theorem noFlush0_3 : ∀ t : Fin cfg0.N, ¬cond0_4 (grid0.coords t) → (cfg0.win 3).flush t = false := by decide +kernel
/-- At the last point the output window is live. -/
theorem liveAt0_3 : ∀ t : Fin cfg0.N, cond0_4 (grid0.coords t) → cfg0.idle 3 (grid0.coords t) = false := by decide +kernel
/-- The three input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

/-! ## The memrefs the body is called with -/

/-- Each window's current staging memref at point `t`, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The matrix accumulator and the running total: whole scoped buffers passed beside the windows. -/
abbrev scM0_0 : Memref sig .tc .vmem S512x1024 .f32 := Memref.whole cc0_scratch0
abbrev scM0_1 : Memref sig .tc .vmem S1x1 .f32 := Memref.whole cc0_scratch1
/-- The same as views: what they hold is stated through these. -/
abbrev VS0_0 : View sig .tc .vmem S512x1024 .f32 := scM0_0.view
abbrev VS0_1 : View sig .tc .vmem S1x1 .f32 := scM0_1.view
/-- The output window's one staging buffer, as a view. -/
abbrev VO0_3 : View sig .tc .vmem S1x1 .f32 := (Memref.whole cc0_stg3_0 : Memref sig .tc .vmem S1x1 .f32).view

/-! ## The region's invariant, spelled out -/

/-- The scoped buffers of the core that this kernel never touches (the other kernel's staging buffers and
    accumulators), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- What the launch hands the region: the two accumulators at some contents, the untouched buffers, and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

end Cert.Kernel.R0

end
-- ==== Proof.Bits.R0RunA.lean ====
import proofs.«169932_j86088324481669_1_alg».proof.Proof.Bits.R0Conds

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT (all of `j = 0 ∧ k = 0`, `k = 0` hold; `k = 3` and `j = 3 ∧ k = 3` fail).  On whole memrefs — the three
    input blocks at their contents, the output block at contents handed back untouched, both accumulators at
    anything — the body runs to the continuation holding the inputs as they were, and each accumulator with the
    pieces its stores wrote (last first): the pieces are the witness the symbolic execution finds. -/
noncomputable def kernelRun0_A (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : cond0_1 i) (hc2 : cond0_2 i) (hc3 : ¬cond0_3 i) (hc4 : ¬cond0_4 i) (x0 : Vec F S1024x512 .f32) (x1 : Vec F S1024x1024 .f32) (x2 : Vec F S1024x512 .f32) :
    Σ' (L3 : List (View.Piece (Elt F) S1x1 .f32)) (LS0 : List (View.Piece (Elt F) S512x1024 .f32)), { LS1 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__recon_kernel i arg2 harg2 arg3 harg3 arg4 harg4 arg5 harg5 arg6 harg6 arg7 harg7) K } := by
  refine ⟨[], ?_, ?_, fun xi3 E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.R0

end
-- ==== Proof.Bits.R0RunB.lean ====
import proofs.«169932_j86088324481669_1_alg».proof.Proof.Bits.R0RunA

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A POINT WITH `k ∈ {1, 2}` (none of the four conditions holds).  On whole memrefs — the three input blocks at their contents, the output block and the running total at contents handed back untouched, the matrix accumulator at what the point before left — the body runs to the continuation holding all of these as they were except the matrix accumulator, which holds the pieces its one store wrote. -/
noncomputable def kernelRun0_B (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : ¬cond0_3 i) (hc4 : ¬cond0_4 i) (x0 : Vec F S1024x512 .f32) (x1 : Vec F S1024x1024 .f32) (x2 : Vec F S1024x512 .f32) (xs0 : Vec F S512x1024 .f32) :
    Σ' (L3 : List (View.Piece (Elt F) S1x1 .f32)), { LS0 : List (View.Piece (Elt F) S512x1024 .f32) //
      ∀ (xi3 : Vec F S1x1 .f32) (xs1 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ owns (c : Thread nD τ) arg7 fullShare xs1) -∗ K ⟨⟩))
          ⊢ wp frame (wpE (defs₀ (F := F)) Variants.none c none) E (cc0__recon_kernel i arg2 harg2 arg3 harg3 arg4 harg4 arg5 harg5 arg6 harg6 arg7 harg7) K } := by
  refine ⟨[], ?_, fun xi3 xs1 E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; isplitr; · ipureintro; exact harg7.read_unread _
    iexact HS1

end Cert.Kernel.R0

end
-- ==== Proof.Bits.R0RunC.lean ====
import proofs.«169932_j86088324481669_1_alg».proof.Proof.Bits.R0RunB

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A POINT WITH `k = 3` BEFORE THE LAST (only the third condition holds).  On whole memrefs — the three input blocks at their contents, the output block at contents handed back untouched, both accumulators at what the point before left — the body runs to the continuation holding the inputs and the output block as they were and each accumulator with the pieces its store wrote. -/
noncomputable def kernelRun0_C (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : ¬cond0_4 i) (x0 : Vec F S1024x512 .f32) (x1 : Vec F S1024x1024 .f32) (x2 : Vec F S1024x512 .f32) (xs0 : Vec F S512x1024 .f32) (xs1 : Vec F S1x1 .f32) :
    Σ' (L3 : List (View.Piece (Elt F) S1x1 .f32)) (LS0 : List (View.Piece (Elt F) S512x1024 .f32)), { LS1 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__recon_kernel i arg2 harg2 arg3 harg3 arg4 harg4 arg5 harg5 arg6 harg6 arg7 harg7) K } := by
  refine ⟨[], ?_, ?_, fun xi3 E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.R0

end
-- ==== Proof.Bits.R0RunD.lean ====
import proofs.«169932_j86088324481669_1_alg».proof.Proof.Bits.R0RunC

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A POINT WITH `k = 0` AFTER THE FIRST (only the second condition holds).  On whole memrefs — the three input blocks at their contents, the output block and the running total at contents handed back untouched, the matrix accumulator at anything — the body runs to the continuation holding all of these as they were except the matrix accumulator, which holds the pieces its two stores wrote (last first). -/
noncomputable def kernelRun0_D (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : cond0_2 i) (hc3 : ¬cond0_3 i) (hc4 : ¬cond0_4 i) (x0 : Vec F S1024x512 .f32) (x1 : Vec F S1024x1024 .f32) (x2 : Vec F S1024x512 .f32) :
    Σ' (L3 : List (View.Piece (Elt F) S1x1 .f32)), { LS0 : List (View.Piece (Elt F) S512x1024 .f32) //
      ∀ (xi3 : Vec F S1x1 .f32) (xs1 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ owns (c : Thread nD τ) arg7 fullShare xs1) -∗ K ⟨⟩))
          ⊢ wp frame (wpE (defs₀ (F := F)) Variants.none c none) E (cc0__recon_kernel i arg2 harg2 arg3 harg3 arg4 harg4 arg5 harg5 arg6 harg6 arg7 harg7) K } := by
  refine ⟨[], ?_, fun xi3 xs1 E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; isplitr; · ipureintro; exact harg7.read_unread _
    iexact HS1

end Cert.Kernel.R0

end
-- ==== Proof.Bits.R0RunE.lean ====
import proofs.«169932_j86088324481669_1_alg».proof.Proof.Bits.R0RunD

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST POINT (`k = 3` and `j = 3 ∧ k = 3` hold).  On whole memrefs — the three input blocks at their contents, the output block at anything, both accumulators at what the point before left — the body runs to the continuation holding the inputs as they were and the output block and each accumulator with the pieces its store wrote. -/
noncomputable def kernelRun0_E (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : cond0_4 i) (x0 : Vec F S1024x512 .f32) (x1 : Vec F S1024x1024 .f32) (x2 : Vec F S1024x512 .f32) (xs0 : Vec F S512x1024 .f32) (xs1 : Vec F S1x1 .f32) :
    Σ' (L3 : List (View.Piece (Elt F) S1x1 .f32)) (LS0 : List (View.Piece (Elt F) S512x1024 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__recon_kernel i arg2 harg2 arg3 harg3 arg4 harg4 arg5 harg5 arg6 harg6 arg7 harg7) K } := by
  refine ⟨?_, ?_, ?_, fun E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.R0

end
-- ==== Proof.Bits.R0Body.lean ====
import proofs.«169932_j86088324481669_1_alg».proof.Proof.Bits.R0RunE

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! # What each case of the body leaves in the accumulators and in the output block

Each case's run found, per buffer it stores into, the list of pieces written (last first).  Read back over any prior
contents, a list that covers the buffer gives contents that do not depend on the prior contents. -/

/-- What the first point leaves in the output block's buffer: its pieces read back (none: the block is idle there, and nothing consults this). -/
def out0_A_3 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : cond0_1 i) (hc2 : cond0_2 i) (hc3 : ¬cond0_3 i) (hc4 : ¬cond0_4 i) (x0 : Vec F S1024x512 .f32) (x1 : Vec F S1024x1024 .f32) (x2 : Vec F S1024x512 .f32) : Vec F S1x1 .f32 :=
  VO0_3.read (Elt F) (VO0_3.writes (Elt F) VO0_3.junk (kernelRun0_A c i arg2 harg2 arg3 harg3 arg4 harg4 arg5 harg5 arg6 harg6 arg7 harg7 hc1 hc2 hc3 hc4 x0 x1 x2).1)

/-- At the first point the stores into the matrix accumulator cover it. -/
theorem scover0_A_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : cond0_1 i) (hc2 : cond0_2 i) (hc3 : ¬cond0_3 i) (hc4 : ¬cond0_4 i) (x0 : Vec F S1024x512 .f32) (x1 : Vec F S1024x1024 .f32) (x2 : Vec F S1024x512 .f32) (y : S512x1024.Idx) :
    ∃ pc ∈ (kernelRun0_A c i arg2 harg2 arg3 harg3 arg4 harg4 arg5 harg5 arg6 harg6 arg7 harg7 hc1 hc2 hc3 hc4 x0 x1 x2).2.1, y ∈ pc.1.set :=
  View.cover_of_tiledL (kernelRun0_A c i arg2 harg2 arg3 harg3 arg4 harg4 arg5 harg5 arg6 harg6 arg7 harg7 hc1 hc2 hc3 hc4 x0 x1 x2).2.1 S512x1024.size (by sl_kernel_rfl) y

/-- What the first point leaves in the matrix accumulator. -/
def sout0_A_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : cond0_1 i) (hc2 : cond0_2 i) (hc3 : ¬cond0_3 i) (hc4 : ¬cond0_4 i) (x0 : Vec F S1024x512 .f32) (x1 : Vec F S1024x1024 .f32) (x2 : Vec F S1024x512 .f32) : Vec F S512x1024 .f32 :=
  VS0_0.read (Elt F) (VS0_0.writes (Elt F) VS0_0.junk (kernelRun0_A c i arg2 harg2 arg3 harg3 arg4 harg4 arg5 harg5 arg6 harg6 arg7 harg7 hc1 hc2 hc3 hc4 x0 x1 x2).2.1)

/-- At the first point the store into the running total covers it. -/
theorem scover0_A_1 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : cond0_1 i) (hc2 : cond0_2 i) (hc3 : ¬cond0_3 i) (hc4 : ¬cond0_4 i) (x0 : Vec F S1024x512 .f32) (x1 : Vec F S1024x1024 .f32) (x2 : Vec F S1024x512 .f32) (y : S1x1.Idx) :
    ∃ pc ∈ (kernelRun0_A c i arg2 harg2 arg3 harg3 arg4 harg4 arg5 harg5 arg6 harg6 arg7 harg7 hc1 hc2 hc3 hc4 x0 x1 x2).2.2.1, y ∈ pc.1.set :=
  View.cover_of_tiledL (kernelRun0_A c i arg2 harg2 arg3 harg3 arg4 harg4 arg5 harg5 arg6 harg6 arg7 harg7 hc1 hc2 hc3 hc4 x0 x1 x2).2.2.1 S1x1.size (by sl_kernel_rfl) y

/-- What the first point leaves in the running total. -/
def sout0_A_1 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : cond0_1 i) (hc2 : cond0_2 i) (hc3 : ¬cond0_3 i) (hc4 : ¬cond0_4 i) (x0 : Vec F S1024x512 .f32) (x1 : Vec F S1024x1024 .f32) (x2 : Vec F S1024x512 .f32) : Vec F S1x1 .f32 :=
  VS0_1.read (Elt F) (VS0_1.writes (Elt F) VS0_1.junk (kernelRun0_A c i arg2 harg2 arg3 harg3 arg4 harg4 arg5 harg5 arg6 harg6 arg7 harg7 hc1 hc2 hc3 hc4 x0 x1 x2).2.2.1)

/-- What a point with k ∈ {1, 2} leaves in the output block's buffer: its pieces read back (none: the block is idle there, and nothing consults this). -/
def out0_B_3 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : ¬cond0_3 i) (hc4 : ¬cond0_4 i) (x0 : Vec F S1024x512 .f32) (x1 : Vec F S1024x1024 .f32) (x2 : Vec F S1024x512 .f32) (xs0 : Vec F S512x1024 .f32) : Vec F S1x1 .f32 :=
  VO0_3.read (Elt F) (VO0_3.writes (Elt F) VO0_3.junk (kernelRun0_B c i arg2 harg2 arg3 harg3 arg4 harg4 arg5 harg5 arg6 harg6 arg7 harg7 hc1 hc2 hc3 hc4 x0 x1 x2 xs0).1)

/-- At a point with k ∈ {1, 2} the stores into the matrix accumulator cover it. -/
theorem scover0_B_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : ¬cond0_3 i) (hc4 : ¬cond0_4 i) (x0 : Vec F S1024x512 .f32) (x1 : Vec F S1024x1024 .f32) (x2 : Vec F S1024x512 .f32) (xs0 : Vec F S512x1024 .f32) (y : S512x1024.Idx) :
    ∃ pc ∈ (kernelRun0_B c i arg2 harg2 arg3 harg3 arg4 harg4 arg5 harg5 arg6 harg6 arg7 harg7 hc1 hc2 hc3 hc4 x0 x1 x2 xs0).2.1, y ∈ pc.1.set :=
  View.cover_of_tiledL (kernelRun0_B c i arg2 harg2 arg3 harg3 arg4 harg4 arg5 harg5 arg6 harg6 arg7 harg7 hc1 hc2 hc3 hc4 x0 x1 x2 xs0).2.1 S512x1024.size (by sl_kernel_rfl) y

/-- What a point with k ∈ {1, 2} leaves in the matrix accumulator. -/
def sout0_B_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : ¬cond0_3 i) (hc4 : ¬cond0_4 i) (x0 : Vec F S1024x512 .f32) (x1 : Vec F S1024x1024 .f32) (x2 : Vec F S1024x512 .f32) (xs0 : Vec F S512x1024 .f32) : Vec F S512x1024 .f32 :=
  VS0_0.read (Elt F) (VS0_0.writes (Elt F) VS0_0.junk (kernelRun0_B c i arg2 harg2 arg3 harg3 arg4 harg4 arg5 harg5 arg6 harg6 arg7 harg7 hc1 hc2 hc3 hc4 x0 x1 x2 xs0).2.1)

/-- What a point with k = 3 before the last leaves in the output block's buffer: its pieces read back (none: the block is idle there, and nothing consults this). -/
def out0_C_3 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : ¬cond0_4 i) (x0 : Vec F S1024x512 .f32) (x1 : Vec F S1024x1024 .f32) (x2 : Vec F S1024x512 .f32) (xs0 : Vec F S512x1024 .f32) (xs1 : Vec F S1x1 .f32) : Vec F S1x1 .f32 :=
  VO0_3.read (Elt F) (VO0_3.writes (Elt F) VO0_3.junk (kernelRun0_C c i arg2 harg2 arg3 harg3 arg4 harg4 arg5 harg5 arg6 harg6 arg7 harg7 hc1 hc2 hc3 hc4 x0 x1 x2 xs0 xs1).1)

/-- At a point with k = 3 before the last the stores into the matrix accumulator cover it. -/
theorem scover0_C_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : ¬cond0_4 i) (x0 : Vec F S1024x512 .f32) (x1 : Vec F S1024x1024 .f32) (x2 : Vec F S1024x512 .f32) (xs0 : Vec F S512x1024 .f32) (xs1 : Vec F S1x1 .f32) (y : S512x1024.Idx) :
    ∃ pc ∈ (kernelRun0_C c i arg2 harg2 arg3 harg3 arg4 harg4 arg5 harg5 arg6 harg6 arg7 harg7 hc1 hc2 hc3 hc4 x0 x1 x2 xs0 xs1).2.1, y ∈ pc.1.set :=
  View.cover_of_tiledL (kernelRun0_C c i arg2 harg2 arg3 harg3 arg4 harg4 arg5 harg5 arg6 harg6 arg7 harg7 hc1 hc2 hc3 hc4 x0 x1 x2 xs0 xs1).2.1 S512x1024.size (by sl_kernel_rfl) y

/-- What a point with k = 3 before the last leaves in the matrix accumulator. -/
def sout0_C_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : ¬cond0_4 i) (x0 : Vec F S1024x512 .f32) (x1 : Vec F S1024x1024 .f32) (x2 : Vec F S1024x512 .f32) (xs0 : Vec F S512x1024 .f32) (xs1 : Vec F S1x1 .f32) : Vec F S512x1024 .f32 :=
  VS0_0.read (Elt F) (VS0_0.writes (Elt F) VS0_0.junk (kernelRun0_C c i arg2 harg2 arg3 harg3 arg4 harg4 arg5 harg5 arg6 harg6 arg7 harg7 hc1 hc2 hc3 hc4 x0 x1 x2 xs0 xs1).2.1)

/-- At a point with k = 3 before the last the store into the running total covers it. -/
theorem scover0_C_1 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : ¬cond0_4 i) (x0 : Vec F S1024x512 .f32) (x1 : Vec F S1024x1024 .f32) (x2 : Vec F S1024x512 .f32) (xs0 : Vec F S512x1024 .f32) (xs1 : Vec F S1x1 .f32) (y : S1x1.Idx) :
    ∃ pc ∈ (kernelRun0_C c i arg2 harg2 arg3 harg3 arg4 harg4 arg5 harg5 arg6 harg6 arg7 harg7 hc1 hc2 hc3 hc4 x0 x1 x2 xs0 xs1).2.2.1, y ∈ pc.1.set :=
  View.cover_of_tiledL (kernelRun0_C c i arg2 harg2 arg3 harg3 arg4 harg4 arg5 harg5 arg6 harg6 arg7 harg7 hc1 hc2 hc3 hc4 x0 x1 x2 xs0 xs1).2.2.1 S1x1.size (by sl_kernel_rfl) y

/-- What a point with k = 3 before the last leaves in the running total. -/
def sout0_C_1 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : ¬cond0_4 i) (x0 : Vec F S1024x512 .f32) (x1 : Vec F S1024x1024 .f32) (x2 : Vec F S1024x512 .f32) (xs0 : Vec F S512x1024 .f32) (xs1 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 hc1 hc2 hc3 hc4 x0 x1 x2 xs0 xs1).2.2.1)

/-- What a point with k = 0 after the first leaves in the output block's buffer: its pieces read back (none: the block is idle there, and nothing consults this). -/
def out0_D_3 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : cond0_2 i) (hc3 : ¬cond0_3 i) (hc4 : ¬cond0_4 i) (x0 : Vec F S1024x512 .f32) (x1 : Vec F S1024x1024 .f32) (x2 : Vec F S1024x512 .f32) : Vec F S1x1 .f32 :=
  VO0_3.read (Elt F) (VO0_3.writes (Elt F) VO0_3.junk (kernelRun0_D c i arg2 harg2 arg3 harg3 arg4 harg4 arg5 harg5 arg6 harg6 arg7 harg7 hc1 hc2 hc3 hc4 x0 x1 x2).1)

/-- At a point with k = 0 after the first the stores into the matrix accumulator cover it. -/
theorem scover0_D_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : cond0_2 i) (hc3 : ¬cond0_3 i) (hc4 : ¬cond0_4 i) (x0 : Vec F S1024x512 .f32) (x1 : Vec F S1024x1024 .f32) (x2 : Vec F S1024x512 .f32) (y : S512x1024.Idx) :
    ∃ pc ∈ (kernelRun0_D c i arg2 harg2 arg3 harg3 arg4 harg4 arg5 harg5 arg6 harg6 arg7 harg7 hc1 hc2 hc3 hc4 x0 x1 x2).2.1, y ∈ pc.1.set :=
  View.cover_of_tiledL (kernelRun0_D c i arg2 harg2 arg3 harg3 arg4 harg4 arg5 harg5 arg6 harg6 arg7 harg7 hc1 hc2 hc3 hc4 x0 x1 x2).2.1 S512x1024.size (by sl_kernel_rfl) y

/-- What a point with k = 0 after the first leaves in the matrix accumulator. -/
def sout0_D_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : cond0_2 i) (hc3 : ¬cond0_3 i) (hc4 : ¬cond0_4 i) (x0 : Vec F S1024x512 .f32) (x1 : Vec F S1024x1024 .f32) (x2 : Vec F S1024x512 .f32) : Vec F S512x1024 .f32 :=
  VS0_0.read (Elt F) (VS0_0.writes (Elt F) VS0_0.junk (kernelRun0_D c i arg2 harg2 arg3 harg3 arg4 harg4 arg5 harg5 arg6 harg6 arg7 harg7 hc1 hc2 hc3 hc4 x0 x1 x2).2.1)

/-- At the last point the one store into the output block covers it. -/
theorem cover0_E_3 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : cond0_4 i) (x0 : Vec F S1024x512 .f32) (x1 : Vec F S1024x1024 .f32) (x2 : Vec F S1024x512 .f32) (xs0 : Vec F S512x1024 .f32) (xs1 : Vec F S1x1 .f32) (y : S1x1.Idx) :
    ∃ pc ∈ (kernelRun0_E c i arg2 harg2 arg3 harg3 arg4 harg4 arg5 harg5 arg6 harg6 arg7 harg7 hc1 hc2 hc3 hc4 x0 x1 x2 xs0 xs1).1, y ∈ pc.1.set :=
  View.cover_of_tiledL (kernelRun0_E c i arg2 harg2 arg3 harg3 arg4 harg4 arg5 harg5 arg6 harg6 arg7 harg7 hc1 hc2 hc3 hc4 x0 x1 x2 xs0 xs1).1 S1x1.size (by sl_kernel_rfl) y

/-- What the last point leaves in the output block's buffer: its pieces read back. -/
def out0_E_3 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : cond0_4 i) (x0 : Vec F S1024x512 .f32) (x1 : Vec F S1024x1024 .f32) (x2 : Vec F S1024x512 .f32) (xs0 : Vec F S512x1024 .f32) (xs1 : Vec F S1x1 .f32) : Vec F S1x1 .f32 :=
  VO0_3.read (Elt F) (VO0_3.writes (Elt F) VO0_3.junk (kernelRun0_E c i arg2 harg2 arg3 harg3 arg4 harg4 arg5 harg5 arg6 harg6 arg7 harg7 hc1 hc2 hc3 hc4 x0 x1 x2 xs0 xs1).1)

/-- At the last point the stores into the matrix accumulator cover it. -/
theorem scover0_E_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : cond0_4 i) (x0 : Vec F S1024x512 .f32) (x1 : Vec F S1024x1024 .f32) (x2 : Vec F S1024x512 .f32) (xs0 : Vec F S512x1024 .f32) (xs1 : Vec F S1x1 .f32) (y : S512x1024.Idx) :
    ∃ pc ∈ (kernelRun0_E c i arg2 harg2 arg3 harg3 arg4 harg4 arg5 harg5 arg6 harg6 arg7 harg7 hc1 hc2 hc3 hc4 x0 x1 x2 xs0 xs1).2.1, y ∈ pc.1.set :=
  View.cover_of_tiledL (kernelRun0_E c i arg2 harg2 arg3 harg3 arg4 harg4 arg5 harg5 arg6 harg6 arg7 harg7 hc1 hc2 hc3 hc4 x0 x1 x2 xs0 xs1).2.1 S512x1024.size (by sl_kernel_rfl) y

/-- What the last point leaves in the matrix accumulator. -/
def sout0_E_0 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : cond0_4 i) (x0 : Vec F S1024x512 .f32) (x1 : Vec F S1024x1024 .f32) (x2 : Vec F S1024x512 .f32) (xs0 : Vec F S512x1024 .f32) (xs1 : Vec F S1x1 .f32) : Vec F S512x1024 .f32 :=
  VS0_0.read (Elt F) (VS0_0.writes (Elt F) VS0_0.junk (kernelRun0_E c i arg2 harg2 arg3 harg3 arg4 harg4 arg5 harg5 arg6 harg6 arg7 harg7 hc1 hc2 hc3 hc4 x0 x1 x2 xs0 xs1).2.1)

/-- At the last point the store into the running total covers it. -/
theorem scover0_E_1 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : cond0_4 i) (x0 : Vec F S1024x512 .f32) (x1 : Vec F S1024x1024 .f32) (x2 : Vec F S1024x512 .f32) (xs0 : Vec F S512x1024 .f32) (xs1 : Vec F S1x1 .f32) (y : S1x1.Idx) :
    ∃ pc ∈ (kernelRun0_E c i arg2 harg2 arg3 harg3 arg4 harg4 arg5 harg5 arg6 harg6 arg7 harg7 hc1 hc2 hc3 hc4 x0 x1 x2 xs0 xs1).2.2.1, y ∈ pc.1.set :=
  View.cover_of_tiledL (kernelRun0_E c i arg2 harg2 arg3 harg3 arg4 harg4 arg5 harg5 arg6 harg6 arg7 harg7 hc1 hc2 hc3 hc4 x0 x1 x2 xs0 xs1).2.2.1 S1x1.size (by sl_kernel_rfl) y

/-- What the last point leaves in the running total. -/
def sout0_E_1 (c : Dev nD) (i : grid0.Coords) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S512x1024 .f32) (harg6 : arg6.IsWhole) (arg7 : Memref sig .tc .vmem S1x1 .f32) (harg7 : arg7.IsWhole)
    (hc1 : ¬cond0_1 i) (hc2 : ¬cond0_2 i) (hc3 : cond0_3 i) (hc4 : cond0_4 i) (x0 : Vec F S1024x512 .f32) (x1 : Vec F S1024x1024 .f32) (x2 : Vec F S1024x512 .f32) (xs0 : Vec F S512x1024 .f32) (xs1 : Vec F S1x1 .f32) : Vec F S1x1 .f32 :=
  VS0_1.read (Elt F) (VS0_1.writes (Elt F) VS0_1.junk (kernelRun0_E c i arg2 harg2 arg3 harg3 arg4 harg4 arg5 harg5 arg6 harg6 arg7 harg7 hc1 hc2 hc3 hc4 x0 x1 x2 xs0 xs1).2.2.1)

section Region
-- the TensorCore's buffer contents when the region is entered
variable (V : (c : Dev nD) → (b : Ref sig .tc) → Buf (Elt F) ((c : Thread nD τ).loc b))

/-! # The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved since the point before), for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! # The five kinds of point, from the point's number -/

theorem caseA (t : Fin cfg0.N) (h : t.val = 0) : cond0_1 (grid0.coords t) ∧ cond0_2 (grid0.coords t) ∧ ¬cond0_3 (grid0.coords t) ∧ ¬cond0_4 (grid0.coords t) :=
  ⟨(hcond0_1 t).mpr h, (hcond0_2 t).mpr (by omega), fun h' => by have := (hcond0_3 t).mp h'; omega,
    fun h' => by have := (hcond0_4 t).mp h'; omega⟩
theorem caseB (t : Fin cfg0.N) (h0 : ¬t.val % 4 = 0) (h3 : ¬t.val % 4 = 3) : ¬cond0_1 (grid0.coords t) ∧ ¬cond0_2 (grid0.coords t) ∧ ¬cond0_3 (grid0.coords t) ∧ ¬cond0_4 (grid0.coords t) :=
  ⟨fun h' => by have := (hcond0_1 t).mp h'; omega, fun h' => h0 ((hcond0_2 t).mp h'), fun h' => h3 ((hcond0_3 t).mp h'),
    fun h' => by have := (hcond0_4 t).mp h'; omega⟩
theorem caseC (t : Fin cfg0.N) (h3 : t.val % 4 = 3) (hL : ¬t.val = 15) : ¬cond0_1 (grid0.coords t) ∧ ¬cond0_2 (grid0.coords t) ∧ cond0_3 (grid0.coords t) ∧ ¬cond0_4 (grid0.coords t) :=
  ⟨fun h' => by have := (hcond0_1 t).mp h'; omega, fun h' => by have := (hcond0_2 t).mp h'; omega, (hcond0_3 t).mpr h3,
    fun h' => hL ((hcond0_4 t).mp h')⟩
theorem caseD (t : Fin cfg0.N) (h0 : t.val % 4 = 0) (hz : ¬t.val = 0) : ¬cond0_1 (grid0.coords t) ∧ cond0_2 (grid0.coords t) ∧ ¬cond0_3 (grid0.coords t) ∧ ¬cond0_4 (grid0.coords t) :=
  ⟨fun h' => hz ((hcond0_1 t).mp h'), (hcond0_2 t).mpr h0, fun h' => by have := (hcond0_3 t).mp h'; omega,
    fun h' => by have := (hcond0_4 t).mp h'; omega⟩
theorem caseE (t : Fin cfg0.N) (hL : t.val = 15) : ¬cond0_1 (grid0.coords t) ∧ ¬cond0_2 (grid0.coords t) ∧ cond0_3 (grid0.coords t) ∧ cond0_4 (grid0.coords t) :=
  ⟨fun h' => by have := (hcond0_1 t).mp h'; omega, fun h' => by have := (hcond0_2 t).mp h'; omega, (hcond0_3 t).mpr (by omega),
    (hcond0_4 t).mpr hL⟩

/-! # What the buffers hold after each point

A triple: the output block's buffer, the matrix accumulator, the running total.  Each kind of point is run at the
point's memrefs and input blocks, over what the point before left in the accumulators (`p`). -/

def atA (c : Dev nD) (t : Fin cfg0.N) (h : t.val = 0) : Vec F S1x1 .f32 × Vec F S512x1024 .f32 × Vec F S1x1 .f32 :=
  (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseA t h).1 (caseA t h).2.1 (caseA t h).2.2.1 (caseA t h).2.2.2 (iblk0 V c 0 t) (iblk0 V c 1 t) (iblk0 V c 2 t),
   sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseA t h).1 (caseA t h).2.1 (caseA t h).2.2.1 (caseA t h).2.2.2 (iblk0 V c 0 t) (iblk0 V c 1 t) (iblk0 V c 2 t),
   sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseA t h).1 (caseA t h).2.1 (caseA t h).2.2.1 (caseA t h).2.2.2 (iblk0 V c 0 t) (iblk0 V c 1 t) (iblk0 V c 2 t))
def atB (c : Dev nD) (t : Fin cfg0.N) (h0 : ¬t.val % 4 = 0) (h3 : ¬t.val % 4 = 3) (p : Vec F S1x1 .f32 × Vec F S512x1024 .f32 × Vec F S1x1 .f32) : Vec F S1x1 .f32 × Vec F S512x1024 .f32 × Vec F S1x1 .f32 :=
  (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseB t h0 h3).1 (caseB t h0 h3).2.1 (caseB t h0 h3).2.2.1 (caseB t h0 h3).2.2.2 (iblk0 V c 0 t) (iblk0 V c 1 t) (iblk0 V c 2 t) p.2.1,
   sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseB t h0 h3).1 (caseB t h0 h3).2.1 (caseB t h0 h3).2.2.1 (caseB t h0 h3).2.2.2 (iblk0 V c 0 t) (iblk0 V c 1 t) (iblk0 V c 2 t) p.2.1,
   p.2.2)
def atC (c : Dev nD) (t : Fin cfg0.N) (h3 : t.val % 4 = 3) (hL : ¬t.val = 15) (p : Vec F S1x1 .f32 × Vec F S512x1024 .f32 × Vec F S1x1 .f32) : Vec F S1x1 .f32 × Vec F S512x1024 .f32 × Vec F S1x1 .f32 :=
  (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseC t h3 hL).1 (caseC t h3 hL).2.1 (caseC t h3 hL).2.2.1 (caseC t h3 hL).2.2.2 (iblk0 V c 0 t) (iblk0 V c 1 t) (iblk0 V c 2 t) p.2.1 p.2.2,
   sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseC t h3 hL).1 (caseC t h3 hL).2.1 (caseC t h3 hL).2.2.1 (caseC t h3 hL).2.2.2 (iblk0 V c 0 t) (iblk0 V c 1 t) (iblk0 V c 2 t) p.2.1 p.2.2,
   sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseC t h3 hL).1 (caseC t h3 hL).2.1 (caseC t h3 hL).2.2.1 (caseC t h3 hL).2.2.2 (iblk0 V c 0 t) (iblk0 V c 1 t) (iblk0 V c 2 t) p.2.1 p.2.2)
def atD (c : Dev nD) (t : Fin cfg0.N) (h0 : t.val % 4 = 0) (hz : ¬t.val = 0) (p : Vec F S1x1 .f32 × Vec F S512x1024 .f32 × Vec F S1x1 .f32) : Vec F S1x1 .f32 × Vec F S512x1024 .f32 × Vec F S1x1 .f32 :=
  (out0_D_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseD t h0 hz).1 (caseD t h0 hz).2.1 (caseD t h0 hz).2.2.1 (caseD t h0 hz).2.2.2 (iblk0 V c 0 t) (iblk0 V c 1 t) (iblk0 V c 2 t),
   sout0_D_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseD t h0 hz).1 (caseD t h0 hz).2.1 (caseD t h0 hz).2.2.1 (caseD t h0 hz).2.2.2 (iblk0 V c 0 t) (iblk0 V c 1 t) (iblk0 V c 2 t),
   p.2.2)
def atE (c : Dev nD) (t : Fin cfg0.N) (hL : t.val = 15) (p : Vec F S1x1 .f32 × Vec F S512x1024 .f32 × Vec F S1x1 .f32) : Vec F S1x1 .f32 × Vec F S512x1024 .f32 × Vec F S1x1 .f32 :=
  (out0_E_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseE t hL).1 (caseE t hL).2.1 (caseE t hL).2.2.1 (caseE t hL).2.2.2 (iblk0 V c 0 t) (iblk0 V c 1 t) (iblk0 V c 2 t) p.2.1 p.2.2,
   sout0_E_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseE t hL).1 (caseE t hL).2.1 (caseE t hL).2.2.1 (caseE t hL).2.2.2 (iblk0 V c 0 t) (iblk0 V c 1 t) (iblk0 V c 2 t) p.2.1 p.2.2,
   sout0_E_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (caseE t hL).1 (caseE t hL).2.1 (caseE t hL).2.2.1 (caseE t hL).2.2.2 (iblk0 V c 0 t) (iblk0 V c 1 t) (iblk0 V c 2 t) p.2.1 p.2.2)

/-- THE ACCUMULATION: what the three buffers hold after the body at position `n`. -/
def outsAt0 (c : Dev nD) : (n : ℕ) → n < cfg0.N → Vec F S1x1 .f32 × Vec F S512x1024 .f32 × Vec F S1x1 .f32
  | 0, hn => atA V c ⟨0, hn⟩ rfl
  | n + 1, hn =>
    if h0 : (n + 1) % 4 = 0 then atD V c ⟨n + 1, hn⟩ h0 (Nat.succ_ne_zero n) (outsAt0 c n (Nat.lt_of_succ_lt hn))
    else if h3 : (n + 1) % 4 = 3 then
      if hL : n + 1 = 15 then atE V c ⟨n + 1, hn⟩ hL (outsAt0 c n (Nat.lt_of_succ_lt hn))
      else atC V c ⟨n + 1, hn⟩ h3 hL (outsAt0 c n (Nat.lt_of_succ_lt hn))
    else atB V c ⟨n + 1, hn⟩ h0 h3 (outsAt0 c n (Nat.lt_of_succ_lt hn))

theorem outsAt0_A (c : Dev nD) (t : Fin cfg0.N) (h : t.val = 0) : outsAt0 V c t.val t.isLt = atA V c t h := by
  obtain ⟨n, hn⟩ := t
  cases n with
  | zero => rfl
  | succ n => exact absurd h (Nat.succ_ne_zero n)
theorem outsAt0_B (c : Dev nD) (t : Fin cfg0.N) (h0 : ¬t.val % 4 = 0) (h3 : ¬t.val % 4 = 3) : outsAt0 V c t.val t.isLt = atB V c t h0 h3 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)
theorem outsAt0_C (c : Dev nD) (t : Fin cfg0.N) (h3 : t.val % 4 = 3) (hL : ¬t.val = 15) : outsAt0 V c t.val t.isLt = atC V c t h3 hL (outsAt0 V c (t.val - 1) (Nat.lt_of_le_of_lt (Nat.sub_le _ _) t.isLt)) := by
  obtain ⟨n, hn⟩ := t
  cases n with
  | zero => exact absurd h3 (by dsimp only; omega)
  | succ n => exact (dif_neg (by dsimp only at h3 ⊢; omega)).trans ((dif_pos h3).trans ((dif_neg hL).trans rfl))
theorem outsAt0_D (c : Dev nD) (t : Fin cfg0.N) (h0 : t.val % 4 = 0) (hz : ¬t.val = 0) : outsAt0 V c t.val t.isLt = atD V c t h0 hz (outsAt0 V c (t.val - 1) (Nat.lt_of_le_of_lt (Nat.sub_le _ _) t.isLt)) := by
  obtain ⟨n, hn⟩ := t
  cases n with
  | zero => exact absurd rfl hz
  | succ n => exact (dif_pos h0).trans rfl
theorem outsAt0_E (c : Dev nD) (t : Fin cfg0.N) (hL : t.val = 15) : outsAt0 V c t.val t.isLt = atE V c t hL (outsAt0 V c (t.val - 1) (Nat.lt_of_le_of_lt (Nat.sub_le _ _) t.isLt)) := by
  obtain ⟨n, hn⟩ := t
  cases n with
  | zero => exact absurd hL (by dsimp only; omega)
  | succ n => exact (dif_neg (by dsimp only at hL ⊢; omega)).trans ((dif_pos (by dsimp only at hL ⊢; omega)).trans ((dif_pos hL).trans rfl))

/-! # The region's invariant -/

/-- Before the first point: what the launch hands over (both accumulators at anything).  Afterwards: both accumulators
    at what the point before left, the buffers the kernel never touches at some contents, the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2 ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (outsAt0 V c n hn).2.1 ∗ owns (c : Thread nD τ) scM0_1 fullShare (outsAt0 V c n hn).2.2 ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (outsAt0 V c (n - 1) (by omega)).2.1 ∗ owns (c : Thread nD τ) scM0_1 fullShare (outsAt0 V c (n - 1) (by omega)).2.2 ∗ others0 c) ∗ (∃ r, prngReg c r)) := by
  cases n with
  | zero => exact absurd rfl hz
  | succ n => rfl

/-! # The proof data -/

/-- The arrays as the region finds them; after the body each input's buffer at its block and the output's at the
    accumulation's first component; the invariant above; nothing owed.  The first and third windows read one array:
    each holds half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q w := match w with
    | ⟨0, _⟩ => fullShare.left
    | ⟨1, _⟩ => fullShare
    | ⟨2, _⟩ => fullShare.right
    | ⟨3, _⟩ => fullShare
  owed _ := 0

theorem A_eq0 (c : Dev nD) (w : Fin cfg0.W) : (dat0 V c).A w = V c (Pipeline.arrRef spec0 w) := by
  dsimp only [dat0]
theorem owed0 (c : Dev nD) (t : Fin (cfg0.N + 1)) : (dat0 V c).owed t = 0 := rfl
theorem q0_0 (c : Dev nD) : (dat0 V c).q 0 = fullShare.left := rfl
theorem q0_1 (c : Dev nD) : (dat0 V c).q 1 = fullShare := rfl
theorem q0_2 (c : Dev nD) : (dat0 V c).q 2 = fullShare.right := rfl
theorem q0_3 (c : Dev nD) : (dat0 V c).q 3 = fullShare := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- An input window's array is never written: after the region it holds what it held. -/
theorem arrAt_in0_0 (c : Dev nD) : (dat0 V c).arrAt 0 cfg0.N = V c (Pipeline.arrRef spec0 0) :=
  ((dat0 V c).arrAt_in 0 rfl _).trans (A_eq0 V c 0)
theorem arrAt_in0_1 (c : Dev nD) : (dat0 V c).arrAt 1 cfg0.N = V c (Pipeline.arrRef spec0 1) :=
  ((dat0 V c).arrAt_in 1 rfl _).trans (A_eq0 V c 1)
theorem arrAt_in0_2 (c : Dev nD) : (dat0 V c).arrAt 2 cfg0.N = V c (Pipeline.arrRef spec0 2) :=
  ((dat0 V c).arrAt_in 2 rfl _).trans (A_eq0 V c 2)
theorem arrAt_in0 (c : Dev nD) (w : Fin cfg0.W) (hw : (cfg0.win w).isOut = false) :
    (dat0 V c).arrAt w cfg0.N = V c (Pipeline.arrRef spec0 w) :=
  ((dat0 V c).arrAt_in w hw _).trans (A_eq0 V c w)

/-! # The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point.  The inputs' buffers hold their blocks; the point's number says which kind of point it is,
    and that kind's run applies: the invariant hands the body the accumulators at what the point before left (at
    anything at the first point) and takes them back at this point's contents; the output block's buffer is handed back
    untouched except at the last point, where the body's store covers it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 16 := lt_of_lt_of_eq t.isLt (show cfg0.N = 16 from N_0)
  by_cases hz : t.val = 0
  · rw [Dat.leavesExact_idle (dat0 V c) 3 t (idleAt0_3 t (caseA t hz).2.2.2) (noFlush0_3 t (caseA t hz).2.2.2)]
    rw [outsAt0_A V c t hz]
    unfold atA sout0_A_0 sout0_A_1; (try dsimp only)
    rw [PhiS0_castSucc V c t, PhiS0_zero V c _ _ hz, PhiA0_eq]
    iintro ⟨⟨⟨HS0, HS1, HR⟩, Hg⟩, Ho, ⟨%d0, H0⟩, ⟨%d1, H1⟩, ⟨%d2, H2⟩, ⟨%d3, H3⟩⟩
    iapply ((kernelRun0_A c (grid0.coords t) _ _ _ _ _ _ _ _ _ _ _ _ (caseA t hz).1 (caseA t hz).2.1 (caseA t hz).2.2.1 (caseA t hz).2.2.2 (iblk0 V c 0 t) (iblk0 V c 1 t) (iblk0 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 HR Hg]
    · isplitr [Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · by_cases h0 : t.val % 4 = 0
    · rw [Dat.leavesExact_idle (dat0 V c) 3 t (idleAt0_3 t (caseD t h0 hz).2.2.2) (noFlush0_3 t (caseD t h0 hz).2.2.2)]
      rw [outsAt0_D V c t h0 hz]
      unfold atD sout0_D_0; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_D c (grid0.coords t) _ _ _ _ _ _ _ _ _ _ _ _ (caseD t h0 hz).1 (caseD t h0 hz).2.1 (caseD t h0 hz).2.2.1 (caseD t h0 hz).2.2.2 (iblk0 V c 0 t) (iblk0 V c 1 t) (iblk0 V c 2 t)).2.2 _ _ Set.univ _)
      isplitl [H0]; · iexact H0
      isplitl [H1]; · iexact H1
      isplitl [H2]; · iexact H2
      isplitl [H3]; · iexact H3
      isplitl [HS0]; · iexists _; iexact HS0
      isplitl [HS1]; · iexact HS1
      iintro ⟨H0, H1, H2, H3, ⟨%es0, HS0⟩, HS1⟩
      isplitl [HS0 HS1 HR Hg]
      · isplitr [Hg]
        · isplitl [HS0]
          · unfold owns; iexists _; isplitr
            swap; · iexact HS0
            ipureintro; exact View.read_writes_of_cover _ _ _ _ _ (scover0_D_0 c _ _ _ _ _ _ _ _ _ _ _ _ _ _ _ _ _ _ _ _)
          isplitl [HS1]; · iexact HS1
          iexact HR
        iexact Hg
      isplitl [Ho]; · iexact Ho
      isplitl [H0]; · iexact H0
      isplitl [H1]; · iexact H1
      isplitl [H2]; · iexact H2
      iexists _; iexact H3
    · by_cases h3 : t.val % 4 = 3
      · by_cases hL : t.val = 15
        · rw [show (dat0 V c).leavesExact 3 t = owns (c : Thread nD τ) (ms0_3 t) fullShare ((dat0 V c).after 3 t) from by
            unfold Dat.leavesExact; rw [liveAt0_3 t (caseE t hL).2.2.2], after0_3]
          rw [outsAt0_E V c t hL]
          unfold atE out0_E_3 sout0_E_0 sout0_E_1; (try dsimp only)
          rw [PhiS0_castSucc V c t, PhiS0_pos V c _ _ hz]
          iintro ⟨⟨⟨HS0, HS1, HR⟩, Hg⟩, Ho, ⟨%d0, H0⟩, ⟨%d1, H1⟩, ⟨%d2, H2⟩, ⟨%d3, H3⟩⟩
          iapply ((kernelRun0_E c (grid0.coords t) _ _ _ _ _ _ _ _ _ _ _ _ (caseE t hL).1 (caseE t hL).2.1 (caseE t hL).2.2.1 (caseE t hL).2.2.2 (iblk0 V c 0 t) (iblk0 V c 1 t) (iblk0 V c 2 t) _ _).2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          iintro ⟨H0, H1, H2, ⟨%e3, H3⟩, ⟨%es0, HS0⟩, ⟨%es1, HS1⟩⟩
          isplitl [HS0 HS1 HR Hg]
          · isplitr [Hg]
            · isplitl [HS0]
              · unfold owns; iexists _; isplitr
                swap; · iexact HS0
                ipureintro; exact View.read_writes_of_cover _ _ _ _ _ (scover0_E_0 c _ _ _ _ _ _ _ _ _ _ _ _ _ _ _ _ _ _ _ _ _ _)
              isplitl [HS1]
              · unfold owns; iexists _; isplitr
                swap; · iexact HS1
                ipureintro; exact View.read_writes_of_cover _ _ _ _ _ (scover0_E_1 c _ _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_E_3 c _ _ _ _ _ _ _ _ _ _ _ _ _ _ _ _ _ _ _ _ _ _)
        · rw [Dat.leavesExact_idle (dat0 V c) 3 t (idleAt0_3 t (caseC t h3 hL).2.2.2) (noFlush0_3 t (caseC t h3 hL).2.2.2)]
          rw [outsAt0_C V c t h3 hL]
          unfold atC sout0_C_0 sout0_C_1; (try dsimp only)
          rw [PhiS0_castSucc V c t, PhiS0_pos V c _ _ hz]
          iintro ⟨⟨⟨HS0, HS1, HR⟩, Hg⟩, Ho, ⟨%d0, H0⟩, ⟨%d1, H1⟩, ⟨%d2, H2⟩, ⟨%d3, H3⟩⟩
          iapply ((kernelRun0_C c (grid0.coords t) _ _ _ _ _ _ _ _ _ _ _ _ (caseC t h3 hL).1 (caseC t h3 hL).2.1 (caseC t h3 hL).2.2.1 (caseC t h3 hL).2.2.2 (iblk0 V c 0 t) (iblk0 V c 1 t) (iblk0 V c 2 t) _ _).2.2.2 _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, ⟨%es0, HS0⟩, ⟨%es1, HS1⟩⟩
          isplitl [HS0 HS1 HR Hg]
          · isplitr [Hg]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _)
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          iexists _; iexact H3
      · rw [Dat.leavesExact_idle (dat0 V c) 3 t (idleAt0_3 t (caseB t h0 h3).2.2.2) (noFlush0_3 t (caseB t h0 h3).2.2.2)]
        rw [outsAt0_B V c t h0 h3]
        unfold atB sout0_B_0; (try dsimp only)
        rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩⟩
        iapply ((kernelRun0_B c (grid0.coords t) _ _ _ _ _ _ _ _ _ _ _ _ (caseB t h0 h3).1 (caseB t h0 h3).2.1 (caseB t h0 h3).2.2.1 (caseB t h0 h3).2.2.2 (iblk0 V c 0 t) (iblk0 V c 1 t) (iblk0 V c 2 t) _).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, HS1⟩
        isplitl [HS0 HS1 HR Hg]
        · isplitr [Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _)
            isplitl [HS1]; · iexact HS1
            iexact HR
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives back what the launch handed over: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitr [Hg]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Region

end Cert.Kernel.R0

end
-- ==== Proof.Bits.R1Conds.lean ====
/-
  The second kernel region (the Laplacian total, grid 4 × 4 × 4, point t = 16·i + 4·j + k), body side: what every
  later module of the region is stated over.

  * each window's block at a point, read off the window's array as the region finds it (a parameter `V`: the
    TensorCore's buffer contents when the region is entered);
  * an input window's staging buffer holds its block at every point, fetched there or not;
  * the four conditions of the body in closed form over the point number: the first point (t = 0), the first step
    of a contraction (t % 4 = 0), its last step (t % 4 = 3), the last point (t = 63);
  * where the output window is idle and where it is written back;
  * the staging memrefs at a point, the two scratch accumulators as memrefs, and the region's resting invariant
    with the two accumulators split off from the other scoped buffers.
-/
import proofs.«169932_j86088324481669_1_alg».proof.Proof.Gen.Kernel.Launch
import proofs.«169932_j86088324481669_1_alg».proof.Proof.Gen.Kernel.Skeleton
import proofs.«169932_j86088324481669_1_alg».proof.Proof.Gen.Kernel.Points
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions -/

/-- The first conditional's condition (all three coordinates zero), from the grid coordinates. -/
abbrev cond1_0 (i : grid1.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional's condition (the contraction coordinate is zero). -/
abbrev cond1_1 (i : grid1.Coords) : Prop :=
  (Scalar.cmpi .ne (Scalar.extui (Scalar.cmpi .eq (BitVec.ofNat 32 (i 2).val) 0#32)) 0#32) = 1#1
/-- It holds at the points ≡ 0 (mod 4). -/
theorem hcond1_1 : ∀ t : Fin cfg1.N, cond1_1 (grid1.coords t) ↔ t.val % 4 = 0 :=
  (by decide +kernel : ∀ t : Fin grid1.N, cond1_1 (grid1.coords t) ↔ t.val % 4 = 0)

/-- The third conditional's condition (the contraction coordinate is three). -/
abbrev cond1_2 (i : grid1.Coords) : Prop :=
  (Scalar.cmpi .ne (Scalar.extui (Scalar.cmpi .eq (BitVec.ofNat 32 (i 2).val) 3#32)) 0#32) = 1#1
/-- It holds at the points ≡ 3 (mod 4). -/
theorem hcond1_2 : ∀ t : Fin cfg1.N, cond1_2 (grid1.coords t) ↔ t.val % 4 = 3 :=
  (by decide +kernel : ∀ t : Fin grid1.N, cond1_2 (grid1.coords t) ↔ t.val % 4 = 3)

/-- The fourth conditional's condition (all three coordinates three). -/
abbrev cond1_3 (i : grid1.Coords) : Prop := k1_cond4 i = 1#1
/-- It holds at the last point only. -/
theorem hcond1_3 : ∀ t : Fin cfg1.N, cond1_3 (grid1.coords t) ↔ t.val = 63 :=
  (by decide +kernel : ∀ t : Fin grid1.N, cond1_3 (grid1.coords t) ↔ t.val = 63)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the last point the output window is idle: nothing is stored into it there, -/
theorem idleAt1_4 : ∀ t : Fin cfg1.N, ¬cond1_3 (grid1.coords t) → cfg1.idle 4 (grid1.coords t) = true := by decide +kernel
/-- and its block is not written back there. -/
theorem noFlush1_4 : ∀ t : Fin cfg1.N, ¬cond1_3 (grid1.coords t) → (cfg1.win 4).flush t = false := by decide +kernel
/-- At the last point it is live. -/
theorem liveAt1_4 : ∀ t : Fin cfg1.N, cond1_3 (grid1.coords t) → cfg1.idle 4 (grid1.coords t) = false := by decide +kernel

/-! ## The memrefs the body is called with -/

/-- One staging buffer of the output window, through which its contents are stated. -/
abbrev VO1_4 : View sig .tc .vmem S1x1 .f32 := (Memref.whole cc1_stg4_0 : Memref sig .tc .vmem S1x1 .f32).view
/-- Each window's current staging memref at point `t`, spelled as the pipeline passes it, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The scratch operands: the matrix accumulator and the running total, whole scoped buffers of the kernel's own. -/
abbrev scM1_0 : Memref sig .tc .vmem S1024x1024 .f32 := Memref.whole cc1_scratch0
abbrev scM1_1 : Memref sig .tc .vmem S1x1 .f32 := Memref.whole cc1_scratch1
/-- The same as views: what each holds is stated through them. -/
abbrev VS1_0 : View sig .tc .vmem S1024x1024 .f32 := scM1_0.view
abbrev VS1_1 : View sig .tc .vmem S1x1 .f32 := scM1_1.view

/-! ## The resting invariant -/

/-- The scoped buffers of the core that belong to the other kernel (its staging and scratch buffers), each whole at
    some contents: this region never touches them. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The region's resting invariant with this kernel's two accumulators as memrefs owned at some contents, beside
    the other kernel's buffers and the generator register. -/
theorem PhiA1_eq (c : Dev nD) :
    (Pipeline.ΦA spec1 c : sProp 𝕄)
      = iprop(iprop(other1 (F := F) c ∗ (∃ d, owns (c : Thread nD τ) scM1_0 fullShare d) ∗ (∃ d, owns (c : Thread nD τ) scM1_1 fullShare d)) ∗ (∃ r, prngReg c r)) := by
  have h₁ : (Pipeline.ΦA spec1 c : sProp 𝕄) ⊢ iprop(iprop(other1 (F := F) c ∗ (∃ d, owns (c : Thread nD τ) scM1_0 fullShare d) ∗ (∃ d, owns (c : Thread nD τ) scM1_1 fullShare d)) ∗ (∃ r, prngReg c r)) := by
    unfold Pipeline.ΦA; rw [scopedRest1_eq]; unfold other1; simp only [scM1_0, scM1_1, owns_whole]
    iintro ⟨⟨R0, R1, R2, R3, R4, R5, R6, R7, R8, S0, S1⟩, Hg⟩
    isplitr [Hg]
    · isplitr [S0 S1]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iexact R8
      isplitl [S0]; · iexact S0
      iexact S1
    iexact Hg
  have h₂ : iprop(iprop(other1 (F := F) c ∗ (∃ d, owns (c : Thread nD τ) scM1_0 fullShare d) ∗ (∃ d, owns (c : Thread nD τ) scM1_1 fullShare d)) ∗ (∃ r, prngReg c r)) ⊢ (Pipeline.ΦA spec1 c : sProp 𝕄) := by
    unfold Pipeline.ΦA; rw [scopedRest1_eq]; unfold other1; simp only [scM1_0, scM1_1, owns_whole]
    iintro ⟨⟨⟨R0, R1, R2, R3, R4, R5, R6, R7, R8⟩, S0, S1⟩, Hg⟩
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [S0]; · iexact S0
      iexact S1
    iexact Hg
  exact BI.equiv_iff.mp ⟨h₁, h₂⟩

end Cert.Kernel.R1

end
-- ==== Proof.Bits.R1RunA.lean ====
/-
  The second kernel's body run whole in case A of its conditionals — the first point: both accumulators are cleared, then the matrix accumulator gains the point's product.
  The triple is stated on any whole memrefs: the input buffers at given contents are handed back as they were, the output's buffer, into which nothing is stored, likewise, and each accumulator
  the body stores into ends with the pieces written over what it held; the pieces are found by running the body.
-/
import proofs.«169932_j86088324481669_1_alg».proof.Proof.Bits.R1Conds

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A: the first point: both accumulators are cleared, then the matrix accumulator gains the point's product. The pieces each stored buffer ends with (last store first), with the proof that the
    body runs to the continuation holding them. -/
noncomputable def kernelRun1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) :
    Σ' (LS0 : List (View.Piece (Elt F) S1024x1024 .f32)), { LS1 : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__lap_kernel i arg3 harg3 arg4 harg4 arg5 harg5 arg6 harg6 arg7 harg7 arg8 harg8 arg9 harg9) K } := by
  refine ⟨?_, ?_, fun xi4 E K => ?run⟩
  case run =>
    simp only [cc1__lap_kernel_eq_skeleton]; unfold cc1__lap_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.Kernel.R1

end
-- ==== Proof.Bits.R1RunB.lean ====
/-
  The second kernel's body run whole in case B of its conditionals — a middle step of a contraction: the matrix accumulator gains the point's product, the running total is not touched.
  The triple is stated on any whole memrefs: the input buffers at given contents are handed back as they were, the output's buffer, into which nothing is stored, likewise, and each accumulator
  the body stores into ends with the pieces written over what it held; the pieces are found by running the body.
-/
import proofs.«169932_j86088324481669_1_alg».proof.Proof.Bits.R1RunA

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B: a middle step of a contraction: the matrix accumulator gains the point's product, the running total is not touched. The pieces each stored buffer ends with (last store first), with the proof that the
    body runs to the continuation holding them. -/
noncomputable def kernelRun1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : ¬cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) :
    { LS0 : List (View.Piece (Elt F) S1024x1024 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ owns (c : Thread nD τ) arg9 fullShare xs1) -∗ K ⟨⟩))
          ⊢ wp frame (wpE (defs₀ (F := F)) Variants.none c none) E (cc1__lap_kernel i arg3 harg3 arg4 harg4 arg5 harg5 arg6 harg6 arg7 harg7 arg8 harg8 arg9 harg9) K } := by
  refine ⟨?_, fun xi4 E K => ?run⟩
  case run =>
    simp only [cc1__lap_kernel_eq_skeleton]; unfold cc1__lap_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; isplitr; · ipureintro; exact harg9.read_unread _
    iexact HS1

end Cert.Kernel.R1

end
-- ==== Proof.Bits.R1RunC.lean ====
/-
  The second kernel's body run whole in case C of its conditionals — the last step of a contraction, not the last point: the matrix accumulator gains the point's product and the running total gains the tile's sum.
  The triple is stated on any whole memrefs: the input buffers at given contents are handed back as they were, the output's buffer, into which nothing is stored, likewise, and each accumulator
  the body stores into ends with the pieces written over what it held; the pieces are found by running the body.
-/
import proofs.«169932_j86088324481669_1_alg».proof.Proof.Bits.R1RunB

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C: the last step of a contraction, not the last point: the matrix accumulator gains the point's product and the running total gains the tile's sum. The pieces each stored buffer ends with (last store first), with the proof that the
    body runs to the continuation holding them. -/
noncomputable def kernelRun1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) :
    Σ' (LS0 : List (View.Piece (Elt F) S1024x1024 .f32)), { LS1 : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__lap_kernel i arg3 harg3 arg4 harg4 arg5 harg5 arg6 harg6 arg7 harg7 arg8 harg8 arg9 harg9) K } := by
  refine ⟨?_, ?_, fun xi4 E K => ?run⟩
  case run =>
    simp only [cc1__lap_kernel_eq_skeleton]; unfold cc1__lap_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.Kernel.R1

end
-- ==== Proof.Bits.R1RunD.lean ====
/-
  The second kernel's body run whole in case D of its conditionals — the first step of a contraction, not the first point: the matrix accumulator is cleared and gains the point's product, the running total is not touched.
  The triple is stated on any whole memrefs: the input buffers at given contents are handed back as they were, the output's buffer, into which nothing is stored, likewise, and each accumulator
  the body stores into ends with the pieces written over what it held; the pieces are found by running the body.
-/
import proofs.«169932_j86088324481669_1_alg».proof.Proof.Bits.R1RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case D: the first step of a contraction, not the first point: the matrix accumulator is cleared and gains the point's product, the running total is not touched. The pieces each stored buffer ends with (last store first), with the proof that the
    body runs to the continuation holding them. -/
noncomputable def kernelRun1_D (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) :
    { LS0 : List (View.Piece (Elt F) S1024x1024 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ owns (c : Thread nD τ) arg9 fullShare xs1) -∗ K ⟨⟩))
          ⊢ wp frame (wpE (defs₀ (F := F)) Variants.none c none) E (cc1__lap_kernel i arg3 harg3 arg4 harg4 arg5 harg5 arg6 harg6 arg7 harg7 arg8 harg8 arg9 harg9) K } := by
  refine ⟨?_, fun xi4 E K => ?run⟩
  case run =>
    simp only [cc1__lap_kernel_eq_skeleton]; unfold cc1__lap_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; isplitr; · ipureintro; exact harg9.read_unread _
    iexact HS1

end Cert.Kernel.R1

end
-- ==== Proof.Bits.R1RunE.lean ====
/-
  The second kernel's body run whole in case E of its conditionals — the last point: as at the last step of a contraction, and then the output is stored from the running total.
  The triple is stated on any whole memrefs: the input buffers at given contents are handed back as they were, the output's buffer, at anything before, ends with the pieces stored into it, and each accumulator
  the body stores into ends with the pieces written over what it held; the pieces are found by running the body.
-/
import proofs.«169932_j86088324481669_1_alg».proof.Proof.Bits.R1RunD

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case E: the last point: as at the last step of a contraction, and then the output is stored from the running total. The pieces each stored buffer ends with (last store first), with the proof that the
    body runs to the continuation holding them. -/
noncomputable def kernelRun1_E (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) :
    Σ' (L4 : List (View.Piece (Elt F) S1x1 .f32)) (LS0 : List (View.Piece (Elt F) S1024x1024 .f32)), { LS1 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__lap_kernel i arg3 harg3 arg4 harg4 arg5 harg5 arg6 harg6 arg7 harg7 arg8 harg8 arg9 harg9) K } := by
  refine ⟨?_, ?_, ?_, fun E K => ?run⟩
  case run =>
    simp only [cc1__lap_kernel_eq_skeleton]; unfold cc1__lap_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg8.eq_unread hfs0; obtain rfl := harg9.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    iexists _; iexact HS1

end Cert.Kernel.R1

end
-- ==== Proof.Bits.R1Body.lean ====
/-
  The second kernel region, body side: from the pieces each case's run leaves to the contents of the two
  accumulators and of the output's staging buffer after every grid point, the proof data of the region's pipeline
  at the region-entry contents `V`, and the body obligation.

  After point n the matrix accumulator and the running total hold what the case of point n makes of the point's input
  blocks and of what point n − 1 left (nothing, at the first point): the accumulation `outsAt1`.  The region's
  invariant before a point other than the first names these contents; before the first point, and once the region
  is left, it is the resting invariant with the accumulators at some contents.  The two windows that read the one
  shared array hold complementary shares of it.
-/
import proofs.«169932_j86088324481669_1_alg».proof.Proof.Bits.R1RunE

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions at a point, from the closed forms -/

theorem c0 (n : ℕ) (hn : n < cfg1.N) (h : n = 0) : cond1_0 (grid1.coords ⟨n, hn⟩) := (hcond1_0 ⟨n, hn⟩).mpr h
theorem nc0 (n : ℕ) (hn : n < cfg1.N) (h : ¬n = 0) : ¬cond1_0 (grid1.coords ⟨n, hn⟩) := fun hc => h ((hcond1_0 ⟨n, hn⟩).mp hc)
theorem c1 (n : ℕ) (hn : n < cfg1.N) (h : n % 4 = 0) : cond1_1 (grid1.coords ⟨n, hn⟩) := (hcond1_1 ⟨n, hn⟩).mpr h
theorem nc1 (n : ℕ) (hn : n < cfg1.N) (h : ¬n % 4 = 0) : ¬cond1_1 (grid1.coords ⟨n, hn⟩) := fun hc => h ((hcond1_1 ⟨n, hn⟩).mp hc)
theorem c2 (n : ℕ) (hn : n < cfg1.N) (h : n % 4 = 3) : cond1_2 (grid1.coords ⟨n, hn⟩) := (hcond1_2 ⟨n, hn⟩).mpr h
theorem nc2 (n : ℕ) (hn : n < cfg1.N) (h : ¬n % 4 = 3) : ¬cond1_2 (grid1.coords ⟨n, hn⟩) := fun hc => h ((hcond1_2 ⟨n, hn⟩).mp hc)
theorem c3 (n : ℕ) (hn : n < cfg1.N) (h : n = 63) : cond1_3 (grid1.coords ⟨n, hn⟩) := (hcond1_3 ⟨n, hn⟩).mpr h
theorem nc3 (n : ℕ) (hn : n < cfg1.N) (h : ¬n = 63) : ¬cond1_3 (grid1.coords ⟨n, hn⟩) := fun hc => h ((hcond1_3 ⟨n, hn⟩).mp hc)

/-! ## From pieces to contents, case by case -/

/-- Case A's pieces for the matrix accumulator cover it. -/
theorem scover1_A_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) (y : S1024x1024.Idx) :
    ∃ pc ∈ (kernelRun1_A c i arg3 harg3 arg4 harg4 arg5 harg5 arg6 harg6 arg7 harg7 arg8 harg8 arg9 harg9 hc0 hc1 hc2 hc3 x0 x1 x2 x3).1, y ∈ pc.1.set :=
  View.cover_of_tiledL (kernelRun1_A c i arg3 harg3 arg4 harg4 arg5 harg5 arg6 harg6 arg7 harg7 arg8 harg8 arg9 harg9 hc0 hc1 hc2 hc3 x0 x1 x2 x3).1 S1024x1024.size (by sl_kernel_rfl) y

/-- What case A leaves in the matrix accumulator: its pieces read back. -/
def sout1_A_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) : Vec F S1024x1024 .f32 :=
  VS1_0.read (Elt F) (VS1_0.writes (Elt F) VS1_0.junk (kernelRun1_A c i arg3 harg3 arg4 harg4 arg5 harg5 arg6 harg6 arg7 harg7 arg8 harg8 arg9 harg9 hc0 hc1 hc2 hc3 x0 x1 x2 x3).1)

/-- Case A's pieces for the running total cover it. -/
theorem scover1_A_1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) (y : S1x1.Idx) :
    ∃ pc ∈ (kernelRun1_A c i arg3 harg3 arg4 harg4 arg5 harg5 arg6 harg6 arg7 harg7 arg8 harg8 arg9 harg9 hc0 hc1 hc2 hc3 x0 x1 x2 x3).2.1, y ∈ pc.1.set :=
  View.cover_of_tiledL (kernelRun1_A c i arg3 harg3 arg4 harg4 arg5 harg5 arg6 harg6 arg7 harg7 arg8 harg8 arg9 harg9 hc0 hc1 hc2 hc3 x0 x1 x2 x3).2.1 S1x1.size (by sl_kernel_rfl) y

/-- What case A leaves in the running total: its pieces read back. -/
def sout1_A_1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) : Vec F S1x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 hc3 x0 x1 x2 x3).2.1)

/-- Case B's pieces for the matrix accumulator cover it. -/
theorem scover1_B_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : ¬cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) (y : S1024x1024.Idx) :
    ∃ pc ∈ (kernelRun1_B c i arg3 harg3 arg4 harg4 arg5 harg5 arg6 harg6 arg7 harg7 arg8 harg8 arg9 harg9 hc0 hc1 hc2 hc3 x0 x1 x2 x3 xs0 xs1).1, y ∈ pc.1.set :=
  View.cover_of_tiledL (kernelRun1_B c i arg3 harg3 arg4 harg4 arg5 harg5 arg6 harg6 arg7 harg7 arg8 harg8 arg9 harg9 hc0 hc1 hc2 hc3 x0 x1 x2 x3 xs0 xs1).1 S1024x1024.size (by sl_kernel_rfl) y

/-- What case B leaves in the matrix accumulator: its pieces read back. -/
def sout1_B_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : ¬cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) : Vec F S1024x1024 .f32 :=
  VS1_0.read (Elt F) (VS1_0.writes (Elt F) VS1_0.junk (kernelRun1_B c i arg3 harg3 arg4 harg4 arg5 harg5 arg6 harg6 arg7 harg7 arg8 harg8 arg9 harg9 hc0 hc1 hc2 hc3 x0 x1 x2 x3 xs0 xs1).1)

/-- Case C's pieces for the matrix accumulator cover it. -/
theorem scover1_C_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) (y : S1024x1024.Idx) :
    ∃ pc ∈ (kernelRun1_C c i arg3 harg3 arg4 harg4 arg5 harg5 arg6 harg6 arg7 harg7 arg8 harg8 arg9 harg9 hc0 hc1 hc2 hc3 x0 x1 x2 x3 xs0 xs1).1, y ∈ pc.1.set :=
  View.cover_of_tiledL (kernelRun1_C c i arg3 harg3 arg4 harg4 arg5 harg5 arg6 harg6 arg7 harg7 arg8 harg8 arg9 harg9 hc0 hc1 hc2 hc3 x0 x1 x2 x3 xs0 xs1).1 S1024x1024.size (by sl_kernel_rfl) y

/-- What case C leaves in the matrix accumulator: its pieces read back. -/
def sout1_C_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) : Vec F S1024x1024 .f32 :=
  VS1_0.read (Elt F) (VS1_0.writes (Elt F) VS1_0.junk (kernelRun1_C c i arg3 harg3 arg4 harg4 arg5 harg5 arg6 harg6 arg7 harg7 arg8 harg8 arg9 harg9 hc0 hc1 hc2 hc3 x0 x1 x2 x3 xs0 xs1).1)

/-- Case C's pieces for the running total cover it. -/
theorem scover1_C_1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) (y : S1x1.Idx) :
    ∃ pc ∈ (kernelRun1_C c i arg3 harg3 arg4 harg4 arg5 harg5 arg6 harg6 arg7 harg7 arg8 harg8 arg9 harg9 hc0 hc1 hc2 hc3 x0 x1 x2 x3 xs0 xs1).2.1, y ∈ pc.1.set :=
  View.cover_of_tiledL (kernelRun1_C c i arg3 harg3 arg4 harg4 arg5 harg5 arg6 harg6 arg7 harg7 arg8 harg8 arg9 harg9 hc0 hc1 hc2 hc3 x0 x1 x2 x3 xs0 xs1).2.1 S1x1.size (by sl_kernel_rfl) y

/-- What case C leaves in the running total: its pieces read back. -/
def sout1_C_1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) : Vec F S1x1 .f32 :=
  VS1_1.read (Elt F) (VS1_1.writes (Elt F) VS1_1.junk (kernelRun1_C c i arg3 harg3 arg4 harg4 arg5 harg5 arg6 harg6 arg7 harg7 arg8 harg8 arg9 harg9 hc0 hc1 hc2 hc3 x0 x1 x2 x3 xs0 xs1).2.1)

/-- Case D's pieces for the matrix accumulator cover it. -/
theorem scover1_D_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) (y : S1024x1024.Idx) :
    ∃ pc ∈ (kernelRun1_D c i arg3 harg3 arg4 harg4 arg5 harg5 arg6 harg6 arg7 harg7 arg8 harg8 arg9 harg9 hc0 hc1 hc2 hc3 x0 x1 x2 x3 xs0 xs1).1, y ∈ pc.1.set :=
  View.cover_of_tiledL (kernelRun1_D c i arg3 harg3 arg4 harg4 arg5 harg5 arg6 harg6 arg7 harg7 arg8 harg8 arg9 harg9 hc0 hc1 hc2 hc3 x0 x1 x2 x3 xs0 xs1).1 S1024x1024.size (by sl_kernel_rfl) y

/-- What case D leaves in the matrix accumulator: its pieces read back. -/
def sout1_D_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : cond1_1 i) (hc2 : ¬cond1_2 i) (hc3 : ¬cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) : Vec F S1024x1024 .f32 :=
  VS1_0.read (Elt F) (VS1_0.writes (Elt F) VS1_0.junk (kernelRun1_D c i arg3 harg3 arg4 harg4 arg5 harg5 arg6 harg6 arg7 harg7 arg8 harg8 arg9 harg9 hc0 hc1 hc2 hc3 x0 x1 x2 x3 xs0 xs1).1)

/-- Case E's pieces for the matrix accumulator cover it. -/
theorem scover1_E_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) (y : S1024x1024.Idx) :
    ∃ pc ∈ (kernelRun1_E c i arg3 harg3 arg4 harg4 arg5 harg5 arg6 harg6 arg7 harg7 arg8 harg8 arg9 harg9 hc0 hc1 hc2 hc3 x0 x1 x2 x3 xs0 xs1).2.1, y ∈ pc.1.set :=
  View.cover_of_tiledL (kernelRun1_E c i arg3 harg3 arg4 harg4 arg5 harg5 arg6 harg6 arg7 harg7 arg8 harg8 arg9 harg9 hc0 hc1 hc2 hc3 x0 x1 x2 x3 xs0 xs1).2.1 S1024x1024.size (by sl_kernel_rfl) y

/-- What case E leaves in the matrix accumulator: its pieces read back. -/
def sout1_E_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) : Vec F S1024x1024 .f32 :=
  VS1_0.read (Elt F) (VS1_0.writes (Elt F) VS1_0.junk (kernelRun1_E c i arg3 harg3 arg4 harg4 arg5 harg5 arg6 harg6 arg7 harg7 arg8 harg8 arg9 harg9 hc0 hc1 hc2 hc3 x0 x1 x2 x3 xs0 xs1).2.1)

/-- Case E's pieces for the running total cover it. -/
theorem scover1_E_1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) (y : S1x1.Idx) :
    ∃ pc ∈ (kernelRun1_E c i arg3 harg3 arg4 harg4 arg5 harg5 arg6 harg6 arg7 harg7 arg8 harg8 arg9 harg9 hc0 hc1 hc2 hc3 x0 x1 x2 x3 xs0 xs1).2.2.1, y ∈ pc.1.set :=
  View.cover_of_tiledL (kernelRun1_E c i arg3 harg3 arg4 harg4 arg5 harg5 arg6 harg6 arg7 harg7 arg8 harg8 arg9 harg9 hc0 hc1 hc2 hc3 x0 x1 x2 x3 xs0 xs1).2.2.1 S1x1.size (by sl_kernel_rfl) y

/-- What case E leaves in the running total: its pieces read back. -/
def sout1_E_1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) : Vec F S1x1 .f32 :=
  VS1_1.read (Elt F) (VS1_1.writes (Elt F) VS1_1.junk (kernelRun1_E c i arg3 harg3 arg4 harg4 arg5 harg5 arg6 harg6 arg7 harg7 arg8 harg8 arg9 harg9 hc0 hc1 hc2 hc3 x0 x1 x2 x3 xs0 xs1).2.2.1)

/-- Case E's pieces for the output's block cover it. -/
theorem cover1_E_4 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) (y : S1x1.Idx) :
    ∃ pc ∈ (kernelRun1_E c i arg3 harg3 arg4 harg4 arg5 harg5 arg6 harg6 arg7 harg7 arg8 harg8 arg9 harg9 hc0 hc1 hc2 hc3 x0 x1 x2 x3 xs0 xs1).1, y ∈ pc.1.set :=
  View.cover_of_tiledL (kernelRun1_E c i arg3 harg3 arg4 harg4 arg5 harg5 arg6 harg6 arg7 harg7 arg8 harg8 arg9 harg9 hc0 hc1 hc2 hc3 x0 x1 x2 x3 xs0 xs1).1 S1x1.size (by sl_kernel_rfl) y

/-- What case E leaves in the output's staging buffer: its pieces read back. -/
def out1_E_4 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1x1 .f32) (harg9 : arg9.IsWhole) (hc0 : ¬cond1_0 i) (hc1 : ¬cond1_1 i) (hc2 : cond1_2 i) (hc3 : cond1_3 i)
    (x0 : Vec F S1024x1024 .f32) (x1 : Vec F S1024x1024 .f32) (x2 : Vec F S1024x1024 .f32) (x3 : Vec F S1024x1 .f32) (xs0 : Vec F S1024x1024 .f32) (xs1 : Vec F S1x1 .f32) : Vec F S1x1 .f32 :=
  VO1_4.read (Elt F) (VO1_4.writes (Elt F) VO1_4.junk (kernelRun1_E c i arg3 harg3 arg4 harg4 arg5 harg5 arg6 harg6 arg7 harg7 arg8 harg8 arg9 harg9 hc0 hc1 hc2 hc3 x0 x1 x2 x3 xs0 xs1).1)

section
variable (V : (c : Dev nD) → (b : Ref sig .tc) → Buf (Elt F) ((c : Thread nD τ).loc b))

/-! ## What the accumulators and the output's buffer hold after each point -/

/-- THE ACCUMULATION. After the body at point `n`: the output's staging buffer, the matrix accumulator, the running
    total.  The case the closed forms select at `n` is run at the point's memrefs and input blocks, over what point
    `n - 1` left in the two accumulators; a case that does not store into the running total leaves it as it was.  The
    output's component is read only at the last point (elsewhere the window is idle and a placeholder stands there). -/
def outsAt1 (c : Dev nD) : (n : ℕ) → n < cfg1.N → Vec F S1x1 .f32 × Vec F S1024x1024 .f32 × Vec F S1x1 .f32
  | 0, hn => ((VO1_4.read (Elt F) VO1_4.junk), (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) (c0 0 hn rfl) (c1 0 hn rfl) (nc2 0 hn (by decide)) (nc3 0 hn (by decide)) (iblk1 V c 0 ⟨0, hn⟩) (iblk1 V c 1 ⟨0, hn⟩) (iblk1 V c 2 ⟨0, hn⟩) (iblk1 V c 3 ⟨0, hn⟩)), (sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) (c0 0 hn rfl) (c1 0 hn rfl) (nc2 0 hn (by decide)) (nc3 0 hn (by decide)) (iblk1 V c 0 ⟨0, hn⟩) (iblk1 V c 1 ⟨0, hn⟩) (iblk1 V c 2 ⟨0, hn⟩) (iblk1 V c 3 ⟨0, hn⟩)))
  | n + 1, hn =>
    if h1 : (n + 1) % 4 = 0 then
      ((VO1_4.read (Elt F) VO1_4.junk), (sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (nc0 (n + 1) hn (Nat.succ_ne_zero n)) (c1 (n + 1) hn h1) (nc2 (n + 1) hn (by omega)) (nc3 (n + 1) hn (by omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2), (outsAt1 c n (Nat.lt_of_succ_lt hn)).2.2)
    else
      if h2 : (n + 1) % 4 = 3 then
        if h3 : n + 1 = 63 then
          ((out1_E_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (nc0 (n + 1) hn (Nat.succ_ne_zero n)) (nc1 (n + 1) hn h1) (c2 (n + 1) hn h2) (c3 (n + 1) hn h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2), (sout1_E_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (nc0 (n + 1) hn (Nat.succ_ne_zero n)) (nc1 (n + 1) hn h1) (c2 (n + 1) hn h2) (c3 (n + 1) hn h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2), (sout1_E_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (nc0 (n + 1) hn (Nat.succ_ne_zero n)) (nc1 (n + 1) hn h1) (c2 (n + 1) hn h2) (c3 (n + 1) hn h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2))
        else
          ((VO1_4.read (Elt F) VO1_4.junk), (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (nc0 (n + 1) hn (Nat.succ_ne_zero n)) (nc1 (n + 1) hn h1) (c2 (n + 1) hn h2) (nc3 (n + 1) hn h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2), (sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (nc0 (n + 1) hn (Nat.succ_ne_zero n)) (nc1 (n + 1) hn h1) (c2 (n + 1) hn h2) (nc3 (n + 1) hn h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2))
      else
        ((VO1_4.read (Elt F) VO1_4.junk), (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (nc0 (n + 1) hn (Nat.succ_ne_zero n)) (nc1 (n + 1) hn h1) (nc2 (n + 1) hn h2) (nc3 (n + 1) hn (by omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2), (outsAt1 c n (Nat.lt_of_succ_lt hn)).2.2)

/-- `outsAt1` at the first point: that case's contents. -/
theorem outsAt1_A (c : Dev nD) (t : Fin cfg1.N) (h0 : t.val = 0) :
    outsAt1 V c t.val t.isLt = ((VO1_4.read (Elt F) VO1_4.junk), (sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (c0 t.val t.isLt h0) (c1 t.val t.isLt (by omega)) (nc2 t.val t.isLt (by omega)) (nc3 t.val t.isLt (by omega)) (iblk1 V c 0 t) (iblk1 V c 1 t) (iblk1 V c 2 t) (iblk1 V c 3 t)), (sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (c0 t.val t.isLt h0) (c1 t.val t.isLt (by omega)) (nc2 t.val t.isLt (by omega)) (nc3 t.val t.isLt (by omega)) (iblk1 V c 0 t) (iblk1 V c 1 t) (iblk1 V c 2 t) (iblk1 V c 3 t))) := by
  obtain ⟨n, hn⟩ := t
  cases n with
  | zero => rfl
  | succ n => exact absurd h0 (Nat.succ_ne_zero n)

/-- `outsAt1` at a middle step of a contraction: that case's contents, over what the point before left. -/
theorem outsAt1_B (c : Dev nD) (t : Fin cfg1.N) (h1 : ¬t.val % 4 = 0) (h2 : ¬t.val % 4 = 3) :
    outsAt1 V c t.val t.isLt = ((VO1_4.read (Elt F) VO1_4.junk), (sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (nc0 t.val t.isLt (by omega)) (nc1 t.val t.isLt h1) (nc2 t.val t.isLt h2) (nc3 t.val t.isLt (by omega)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2), (outsAt1 V c (t.val - 1) (Nat.lt_of_le_of_lt (Nat.sub_le _ _) t.isLt)).2.2) := by
  obtain ⟨n, hn⟩ := t
  cases n with
  | zero => exact absurd (Nat.zero_mod 4) h1
  | succ n => exact (dif_neg h1).trans ((dif_neg h2).trans rfl)

/-- `outsAt1` at the last step of a contraction, not the last point: that case's contents, over what the point before left. -/
theorem outsAt1_C (c : Dev nD) (t : Fin cfg1.N) (h1 : ¬t.val % 4 = 0) (h2 : t.val % 4 = 3) (h3 : ¬t.val = 63) :
    outsAt1 V c t.val t.isLt = ((VO1_4.read (Elt F) VO1_4.junk), (sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (nc0 t.val t.isLt (by omega)) (nc1 t.val t.isLt h1) (c2 t.val t.isLt h2) (nc3 t.val t.isLt h3) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2), (sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (nc0 t.val t.isLt (by omega)) (nc1 t.val t.isLt h1) (c2 t.val t.isLt h2) (nc3 t.val t.isLt h3) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2)) := by
  obtain ⟨n, hn⟩ := t
  cases n with
  | zero => exact absurd (Nat.zero_mod 4) h1
  | succ n => exact (dif_neg h1).trans ((dif_pos h2).trans ((dif_neg h3).trans rfl))

/-- `outsAt1` at the first step of a contraction, not the first point: that case's contents, over what the point before left. -/
theorem outsAt1_D (c : Dev nD) (t : Fin cfg1.N) (h0 : ¬t.val = 0) (h1 : t.val % 4 = 0) :
    outsAt1 V c t.val t.isLt = ((VO1_4.read (Elt F) VO1_4.junk), (sout1_D_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (nc0 t.val t.isLt h0) (c1 t.val t.isLt h1) (nc2 t.val t.isLt (by omega)) (nc3 t.val t.isLt (by omega)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2), (outsAt1 V c (t.val - 1) (Nat.lt_of_le_of_lt (Nat.sub_le _ _) t.isLt)).2.2) := by
  obtain ⟨n, hn⟩ := t
  cases n with
  | zero => exact absurd rfl h0
  | succ n => exact (dif_pos h1).trans rfl

/-- `outsAt1` at the last point: that case's contents, over what the point before left. -/
theorem outsAt1_E (c : Dev nD) (t : Fin cfg1.N) (h1 : ¬t.val % 4 = 0) (h2 : t.val % 4 = 3) (h3 : t.val = 63) :
    outsAt1 V c t.val t.isLt = ((out1_E_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (nc0 t.val t.isLt (by omega)) (nc1 t.val t.isLt h1) (c2 t.val t.isLt h2) (c3 t.val t.isLt h3) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2), (sout1_E_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (nc0 t.val t.isLt (by omega)) (nc1 t.val t.isLt h1) (c2 t.val t.isLt h2) (c3 t.val t.isLt h3) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2), (sout1_E_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (nc0 t.val t.isLt (by omega)) (nc1 t.val t.isLt h1) (c2 t.val t.isLt h2) (c3 t.val t.isLt h3) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2)) := by
  obtain ⟨n, hn⟩ := t
  cases n with
  | zero => exact absurd (Nat.zero_mod 4) h1
  | succ n => exact (dif_neg h1).trans ((dif_pos h2).trans ((dif_pos h3).trans rfl))

/-! ## The region's invariant -/

/-- Before point `n`: at the first point the resting invariant; afterwards the other kernel's buffers, the two
    accumulators at what the point before left in them, and the generator register at some state. -/
def PhiS1 (c : Dev nD) : (n : ℕ) → n ≤ cfg1.N → sProp 𝕄
  | 0, _ => Pipeline.ΦA spec1 c
  | n + 1, hn => iprop(iprop(other1 (F := F) c ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(other1 (F := F) c ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop(other1 (F := F) c ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The pipeline's proof data -/

/-- The proof data of the region's pipeline on core `c`: the arrays as the region finds them; after the body at a
    point each input's buffer at its block and the output's at the accumulation's first component; the invariant
    `PhiS1`; nothing owed; the two windows on the shared array at the two halves of the full share, every other
    window at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

/-- The proof data's arrays are the region-entry contents. -/
theorem A_eq1 (c : Dev nD) (w : Fin cfg1.W) : (dat1 V c).A w = V c (Pipeline.arrRef spec1 w) := by
  dsimp only [dat1]

/-- Nothing is owed at any point. -/
theorem owed1 (c : Dev nD) (t : Fin (cfg1.N + 1)) : (dat1 V c).owed t = 0 := rfl

/-- The shares of the two windows on the shared array, and of the others. -/
theorem q1_0 (c : Dev nD) : (dat1 V c).q 0 = fullShare := rfl
theorem q1_1 (c : Dev nD) : (dat1 V c).q 1 = fullShare.left := rfl
theorem q1_2 (c : Dev nD) : (dat1 V c).q 2 = fullShare.right := rfl
theorem q1_3 (c : Dev nD) : (dat1 V c).q 3 = fullShare := rfl
theorem q1_4 (c : Dev nD) : (dat1 V c).q 4 = fullShare := rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- An input window's array is never written: after the last point it is what the region found. -/
theorem arrAt_in1_0 (c : Dev nD) : (dat1 V c).arrAt 0 cfg1.N = V c (Pipeline.arrRef spec1 0) := ((dat1 V c).arrAt_in 0 rfl _).trans (A_eq1 V c 0)
theorem arrAt_in1_1 (c : Dev nD) : (dat1 V c).arrAt 1 cfg1.N = V c (Pipeline.arrRef spec1 1) := ((dat1 V c).arrAt_in 1 rfl _).trans (A_eq1 V c 1)
theorem arrAt_in1_2 (c : Dev nD) : (dat1 V c).arrAt 2 cfg1.N = V c (Pipeline.arrRef spec1 2) := ((dat1 V c).arrAt_in 2 rfl _).trans (A_eq1 V c 2)
theorem arrAt_in1_3 (c : Dev nD) : (dat1 V c).arrAt 3 cfg1.N = V c (Pipeline.arrRef spec1 3) := ((dat1 V c).arrAt_in 3 rfl _).trans (A_eq1 V c 3)
/-- The same for any input window. -/
theorem arrAt_in1 (c : Dev nD) (w : Fin cfg1.W) (hw : (cfg1.win w).isOut = false) :
    (dat1 V c).arrAt w cfg1.N = V c (Pipeline.arrRef spec1 w) := ((dat1 V c).arrAt_in w hw _).trans (A_eq1 V c w)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in;
    the invariant hands the body the two accumulators at what the point before left (at anything at the first
    point) and takes them back at this point's contents; away from the last point the output's buffer is handed
    back untouched, at the last point it holds the case's pieces; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h1 : t.val % 4 = 0
  · by_cases h0 : t.val = 0
    · -- the first point
      rw [Dat.leavesExact_idle (dat1 V c) 4 t (idleAt1_4 t (nc3 t.val t.isLt (by omega))) (noFlush1_4 t (nc3 t.val t.isLt (by omega)))]
      rw [outsAt1_A V c t h0]
      unfold sout1_A_0 sout1_A_1; (try dsimp only)
      rw [PhiS1_castSucc V c t, PhiS1_zero V c _ _ h0, PhiA1_eq]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ (c0 t.val t.isLt h0) (c1 t.val t.isLt (by omega)) (nc2 t.val t.isLt (by omega)) (nc3 t.val t.isLt (by omega)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1 Hg]
      · isplitr [Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · -- the first step of a contraction, not the first point
      rw [Dat.leavesExact_idle (dat1 V c) 4 t (idleAt1_4 t (nc3 t.val t.isLt (by omega))) (noFlush1_4 t (nc3 t.val t.isLt (by omega)))]
      rw [outsAt1_D V c t h0 h1]
      unfold sout1_D_0; (try dsimp only)
      have hz : t.val ≠ 0 := by omega
      rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_D c (grid1.coords t) _ _ _ _ _ _ _ _ _ _ _ _ _ _ (nc0 t.val t.isLt h0) (c1 t.val t.isLt h1) (nc2 t.val t.isLt (by omega)) (nc3 t.val t.isLt (by omega)) (iblk1 V c 0 t) (iblk1 V c 1 t) (iblk1 V c 2 t) (iblk1 V c 3 t) _ _).2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, HS1⟩
      isplitl [HR HS0 HS1 Hg]
      · isplitr [Hg]
        · isplitl [HR]; · iexact HR
          isplitl [HS0]
          · unfold owns; iexists _; isplitr
            swap; · iexact HS0
            ipureintro; exact View.read_writes_of_cover _ _ _ _ _ (scover1_D_0 c _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      iexists _; iexact H4
  · by_cases h2 : t.val % 4 = 3
    · by_cases h3 : t.val = 63
      · -- the last point
        rw [show (dat1 V c).leavesExact 4 t = owns (c : Thread nD τ) (ms1_4 t) fullShare ((dat1 V c).after 4 t) from by
          unfold Dat.leavesExact; rw [liveAt1_4 t (c3 t.val t.isLt h3)], after1_4]
        rw [outsAt1_E V c t h1 h2 h3]
        unfold sout1_E_0 sout1_E_1 out1_E_4; (try dsimp only)
        have hz : t.val ≠ 0 := by omega
        rw [PhiS1_castSucc V c t, PhiS1_pos V c _ _ hz]
        iintro ⟨⟨⟨HR, HS0, HS1⟩, Hg⟩, Ho, ⟨%d0, H0⟩, ⟨%d1, H1⟩, ⟨%d2, H2⟩, ⟨%d3, H3⟩, ⟨%d4, H4⟩⟩
        iapply ((kernelRun1_E c (grid1.coords t) _ _ _ _ _ _ _ _ _ _ _ _ _ _ (nc0 t.val t.isLt (by omega)) (nc1 t.val t.isLt h1) (c2 t.val t.isLt h2) (c3 t.val t.isLt h3) (iblk1 V c 0 t) (iblk1 V c 1 t) (iblk1 V c 2 t) (iblk1 V c 3 t) _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [HR HS0 HS1 Hg]
        · isplitr [Hg]
          · isplitl [HR]; · iexact HR
            isplitl [HS0]
            · unfold owns; iexists _; isplitr
              swap; · iexact HS0
              ipureintro; exact View.read_writes_of_cover _ _ _ _ _ (scover1_E_0 c _ _ _ _ _ _ _ _ _ _ _ _ _ _ _ _ _ _ _ _ _ _ _ _ _)
            unfold owns; iexists _; isplitr
            swap; · iexact HS1
            ipureintro; exact View.read_writes_of_cover _ _ _ _ _ (scover1_E_1 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_E_4 c _ _ _ _ _ _ _ _ _ _ _ _ _ _ _ _ _ _ _ _ _ _ _ _ _)
      · -- the last step of a contraction, not the last point
        rw [Dat.leavesExact_idle (dat1 V c) 4 t (idleAt1_4 t (nc3 t.val t.isLt h3)) (noFlush1_4 t (nc3 t.val t.isLt h3))]
        rw [outsAt1_C V c t h1 h2 h3]
        unfold sout1_C_0 sout1_C_1; (try dsimp only)
        have hz : t.val ≠ 0 := by omega
        rw [PhiS1_castSucc V c t, PhiS1_pos V c _ _ hz]
        iintro ⟨⟨⟨HR, HS0, HS1⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ (nc0 t.val t.isLt (by omega)) (nc1 t.val t.isLt h1) (c2 t.val t.isLt h2) (nc3 t.val t.isLt h3) (iblk1 V c 0 t) (iblk1 V c 1 t) (iblk1 V c 2 t) (iblk1 V c 3 t) _ _).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HR HS0 HS1 Hg]
        · isplitr [Hg]
          · isplitl [HR]; · iexact HR
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
    · -- a middle step of a contraction
      rw [Dat.leavesExact_idle (dat1 V c) 4 t (idleAt1_4 t (nc3 t.val t.isLt (by omega))) (noFlush1_4 t (nc3 t.val t.isLt (by omega)))]
      rw [outsAt1_B V c t h1 h2]
      unfold sout1_B_0; (try dsimp only)
      have hz : t.val ≠ 0 := by omega
      rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ (nc0 t.val t.isLt (by omega)) (nc1 t.val t.isLt h1) (nc2 t.val t.isLt h2) (nc3 t.val t.isLt (by omega)) (iblk1 V c 0 t) (iblk1 V c 1 t) (iblk1 V c 2 t) (iblk1 V c 3 t) _ _).2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, HS1⟩
      isplitl [HR HS0 HS1 Hg]
      · isplitr [Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the resting invariant back: the accumulators' named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1⟩, Hg⟩
  isplitr [Hg]
  · isplitl [HR]; · iexact HR
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end

end Cert.Kernel.R1

end
-- ==== Proof.Bits.Bodies.lean ====
/-
  The two regions' body sides, as the records the run is stated over: the first kernel's proof data with its two
  windows on the feature matrix at the two halves, the second kernel's with its two windows on the weight matrix at
  the two halves; each with its body obligation and its invariant's entry and exit.
-/
import proofs.«169932_j86088324481669_1_alg».proof.Proof.Gen.Kernel.Launch
import proofs.«169932_j86088324481669_1_alg».proof.Proof.Gen.Kernel.Skeleton
import proofs.«169932_j86088324481669_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169932_j86088324481669_1_alg».proof.Proof.Bits.RunDefs
import proofs.«169932_j86088324481669_1_alg».proof.Proof.Bits.R0Body
import proofs.«169932_j86088324481669_1_alg».proof.Proof.Bits.R1Body
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first kernel's body side. -/
def body0 : Body0 F where
  dat V c := R0.dat0 V c
  hA := R0.A_eq0
  hq0 _ _ := rfl
  hq1 _ _ := rfl
  hq2 _ _ := rfl
  howed := R0.owed0
  hrec _ _ _ := rfl
  hbody := R0.body_obligation0
  hin := R0.hin0
  hout := R0.hout0

/-- The second kernel's body side. -/
def body1 : Body1 F where
  dat V c := R1.dat1 V c
  hA := R1.A_eq1
  hq0 _ _ := rfl
  hq1 _ _ := rfl
  hq2 _ _ := rfl
  hq3 _ _ := rfl
  howed := R1.owed1
  hrec _ _ _ := rfl
  hbody := R1.body_obligation1
  hin := R1.hin1
  hout := R1.hout1

end Cert.Kernel.Run

end
-- ==== Proof.Bits.EndsArgs.lean ====
import proofs.«169932_j86088324481669_1_alg».proof.Proof.Bits.RunDefs

/-
  What no line and no region of @main writes keeps its contents.

  @main is: a first stretch of host lines; the first region, which writes its one-element output array and nothing
  else; a second stretch (a reshape of that output, a constant, a quotient, a reshape of the degree vector); the second
  region, which writes its own one-element output array; a last reshape.  A buffer that is none of the seven buffers
  written after the first stretch holds at the end what it held when the first region was entered; an argument is not
  written by the first stretch either, so it ends at its launch contents.
-/

set_option maxRecDepth 16384

noncomputable section

namespace Cert.Kernel.Ends

open Idealize.ShloMosaic Idealize.ShloMosaic.TcCoe Idealize.SL.Sem
open Cert.Kernel Cert.Kernel.Gen Cert.Kernel.Run

variable {F : FTy → Type} [FloatOps F] (B0 : Body0 F) (B1 : Body1 F)
variable (m : (ℓ : Loc nD τ sig) → Buf (Elt F) ℓ) (ρ : Dev nD → PrngReg)

/-- Closes "no operation of the literal stretch writes the literal reference": the stretch's written buffers one by
    one, each a different reference. -/
macro "stretch_keeps " ops:ident : tactic => `(tactic| (
  refine List.forall_iff_forall_mem.mp ?_
  simp only [$ops:ident, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- A buffer the second stretch does not write and that is not the first region's output enters the second region
    as it entered the first. -/
theorem W3_eq_W1 (c : Dev nD) (b : Ref sig .tc) (h53 : b ≠ main_v53) (h17 : b ≠ main_cst_17) (h54 : b ≠ main_v54)
    (h55 : b ≠ main_v55) (h52 : b ≠ main_v52) :
    W3 B0 m ρ c (Proc.devRef .tc b) = W1 m ρ c (Proc.devRef .tc b) :=
  (StableHlo.after_of_forall_not_mem (b := Proc.devRef .tc b) _ _ (List.forall_iff_forall_mem.mp (by
    simp only [hostOps1, List.Forall, StableHlo.nullary_writes, StableHlo.binary_writes, StableHlo.reshape_writes,
      Finset.mem_singleton]
    exact ⟨StableHlo.devRef_ne_of_ne h53, StableHlo.devRef_ne_of_ne h17, StableHlo.devRef_ne_of_ne h54,
      StableHlo.devRef_ne_of_ne h55⟩))).trans (W2_of_ne B0 m ρ c b h52)

/-- A buffer the last line does not write and that is not the second region's output ends as it entered the second
    region. -/
theorem W5_eq_W3 (c : Dev nD) (b : Ref sig .tc) (h57 : b ≠ main_v57) (h56 : b ≠ main_v56) :
    W5 B0 B1 m ρ c (Proc.devRef .tc b) = W3 B0 m ρ c (Proc.devRef .tc b) :=
  (StableHlo.after_of_forall_not_mem (b := Proc.devRef .tc b) _ _ (List.forall_iff_forall_mem.mp (by
    simp only [hostOps2, List.Forall, StableHlo.reshape_writes, Finset.mem_singleton]
    exact StableHlo.devRef_ne_of_ne h57))).trans (W4_of_ne B0 B1 m ρ c b h56)

/-- A buffer written by nothing after the first stretch ends as it entered the first region. -/
theorem W5_eq_W1 (c : Dev nD) (b : Ref sig .tc) (h57 : b ≠ main_v57) (h56 : b ≠ main_v56) (h53 : b ≠ main_v53)
    (h17 : b ≠ main_cst_17) (h54 : b ≠ main_v54) (h55 : b ≠ main_v55) (h52 : b ≠ main_v52) :
    W5 B0 B1 m ρ c (Proc.devRef .tc b) = W1 m ρ c (Proc.devRef .tc b) :=
  (W5_eq_W3 B0 B1 m ρ c b h57 h56).trans (W3_eq_W1 B0 m ρ c b h53 h17 h54 h55 h52)

/-- Argument 0 is at its launch contents when the first region is entered. -/
theorem W1_arg0 (c : Dev nD) : W1 m ρ c (Proc.devRef .tc main_arg0) = m ((c : Thread nD τ).loc main_arg0) :=
  (StableHlo.after_of_forall_not_mem (b := Proc.devRef .tc main_arg0) _ _ (by stretch_keeps hostOps0)).trans rfl

/-- Argument 0 ends at its launch contents. -/
theorem W5_arg0 (c : Dev nD) : W5 B0 B1 m ρ c (Proc.devRef .tc main_arg0) = m ((c : Thread nD τ).loc main_arg0) :=
  (W5_eq_W1 B0 B1 m ρ c main_arg0 (by decide) (by decide) (by decide) (by decide) (by decide) (by decide) (by decide)).trans
    (W1_arg0 m ρ c)

/-- Argument 1 is at its launch contents when the first region is entered. -/
theorem W1_arg1 (c : Dev nD) : W1 m ρ c (Proc.devRef .tc main_arg1) = m ((c : Thread nD τ).loc main_arg1) :=
  (StableHlo.after_of_forall_not_mem (b := Proc.devRef .tc main_arg1) _ _ (by stretch_keeps hostOps0)).trans rfl

/-- Argument 1 ends at its launch contents. -/
theorem W5_arg1 (c : Dev nD) : W5 B0 B1 m ρ c (Proc.devRef .tc main_arg1) = m ((c : Thread nD τ).loc main_arg1) :=
  (W5_eq_W1 B0 B1 m ρ c main_arg1 (by decide) (by decide) (by decide) (by decide) (by decide) (by decide) (by decide)).trans
    (W1_arg1 m ρ c)

/-- Argument 2 is at its launch contents when the first region is entered. -/
theorem W1_arg2 (c : Dev nD) : W1 m ρ c (Proc.devRef .tc main_arg2) = m ((c : Thread nD τ).loc main_arg2) :=
  (StableHlo.after_of_forall_not_mem (b := Proc.devRef .tc main_arg2) _ _ (by stretch_keeps hostOps0)).trans rfl

/-- Argument 2 ends at its launch contents. -/
theorem W5_arg2 (c : Dev nD) : W5 B0 B1 m ρ c (Proc.devRef .tc main_arg2) = m ((c : Thread nD τ).loc main_arg2) :=
  (W5_eq_W1 B0 B1 m ρ c main_arg2 (by decide) (by decide) (by decide) (by decide) (by decide) (by decide) (by decide)).trans
    (W1_arg2 m ρ c)

/-- Argument 3 is at its launch contents when the first region is entered. -/
theorem W1_arg3 (c : Dev nD) : W1 m ρ c (Proc.devRef .tc main_arg3) = m ((c : Thread nD τ).loc main_arg3) :=
  (StableHlo.after_of_forall_not_mem (b := Proc.devRef .tc main_arg3) _ _ (by stretch_keeps hostOps0)).trans rfl

/-- Argument 3 ends at its launch contents. -/
theorem W5_arg3 (c : Dev nD) : W5 B0 B1 m ρ c (Proc.devRef .tc main_arg3) = m ((c : Thread nD τ).loc main_arg3) :=
  (W5_eq_W1 B0 B1 m ρ c main_arg3 (by decide) (by decide) (by decide) (by decide) (by decide) (by decide) (by decide)).trans
    (W1_arg3 m ρ c)

/-- Argument 4 is at its launch contents when the first region is entered. -/
theorem W1_arg4 (c : Dev nD) : W1 m ρ c (Proc.devRef .tc main_arg4) = m ((c : Thread nD τ).loc main_arg4) :=
  (StableHlo.after_of_forall_not_mem (b := Proc.devRef .tc main_arg4) _ _ (by stretch_keeps hostOps0)).trans rfl

/-- Argument 4 ends at its launch contents. -/
theorem W5_arg4 (c : Dev nD) : W5 B0 B1 m ρ c (Proc.devRef .tc main_arg4) = m ((c : Thread nD τ).loc main_arg4) :=
  (W5_eq_W1 B0 B1 m ρ c main_arg4 (by decide) (by decide) (by decide) (by decide) (by decide) (by decide) (by decide)).trans
    (W1_arg4 m ρ c)

end Cert.Kernel.Ends

end
-- ==== Proof.lean ====
/-
  The certificate of the two-matmul graph-loss kernel against its reference.

  Both programs scatter the edge list into a weight matrix C and an adjacency matrix A with the same host operations,
  and return C, a reconstruction loss Σ_{d,n} ((Zᵀ C)[d,n] − Z[n,d])² / 2²¹, a regularization term computed by the same
  host operations on both sides, and a Laplacian loss Σ_{r,c} C[r,c]·(deg[r]·C[r,c] − (A C)[r,c]) times one shared
  constant.  The reference forms the two sums with whole-array operations; the kernel forms them tile by tile, in two
  grids of 1024-wide tiles with accumulators carried between grid points.  Over the extended reals addition and
  multiplication are commutative and associative, so the tiled sums are the whole sums: no entry need be finite.

  The frames: the kernel program runs as five segments — host lines, the first grid, host lines, the second grid, a
  last host line — each grid's two windows on one array holding it by halves; every execution terminates with every
  buffer at the contents the fold of the segments names, and no segment writes an argument.  The same text read at
  the word-level instance is the word-level program's frame.  The reference's frame is its run with the results
  dropped.  The idealization rewrote nothing, so there is nothing to preserve.
-/
import proofs.«169932_j86088324481669_1_alg».proof.Defs
import proofs.«169932_j86088324481669_1_alg».proof.Proof.Gen.Kernel
import proofs.«169932_j86088324481669_1_alg».proof.Proof.Gen.Kernel.Skeleton
import proofs.«169932_j86088324481669_1_alg».proof.Proof.Gen.Kernel.Launch
import proofs.«169932_j86088324481669_1_alg».proof.Proof.Gen.Kernel.Regions
import proofs.«169932_j86088324481669_1_alg».proof.Proof.Gen.Kernel.Points
import proofs.«169932_j86088324481669_1_alg».proof.Proof.Gen.KernelIdeal
import proofs.«169932_j86088324481669_1_alg».proof.Proof.Gen.KernelIdeal.Skeleton
import proofs.«169932_j86088324481669_1_alg».proof.Proof.Gen.KernelIdeal.Launch
import proofs.«169932_j86088324481669_1_alg».proof.Proof.Gen.KernelIdeal.Regions
import proofs.«169932_j86088324481669_1_alg».proof.Proof.Gen.KernelIdeal.Points
import proofs.«169932_j86088324481669_1_alg».proof.Proof.Gen.ReferenceIdeal
import proofs.«169932_j86088324481669_1_alg».proof.Proof.Gen.ReferenceIdeal.Run
import proofs.«169932_j86088324481669_1_alg».proof.Proof.Gen.Pre_finite_inputs
import proofs.«169932_j86088324481669_1_alg».proof.Proof.Run
import proofs.«169932_j86088324481669_1_alg».proof.Proof.Bodies
import proofs.«169932_j86088324481669_1_alg».proof.Proof.EndsArgs
import proofs.«169932_j86088324481669_1_alg».proof.Proof.Ends
import proofs.«169932_j86088324481669_1_alg».proof.Proof.EndsIdeal
import proofs.«169932_j86088324481669_1_alg».proof.Proof.Totals
import proofs.«169932_j86088324481669_1_alg».proof.Proof.RefValue
import proofs.«169932_j86088324481669_1_alg».proof.Proof.Bits.Run
import proofs.«169932_j86088324481669_1_alg».proof.Proof.Bits.Bodies
import proofs.«169932_j86088324481669_1_alg».proof.Proof.Bits.EndsArgs
import Idealize.ShloMosaic.Adequacy
import Idealize.ShloMosaic.Init

set_option maxRecDepth 65536

noncomputable section

namespace Cert.Proof

open Idealize.ShloMosaic Idealize.ShloMosaic.TcCoe Idealize.ShloMosaic.ValueIdx Idealize.SL.Sem

/-- The word-level program runs and leaves its arguments as launched. -/
theorem frame_k : Cert.frame_Kernel := fun m ρ _ =>
  (θ_run (Cert.Kernel.defs (F := Bits)) _ _).mono (fun r h c =>
    ⟨(h c _ (Cert.Kernel.Run.mem_uc Cert.Kernel.main_arg0 (by decide))).trans (Cert.Kernel.Ends.W5_arg0 Cert.Kernel.Run.body0 Cert.Kernel.Run.body1 m ρ c),
      (h c _ (Cert.Kernel.Run.mem_uc Cert.Kernel.main_arg1 (by decide))).trans (Cert.Kernel.Ends.W5_arg1 Cert.Kernel.Run.body0 Cert.Kernel.Run.body1 m ρ c),
      (h c _ (Cert.Kernel.Run.mem_uc Cert.Kernel.main_arg2 (by decide))).trans (Cert.Kernel.Ends.W5_arg2 Cert.Kernel.Run.body0 Cert.Kernel.Run.body1 m ρ c),
      (h c _ (Cert.Kernel.Run.mem_uc Cert.Kernel.main_arg3 (by decide))).trans (Cert.Kernel.Ends.W5_arg3 Cert.Kernel.Run.body0 Cert.Kernel.Run.body1 m ρ c),
      (h c _ (Cert.Kernel.Run.mem_uc Cert.Kernel.main_arg4 (by decide))).trans (Cert.Kernel.Ends.W5_arg4 Cert.Kernel.Run.body0 Cert.Kernel.Run.body1 m ρ c)⟩)
    (Cert.Kernel.Run.run (F := Bits) Cert.Kernel.Run.body0 Cert.Kernel.Run.body1 m ρ)

/-- The idealized kernel runs and leaves its arguments as launched. -/
theorem frame_ki : Cert.frame_KernelIdeal := fun m ρ _ =>
  (θ_run (Cert.KernelIdeal.defs (F := Ideal)) _ _).mono (fun r h c =>
    ⟨(h c _ (Cert.KernelIdeal.Run.mem_uc Cert.KernelIdeal.main_arg0 (by decide))).trans (Cert.KernelIdeal.Ends.W5_arg0 Cert.KernelIdeal.Run.body0 Cert.KernelIdeal.Run.body1 m ρ c),
      (h c _ (Cert.KernelIdeal.Run.mem_uc Cert.KernelIdeal.main_arg1 (by decide))).trans (Cert.KernelIdeal.Ends.W5_arg1 Cert.KernelIdeal.Run.body0 Cert.KernelIdeal.Run.body1 m ρ c),
      (h c _ (Cert.KernelIdeal.Run.mem_uc Cert.KernelIdeal.main_arg2 (by decide))).trans (Cert.KernelIdeal.Ends.W5_arg2 Cert.KernelIdeal.Run.body0 Cert.KernelIdeal.Run.body1 m ρ c),
      (h c _ (Cert.KernelIdeal.Run.mem_uc Cert.KernelIdeal.main_arg3 (by decide))).trans (Cert.KernelIdeal.Ends.W5_arg3 Cert.KernelIdeal.Run.body0 Cert.KernelIdeal.Run.body1 m ρ c),
      (h c _ (Cert.KernelIdeal.Run.mem_uc Cert.KernelIdeal.main_arg4 (by decide))).trans (Cert.KernelIdeal.Ends.W5_arg4 Cert.KernelIdeal.Run.body0 Cert.KernelIdeal.Run.body1 m ρ c)⟩)
    (Cert.KernelIdeal.Run.run (F := Ideal) Cert.KernelIdeal.Run.body0 Cert.KernelIdeal.Run.body1 m ρ)

/-- The reference runs and leaves its arguments as launched: its run with the results dropped. -/
theorem frame_ri : Cert.frame_ReferenceIdeal := fun m ρ _ =>
  (θ_run (Cert.ReferenceIdeal.defs (F := Ideal)) _ _).mono (fun _ h c => (h c).2.2.2.2)
    (Cert.ReferenceIdeal.Value.run (F := Ideal) m ρ)

/-- A scalar array times a constant scalar array, read at its one index. -/
theorem scale_apply (k : BitVec 32) (x : EReal) :
    mulf (F := Ideal) (constant (F := Ideal) Cert.KernelIdeal.S_ .f32 k) (fun _ => x)
      = fun _ => x * (Scalar.ofBits (F := Ideal) .f32 k) := by
  funext i
  show Scalar.ofBits (F := Ideal) .f32 k * x = x * Scalar.ofBits (F := Ideal) .f32 k
  exact mul_comm _ _

open Cert.KernelIdeal.Run Cert.KernelIdeal.Ends Cert.KernelIdeal.Totals in
/-- From memories that agree on the arguments, both idealized programs end with the same four results. -/
theorem algebraic : Cert.algebraic_KernelIdeal_ReferenceIdeal := by
  intro m ρ m' ρ' _ hagree
  refine ⟨fun c => Ck (F := Ideal) m c,
    fun c => Host.divf (F := Ideal) (fun _ => Cert.Spec.reconSum (m ((c.tc : Thread Cert.KernelIdeal.nD Cert.KernelIdeal.τ).loc Cert.KernelIdeal.main_arg0)) (Ck (F := Ideal) m c))
      (constant (F := Ideal) Cert.KernelIdeal.S_ .f32 0x4A000000#32),
    fun c => regk (F := Ideal) m c,
    fun c => mulf (F := Ideal) (constant (F := Ideal) Cert.KernelIdeal.S_ .f32 0x3DCCCCCD#32)
      (fun _ => Cert.Spec.lapSum (Ak (F := Ideal) m c) (Ck (F := Ideal) m c) (m ((c.tc : Thread Cert.KernelIdeal.nD Cert.KernelIdeal.τ).loc Cert.KernelIdeal.main_arg4))), ?_, ?_⟩
  · refine (θ_run (Cert.KernelIdeal.defs (F := Ideal)) _ _).mono (fun r h c => ⟨?_, ?_, ?_, ?_,
      (h c _ (Cert.KernelIdeal.Run.mem_uc Cert.KernelIdeal.main_arg0 (by decide))).trans (Cert.KernelIdeal.Ends.W5_arg0 body0 body1 m ρ c),
      (h c _ (Cert.KernelIdeal.Run.mem_uc Cert.KernelIdeal.main_arg1 (by decide))).trans (Cert.KernelIdeal.Ends.W5_arg1 body0 body1 m ρ c),
      (h c _ (Cert.KernelIdeal.Run.mem_uc Cert.KernelIdeal.main_arg2 (by decide))).trans (Cert.KernelIdeal.Ends.W5_arg2 body0 body1 m ρ c),
      (h c _ (Cert.KernelIdeal.Run.mem_uc Cert.KernelIdeal.main_arg3 (by decide))).trans (Cert.KernelIdeal.Ends.W5_arg3 body0 body1 m ρ c),
      (h c _ (Cert.KernelIdeal.Run.mem_uc Cert.KernelIdeal.main_arg4 (by decide))).trans (Cert.KernelIdeal.Ends.W5_arg4 body0 body1 m ρ c)⟩)
      (run (F := Ideal) body0 body1 m ρ)
    · exact (h c _ (mem_uc Cert.KernelIdeal.main_v32 (by decide))).trans (W5_v32 body0 body1 m ρ c)
    · refine (h c _ (mem_uc Cert.KernelIdeal.main_v54 (by decide))).trans ((W5_v54 body0 body1 m ρ c).trans ?_)
      refine congrArg (fun x => Host.divf (F := Ideal) x (constant (F := Ideal) Cert.KernelIdeal.S_ .f32 0x4A000000#32)) ?_
      funext i
      rw [eq_ix0 i, reshape11_apply, recon_out]
    · exact (h c _ (mem_uc Cert.KernelIdeal.main_v51 (by decide))).trans (W5_v51 body0 body1 m ρ c)
    · refine (h c _ (mem_uc Cert.KernelIdeal.main_v57 (by decide))).trans ((W5_v57 body0 body1 m ρ c).trans ?_)
      refine Eq.trans ?_ (scale_apply 0x3DCCCCCD#32 _).symm
      funext i
      rw [eq_ix0 i, reshape11_apply, lap_out]
  · refine (θ_run (Cert.ReferenceIdeal.defs (F := Ideal)) _ _).mono (fun r h c => ?_)
      (Cert.ReferenceIdeal.Value.run (F := Ideal) m' ρ')
    obtain ⟨h32, h38, h41, h65, hargs⟩ := h c
    obtain ⟨a0, a1, a2, a3, a4⟩ := hagree c
    refine ⟨?_, ?_, ?_, ?_, hargs⟩
    · have e32 : r.2.mem ((c.tc : Thread Cert.ReferenceIdeal.nD Cert.ReferenceIdeal.τ).loc Cert.ReferenceIdeal.main_v32) = Cert.ReferenceIdeal.RefValue.Cm m' c := h32
      exact e32.trans (Cert.EndsIdeal.Cm_eq_Ck m m' c a1 a2 a3)
    · refine h38.trans ((Cert.ReferenceIdeal.RefValue.res_out1_eq m' c).trans ?_)
      rw [a0, Cert.EndsIdeal.Cm_eq_Ck m m' c a1 a2 a3]
      rfl
    · have e41 : r.2.mem ((c.tc : Thread Cert.ReferenceIdeal.nD Cert.ReferenceIdeal.τ).loc Cert.ReferenceIdeal.main_v41) = Cert.EndsIdeal.regRef m' c := h41
      exact e41.trans (Cert.EndsIdeal.regRef_eq_regk m m' c a1 a3)
    · refine h65.trans ((Cert.ReferenceIdeal.RefValue.res_out3_eq m' c).trans ?_)
      rw [a4, Cert.EndsIdeal.Cm_eq_Ck m m' c a1 a2 a3, Cert.EndsIdeal.Am_eq_Ak m m' c a2 a3]
      rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
